-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S100000x64 : Shape := ⟨2, ![100000, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg1 : IVec S16384 32) (main_v28 : IVec S_ 1) (main_v33 : IVec S16384 1) : IVec S_ 1 :=
  let main_c_12 : IVec S_ 1 := constantI S_ 1 1#1
  let main_v34 : IVec S_ 1 := (fun x v => Host.reduce IntOp.andi x v reducesTo_S16384_S_d0 h_S_) main_v33 main_c_12
  let main_v35 : IVec S_ 1 := andi main_v28 main_v34
  let main_c_13 : IVec S_ 32 := constantI S_ 32 0#32
  let main_v36 : IVec S16384 32 := broadcastInDim S16384 ![] bcast_S_S16384 main_c_13
  let main_v37 : IVec S16384 1 := cmpi .sge main_arg1 main_v36
  let main_c_14 : IVec S_ 32 := constantI S_ 32 99999#32
  let main_v38 : IVec S16384 32 := broadcastInDim S16384 ![] bcast_S_S16384 main_c_14
  let main_v39 : IVec S16384 1 := cmpi .sle main_arg1 main_v38
  let main_v40 : IVec S16384 1 := andi main_v37 main_v39
  let main_c_15 : IVec S_ 1 := constantI S_ 1 1#1
  let main_v41 : IVec S_ 1 := (fun x v => Host.reduce IntOp.andi x v reducesTo_S16384_S_d0 h_S_) main_v40 main_c_15
  let main_v42 : IVec S_ 1 := andi main_v35 main_v41
  main_v42

def fn_part1 {F : FTy → Type} [FloatOps F] (main_arg0 : IVec S16384 32) (main_arg1 : IVec S16384 32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S16384 32 := broadcastInDim S16384 ![] bcast_S_S16384 main_c_10
  let main_v30 : IVec S16384 1 := cmpi .sge main_arg0 main_v29
  let main_c_11 : IVec S_ 32 := constantI S_ 32 999999#32
  let main_v31 : IVec S16384 32 := broadcastInDim S16384 ![] bcast_S_S16384 main_c_11
  let main_v32 : IVec S16384 1 := cmpi .sle main_arg0 main_v31
  let main_v33 : IVec S16384 1 := andi main_v30 main_v32
  fn_part2 (F := F) main_arg1 main_v28 main_v33

def fn {F : FTy → Type} [FloatOps F] (main_arg0 : IVec S16384 32) (main_arg1 : IVec S16384 32) (main_arg2 : FVec F S1000000x64 .f32) (main_arg3 : FVec F S100000x64 .f32) (main_arg4 : FVec F S64x128 .f32) (main_arg5 : FVec F S128 .f32) (main_arg6 : FVec F S128x1 .f32) (main_arg7 : FVec F S1 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg6 main_arg7 main_v13 main_v16
-- ==== Kernel.lean ====
abbrev S16384 : Shape := ⟨1, ![16384]⟩
abbrev S1000000x64 : Shape := ⟨2, ![1000000, 64]⟩
abbrev S100000x64 : Shape := ⟨2, ![100000, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S64x1000000 : Shape := ⟨2, ![64, 1000000]⟩
abbrev S507904x128 : Shape := ⟨2, ![507904, 128]⟩
abbrev S64x16384 : Shape := ⟨2, ![64, 16384]⟩
abbrev S8192x128 : Shape := ⟨2, ![8192, 128]⟩
abbrev S64x8192 : Shape := ⟨2, ![64, 8192]⟩
abbrev S8192x64 : Shape := ⟨2, ![8192, 64]⟩
abbrev S50000x128 : Shape := ⟨2, ![50000, 128]⟩
abbrev S_ : Shape := ⟨0, ![]⟩
abbrev S16384x1 : Shape := ⟨2, ![16384, 1]⟩
abbrev S16384x128 : Shape := ⟨2, ![16384, 128]⟩
abbrev S512 : Shape := ⟨1, ![512]⟩
abbrev S2x128x128 : Shape := ⟨3, ![2, 128, 128]⟩
abbrev S1x128x128 : Shape := ⟨3, ![1, 128, 128]⟩
abbrev S128x128 : Shape := ⟨2, ![128, 128]⟩
abbrev S1x128 : Shape := ⟨2, ![1, 128]⟩
abbrev S1x1 : Shape := ⟨2, ![1, 1]⟩
abbrev S2048x128 : Shape := ⟨2, ![2048, 128]⟩
abbrev S2048x1 : Shape := ⟨2, ![2048, 1]⟩
abbrev S2048 : Shape := ⟨1, ![2048]⟩
abbrev S2048x64 : Shape := ⟨2, ![2048, 64]⟩

abbrev nBuf : Table → Nat
  | .hbm => 41
  | .local .tc .vmem => 18
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S100000x64, .f32⟩
  | .hbm, ⟨4, _⟩ => ⟨S64x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S64x1000000, .f32⟩
  | .hbm, ⟨9, _⟩ => ⟨S507904x128, .f32⟩
  | .hbm, ⟨10, _⟩ => ⟨S50000x128, .f32⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S16384x128, .f32⟩
  | .hbm, ⟨36, _⟩ => ⟨S16384x128, .f32⟩
  | .hbm, ⟨37, _⟩ => ⟨S1x128, .f32⟩
  | .hbm, ⟨38, _⟩ => ⟨S1x128, .f32⟩
  | .hbm, ⟨39, _⟩ => ⟨S1x1, .f32⟩
  | .hbm, ⟨40, _⟩ => ⟨S16384, .f32⟩
  | .local .tc .vmem, ⟨0, _⟩ => ⟨S64x16384, .f32⟩
  | .local .tc .vmem, ⟨1, _⟩ => ⟨S64x16384, .f32⟩
  | .local .tc .vmem, ⟨2, _⟩ => ⟨S8192x128, .f32⟩
  | .local .tc .vmem, ⟨3, _⟩ => ⟨S8192x128, .f32⟩
  | .local .tc .vmem, ⟨4, _⟩ => ⟨S2048x128, .f32⟩
  | .local .tc .vmem, ⟨5, _⟩ => ⟨S2048x128, .f32⟩
  | .local .tc .vmem, ⟨6, _⟩ => ⟨S2048x128, .f32⟩
  | .local .tc .vmem, ⟨7, _⟩ => ⟨S2048x128, .f32⟩
  | .local .tc .vmem, ⟨8, _⟩ => ⟨S2048x1, .i32⟩
  | .local .tc .vmem, ⟨9, _⟩ => ⟨S2048x1, .i32⟩
  | .local .tc .vmem, ⟨10, _⟩ => ⟨S2048x1, .i32⟩
  | .local .tc .vmem, ⟨11, _⟩ => ⟨S2048x1, .i32⟩
  | .local .tc .vmem, ⟨12, _⟩ => ⟨S64x128, .f32⟩
  | .local .tc .vmem, ⟨13, _⟩ => ⟨S1x128, .f32⟩
  | .local .tc .vmem, ⟨14, _⟩ => ⟨S1x128, .f32⟩
  | .local .tc .vmem, ⟨15, _⟩ => ⟨S1x1, .f32⟩
  | .local .tc .vmem, ⟨16, _⟩ => ⟨S2048, .f32⟩
  | .local .tc .vmem, ⟨17, _⟩ => ⟨S2048, .f32⟩
  | .local .scVector .vmem, ⟨0, _⟩ => ⟨S512, .i32⟩
  | .local .scVector .vmem, ⟨1, _⟩ => ⟨S512, .i32⟩
  | .local .scVector .vmem, ⟨2, _⟩ => ⟨S2x128x128, .f32⟩
  | .local .scVector .vmem, ⟨3, _⟩ => ⟨S2x128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v9_scv : Ref sig .scVector := ⟨.hbm, 20, rfl⟩
abbrev main_v11_scv : Ref sig .scVector := ⟨.hbm, 23, rfl⟩
abbrev main_v1_scv : Ref sig .scVector := ⟨.hbm, 9, rfl⟩
abbrev main_v2_scv : Ref sig .scVector := ⟨.hbm, 10, rfl⟩
abbrev main_v20_0_scv : Ref sig .scVector := ⟨.hbm, 35, rfl⟩
abbrev main_v20_1_scv : Ref sig .scVector := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg2_1 : Ref sig .tc := ⟨.vmem, 9, rfl⟩
abbrev cc2_stg3_0 : Ref sig .tc := ⟨.vmem, 10, rfl⟩
abbrev cc2_stg3_1 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc2_stg8_0 : Ref sig .tc := ⟨.vmem, 16, rfl⟩
abbrev cc2_stg8_1 : Ref sig .tc := ⟨.vmem, 17, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k1_off2 (i : grid1.Coords) (c0_i32_23 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v19 : BitVec 32 := Scalar.addi v2 c0_i32_23
  let c0_i32_27 : BitVec 32 := 0#32
  ![v19.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x64_S64x1000000_1_0 : S1000000x64.Transposes [1, 0] S64x1000000
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  slices_S64x16384_o0_0_S64x8192 : S64x16384.Slices ![0, 0] S64x8192
  slices_S64x16384_o0_8192_S64x8192 : S64x16384.Slices ![0, 8192] S64x8192
  transposes_S64x8192_p1_0_S8192x64 : S64x8192.Transposes [1, 0] S8192x64
  concatenates_S8192x64_S8192x64_S8192x128_d1 : Shape.Concatenates [S8192x64, S8192x64] S8192x128 1
  inb_S8192x128_S8192x128_0_0 : ∀ a, (![0, 0] : Fin 2 → Nat) a + S8192x128.size a ≤ S8192x128.size a
  h_S8192x128 : 0 < S8192x128.numel
  shapeCasts_S100000x64_S50000x128 : S100000x64.ShapeCasts S50000x128
  bcast_S_S16384 : S_.BroadcastsInDim S16384 (![] : Fin 0 → Fin S16384.rank)
  shapeCasts_S16384_S16384x1 : S16384.ShapeCasts S16384x1
  inb_S2x128x128_S1x128x128_0_0_0 : ∀ a, (![0, 0, 0] : Fin 3 → Nat) a + S1x128x128.size a ≤ S2x128x128.size a
  squeezes_S1x128x128_S128x128 : S1x128x128.Squeezes S128x128
  inb_S512_S128_0 : ∀ a, (![0] : Fin 1 → Nat) a + S128.size a ≤ S512.size a
  inb_S507904x128_S507904x128_0_0 : ∀ a, (![0, 0] : Fin 2 → Nat) a + S507904x128.size a ≤ S507904x128.size a
  gathers_S507904x128_S128x128 : S507904x128.Gathers 0 S128x128
  inb_S50000x128_S50000x128_0_0 : ∀ a, (![0, 0] : Fin 2 → Nat) a + S50000x128.size a ≤ S50000x128.size a
  gathers_S50000x128_S128x128 : S50000x128.Gathers 0 S128x128
  inb_S2x128x128_S1x128x128_1_0_0 : ∀ a, (![1, 0, 0] : Fin 3 → Nat) a + S1x128x128.size a ≤ S2x128x128.size a
  inb_S512_S128_128 : ∀ a, (![128] : Fin 1 → Nat) a + S128.size a ≤ S512.size a
  inb_S512_S128_256 : ∀ a, (![256] : Fin 1 → Nat) a + S128.size a ≤ S512.size a
  inb_S512_S128_384 : ∀ a, (![384] : Fin 1 → Nat) a + S128.size a ≤ S512.size a
  shapeCasts_S128_S1x128 : S128.ShapeCasts S1x128
  shapeCasts_S128x1_S1x128 : S128x1.ShapeCasts S1x128
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  slices_S2048x128_o0_64_S2048x64 : S2048x128.Slices ![0, 64] S2048x64
  slices_S2048x128_o0_0_S2048x64 : S2048x128.Slices ![0, 0] S2048x64
  broadcasts_S2048x1_S2048x64 : S2048x1.Broadcasts S2048x64
  reduces_S2048x64_S2048 : S2048x64.Reduces [1] S2048
  shapeCasts_S2048_S2048x1 : S2048.ShapeCasts S2048x1
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2048_S2048_0 : ∀ a, (![0] : Fin 1 → Nat) a + S2048.size a ≤ S2048.size a
  h_S2048 : 0 < S2048.numel
  dot_S2048x64_S64x128_S2048x128_1_0_0_1_n_n_wf : DotDims.WF S2048x64 S64x128 S2048x128 [1] [0] [0] [1] [] []
  hcc1_scratch4 : 4 + S_.numel ≤ 26
  hcc1_scratch5 : 5 + S_.numel ≤ 26
  hcc1_scratch6 : 6 + S_.numel ≤ 26
  hcc1_scratch7 : 7 + S_.numel ≤ 26
  hcc1_scratch8 : 8 + S_.numel ≤ 26
  hcc1_scratch9 : 9 + S_.numel ≤ 26
  hcc1_scoped0 : 10 + S_.numel ≤ 26
  hcc1_scoped1 : 11 + S_.numel ≤ 26
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x16384.size a < S64x1000000.size a
  hwx0_0 : ∀ i : grid0.Coords, EltTy.bits .f32 = 32 ∨ (Rect.unit (s := S64x1000000) (fun a => cc0_transform_0 i a * S64x16384.size a) (fun a => (Pipeline.Clip.of (cc0_transform_0 i a) (S64x16384.size a) (S64x1000000.size a)).extent (S64x16384.size a)) fun a => Pipeline.Clip.inb (Pipeline.Clip.ok_of (hstart0_0 i a))).WholeWords (EltTy.packing .f32)
  hwxs0_0 : ∀ i : grid0.Coords, EltTy.bits .f32 = 32 ∨ (Rect.unit (s := S64x16384) (fun _ => 0) (fun a => (Pipeline.Clip.of (cc0_transform_0 i a) (S64x16384.size a) (S64x1000000.size a)).extent (S64x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S507904x128.size a
  hwx0_1 : ∀ i : grid0.Coords, EltTy.bits .f32 = 32 ∨ (Rect.block (s := S507904x128) S8192x128.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ a, (k1_off1 i) a + S512.size a ≤ S16384.size a
  k1_off2_inb : ∀ i : grid1.Coords, ∀ (r : Fin 4), ∀ a, (k1_off2 i (BitVec.ofNat 32 (128 * r.val))) a + S128x128.size a ≤ S16384x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .f32 = 32 ∨ (Rect.block (s := S16384x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S16384x1.size a
  hwx2_2 : ∀ i : grid2.Coords, EltTy.bits .i32 = 32 ∨ (Rect.block (s := S16384x1) S2048x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S16384x1.size a
  hwx2_3 : ∀ i : grid2.Coords, EltTy.bits .i32 = 32 ∨ (Rect.block (s := S16384x1) S2048x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048.size a ≤ S16384.size a
  hwx2_8 : ∀ i : grid2.Coords, EltTy.bits .f32 = 32 ∨ (Rect.block (s := S16384) S2048.size (cc2_transform_8 i) (hinb2_8 i)).WholeWords (EltTy.packing .f32)

variable [Facts₀]

abbrev cc1_scratch4 : DmaSems sig S_ := SemArray.consecutive 4 S_ hcc1_scratch4
abbrev cc1_scratch5 : DmaSems sig S_ := SemArray.consecutive 5 S_ hcc1_scratch5
abbrev cc1_scratch6 : DmaSems sig S_ := SemArray.consecutive 6 S_ hcc1_scratch6
abbrev cc1_scratch7 : DmaSems sig S_ := SemArray.consecutive 7 S_ hcc1_scratch7
abbrev cc1_scratch8 : DmaSems sig S_ := SemArray.consecutive 8 S_ hcc1_scratch8
abbrev cc1_scratch9 : DmaSems sig S_ := SemArray.consecutive 9 S_ hcc1_scratch9
abbrev cc1_scoped0 : DmaSems sig S_ := SemArray.consecutive 10 S_ hcc1_scoped0
abbrev cc1_scoped1 : DmaSems sig S_ := SemArray.consecutive 11 S_ hcc1_scoped1
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win0_0 : Pipeline.Window sig grid0 :=
  Pipeline.Window.ofSpecClip (Memref.whole main_v0) S64x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win2_0 : Pipeline.Window sig grid2 :=
  Pipeline.Window.ofSpec (Memref.whole main_v20_0) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20_1) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v23) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v24) S2048.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S16384 : Shape := ⟨1, ![16384]⟩
abbrev S1000000x64 : Shape := ⟨2, ![1000000, 64]⟩
abbrev S100000x64 : Shape := ⟨2, ![100000, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S100000x64, .f32⟩
  | .hbm, ⟨4, _⟩ => ⟨S64x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S1x1, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i1⟩
  | .hbm, ⟨25, _⟩ => ⟨S16384, .i1⟩
  | .hbm, ⟨26, _⟩ => ⟨S16384x64, .f32⟩
  | .hbm, ⟨27, _⟩ => ⟨S16384x64, .i1⟩
  | .hbm, ⟨28, _⟩ => ⟨S_, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .i1⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x64, .f32⟩
  | .hbm, ⟨49, _⟩ => ⟨S16384x64, .f32⟩
  | .hbm, ⟨50, _⟩ => ⟨S_, .i32⟩
  | .hbm, ⟨51, _⟩ => ⟨S16384, .i32⟩
  | .hbm, ⟨52, _⟩ => ⟨S16384, .i1⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S16384, .i32⟩
  | .hbm, ⟨57, _⟩ => ⟨S16384x1, .i32⟩
  | .hbm, ⟨58, _⟩ => ⟨S1, .i32⟩
  | .hbm, ⟨59, _⟩ => ⟨S_, .i32⟩
  | .hbm, ⟨60, _⟩ => ⟨S16384x1, .i32⟩
  | .hbm, ⟨61, _⟩ => ⟨S16384x1, .i1⟩
  | .hbm, ⟨62, _⟩ => ⟨S1x1, .i32⟩
  | .hbm, ⟨63, _⟩ => ⟨S16384x1, .i32⟩
  | .hbm, ⟨64, _⟩ => ⟨S16384x1, .i1⟩
  | .hbm, ⟨65, _⟩ => ⟨S16384x1, .i1⟩
  | .hbm, ⟨66, _⟩ => ⟨S_, .i1⟩
  | .hbm, ⟨67, _⟩ => ⟨S16384, .i1⟩
  | .hbm, ⟨68, _⟩ => ⟨S16384x64, .f32⟩
  | .hbm, ⟨69, _⟩ => ⟨S16384x64, .i1⟩
  | .hbm, ⟨70, _⟩ => ⟨S_, .f32⟩
  | .hbm, ⟨71, _⟩ => ⟨S16384x64, .f32⟩
  | .hbm, ⟨72, _⟩ => ⟨S16384x64, .f32⟩
  | .hbm, ⟨73, _⟩ => ⟨S16384x64, .f32⟩
  | .hbm, ⟨74, _⟩ => ⟨S_, .f32⟩
  | .hbm, ⟨75, _⟩ => ⟨S16384, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .i1⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S16384x64, .f32⟩
  | .hbm, ⟨91, _⟩ => ⟨S16384x64, .f32⟩
  | .hbm, ⟨92, _⟩ => ⟨S16384x64, .f32⟩
  | .hbm, ⟨93, _⟩ => ⟨S16384x128, .f32⟩
  | .hbm, ⟨94, _⟩ => ⟨S1x128, .f32⟩
  | .hbm, ⟨95, _⟩ => ⟨S16384x128, .f32⟩
  | .hbm, ⟨96, _⟩ => ⟨S16384x128, .f32⟩
  | .hbm, ⟨97, _⟩ => ⟨S_, .f32⟩
  | .hbm, ⟨98, _⟩ => ⟨S16384x128, .f32⟩
  | .hbm, ⟨99, _⟩ => ⟨S16384x128, .f32⟩
  | .hbm, ⟨100, _⟩ => ⟨S16384x1, .f32⟩
  | .hbm, ⟨101, _⟩ => ⟨S1x1, .f32⟩
  | .hbm, ⟨102, _⟩ => ⟨S16384x1, .f32⟩
  | .hbm, ⟨103, _⟩ => ⟨S16384x1, .f32⟩
  | .hbm, ⟨104, _⟩ => ⟨S16384x1, .f32⟩
  | .hbm, ⟨105, _⟩ => ⟨S16384x1, .f32⟩
  | .hbm, ⟨106, _⟩ => ⟨S_, .f32⟩
  | .hbm, ⟨107, _⟩ => ⟨S16384x1, .f32⟩
  | .hbm, ⟨108, _⟩ => ⟨S16384x1, .f32⟩
  | .hbm, ⟨109, _⟩ => ⟨S_, .f32⟩
  | .hbm, ⟨110, _⟩ => ⟨S16384x1, .f32⟩
  | .hbm, ⟨111, _⟩ => ⟨S16384x1, .f32⟩
  | .hbm, ⟨112, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v1 : Ref sig .tc := ⟨.hbm, 35, rfl⟩
abbrev main_cst : Ref sig .tc := ⟨.hbm, 36, rfl⟩
abbrev main_v2 : Ref sig .tc := ⟨.hbm, 37, rfl⟩
abbrev main_v3 : Ref sig .tc := ⟨.hbm, 38, rfl⟩
abbrev main_cst_0 : Ref sig .tc := ⟨.hbm, 39, rfl⟩
abbrev main_v4 : Ref sig .tc := ⟨.hbm, 40, rfl⟩
abbrev main_v5 : Ref sig .tc := ⟨.hbm, 41, rfl⟩
abbrev main_cst_1 : Ref sig .tc := ⟨.hbm, 42, rfl⟩
abbrev main_v6 : Ref sig .tc := ⟨.hbm, 43, rfl⟩
abbrev main_v7 : Ref sig .tc := ⟨.hbm, 44, rfl⟩
abbrev main_cst_2 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_v14 : Ref sig .tc := ⟨.hbm, 69, rfl⟩
abbrev main_call3_cst : Ref sig .tc := ⟨.hbm, 70, rfl⟩
abbrev main_call3_v15 : Ref sig .tc := ⟨.hbm, 71, rfl⟩
abbrev main_v12 : Ref sig .tc := ⟨.hbm, 72, rfl⟩
abbrev main_call4_v0 : Ref sig .tc := ⟨.hbm, 73, rfl⟩
abbrev main_call4_cst : Ref sig .tc := ⟨.hbm, 74, rfl⟩
abbrev main_call4_v1 : Ref sig .tc := ⟨.hbm, 75, rfl⟩
abbrev main_call4_v2 : Ref sig .tc := ⟨.hbm, 76, rfl⟩
abbrev main_v13 : Ref sig .tc := ⟨.hbm, 77, rfl⟩
abbrev main_cst_3 : Ref sig .tc := ⟨.hbm, 78, rfl⟩
abbrev main_v14 : Ref sig .tc := ⟨.hbm, 79, rfl⟩
abbrev main_v15 : Ref sig .tc := ⟨.hbm, 80, rfl⟩
abbrev main_cst_4 : Ref sig .tc := ⟨.hbm, 81, rfl⟩
abbrev main_v16 : Ref sig .tc := ⟨.hbm, 82, rfl⟩
abbrev main_v17 : Ref sig .tc := ⟨.hbm, 83, rfl⟩
abbrev main_cst_5 : Ref sig .tc := ⟨.hbm, 84, rfl⟩
abbrev main_v18 : Ref sig .tc := ⟨.hbm, 85, rfl⟩
abbrev main_v19 : Ref sig .tc := ⟨.hbm, 86, rfl⟩
abbrev main_cst_6 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_call6_cst : Ref sig .tc := ⟨.hbm, 97, rfl⟩
abbrev main_call6_v0 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_cst_7 : Ref sig .tc := ⟨.hbm, 106, rfl⟩
abbrev main_v36 : Ref sig .tc := ⟨.hbm, 107, rfl⟩
abbrev main_v37 : Ref sig .tc := ⟨.hbm, 108, rfl⟩
abbrev main_cst_8 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  reducesTo_S16384x64_S16384_d1 : S16384x64.ReducesTo [1] S16384
  bcast_S16384x1_S16384x64_0_1 : S16384x1.BroadcastsInDim S16384x64 (![0, 1] : Fin 2 → Fin S16384x64.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  shapeCasts_S16384x1_S16384 : S16384x1.ShapeCasts S16384
  gather_S1000000x64_S16384x1_S16384x64_1_0_n_n_0_1_164_wf : GatherDims.WF S1000000x64 S16384x1 S16384x64 [1] [0] [] [0] [] 1 ![1, 64]
  gather_S100000x64_S16384x1_S16384x64_1_0_n_n_0_1_164_wf : GatherDims.WF S100000x64 S16384x1 S16384x64 [1] [0] [] [0] [] 1 ![1, 64]
  dot_S16384x64_S64x128_S16384x128_1_0_0_1_n_n_wf : DotDims.WF S16384x64 S64x128 S16384x128 [1] [0] [0] [1] [] []
  dot_S16384x128_S128x1_S16384x1_1_0_0_1_n_n_wf : DotDims.WF S16384x128 S128x1 S16384x1 [1] [0] [0] [1] [] []

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.KDefs.lean ====
/-
  The idealized kernel's program as the SparseCore launch theorem sees it: the configuration, the body table,
  the resource algebra (the handshakes' rounds, the pipelines' staging cells, the transfers' counters), and the
  pipelines' tables, which hold no prefetched contents.
-/
import proofs.«205759_g46823733461237_cont_8to1_c_287_19_alg».proof.KernelIdeal
import proofs.«205759_g46823733461237_cont_8to1_c_287_19_alg».proof.Proof.Gen.KernelIdeal
import proofs.«205759_g46823733461237_cont_8to1_c_287_19_alg».proof.Proof.Gen.KernelIdeal.Launch
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UPp : Type := UR sig nD τ
abbrev UU : Type := UH × (UPp × Counters)

local notation "𝕄" => MT nD τ sig (HIx 1) (Elt F) ℕ UU ℕ

abbrev EH : Emb UH (MT nD τ sig (HIx 1) (Elt F) ℕ UU ℕ) := embL
abbrev EP : Emb UPp (MT nD τ sig (HIx 1) (Elt F) ℕ UU ℕ) := (Emb.inl : Emb UPp (UPp × Counters)).trans embR

instance EP_landsIn : (EP (F := F)).LandsIn (upEmb : UEmb _ (MT nD τ sig (HIx 1) (Elt F) ℕ UU ℕ)) := by
  unfold EP; infer_instance

example : CountersIn UU := inferInstance

abbrev adm : (p : Fin 2) → (pcfgs (F := F) p).Adm := fun p => (cfgs p).toPCfg_adm

end Cert.KernelIdeal.KL

end
-- ==== Proof.KMainEq.lean ====
/-
  @main of the idealized kernel's program as three straight lines of host operations around its three calls:
  the transpose of the first table before the first TensorCore call; the reshaped second table, the row numbers
  and the parities before the SparseCore call; the reshaped head parameters before the last TensorCore call.
-/
import proofs.«205759_g46823733461237_cont_8to1_c_287_19_alg».proof.Proof.KDefs

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- The host operation before the first TensorCore call: the first table transposed. -/
abbrev opsA : List (HloOp τ sig (Elt F)) := [
    StableHlo.unary main_arg2 main_v0 ((transpose S64x1000000 [1, 0] · transposes_S1000000x64_S64x1000000_1_0) : (⟨S1000000x64, .f32⟩ : BufTy).Contents (Elt F) → (⟨S64x1000000, .f32⟩ : BufTy).Contents (Elt F))]

/-- The host operations between the first TensorCore call and the SparseCore call. -/
abbrev opsB : List (HloOp τ sig (Elt F)) := [
    StableHlo.reshape main_arg3 main_v2 rfl shapeCasts_S100000x64_S50000x128,
    StableHlo.nullary main_c (constantI S_ 32 14#32),
    StableHlo.unary main_c main_v3 (broadcastInDim S16384 ![] bcast_S_S16384 : (⟨S_, .i32⟩ : BufTy).Contents (Elt F) → (⟨S16384, .i32⟩ : BufTy).Contents (Elt F)),
    StableHlo.binary main_arg0 main_v3 main_v4 (Host.shrui : (⟨S16384, .i32⟩ : BufTy).Contents (Elt F) → (⟨S16384, .i32⟩ : BufTy).Contents (Elt F) → (⟨S16384, .i32⟩ : BufTy).Contents (Elt F)),
    StableHlo.nullary main_c_0 (constantI S_ 32 8192#32),
    StableHlo.unary main_c_0 main_v5 (broadcastInDim S16384 ![] bcast_S_S16384 : (⟨S_, .i32⟩ : BufTy).Contents (Elt F) → (⟨S16384, .i32⟩ : BufTy).Contents (Elt F)),
    StableHlo.binary main_v4 main_v5 main_v6 (muli : (⟨S16384, .i32⟩ : BufTy).Contents (Elt F) → (⟨S16384, .i32⟩ : BufTy).Contents (Elt F) → (⟨S16384, .i32⟩ : BufTy).Contents (Elt F)),
    StableHlo.nullary main_c_1 (constantI S_ 32 8191#32),
    StableHlo.unary main_c_1 main_v7 (broadcastInDim S16384 ![] bcast_S_S16384 : (⟨S_, .i32⟩ : BufTy).Contents (Elt F) → (⟨S16384, .i32⟩ : BufTy).Contents (Elt F)),
    StableHlo.binary main_arg0 main_v7 main_v8 (andi : (⟨S16384, .i32⟩ : BufTy).Contents (Elt F) → (⟨S16384, .i32⟩ : BufTy).Contents (Elt F) → (⟨S16384, .i32⟩ : BufTy).Contents (Elt F)),
    StableHlo.binary main_v6 main_v8 main_v9 (addi : (⟨S16384, .i32⟩ : BufTy).Contents (Elt F) → (⟨S16384, .i32⟩ : BufTy).Contents (Elt F) → (⟨S16384, .i32⟩ : BufTy).Contents (Elt F)),
    StableHlo.nullary main_c_2 (constantI S_ 32 1#32),
    StableHlo.unary main_c_2 main_v10 (broadcastInDim S16384 ![] bcast_S_S16384 : (⟨S_, .i32⟩ : BufTy).Contents (Elt F) → (⟨S16384, .i32⟩ : BufTy).Contents (Elt F)),
    StableHlo.binary main_arg1 main_v10 main_v11 (Host.shrui : (⟨S16384, .i32⟩ : BufTy).Contents (Elt F) → (⟨S16384, .i32⟩ : BufTy).Contents (Elt F) → (⟨S16384, .i32⟩ : BufTy).Contents (Elt F)),
    StableHlo.nullary main_c_3 (constantI S_ 32 13#32),
    StableHlo.unary main_c_3 main_v12 (broadcastInDim S16384 ![] bcast_S_S16384 : (⟨S_, .i32⟩ : BufTy).Contents (Elt F) → (⟨S16384, .i32⟩ : BufTy).Contents (Elt F)),
    StableHlo.binary main_arg0 main_v12 main_v13 (Host.shrui : (⟨S16384, .i32⟩ : BufTy).Contents (Elt F) → (⟨S16384, .i32⟩ : BufTy).Contents (Elt F) → (⟨S16384, .i32⟩ : BufTy).Contents (Elt F)),
    StableHlo.nullary main_c_4 (constantI S_ 32 1#32),
    StableHlo.unary main_c_4 main_v14 (broadcastInDim S16384 ![] bcast_S_S16384 : (⟨S_, .i32⟩ : BufTy).Contents (Elt F) → (⟨S16384, .i32⟩ : BufTy).Contents (Elt F)),
    StableHlo.binary main_v13 main_v14 main_v15 (andi : (⟨S16384, .i32⟩ : BufTy).Contents (Elt F) → (⟨S16384, .i32⟩ : BufTy).Contents (Elt F) → (⟨S16384, .i32⟩ : BufTy).Contents (Elt F)),
    StableHlo.reshape main_v15 main_v16 rfl shapeCasts_S16384_S16384x1,
    StableHlo.nullary main_c_5 (constantI S_ 32 1#32),
    StableHlo.unary main_c_5 main_v17 (broadcastInDim S16384 ![] bcast_S_S16384 : (⟨S_, .i32⟩ : BufTy).Contents (Elt F) → (⟨S16384, .i32⟩ : BufTy).Contents (Elt F)),
    StableHlo.binary main_arg1 main_v17 main_v18 (andi : (⟨S16384, .i32⟩ : BufTy).Contents (Elt F) → (⟨S16384, .i32⟩ : BufTy).Contents (Elt F) → (⟨S16384, .i32⟩ : BufTy).Contents (Elt F)),
    StableHlo.reshape main_v18 main_v19 rfl shapeCasts_S16384_S16384x1]

/-- The host operations between the SparseCore call and the last TensorCore call. -/
abbrev opsC : List (HloOp τ sig (Elt F)) := [
    StableHlo.reshape main_arg5 main_v21 rfl shapeCasts_S128_S1x128,
    StableHlo.reshape main_arg6 main_v22 rfl shapeCasts_S128x1_S1x128,
    StableHlo.reshape main_arg7 main_v23 rfl shapeCasts_S1_S1x1]

theorem main_eq (d : Dev nD) : main (F := F) d =
    (StableHlo.seq opsA >>= fun _ => Prog.lift (.customCall (SparseCore.inner (Pipeline.entry 0)) ()) >>= fun _ =>
      StableHlo.seq opsB >>= fun _ => sc.run d 0 >>= fun _ => StableHlo.seq opsC >>= fun _ =>
      Prog.lift (.customCall (SparseCore.inner (Pipeline.entry 1)) ()) >>= fun _ => pure ⟨⟩) := by
  rfl

end Cert.KernelIdeal.KL

end
-- ==== Proof.KPay.lean ====
/-
  What the SparseCore call's handshakes carry. The arrays the tiles read — the row numbers, the two tables as the
  TensorCore laid them out — are handed out as read shares, one per tile; the rows of the two result arrays a tile
  writes are handed to it whole and come back holding the gathered rows. The first table as laid out holds, in
  row R and lane l, entry (column c, l mod 64) of the original table with c = 16384 (R / 8192) + 8192 (l / 64) + R mod 8192,
  wherever that column exists; the row numbers keep every gathered row inside that part.
-/
import proofs.«205759_g46823733461237_cont_8to1_c_287_19_alg».proof.Proof.KDefs
import proofs.«205759_g46823733461237_cont_8to1_c_287_19_alg».proof.Proof.KMainEq
import Idealize.ShloMosaic.Lib.ValueIdx

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.ValueIdx (ix1 ix2)

variable (m : (ℓ : Loc nD τ sig) → Buf (Elt F) ℓ)
variable [FloatOps F]

/-! ## The TensorCore's buffers at the three stages of @main -/

/-- At the launch; -/
def V0 (d : Dev nD) : Valuation τ sig (Elt F) := fun b => m (d, b)
/-- after the host operation before the first TensorCore call; -/
def VA (d : Dev nD) : Valuation τ sig (Elt F) := StableHlo.after opsA (V0 m d)
/-- after the host operations before the SparseCore call; -/
def VB (d : Dev nD) : Valuation τ sig (Elt F) := StableHlo.after opsB (VA m d)
/-- after the host operations before the last TensorCore call. -/
def VC (d : Dev nD) : Valuation τ sig (Elt F) := StableHlo.after opsC (VB m d)

abbrev tcLoc (d : Dev nD) (b : Ref sig .tc) : Loc nD τ sig := (SparseCore.T d).loc b

/-- The row numbers into the first and the second laid-out table, and the second table laid out. -/
abbrev A9 (d : Dev nD) : Buf (Elt F) (tcLoc d main_v9) := VB m d (Proc.devRef .tc main_v9)
abbrev A11 (d : Dev nD) : Buf (Elt F) (tcLoc d main_v11) := VB m d (Proc.devRef .tc main_v11)
abbrev A2 (d : Dev nD) : Buf (Elt F) (tcLoc d main_v2) := VB m d (Proc.devRef .tc main_v2)
/-- The first table transposed, as the first TensorCore call reads it. -/
abbrev A0 (d : Dev nD) : Buf (Elt F) (tcLoc d main_v0) := VA m d (Proc.devRef .tc main_v0)

/-- The column of the original first table that row `R`, lane `l` of the laid-out table holds. -/
def colOf (R l : ℕ) : ℕ := 16384 * (R / 8192) + 8192 * (l / 64) + R % 8192

/-- The laid-out first table is right wherever the original table has the column. -/
def Good1 (d : Dev nD) (f1 : Buf (Elt F) (tcLoc d main_v1)) : Prop :=
  ∀ (R : Fin 507904) (l : Fin 128) (h : colOf R.val l.val < 1000000),
    f1 (ix2 R l) = A0 m d (ix2 (⟨l.val % 64, by omega⟩ : Fin 64) (⟨colOf R.val l.val, h⟩ : Fin 1000000))

/-- The gathered rows of the first table, from the laid-out table `f1`: row `j` is the laid-out row the `j`-th row
    number names, all 128 lanes of it (the half the row number's parity does not choose may lie where the original
    table has no column). -/
def D20 (d : Dev nD) (f1 : Buf (Elt F) (tcLoc d main_v1)) : Buf (Elt F) (tcLoc d main_v20_0) := fun x =>
  f1 (ix2 (⟨(A9 m d (ix1 (x 0))).toNat % 507904, Nat.mod_lt _ (by decide)⟩ : Fin 507904) (x 1))

/-- The gathered rows of the second table. -/
def G20 (d : Dev nD) : Buf (Elt F) (tcLoc d main_v20_1) := fun x =>
  A2 m d (ix2 (⟨(A11 m d (ix1 (x 0))).toNat % 50000, Nat.mod_lt _ (by decide)⟩ : Fin 50000) (x 1))

/-! ## The tiles -/

/-- The grid coordinates of the tile on SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The read share of tile (`c`, `s`): the `s`-th sixteenth-token of the `c`-th half-token. -/
abbrev sh (c : Fin 2) (s : Fin 16) : PosShare TreeShare := Transfers.shareTok (Transfers.shareTok fullShare 2 c) 16 s

/-- Chunk `r`'s 128 rows of a result array for the tile at `L`, as the kernel slices them. -/
abbrev oSet (L : grid1.Coords) (r : Fin 4) : Finset S16384x128.Idx :=
  ((Memref.whole main_v20_0_scv).slice (Rect.unit (s := S16384x128) (k1_off2 L (BitVec.ofNat 32 (128 * r.val))) S128x128.size (k1_off2_inb L r)) (fun _ => rfl)).view.set

/-- What a tile is handed at its task's start: its read shares, and its rows of the two result arrays. -/
def tileGo (d : Dev nD) (c : Fin 2) (s : Fin 16) : sProp 𝕄 :=
  iprop((tcLoc d main_v9 ↦{sh c s} A9 m d) ∗ (tcLoc d main_v11 ↦{sh c s} A11 m d)
    ∗ (∃ f1, ⌜Good1 m d f1⌝ ∗ tcLoc d main_v1 ↦{sh c s} f1) ∗ (tcLoc d main_v2 ↦{sh c s} A2 m d)
    ∗ (bigSep Finset.univ fun r : Fin 4 => tcLoc d main_v20_0 ↦[oSet (coordsV c s) r]{fullShare} VB m d (Proc.devRef .tc main_v20_0))
    ∗ (bigSep Finset.univ fun r : Fin 4 => tcLoc d main_v20_1 ↦[oSet (coordsV c s) r]{fullShare} VB m d (Proc.devRef .tc main_v20_1)))

/-- What it hands back: the shares, and its rows holding the gathered rows (of whatever right layout the first table's
    array holds). -/
def tileTd (d : Dev nD) (c : Fin 2) (s : Fin 16) : sProp 𝕄 :=
  iprop((tcLoc d main_v9 ↦{sh c s} A9 m d) ∗ (tcLoc d main_v11 ↦{sh c s} A11 m d)
    ∗ (∃ f1, ⌜Good1 m d f1⌝ ∗ (tcLoc d main_v1 ↦{sh c s} f1)
        ∗ (bigSep Finset.univ fun r : Fin 4 => tcLoc d main_v20_0 ↦[oSet (coordsV c s) r]{fullShare} D20 m d f1))
    ∗ (tcLoc d main_v2 ↦{sh c s} A2 m d)
    ∗ (bigSep Finset.univ fun r : Fin 4 => tcLoc d main_v20_1 ↦[oSet (coordsV c s) r]{fullShare} G20 m d))

def P : (K (F := F)).Pay (nD := nD) (Val := Elt F) (Name := ℕ) (U := UU) where
  st := fun q d c => match q with | 0 => bigSep Finset.univ fun s : Fin 16 => tileGo m d (Fin.cast nCore_zero c) s
  dn := fun q d c => match q with | 0 => bigSep Finset.univ fun s : Fin 16 => tileTd m d (Fin.cast nCore_zero c) s
  go := fun q d c i => match q with | 0 => tileGo m d (Fin.cast nCore_zero c) (Fin.cast nSub_zero i)
  td := fun q d c i => match q with | 0 => tileTd m d (Fin.cast nCore_zero c) (Fin.cast nSub_zero i)
  x := fun _ _ => iprop(emp)

instance P_storable : (P m).IsStorable where
  st q d c := match q with | 0 => by unfold P tileGo; infer_instance
  dn q d c := match q with | 0 => by unfold P tileTd; infer_instance
  go q _ _ _ := match q with | 0 => by unfold P tileGo; infer_instance
  td q _ _ _ := match q with | 0 => by unfold P tileTd; infer_instance

/-- A SparseCore's operands are its sixteen tiles', and its results theirs. -/
theorem vecSplit : (K (F := F)).VecSplit' (P m) 0 := by
  intro d c
  show (bigSep Finset.univ fun s : Fin 16 => tileGo m d (Fin.cast nCore_zero c) s) ⊢ |={Set.univ}=> iprop(
      (bigSep Finset.univ fun i : Fin ((K (F := F)).nSub 0) => tileGo m d (Fin.cast nCore_zero c) (Fin.cast nSub_zero i))
      ∗ ((bigSep Finset.univ fun i : Fin ((K (F := F)).nSub 0) => tileTd m d (Fin.cast nCore_zero c) (Fin.cast nSub_zero i))
          -∗ bigSep Finset.univ fun s : Fin 16 => tileTd m d (Fin.cast nCore_zero c) s))
  iintro H; imodintro
  isplitl [H]; · iexact H
  iintro H; iexact H

end Cert.KernelIdeal.KL

end
-- ==== Proof.KRegion.lean ====
/-
  A TensorCore call inside the SparseCore program: the region rule of the pipeline library, proved about the call in
  the pipelines' own signature, holds of the call lifted to the SparseCore program's signature, the continuation
  running in the latter.
-/
import proofs.«205759_g46823733461237_cont_8to1_c_287_19_alg».proof.Proof.KDefs

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [∀ e, Nonempty (Elt F e)]

set_option backward.isDefEq.respectTransparency.types false in
theorem wp_region {rdats : (p : Fin 2) → (c : Dev nD) → Pipeline.RDat τ (Elt F) (HIx 1) ℕ UU ℕ (Pipeline.pin (pcfgs (F := F)) adm p) c}
    {p : Fin 2} (R : Pipeline.RDat.RegionSeg (pcfgs (F := F)) adm rdats none defs₀ 𝒱₀ (K (F := F)).L (K (F := F)).lev p) (d : Dev nD)
    {α : Type} (k : PUnit → Prog (TpuEff nD τ sig (Elt F) (SparseCore.Sig (ΛP (F := F)) 1) .tc) α) (Q : α → sProp 𝕄) :
    iprop((iprop(boundary (SparseCore.T d) ∗ R.post d) -∗ wp frame (wpE ((K (F := F)).defs (D (F := F))) 𝒱 (SparseCore.T d) none) Set.univ (k ⟨⟩) Q)
        ∗ boundary (SparseCore.T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (SparseCore.T d) none) Set.univ
          (Prog.lift (.customCall (SparseCore.inner (Pipeline.entry p)) ()) >>= k) Q := by
  have hk : iprop(iprop(boundary (SparseCore.T d) ∗ R.post d) -∗ wp frame (wpE ((K (F := F)).defs (D (F := F))) 𝒱 (SparseCore.T d) none) Set.univ (k ⟨⟩) Q)
      ⊢ iprop(iprop(boundary (SparseCore.T d) ∗ R.post d) -∗ wp frame (wpE (D (F := F)) 𝒱 (SparseCore.T d) none) Set.univ (Prog.ret PUnit.unit)
          fun a => wp frame (wpE ((K (F := F)).defs (D (F := F))) 𝒱 (SparseCore.T d) none) Set.univ (k a) Q) := by
    iintro Hk H
    rw [wp_ret]; imodintro
    iapply Hk; iexact H
  rw [wp_bind]
  refine BI.Entails.trans ?_ ((K (F := F)).wp_liftProg (D (F := F)) 𝒱 (SparseCore.T d) Set.univ none
    (Prog.lift (.customCall (Pipeline.entry p) ())) _)
  exact BI.Entails.trans (BI.sep_mono hk (BI.Entails.refl _)) (Pipeline.RDat.RegionSeg.wp (pcfgs (F := F)) adm rdats none cellOf_inj (EP (F := F)) defs₀ 𝒱₀
    (K (F := F)).L (K (F := F)).lev R d none (fun u hu => nomatch hu) (fun x => .ret x) _)

end Cert.KernelIdeal.KL

end
-- ==== Proof.KSpecs.lean ====
/-
  What the two TensorCore calls do, as the TensorCore's program meets them: the first lays the transposed first
  table out in rows of two 64-entry halves; the last computes, for each batch row, the head of the two gathered rows'
  chosen halves.
-/
import proofs.«205759_g46823733461237_cont_8to1_c_287_19_alg».proof.Proof.KPay
import proofs.«205759_g46823733461237_cont_8to1_c_287_19_alg».proof.Proof.KRegion
import proofs.«205759_g46823733461237_cont_8to1_c_287_19_alg».proof.Proof.Gen.KernelIdeal.Skeleton

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.ValueIdx (ix1 ix2)

variable [FloatOps F]

/-- The laid-out table `G` is right against the transposed table `f0` wherever the original table has the column. -/
def GoodOut (d : Dev nD) (f0 : Buf (Elt F) (tcLoc d main_v0)) (G : Buf (Elt F) (tcLoc d main_v1)) : Prop :=
  ∀ (R : Fin 507904) (l : Fin 128) (h : colOf R.val l.val < 1000000),
    G (ix2 R l) = f0 (ix2 (⟨l.val % 64, by omega⟩ : Fin 64) (⟨colOf R.val l.val, h⟩ : Fin 1000000))

theorem good1_iff (m : (ℓ : Loc nD τ sig) → Buf (Elt F) ℓ) (d : Dev nD) (f1 : Buf (Elt F) (tcLoc d main_v1)) :
    Good1 m d f1 ↔ GoodOut d (A0 m d) f1 := Iff.rfl

/-- The last TensorCore call's stored block as one pure term of its loaded blocks. -/
abbrev pay2F (x0 x1 : Vec F S2048x128 .f32) (x2 x3 : Vec F S2048x1 .i32) (x4 : Vec F S64x128 .f32) (x5 x6 : Vec F S1x128 .f32)
    (x7 : Vec F S1x1 .f32) : FVec F S2048 .f32 :=
  Gen.k2_pay1 (Gen.k2_pay2 x0 x2) (Gen.k2_pay3 x1 x3) (Gen.k2_pay4 x1 x3) (Gen.k2_pay5 x0 x2) (Gen.k2_pay6 x1 x3) Gen.k2_pay7 x4 x5 x6 x7

/-- Rows `2048 t .. 2048 t + 2047` of the two gathered arrays and of the two parity columns. -/
def rowsD (d : Dev nD) (g : Buf (Elt F) (tcLoc d main_v20_0)) (t : Fin 8) : Vec F S2048x128 .f32 :=
  fun y => g (ix2 (⟨2048 * t.val + (y 0).val, by have := ValueIdx.idx2_lt0 y; have := t.isLt; omega⟩ : Fin 16384) (y 1))
def rowsP (d : Dev nD) (g : Buf (Elt F) (tcLoc d main_v16)) (t : Fin 8) : Vec F S2048x1 .i32 :=
  fun y => g (ix2 (⟨2048 * t.val + (y 0).val, by have := ValueIdx.idx2_lt0 y; have := t.isLt; omega⟩ : Fin 16384) (y 1))

/-- What the last TensorCore call leaves in the result array: row `j` is the stored block of point `j / 2048` at `j mod 2048`. -/
def Res2 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23)) :
    Buf (Elt F) (tcLoc d main_v24) :=
  fun j => pay2F (rowsD d g0 ⟨(j 0).val / 2048, by have : (j 0).val < 16384 := (j 0).isLt; omega⟩)
    (rowsD d g1 ⟨(j 0).val / 2048, by have : (j 0).val < 16384 := (j 0).isLt; omega⟩)
    (rowsP d p0 ⟨(j 0).val / 2048, by have : (j 0).val < 16384 := (j 0).isLt; omega⟩) (rowsP d p1 ⟨(j 0).val / 2048, by have : (j 0).val < 16384 := (j 0).isLt; omega⟩) w1 b1 w2 b2
    (ix1 (⟨(j 0).val % 2048, Nat.mod_lt _ (by decide)⟩ : Fin 2048))

/-- The thread of the TensorCore in the program's signature. -/
abbrev KProg (α : Type) : Type 1 := Prog (TpuEff nD τ sig (Elt F) (SparseCore.Sig (ΛP (F := F)) 1) .tc) α

/-- The first TensorCore call, as @main meets it: from the transposed table and the layout's array held whole, the
    TensorCore owing `O` (nothing at the kernels' own index) with recorded waits `W`, it runs to the transposed table
    unchanged, the layout's array holding a right layout, and the same debts, the new recorded waits the staging
    cells' own. -/
def Region0Spec : Prop :=
  ∀ (d : Dev nD) (O : CellTallies nD τ sig (HIx 1)) (W : Waits sig (HIx 1)) (_ : ∀ g, O g none = 0)
    (f0 : Buf (Elt F) (tcLoc d main_v0)) (f1 : Buf (Elt F) (tcLoc d main_v1)) {α : Type} (k : PUnit → KProg (F := F) α) (Q : α → sProp 𝕄),
    iprop((iprop(boundary (SparseCore.T d) ∗ (tcLoc d main_v0 ↦{fullShare} f0) ∗ (∃ G, ⌜GoodOut d f0 G⌝ ∗ tcLoc d main_v1 ↦{fullShare} G)
            ∗ ∃ W', ⌜∀ p ∈ W', p ∈ W ∨ p.2 = none⌝ ∗ owes (SparseCore.T d) O W')
          -∗ wp frame (wpE ((K (F := F)).defs (D (F := F))) 𝒱 (SparseCore.T d) none) Set.univ (k ⟨⟩) Q)
        ∗ boundary (SparseCore.T d) ∗ (tcLoc d main_v0 ↦{fullShare} f0) ∗ (tcLoc d main_v1 ↦{fullShare} f1) ∗ owes (SparseCore.T d) O W
        ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d) none) Set.univ
          (Prog.lift (.customCall (SparseCore.inner (Pipeline.entry 0)) ()) >>= k) Q

/-- The last TensorCore call, as @main meets it: from its eight operand arrays and the result array held whole, it
    runs to the operands unchanged and the result array holding, row by row, the head of the gathered rows. -/
def Region2Spec : Prop :=
  ∀ (d : Dev nD) (O : CellTallies nD τ sig (HIx 1)) (W : Waits sig (HIx 1)) (_ : ∀ g, O g none = 0)
    (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) {α : Type} (k : PUnit → KProg (F := F) α) (Q : α → sProp 𝕄),
    iprop((iprop(boundary (SparseCore.T d) ∗ (tcLoc d main_v20_0 ↦{fullShare} g0) ∗ (tcLoc d main_v20_1 ↦{fullShare} g1) ∗ (tcLoc d main_v16 ↦{fullShare} p0) ∗ (tcLoc d main_v19 ↦{fullShare} p1)
            ∗ (tcLoc d main_arg4 ↦{fullShare} w1) ∗ (tcLoc d main_v21 ↦{fullShare} b1) ∗ (tcLoc d main_v22 ↦{fullShare} w2) ∗ (tcLoc d main_v23 ↦{fullShare} b2)
            ∗ (tcLoc d main_v24 ↦{fullShare} Res2 d g0 g1 p0 p1 w1 b1 w2 b2)
            ∗ ∃ W', ⌜∀ p ∈ W', p ∈ W ∨ p.2 = none⌝ ∗ owes (SparseCore.T d) O W')
          -∗ wp frame (wpE ((K (F := F)).defs (D (F := F))) 𝒱 (SparseCore.T d) none) Set.univ (k ⟨⟩) Q)
        ∗ boundary (SparseCore.T d) ∗ (tcLoc d main_v20_0 ↦{fullShare} g0) ∗ (tcLoc d main_v20_1 ↦{fullShare} g1) ∗ (tcLoc d main_v16 ↦{fullShare} p0) ∗ (tcLoc d main_v19 ↦{fullShare} p1)
            ∗ (tcLoc d main_arg4 ↦{fullShare} w1) ∗ (tcLoc d main_v21 ↦{fullShare} b1) ∗ (tcLoc d main_v22 ↦{fullShare} w2) ∗ (tcLoc d main_v23 ↦{fullShare} b2)
        ∗ (tcLoc d main_v24 ↦{fullShare} o) ∗ owes (SparseCore.T d) O W
        ∗ levAts (K (F := F)).L (K (F := F)).lev
        ∗ Pipeline.cellsGhost (Pipeline.pin (pcfgs (F := F)) adm) (EP (F := F)) 1 d ∗ Pipeline.toksInit (Pipeline.pin (pcfgs (F := F)) adm) (EP (F := F)) 1 d)
      ⊢ wp frame (wpE ((K (F := F)).defs (D (F := F))) 𝒱 (SparseCore.T d) none) Set.univ
          (Prog.lift (.customCall (SparseCore.inner (Pipeline.entry 1)) ()) >>= k) Q

end Cert.KernelIdeal.KL

end
-- ==== Proof.KMain.lean ====
/-
  @main on the TensorCore: the host operations run over the TensorCore's unscoped buffers held whole.
-/
import proofs.«205759_g46823733461237_cont_8to1_c_287_19_alg».proof.Proof.KPay
import proofs.«205759_g46823733461237_cont_8to1_c_287_19_alg».proof.Proof.KSpecs

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The TensorCore's unscoped buffers. -/
abbrev SU : Finset (DevRef τ sig) :=
  (Finset.univ.filter fun b : Ref sig .tc => ¬ b.isScoped).map ⟨Proc.devRef (sig := sig) (.tc : Proc τ), Proc.devRef_injective _⟩

omit [FloatOps F] in
theorem unscoped_held (d : Dev nD) :
    (unscopedBufs d (fun b => m ((SparseCore.T d).loc b)) : sProp 𝕄) = held (SparseCore.T d) SU (V0 m d) := by
  unfold unscopedBufs held SU; rw [bigSep_map]; rfl

theorem hSA : ∀ op ∈ opsA (F := F), op.bufs ⊆ SU := by
  intro op hop
  simp only [List.mem_cons, List.mem_nil_iff, or_false] at hop
  subst hop
  first | (rw [StableHlo.unary_bufs]; decide) | (rw [StableHlo.binary_bufs]; decide) | (rw [StableHlo.nullary_bufs]; decide) | (rw [StableHlo.reshape_bufs]; decide)

theorem hSB : ∀ op ∈ opsB (F := F), op.bufs ⊆ SU := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl <;>
    first | (rw [StableHlo.unary_bufs]; decide) | (rw [StableHlo.binary_bufs]; decide) | (rw [StableHlo.nullary_bufs]; decide) | (rw [StableHlo.reshape_bufs]; decide)

theorem hSC : ∀ op ∈ opsC (F := F), op.bufs ⊆ SU := by
  intro op hop
  simp only [List.mem_cons, List.mem_nil_iff, or_false] at hop
  rcases hop with rfl | rfl | rfl <;>
    first | (rw [StableHlo.unary_bufs]; decide) | (rw [StableHlo.binary_bufs]; decide) | (rw [StableHlo.nullary_bufs]; decide) | (rw [StableHlo.reshape_bufs]; decide)

/-! ## The buffers taken out of the held set, stage by stage -/

abbrev r (b : Ref sig .tc) : DevRef τ sig := Proc.devRef .tc b

/-- The first TensorCore call's two arrays; -/
abbrev T1 : Finset (DevRef τ sig) := {r main_v0, r main_v1}
abbrev S1 : Finset (DevRef τ sig) := SU \ T1
/-- the SparseCore call's operands but the laid-out first table; -/
abbrev T2 : Finset (DevRef τ sig) := {r main_v9, r main_v11, r main_v2, r main_v20_0, r main_v20_1}
abbrev S2 : Finset (DevRef τ sig) := S1 \ T2
/-- the last TensorCore call's arrays but the two gathered ones. -/
abbrev T3 : Finset (DevRef τ sig) := {r main_v16, r main_v19, r main_arg4, r main_v21, r main_v22, r main_v23, r main_v24}
abbrev S3 : Finset (DevRef τ sig) := S2 \ T3

theorem hT1 : T1 ⊆ SU := by decide
theorem hT2 : T2 ⊆ S1 := by decide
theorem hT3 : T3 ⊆ S2 := by decide

theorem hSB1 : ∀ op ∈ opsB (F := F), op.bufs ⊆ S1 := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl <;>
    first | (rw [StableHlo.unary_bufs]; decide) | (rw [StableHlo.binary_bufs]; decide) | (rw [StableHlo.nullary_bufs]; decide) | (rw [StableHlo.reshape_bufs]; decide)

theorem hSC2 : ∀ op ∈ opsC (F := F), op.bufs ⊆ S2 := by
  intro op hop
  simp only [List.mem_cons, List.mem_nil_iff, or_false] at hop
  rcases hop with rfl | rfl | rfl <;>
    first | (rw [StableHlo.unary_bufs]; decide) | (rw [StableHlo.binary_bufs]; decide) | (rw [StableHlo.nullary_bufs]; decide) | (rw [StableHlo.reshape_bufs]; decide)

theorem hfA : ∀ op ∈ opsA (F := F), op.fresh = ∅ := by
  intro _ h; (repeat (cases h with | head => rfl | tail _ h => ?_)); exact nomatch h
theorem hfB : ∀ op ∈ opsB (F := F), op.fresh = ∅ := by
  intro _ h; (repeat (cases h with | head => rfl | tail _ h => ?_)); exact nomatch h
theorem hfC : ∀ op ∈ opsC (F := F), op.fresh = ∅ := by
  intro _ h; (repeat (cases h with | head => rfl | tail _ h => ?_)); exact nomatch h

omit [FloatOps F] in
theorem held_T1 (d : Dev nD) (W : Valuation τ sig (Elt F)) :
    (held (SparseCore.T d) T1 W : sProp 𝕄) = iprop((tcLoc d main_v0 ↦{fullShare} W (r main_v0)) ∗ (tcLoc d main_v1 ↦{fullShare} W (r main_v1))) := by
  unfold held T1
  rw [SparseCore.bigSep_insert' (by decide), bigSep_singleton]

omit [FloatOps F] in
theorem held_T2 (d : Dev nD) (W : Valuation τ sig (Elt F)) :
    (held (SparseCore.T d) T2 W : sProp 𝕄) = iprop((tcLoc d main_v9 ↦{fullShare} W (r main_v9)) ∗ (tcLoc d main_v11 ↦{fullShare} W (r main_v11)) ∗ (tcLoc d main_v2 ↦{fullShare} W (r main_v2))
      ∗ (tcLoc d main_v20_0 ↦{fullShare} W (r main_v20_0)) ∗ (tcLoc d main_v20_1 ↦{fullShare} W (r main_v20_1))) := by
  unfold held T2
  rw [SparseCore.bigSep_insert' (by decide), SparseCore.bigSep_insert' (by decide), SparseCore.bigSep_insert' (by decide), SparseCore.bigSep_insert' (by decide), bigSep_singleton]

omit [FloatOps F] in
theorem held_T3 (d : Dev nD) (W : Valuation τ sig (Elt F)) :
    (held (SparseCore.T d) T3 W : sProp 𝕄) = iprop((tcLoc d main_v16 ↦{fullShare} W (r main_v16)) ∗ (tcLoc d main_v19 ↦{fullShare} W (r main_v19)) ∗ (tcLoc d main_arg4 ↦{fullShare} W (r main_arg4))
      ∗ (tcLoc d main_v21 ↦{fullShare} W (r main_v21)) ∗ (tcLoc d main_v22 ↦{fullShare} W (r main_v22)) ∗ (tcLoc d main_v23 ↦{fullShare} W (r main_v23)) ∗ (tcLoc d main_v24 ↦{fullShare} W (r main_v24))) := by
  unfold held T3
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-! ## The SparseCore call's operands dealt to the tiles and gathered back -/

/-- The call's operands, held whole by the TensorCore with the laid-out first table at `G`, split into every tile's
    part and a remainder the TensorCore keeps; the tiles' results with the remainder are the operands again, the two
    result arrays holding the gathered rows. -/
def SplitJoin : Prop :=
  ∀ (d : Dev nD) (G : Buf (Elt F) (tcLoc d main_v1)), Good1 m d G → ∃ Rem : sProp 𝕄,
    (iprop((tcLoc d main_v9 ↦{fullShare} A9 m d) ∗ (tcLoc d main_v11 ↦{fullShare} A11 m d) ∗ (tcLoc d main_v1 ↦{fullShare} G) ∗ (tcLoc d main_v2 ↦{fullShare} A2 m d)
        ∗ (tcLoc d main_v20_0 ↦{fullShare} VB m d (r main_v20_0)) ∗ (tcLoc d main_v20_1 ↦{fullShare} VB m d (r main_v20_1)))
      ⊢ iprop((bigSep Finset.univ fun c : Fin ((K (F := F)).nCore 0) => (P m).st 0 d c) ∗ Rem))
    ∧ (iprop((bigSep Finset.univ fun c : Fin ((K (F := F)).nCore 0) => (P m).dn 0 d c) ∗ Rem)
      ⊢ iprop((tcLoc d main_v9 ↦{fullShare} A9 m d) ∗ (tcLoc d main_v11 ↦{fullShare} A11 m d) ∗ (tcLoc d main_v1 ↦{fullShare} G) ∗ (tcLoc d main_v2 ↦{fullShare} A2 m d)
        ∗ (tcLoc d main_v20_0 ↦{fullShare} D20 m d G) ∗ (tcLoc d main_v20_1 ↦{fullShare} G20 m d)))

/-! ## The TensorCore's handshake state, its debts apart -/

omit [FloatOps F] in
theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

/-- The rest of the TensorCore's state before call `n`. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_eq (d : Dev nD) (n : ℕ) : ((K (F := F)).tcSt EH d n : sProp 𝕄)
    = iprop((∃ W, ⌜(K (F := F)).WBelow (SparseCore.T d) W (8 * n)⌝ ∗ owes (SparseCore.T d) ((K (F := F)).Otc d n) W) ∗ tcRest (F := F) d n) := rfl

omit [FloatOps F] in
/-- A region's recorded waits, the staging cells' own at the kernels' index, keep the bound. -/
theorem wbelow_of (d : Dev nD) (n : ℕ) {W W' : Waits sig (HIx 1)} (hW : (K (F := F)).WBelow (SparseCore.T d) W (8 * n))
    (h : ∀ p ∈ W', p ∈ W ∨ p.2 = none) : (K (F := F)).WBelow (SparseCore.T d) W' (8 * n) := by
  intro p hp
  rcases h p hp with h | h
  · exact hW p h
  · rw [h, SparseCore.Cfg.lev_none]; exact Nat.zero_le _

/-- Per device, the two pipelines' rounds ghost state. -/
abbrev G (d : Dev nD) : sProp 𝕄 := Pipeline.ghostOn (pcfgs (F := F)) adm (EP (F := F)) Finset.univ d

omit [FloatOps F] in
theorem G_eq (d : Dev nD) : (G (F := F) d : sProp 𝕄)
    = iprop((Pipeline.cellsGhost (Pipeline.pin (pcfgs (F := F)) adm) (EP (F := F)) 0 d ∗ Pipeline.toksInit (Pipeline.pin (pcfgs (F := F)) adm) (EP (F := F)) 0 d)
        ∗ (Pipeline.cellsGhost (Pipeline.pin (pcfgs (F := F)) adm) (EP (F := F)) 1 d ∗ Pipeline.toksInit (Pipeline.pin (pcfgs (F := F)) adm) (EP (F := F)) 1 d)) := by
  unfold G Pipeline.ghostOn Pipeline.PerCore.ghostOn
  rw [show (Finset.univ : Finset (Fin 2)) = {0, 1} by decide, SparseCore.bigSep_insert' (by decide), bigSep_singleton]

end Cert.KernelIdeal.KL

end
-- ==== Proof.KHmain.lean ====
/-
  @main on the TensorCore, from what the launch deals it to the result array holding the kernel's value: the three
  host stretches over the held buffers, the two TensorCore calls by their rules, the SparseCore call by the launch
  library's.
-/
import proofs.«205759_g46823733461237_cont_8to1_c_287_19_alg».proof.Proof.KMain

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The kernel's value, from the laid-out first table `G`. -/
def ResK (d : Dev nD) (G : Buf (Elt F) (tcLoc d main_v1)) : Buf (Elt F) (tcLoc d main_v24) :=
  Res2 d (D20 m d G) (G20 m d) (VC m d (r main_v16)) (VC m d (r main_v19)) (VC m d (r main_arg4)) (VC m d (r main_v21)) (VC m d (r main_v22)) (VC m d (r main_v23))

/-- What @main leaves the claim: the buffers no call took, the first head matrix, and the result array. -/
def FIN (d : Dev nD) : sProp 𝕄 :=
  iprop(∃ G, ⌜Good1 m d G⌝ ∗ held (SparseCore.T d) S3 (VC m d) ∗ (tcLoc d main_arg4 ↦{fullShare} VC m d (r main_arg4)) ∗ (tcLoc d main_v24 ↦{fullShare} ResK m d G))

/-! ## The held set, after each host stretch, with the next call's arrays taken out -/

theorem heldA (d : Dev nD) : (held (d.tc : Thread nD τ) SU (StableHlo.after opsA (V0 m d)) : sProp 𝕄)
    = iprop(((tcLoc d main_v0 ↦{fullShare} VA m d (r main_v0)) ∗ (tcLoc d main_v1 ↦{fullShare} VA m d (r main_v1))) ∗ held (SparseCore.T d) S1 (VA m d)) := by
  show (held (SparseCore.T d) SU (VA m d) : sProp 𝕄) = _
  rw [StableHlo.held_sub_split (SparseCore.T d) hT1 (VA m d), held_T1]

theorem heldB (d : Dev nD) : (held (d.tc : Thread nD τ) S1 (StableHlo.after opsB (VA m d)) : sProp 𝕄)
    = iprop(((tcLoc d main_v9 ↦{fullShare} VB m d (r main_v9)) ∗ (tcLoc d main_v11 ↦{fullShare} VB m d (r main_v11)) ∗ (tcLoc d main_v2 ↦{fullShare} VB m d (r main_v2))
      ∗ (tcLoc d main_v20_0 ↦{fullShare} VB m d (r main_v20_0)) ∗ (tcLoc d main_v20_1 ↦{fullShare} VB m d (r main_v20_1))) ∗ held (SparseCore.T d) S2 (VB m d)) := by
  show (held (SparseCore.T d) S1 (VB m d) : sProp 𝕄) = _
  rw [StableHlo.held_sub_split (SparseCore.T d) hT2 (VB m d), held_T2]

theorem heldC (d : Dev nD) : (held (d.tc : Thread nD τ) S2 (StableHlo.after opsC (VB m d)) : sProp 𝕄)
    = iprop(((tcLoc d main_v16 ↦{fullShare} VC m d (r main_v16)) ∗ (tcLoc d main_v19 ↦{fullShare} VC m d (r main_v19)) ∗ (tcLoc d main_arg4 ↦{fullShare} VC m d (r main_arg4))
      ∗ (tcLoc d main_v21 ↦{fullShare} VC m d (r main_v21)) ∗ (tcLoc d main_v22 ↦{fullShare} VC m d (r main_v22)) ∗ (tcLoc d main_v23 ↦{fullShare} VC m d (r main_v23)) ∗ (tcLoc d main_v24 ↦{fullShare} VC m d (r main_v24)))
      ∗ held (SparseCore.T d) S3 (VC m d)) := by
  show (held (SparseCore.T d) S2 (VC m d) : sProp 𝕄) = _
  rw [StableHlo.held_sub_split (SparseCore.T d) hT3 (VC m d), held_T3]

set_option maxRecDepth 16384 in
theorem hmain (h0 : Region0Spec (F := F)) (h2 : Region2Spec (F := F)) (hsj : SplitJoin m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq, G_eq, tcSt_eq]
  iintro ⟨#Hctx, ⟨⟨%W, %hW, HO⟩, Hrest⟩, ⟨Hb, Hheld, -, -⟩, ⟨Hcg0, Hti0⟩, ⟨Hcg1, Hti1⟩⟩
  ihave #Hlev := (SparseCore.Cfg.ctx_levAts κ) $$ Hctx
  -- the first table transposed
  iapply (StableHlo.wp_seq 𝒱 none Set.univ d SU _ opsA hSA hfA (V0 m d)) $$ [Hb Hheld]
  · isplitl [Hb]; · iexact Hb
    iexact Hheld
  iintro ⟨Hb, Hheld⟩
  -- the first TensorCore call: the transposed table laid out
  ihave Hh := (Entails.of_eq (heldA m d)) $$ Hheld
  icases Hh with ⟨⟨H0, H1⟩, Hheld⟩
  iapply (h0 d ((K (F := F)).Otc d 0) W (Otc_none d 0) (VA m d (r main_v0)) (VA m d (r main_v1)) _ _)
  isplitr [Hb H0 H1 HO Hcg0 Hti0]
  swap
  · isplitl [Hb]; · iexact Hb
    isplitl [H0]; · iexact H0
    isplitl [H1]; · iexact H1
    isplitl [HO]; · iexact HO
    isplitr; · iexact Hlev
    isplitl [Hcg0]; · iexact Hcg0
    iexact Hti0
  iintro ⟨Hb, H0, ⟨%Gc, %hG, H1⟩, %W1, %hW1, HO⟩
  -- the row numbers, the parities, the second table laid out
  iapply (StableHlo.wp_seq 𝒱 none Set.univ d S1 _ opsB hSB1 hfB (VA m d)) $$ [Hb Hheld]
  · isplitl [Hb]; · iexact Hb
    iexact Hheld
  iintro ⟨Hb, Hheld⟩
  ihave Hh := (Entails.of_eq (heldB m d)) $$ Hheld
  icases Hh with ⟨⟨H9, H11, Hv2, H200, H201⟩, Hheld⟩
  -- the SparseCore call
  obtain ⟨Rem, hsplit, hjoin⟩ := hsj d Gc hG
  ihave Hs := hsplit $$ [H9 H11 H1 Hv2 H200 H201]
  · isplitl [H9]; · iexact H9
    isplitl [H11]; · iexact H11
    isplitl [H1]; · iexact H1
    isplitl [Hv2]; · iexact Hv2
    isplitl [H200]; · iexact H200
    iexact H201
  icases Hs with ⟨Hst0, Hrem⟩
  ihave Hst := (Entails.of_eq (tcSt_eq (F := F) d 0).symm) $$ [HO Hrest]
  · isplitl [HO]
    · iexists W1; isplitr
      · ipureintro; exact wbelow_of d 0 hW hW1
      · iexact HO
    · iexact Hrest
  rw [wp_bind]
  iapply ((K (F := F)).wp_run (D (F := F)) 𝒱 (EH := EH) (P := P m) κ d 0)
  isplitr; · iexact Hctx
  isplitl [Hst]; · iexact Hst
  isplitl [Hst0]; · iexact Hst0
  iintro ⟨Hst, Hdn⟩
  ihave Hj := hjoin $$ [Hdn Hrem]
  · isplitl [Hdn]; · iexact Hdn
    iexact Hrem
  icases Hj with ⟨H9, H11, H1, Hv2, H200, H201⟩
  -- the head parameters reshaped
  iapply (StableHlo.wp_seq 𝒱 none Set.univ d S2 _ opsC hSC2 hfC (VB m d)) $$ [Hb Hheld]
  · isplitl [Hb]; · iexact Hb
    iexact Hheld
  iintro ⟨Hb, Hheld⟩
  ihave Hh := (Entails.of_eq (heldC m d)) $$ Hheld
  icases Hh with ⟨⟨H16, H19, H4, H21, H22, H23, H24⟩, Hheld⟩
  -- the last TensorCore call
  ihave Hst' := (Entails.of_eq (tcSt_eq (F := F) d ((0 : Fin 1).val + 1))) $$ Hst
  icases Hst' with ⟨⟨%W2, %hW2, HO⟩, Hrest⟩
  iapply (h2 d ((K (F := F)).Otc d ((0 : Fin 1).val + 1)) W2 (Otc_none d _) (D20 m d Gc) (G20 m d) (VC m d (r main_v16)) (VC m d (r main_v19)) (VC m d (r main_arg4))
    (VC m d (r main_v21)) (VC m d (r main_v22)) (VC m d (r main_v23)) (VC m d (r main_v24)) _ _)
  isplitr [Hb H200 H201 H16 H19 H4 H21 H22 H23 H24 HO Hcg1 Hti1]
  swap
  · isplitl [Hb]; · iexact Hb
    isplitl [H200]; · iexact H200
    isplitl [H201]; · iexact H201
    isplitl [H16]; · iexact H16
    isplitl [H19]; · iexact H19
    isplitl [H4]; · iexact H4
    isplitl [H21]; · iexact H21
    isplitl [H22]; · iexact H22
    isplitl [H23]; · iexact H23
    isplitl [H24]; · iexact H24
    isplitl [HO]; · iexact HO
    isplitr; · iexact Hlev
    isplitl [Hcg1]; · iexact Hcg1
    iexact Hti1
  iintro ⟨Hb, H200, H201, H16, H19, H4, H21, H22, H23, H24, %W3, %hW3, HO⟩
  rw [wp_pure]; imodintro
  isplitl [HO Hrest]
  · rw [tcSt_eq]
    isplitl [HO]
    · iexists W3; isplitr
      · ipureintro; exact wbelow_of d 1 hW2 hW3
      · iexact HO
    · iexact Hrest
  unfold FIN
  iexists Gc; isplitr
  · ipureintro; exact hG
  isplitl [Hheld]; · iexact Hheld
  isplitl [H4]; · iexact H4
  iexact H24

end Cert.KernelIdeal.KL

end
-- ==== Proof.KRun.lean ====
/-
  The launch element of the ghost state, the claim read off the final memory, and the program's run: every weakly
  fair execution of the TensorCore, the sequencers and the tiles terminates, the arguments end unchanged, and the
  result array holds the kernel's value.
-/
import proofs.«205759_g46823733461237_cont_8to1_c_287_19_alg».proof.Proof.KHmain

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb embR _ _) $$ HR
  icases HR' with ⟨HP, -⟩
  imod (Pipeline.fund_ghost (Pipeline.pin (pcfgs (F := F)) adm) (EP (F := F)) cellOf_inj) $$ HP with ⟨Hcg, Hti⟩
  imodintro
  isplitl [HH]; · iexact HH
  isplitl [Hcg Hti]
  · unfold G Pipeline.ghostOn Pipeline.PerCore.ghostOn
    simp only [bigSep_sep']
    isplitl [Hcg]; · iexact Hcg
    iexact Hti
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arguments are written by no host operation -/

theorem writesA : (opsA (F := F)).Forall fun op => op.writes ⊆ (([main_v0] : List (Ref sig .tc)).map (Proc.devRef (τ := τ) .tc)).toFinset := by
  simp only [List.forall_cons, List.Forall, StableHlo.nullary_writes, StableHlo.unary_writes, StableHlo.binary_writes, StableHlo.reshape_writes, and_true]
  decide

theorem writesB : (opsB (F := F)).Forall fun op => op.writes ⊆ (([main_v2, main_c, main_v3, main_v4, main_c_0, main_v5, main_v6, main_c_1, main_v7, main_v8, main_v9, main_c_2, main_v10, main_v11, main_c_3, main_v12, main_v13, main_c_4, main_v14, main_v15, main_v16, main_c_5, main_v17, main_v18, main_v19] : List (Ref sig .tc)).map (Proc.devRef (τ := τ) .tc)).toFinset := by
  simp only [List.forall_cons, List.Forall, StableHlo.nullary_writes, StableHlo.unary_writes, StableHlo.binary_writes, StableHlo.reshape_writes, and_true]
  decide

theorem writesC : (opsC (F := F)).Forall fun op => op.writes ⊆ (([main_v21, main_v22, main_v23] : List (Ref sig .tc)).map (Proc.devRef (τ := τ) .tc)).toFinset := by
  simp only [List.forall_cons, List.Forall, StableHlo.nullary_writes, StableHlo.unary_writes, StableHlo.binary_writes, StableHlo.reshape_writes, and_true]
  decide

/-- The program's arguments. -/
abbrev argRefs : List (Ref sig .tc) := [main_arg0, main_arg1, main_arg2, main_arg3, main_arg4, main_arg5, main_arg6, main_arg7]

theorem VC_arg (d : Dev nD) (b : Ref sig .tc) (hb : b ∈ argRefs) : VC m d (r b) = m (tcLoc d b) := by
  unfold VC VB VA
  rw [StableHlo.after_of_writes_sub _ _ writesC (by revert b; decide), StableHlo.after_of_writes_sub _ _ writesB (by revert b; decide),
    StableHlo.after_of_writes_sub _ _ writesA (by revert b; decide)]
  rfl

/-! ## The claim, read off the final memory -/

/-- What the run leaves on device `d`: the result array holds the kernel's value from some right layout of the first
    table, and the arguments are as launched. -/
def fq (d : Dev nD) (mem : MemSt nD τ sig (Elt F)) : Prop :=
  (∃ G, Good1 m d G ∧ mem.mem (tcLoc d main_v24) = ResK m d G) ∧ ∀ b ∈ argRefs, mem.mem (tcLoc d b) = m (tcLoc d b)

set_option maxRecDepth 16384 in
theorem hfin (d : Dev nD) (s' : Phys nD τ sig (Elt F)) : iprop(FIN m d ∗ SI s') ⊢ (⌜fq m d s'.mem⌝ : sProp 𝕄) := by
  unfold FIN StableHlo.held
  iintro ⟨⟨%G, %hG, Hheld, H4, H24⟩, HSI⟩
  ihave H := (persistent_entails_right (SI_pointsTo_agree (st := s') (ℓ := tcLoc d main_v24) (I := Finset.univ) (q := fullShare) (f := ResK m d G))) $$ [HSI H24]
  · isplitl [HSI] <;> iassumption
  icases H with ⟨%h24, HSI, -⟩
  ihave H := (persistent_entails_right (SI_pointsTo_agree (st := s') (ℓ := tcLoc d main_arg4) (I := Finset.univ) (q := fullShare) (f := VC m d (r main_arg4)))) $$ [HSI H4]
  · isplitl [HSI] <;> iassumption
  icases H with ⟨%h4, HSI, -⟩
  ihave %hS := (SI_pointsTo_bufs_agree (c := d) (qs := fun _ => fullShare) (F := VC m d) S3) $$ [HSI Hheld]
  · isplitl [HSI]; · iexact HSI
    iexact Hheld
  ipureintro
  refine ⟨⟨G, hG, funext fun i => h24 i (Finset.mem_univ i)⟩, ?_⟩
  intro b hb
  simp only [argRefs, List.mem_cons, List.mem_nil_iff, _root_.or_false] at hb
  rcases hb with rfl | rfl | rfl | rfl | rfl | rfl | rfl | rfl
  · exact (hS (r main_arg0) (by decide)).trans (VC_arg m d main_arg0 (by decide))
  · exact (hS (r main_arg1) (by decide)).trans (VC_arg m d main_arg1 (by decide))
  · exact (hS (r main_arg2) (by decide)).trans (VC_arg m d main_arg2 (by decide))
  · exact (hS (r main_arg3) (by decide)).trans (VC_arg m d main_arg3 (by decide))
  · exact (funext fun i => h4 i (Finset.mem_univ i)).trans (VC_arg m d main_arg4 (by decide))
  · exact (hS (r main_arg5) (by decide)).trans (VC_arg m d main_arg5 (by decide))
  · exact (hS (r main_arg6) (by decide)).trans (VC_arg m d main_arg6 (by decide))
  · exact (hS (r main_arg7) (by decide)).trans (VC_arg m d main_arg7 (by decide))

/-! ## The run -/

/-- What every final memory satisfies. -/
def QK : PUnit × MemSt nD τ sig (Elt F) → Prop := fun rr => ∀ c : Dev nD, fq m c rr.2

theorem run_main [∀ e, Nonempty (Elt F e)] (h0 : Region0Spec (F := F)) (h2 : Region2Spec (F := F)) (hsj : SplitJoin m)
    (htile : (K (F := F)).TileObl (D (F := F)) 𝒱 (P m) v₀ 0) :
    θ_run (Cert.KernelIdeal.defs (F := F)) (Cert.KernelIdeal.threads (F := F)) ⟨m, fun _ => 0, ρ⟩ (QK m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => G (F := F) d) (FIN m) (u₀ (F := F)) (sep_elim_left.trans (hu₀ m)) (hmain m ρ h0 h2 hsj)
    (fun d s' => fq m d s'.mem) (hfin m) (QK m) (fun _ h => h)

end Cert.KernelIdeal.KL

end
-- ==== Proof.TileDefs.lean ====
/-
  The SparseCore gather kernel at one tile: the thread, the slices of the index and output arrays as the body
  takes them, and the range fact about what the index fetch leaves in the tile's index scratch.
-/
import proofs.«205759_g46823733461237_cont_8to1_c_287_19_alg».proof.Proof.KDefs
import proofs.«205759_g46823733461237_cont_8to1_c_287_19_alg».proof.Proof.Gen.KernelIdeal.Skeleton

set_option synthInstance.maxSize 4096

noncomputable section

namespace Cert.KernelIdeal.Tile

open Cert.KernelIdeal Cert.KernelIdeal.Gen Cert.KernelIdeal.KL
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "m9" => (Memref.whole Cert.KernelIdeal.main_v9_scv : Memref Cert.KernelIdeal.sig Kind.scVector Space.hbm Cert.KernelIdeal.S16384 EltTy.i32)
local notation "m11" => (Memref.whole Cert.KernelIdeal.main_v11_scv : Memref Cert.KernelIdeal.sig Kind.scVector Space.hbm Cert.KernelIdeal.S16384 EltTy.i32)
local notation "m1" => (Memref.whole Cert.KernelIdeal.main_v1_scv : Memref Cert.KernelIdeal.sig Kind.scVector Space.hbm Cert.KernelIdeal.S507904x128 EltTy.f32)
local notation "m2" => (Memref.whole Cert.KernelIdeal.main_v2_scv : Memref Cert.KernelIdeal.sig Kind.scVector Space.hbm Cert.KernelIdeal.S50000x128 EltTy.f32)
local notation "mo0" => (Memref.whole Cert.KernelIdeal.main_v20_0_scv : Memref Cert.KernelIdeal.sig Kind.scVector Space.hbm Cert.KernelIdeal.S16384x128 EltTy.f32)
local notation "mo1" => (Memref.whole Cert.KernelIdeal.main_v20_1_scv : Memref Cert.KernelIdeal.sig Kind.scVector Space.hbm Cert.KernelIdeal.S16384x128 EltTy.f32)
local notation "s8" => (Memref.whole Cert.KernelIdeal.cc1_scratch0 : Memref Cert.KernelIdeal.sig Kind.scVector Space.vmem Cert.KernelIdeal.S512 EltTy.i32)
local notation "s9" => (Memref.whole Cert.KernelIdeal.cc1_scratch1 : Memref Cert.KernelIdeal.sig Kind.scVector Space.vmem Cert.KernelIdeal.S512 EltTy.i32)
local notation "s10" => (Memref.whole Cert.KernelIdeal.cc1_scratch2 : Memref Cert.KernelIdeal.sig Kind.scVector Space.vmem Cert.KernelIdeal.S2x128x128 EltTy.f32)
local notation "s11" => (Memref.whole Cert.KernelIdeal.cc1_scratch3 : Memref Cert.KernelIdeal.sig Kind.scVector Space.vmem Cert.KernelIdeal.S2x128x128 EltTy.f32)

/-- The SparseCore and the vector subcore of the tile at grid coordinates `L`, and its thread. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The tile's 512 entries of an index array, as the body slices them. -/
abbrev i9K (L : grid1.Coords) : Memref sig .scVector .hbm S512 .i32 :=
  (m9).slice (Rect.unit (s := S16384) (k1_off1 L) S512.size (k1_off1_inb L)) (fun _ => rfl)
abbrev i11K (L : grid1.Coords) : Memref sig .scVector .hbm S512 .i32 :=
  (m11).slice (Rect.unit (s := S16384) (k1_off1 L) S512.size (k1_off1_inb L)) (fun _ => rfl)

/-- Chunk `r`'s 128 rows of each output array, as the body slices them. -/
abbrev o0K (L : grid1.Coords) (r : Fin 4) : Memref sig .scVector .hbm S128x128 .f32 :=
  (mo0).slice (Rect.unit (s := S16384x128) (k1_off2 L (BitVec.ofNat 32 (128 * r.val))) S128x128.size (k1_off2_inb L r)) (fun _ => rfl)
abbrev o1K (L : grid1.Coords) (r : Fin 4) : Memref sig .scVector .hbm S128x128 .f32 :=
  (mo1).slice (Rect.unit (s := S16384x128) (k1_off2 L (BitVec.ofNat 32 (128 * r.val))) S128x128.size (k1_off2_inb L r)) (fun _ => rfl)

/-- The cell of one of the tile's DMA semaphores. -/
abbrev semc (d : Dev nD) (L : grid1.Coords) (sm : DmaSems sig S_) : GSem nD τ sig := (thr d L, .dma sm.sem)

/-- What the index fetch leaves in an index scratch, read back through any slice of it, is in range when the
    index array's entries are: the scratch written whole with the fetched entries holds exactly them. -/
theorem idx_inb9 (d : Dev nD) (L : grid1.Coords) (z : ℕ) (f9 : Buf (Elt F) ((m9).view.loc (thr d L)))
    (h : ∀ j, (f9 j).toNat < z) (R : Rect S512) (hR : ∀ a, R.stride a = 1) (b : Buf (Elt F) ((s8).view.loc (thr d L))) :
    ∀ x, (((s8).slice R hR).view.read (Elt F)
      (View.write (Elt F) (s8).view b (ReadAs.same.apply ((i9K L).view.read (Elt F) f9)) Finset.univ) x).toNat < z := by
  intro x
  rw [ReadAs.apply_same]
  simp only [Memref.view_whole, View.write_whole_univ]
  rw [View.read_apply, cast_eq, View.read_apply, cast_eq]
  exact h _

theorem idx_inb11 (d : Dev nD) (L : grid1.Coords) (z : ℕ) (f11 : Buf (Elt F) ((m11).view.loc (thr d L)))
    (h : ∀ j, (f11 j).toNat < z) (R : Rect S512) (hR : ∀ a, R.stride a = 1) (b : Buf (Elt F) ((s9).view.loc (thr d L))) :
    ∀ x, (((s9).slice R hR).view.read (Elt F)
      (View.write (Elt F) (s9).view b (ReadAs.same.apply ((i11K L).view.read (Elt F) f11)) Finset.univ) x).toNat < z := by
  intro x
  rw [ReadAs.apply_same]
  simp only [Memref.view_whole, View.write_whole_univ]
  rw [View.read_apply, cast_eq, View.read_apply, cast_eq]
  exact h _

end Cert.KernelIdeal.Tile

end
-- ==== Proof.TileVal.lean ====
/-
  The value the gather kernel leaves: the gathered array as one function of the whole output shape, and the fact
  that each chunk a tile writes holds that function on the chunk's rows — the chunk's list holds the chunk's
  entries of the index array, its transfer reads the rows they name, its copy-out lands them on the chunk's rows.
-/
import proofs.«205759_g46823733461237_cont_8to1_c_287_19_alg».proof.Proof.TileDefs
import Idealize.ShloMosaic.Lib.ValueIdx

set_option synthInstance.maxSize 4096

noncomputable section

namespace Cert.KernelIdeal.Tile

open Cert.KernelIdeal Cert.KernelIdeal.Gen Cert.KernelIdeal.KL
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "m9" => (Memref.whole Cert.KernelIdeal.main_v9_scv : Memref Cert.KernelIdeal.sig Kind.scVector Space.hbm Cert.KernelIdeal.S16384 EltTy.i32)
local notation "m11" => (Memref.whole Cert.KernelIdeal.main_v11_scv : Memref Cert.KernelIdeal.sig Kind.scVector Space.hbm Cert.KernelIdeal.S16384 EltTy.i32)
local notation "m1" => (Memref.whole Cert.KernelIdeal.main_v1_scv : Memref Cert.KernelIdeal.sig Kind.scVector Space.hbm Cert.KernelIdeal.S507904x128 EltTy.f32)
local notation "m2" => (Memref.whole Cert.KernelIdeal.main_v2_scv : Memref Cert.KernelIdeal.sig Kind.scVector Space.hbm Cert.KernelIdeal.S50000x128 EltTy.f32)
local notation "mo0" => (Memref.whole Cert.KernelIdeal.main_v20_0_scv : Memref Cert.KernelIdeal.sig Kind.scVector Space.hbm Cert.KernelIdeal.S16384x128 EltTy.f32)
local notation "mo1" => (Memref.whole Cert.KernelIdeal.main_v20_1_scv : Memref Cert.KernelIdeal.sig Kind.scVector Space.hbm Cert.KernelIdeal.S16384x128 EltTy.f32)
local notation "s8" => (Memref.whole Cert.KernelIdeal.cc1_scratch0 : Memref Cert.KernelIdeal.sig Kind.scVector Space.vmem Cert.KernelIdeal.S512 EltTy.i32)
local notation "s9" => (Memref.whole Cert.KernelIdeal.cc1_scratch1 : Memref Cert.KernelIdeal.sig Kind.scVector Space.vmem Cert.KernelIdeal.S512 EltTy.i32)
local notation "s10" => (Memref.whole Cert.KernelIdeal.cc1_scratch2 : Memref Cert.KernelIdeal.sig Kind.scVector Space.vmem Cert.KernelIdeal.S2x128x128 EltTy.f32)
local notation "s11" => (Memref.whole Cert.KernelIdeal.cc1_scratch3 : Memref Cert.KernelIdeal.sig Kind.scVector Space.vmem Cert.KernelIdeal.S2x128x128 EltTy.f32)

open Idealize.ShloMosaic.SparseCore (gatherPayload rows)

open Idealize.ShloMosaic.ValueIdx (ix1 ix2)

/-- An index of the 16384-long shape is the entry its only coordinate names. -/
theorem eq_ix1_of (Z : S16384.Idx) (k : Fin 16384) (h : (Z ⟨0, Nat.one_pos⟩).val = k.val) : Z = ix1 k := by
  rw [ValueIdx.eq_ix1 Z]
  congr 1
  exact Fin.ext h

/-- The gathered array: row `i` is the row of the table `src` that entry `i` of the index array names. One function
    of the whole `[16384, 128]` shape; the kernel's pieces are restrictions of it. -/
def gath {s₀ : Shape} (hg : s₀.Gathers 0 S16384x128) (idx : S16384.Idx → Elt F .i32) (src : s₀.Idx → Elt F .f32)
    (h : ∀ j, (idx j).toNat < s₀.size hg.axis) : S16384x128.Idx → Elt F .f32 :=
  fun x => src (hg.idx (fun k => ⟨(idx (ix1 k)).toNat, h _⟩) x)

/-- On the indexed axis the gathered array reads the named row; on the other its own column. -/
theorem gath_apply {s₀ : Shape} (hg : s₀.Gathers 0 S16384x128) (idx : S16384.Idx → Elt F .i32) (src : s₀.Idx → Elt F .f32)
    (h : ∀ j, (idx j).toNat < s₀.size hg.axis) (x : S16384x128.Idx) (X : s₀.Idx)
    (h0 : (X hg.axis).val = (idx (ix1 (x hg.axis'))).toNat)
    (h1 : ∀ b : Fin s₀.rank, b.val ≠ 0 → (X b).val = (x (b.cast hg.1.symm)).val) :
    gath hg idx src h x = src X := by
  unfold gath
  congr 1
  funext b
  apply Fin.ext
  by_cases hb : b.val = 0
  · have hba : b = hg.axis := Fin.ext hb
    subst hba
    rw [Shape.Gathers.idx_axis, h0]
  · rw [Shape.Gathers.idx_of_ne hg _ _ b hb, h1 b hb]

/-- A chunk of 128 gathered rows is the gathered array on the chunk's rows: the list the chunk's transfer reads
    holds entries `base …` of the index array, and the chunk's elements sit at rows `base …` of the output. -/
theorem gath_chunk {s₀ : Shape} (hgc : s₀.Gathers 0 S128x128) (hgb : s₀.Gathers 0 S16384x128) (src : s₀.Idx → Elt F .f32)
    (idx : S16384.Idx → Elt F .i32) (h : ∀ j, (idx j).toNat < s₀.size hgb.axis)
    (lst : S128.Idx → Elt F .i32) (hn : S128.numel = S128x128.size hgc.axis') (hl : ∀ x, (lst x).toNat < s₀.size hgc.axis)
    (base : ℕ) (hbase : base + 128 ≤ 16384)
    (hlst : ∀ x : S128.Idx, lst x = idx (ix1 ⟨base + (x ⟨0, Nat.one_pos⟩).val, by have := (x ⟨0, Nat.one_pos⟩).isLt; change _ < 128 at this; omega⟩))
    (y : S128x128.Idx) (X : S16384x128.Idx) (hX0 : (X hgb.axis').val = base + (y hgc.axis').val)
    (hX1 : (X ⟨1, by decide⟩).val = (y ⟨1, by decide⟩).val) :
    gatherPayload hgc src (rows lst hn hl) y = gath hgb idx src h X := by
  symm
  apply gath_apply
  · rw [Shape.Gathers.idx_axis]
    show (lst _).toNat = _
    rw [hlst]
    congr 3
    apply Fin.ext
    show base + ((S128.rowMajor.symm _) ⟨0, Nat.one_pos⟩).val = (X hgb.axis').val
    rw [hX0]
    congr 1
    have := Shape.rowMajor_val_one (d := ![128]) (S128.rowMajor.symm ((y hgc.axis').cast hn.symm))
    rw [Equiv.apply_symm_apply] at this
    exact this.symm
  · intro b hb
    rw [Shape.Gathers.idx_of_ne hgc _ _ b hb]
    have hb1 : b.val = 1 := by
      have h2 : s₀.rank = 2 := hgb.1.symm
      have := b.isLt
      omega
    have e1 : (b.cast hgb.1.symm : Fin S16384x128.rank) = ⟨1, by decide⟩ := Fin.ext hb1
    have e2 : (b.cast hgc.1.symm : Fin S128x128.rank) = ⟨1, by decide⟩ := Fin.ext hb1
    rw [e1]
    exact hX1.symm

/-- The first of the tile's 512 rows: `1024 s + 512 c` at subcore `s` of SparseCore `c`. -/
def base (L : grid1.Coords) : ℕ := 1024 * (L 1).val + 512 * (L 0).val

theorem base_le (L : grid1.Coords) : base L + 512 ≤ 16384 := by
  have h0 := (L 0).isLt
  have h1 := (L 1).isLt
  change (L 0).val < 2 at h0
  change (L 1).val < 16 at h1
  unfold base; omega

theorem gBig0 : S507904x128.Gathers 0 S16384x128 := by decide
theorem gBig1 : S50000x128.Gathers 0 S16384x128 := by decide

/-- What a chunk's list holds: the chunk's 128 entries of the tile's 512 of the index array. -/
theorem list9 (d : Dev nD) (L : grid1.Coords) (f9 : Buf (Elt F) ((m9).view.loc (thr d L))) (b8 : Buf (Elt F) ((s8).view.loc (thr d L)))
    (r : Fin 4) (hr : ∀ a, (![128 * r.val] : Fin 1 → ℕ) a + S128.size a ≤ S512.size a)
    (hR : ∀ a, (Rect.unit (s := S512) ![128 * r.val] S128.size hr).stride a = 1) (x : S128.Idx) :
    ((s8).slice (Rect.unit (s := S512) ![128 * r.val] S128.size hr) hR).view.read (Elt F)
        (View.write (Elt F) (s8).view b8 (ReadAs.same.apply ((i9K L).view.read (Elt F) f9)) Finset.univ) x
      = f9 (ix1 ⟨base L + 128 * r.val + (x ⟨0, Nat.one_pos⟩).val, by
          have := base_le L; have := r.isLt; have h := (x ⟨0, Nat.one_pos⟩).isLt; change _ < 128 at h; omega⟩) := by
  rw [ReadAs.apply_same]
  simp only [Memref.view_whole, View.write_whole_univ]
  rw [View.read_apply, cast_eq, View.read_apply, cast_eq]
  congr 1
  apply eq_ix1_of
  have e : k1_off1 L ⟨0, Nat.one_pos⟩ = base L := by rw [k1_off1_eq]; rfl
  show k1_off1 L ⟨0, Nat.one_pos⟩ + 1 * (128 * r.val + 1 * (x ⟨0, Nat.one_pos⟩).val) = base L + 128 * r.val + (x ⟨0, Nat.one_pos⟩).val
  rw [e]
  omega

theorem list11 (d : Dev nD) (L : grid1.Coords) (f11 : Buf (Elt F) ((m11).view.loc (thr d L))) (b9 : Buf (Elt F) ((s9).view.loc (thr d L)))
    (r : Fin 4) (hr : ∀ a, (![128 * r.val] : Fin 1 → ℕ) a + S128.size a ≤ S512.size a)
    (hR : ∀ a, (Rect.unit (s := S512) ![128 * r.val] S128.size hr).stride a = 1) (x : S128.Idx) :
    ((s9).slice (Rect.unit (s := S512) ![128 * r.val] S128.size hr) hR).view.read (Elt F)
        (View.write (Elt F) (s9).view b9 (ReadAs.same.apply ((i11K L).view.read (Elt F) f11)) Finset.univ) x
      = f11 (ix1 ⟨base L + 128 * r.val + (x ⟨0, Nat.one_pos⟩).val, by
          have := base_le L; have := r.isLt; have h := (x ⟨0, Nat.one_pos⟩).isLt; change _ < 128 at h; omega⟩) := by
  rw [ReadAs.apply_same]
  simp only [Memref.view_whole, View.write_whole_univ]
  rw [View.read_apply, cast_eq, View.read_apply, cast_eq]
  congr 1
  apply eq_ix1_of
  have e : k1_off1 L ⟨0, Nat.one_pos⟩ = base L := by rw [k1_off1_eq]; rfl
  show k1_off1 L ⟨0, Nat.one_pos⟩ + 1 * (128 * r.val + 1 * (x ⟨0, Nat.one_pos⟩).val) = base L + 128 * r.val + (x ⟨0, Nat.one_pos⟩).val
  rw [e]
  omega

/-- Where a chunk's elements sit in the output arrays: rows `base + 128 r …`, the columns their own. -/
theorem oK_off0 (L : grid1.Coords) (r : Fin 4) : k1_off2 L (BitVec.ofNat 32 (128 * r.val)) ⟨0, by decide⟩ = base L + 128 * r.val := by
  rw [k1_off2_eq L r]; rfl
theorem oK_off1 (L : grid1.Coords) (r : Fin 4) : k1_off2 L (BitVec.ofNat 32 (128 * r.val)) ⟨1, by decide⟩ = 0 := by
  rw [k1_off2_eq L r]; rfl

theorem o0K_emb0 (L : grid1.Coords) (r : Fin 4) (y : S128x128.Idx) :
    ((show S16384x128.Idx from (o0K L r).view.emb y) ⟨0, by decide⟩).val = base L + 128 * r.val + (y ⟨0, by decide⟩).val := by
  show k1_off2 L (BitVec.ofNat 32 (128 * r.val)) ⟨0, by decide⟩ + 1 * (y ⟨0, by decide⟩).val = _
  rw [oK_off0]; omega
theorem o0K_emb1 (L : grid1.Coords) (r : Fin 4) (y : S128x128.Idx) :
    ((show S16384x128.Idx from (o0K L r).view.emb y) ⟨1, by decide⟩).val = (y ⟨1, by decide⟩).val := by
  show k1_off2 L (BitVec.ofNat 32 (128 * r.val)) ⟨1, by decide⟩ + 1 * (y ⟨1, by decide⟩).val = _
  rw [oK_off1]; omega
theorem o1K_emb0 (L : grid1.Coords) (r : Fin 4) (y : S128x128.Idx) :
    ((show S16384x128.Idx from (o1K L r).view.emb y) ⟨0, by decide⟩).val = base L + 128 * r.val + (y ⟨0, by decide⟩).val := by
  show k1_off2 L (BitVec.ofNat 32 (128 * r.val)) ⟨0, by decide⟩ + 1 * (y ⟨0, by decide⟩).val = _
  rw [oK_off0]; omega
theorem o1K_emb1 (L : grid1.Coords) (r : Fin 4) (y : S128x128.Idx) :
    ((show S16384x128.Idx from (o1K L r).view.emb y) ⟨1, by decide⟩).val = (y ⟨1, by decide⟩).val := by
  show k1_off2 L (BitVec.ofNat 32 (128 * r.val)) ⟨1, by decide⟩ + 1 * (y ⟨1, by decide⟩).val = _
  rw [oK_off1]; omega

/-- A table read through the slice that is all of it is the table. -/
theorem read_m1 (d : Dev nD) (L : grid1.Coords) (f1 : Buf (Elt F) ((m1).view.loc (thr d L)))
    (hsl : ∀ a, (Rect.unit (s := S507904x128) ![0, 0] S507904x128.size inb_S507904x128_S507904x128_0_0).stride a = 1) :
    View.read (Elt F) ((m1).slice (Rect.unit (s := S507904x128) ![0, 0] S507904x128.size inb_S507904x128_S507904x128_0_0) hsl).view f1 = f1 := by
  funext x
  rw [View.read_apply, cast_eq]
  congr 1
  funext a; apply Fin.ext
  match a with
  | ⟨0, _⟩ => show 0 + 1 * (x ⟨0, _⟩).val = _; omega
  | ⟨1, _⟩ => show 0 + 1 * (x ⟨1, _⟩).val = _; omega
theorem read_m2 (d : Dev nD) (L : grid1.Coords) (f2 : Buf (Elt F) ((m2).view.loc (thr d L)))
    (hsl : ∀ a, (Rect.unit (s := S50000x128) ![0, 0] S50000x128.size inb_S50000x128_S50000x128_0_0).stride a = 1) :
    View.read (Elt F) ((m2).slice (Rect.unit (s := S50000x128) ![0, 0] S50000x128.size inb_S50000x128_S50000x128_0_0) hsl).view f2 = f2 := by
  funext x
  rw [View.read_apply, cast_eq]
  congr 1
  funext a; apply Fin.ext
  match a with
  | ⟨0, _⟩ => show 0 + 1 * (x ⟨0, _⟩).val = _; omega
  | ⟨1, _⟩ => show 0 + 1 * (x ⟨1, _⟩).val = _; omega

/-- A chunk's piece of the first output, written whole with the chunk's gathered rows, holds the gathered array. -/
theorem piece0 (d : Dev nD) (L : grid1.Coords) (r : Fin 4) (f9 : Buf (Elt F) ((m9).view.loc (thr d L))) (f1 : Buf (Elt F) ((m1).view.loc (thr d L)))
    (hin9 : ∀ j, (f9 j).toNat < 507904) (g0 : Buf (Elt F) ((mo0).view.loc (thr d L))) (b8 : Buf (Elt F) ((s8).view.loc (thr d L)))
    (hr : ∀ a, (![128 * r.val] : Fin 1 → ℕ) a + S128.size a ≤ S512.size a)
    (hR : ∀ a, (Rect.unit (s := S512) ![128 * r.val] S128.size hr).stride a = 1)
    (hsl : ∀ a, (Rect.unit (s := S507904x128) ![0, 0] S507904x128.size inb_S507904x128_S507904x128_0_0).stride a = 1)
    (hn : S128.numel = S128x128.size gathers_S507904x128_S128x128.axis')
    (hl : ∀ x, (((s8).slice (Rect.unit (s := S512) ![128 * r.val] S128.size hr) hR).view.read (Elt F)
        (View.write (Elt F) (s8).view b8 (ReadAs.same.apply ((i9K L).view.read (Elt F) f9)) Finset.univ) x).toNat < S507904x128.size gathers_S507904x128_S128x128.axis)
    (pay : S128x128.Idx → Elt F .f32)
    (hpay : pay = gatherPayload gathers_S507904x128_S128x128
      (View.read (Elt F) ((m1).slice (Rect.unit (s := S507904x128) ![0, 0] S507904x128.size inb_S507904x128_S507904x128_0_0) hsl).view f1)
      (rows (((s8).slice (Rect.unit (s := S512) ![128 * r.val] S128.size hr) hR).view.read (Elt F)
        (View.write (Elt F) (s8).view b8 (ReadAs.same.apply ((i9K L).view.read (Elt F) f9)) Finset.univ)) hn hl)) :
    ((o0K L r).view.loc (thr d L) ↦[(o0K L r).view.set]{fullShare} (o0K L r).view.writes (Elt F) g0 [⟨Rect.whole S128x128, pay⟩] : sProp 𝕄)
      = ((o0K L r).view.loc (thr d L) ↦[(o0K L r).view.set]{fullShare} gath gBig0 f9 f1 hin9) := by
  subst hpay
  apply pointsTo_congr
  intro i hi
  obtain ⟨y, -, rfl⟩ := Finset.mem_map.mp hi
  rw [View.writes_singleton]
  have e : (o0K L r).view.emb y = ((o0K L r).view.slice (Rect.whole S128x128)).emb y := by
    rw [View.emb_slice]
    show _ = (o0K L r).view.emb ((Rect.whole S128x128).emb y)
    rw [Rect.emb_whole_apply]
  rw [e, View.write_emb_of_mem _ _ (Finset.mem_univ y), cast_eq, ← e, read_m1]
  exact gath_chunk gathers_S507904x128_S128x128 gBig0 f1 f9 hin9 _ hn hl (base L + 128 * r.val)
    (by have := base_le L; have := r.isLt; omega) (fun x => list9 d L f9 b8 r hr hR x) y _ (o0K_emb0 L r y) (o0K_emb1 L r y)

/-- The same for the second output, from the second index array and table. -/
theorem piece1 (d : Dev nD) (L : grid1.Coords) (r : Fin 4) (f11 : Buf (Elt F) ((m11).view.loc (thr d L))) (f2 : Buf (Elt F) ((m2).view.loc (thr d L)))
    (hin11 : ∀ j, (f11 j).toNat < 50000) (g1 : Buf (Elt F) ((mo1).view.loc (thr d L))) (b9 : Buf (Elt F) ((s9).view.loc (thr d L)))
    (hr : ∀ a, (![128 * r.val] : Fin 1 → ℕ) a + S128.size a ≤ S512.size a)
    (hR : ∀ a, (Rect.unit (s := S512) ![128 * r.val] S128.size hr).stride a = 1)
    (hsl : ∀ a, (Rect.unit (s := S50000x128) ![0, 0] S50000x128.size inb_S50000x128_S50000x128_0_0).stride a = 1)
    (hn : S128.numel = S128x128.size gathers_S50000x128_S128x128.axis')
    (hl : ∀ x, (((s9).slice (Rect.unit (s := S512) ![128 * r.val] S128.size hr) hR).view.read (Elt F)
        (View.write (Elt F) (s9).view b9 (ReadAs.same.apply ((i11K L).view.read (Elt F) f11)) Finset.univ) x).toNat < S50000x128.size gathers_S50000x128_S128x128.axis)
    (pay : S128x128.Idx → Elt F .f32)
    (hpay : pay = gatherPayload gathers_S50000x128_S128x128
      (View.read (Elt F) ((m2).slice (Rect.unit (s := S50000x128) ![0, 0] S50000x128.size inb_S50000x128_S50000x128_0_0) hsl).view f2)
      (rows (((s9).slice (Rect.unit (s := S512) ![128 * r.val] S128.size hr) hR).view.read (Elt F)
        (View.write (Elt F) (s9).view b9 (ReadAs.same.apply ((i11K L).view.read (Elt F) f11)) Finset.univ)) hn hl)) :
    ((o1K L r).view.loc (thr d L) ↦[(o1K L r).view.set]{fullShare} (o1K L r).view.writes (Elt F) g1 [⟨Rect.whole S128x128, pay⟩] : sProp 𝕄)
      = ((o1K L r).view.loc (thr d L) ↦[(o1K L r).view.set]{fullShare} gath gBig1 f11 f2 hin11) := by
  subst hpay
  apply pointsTo_congr
  intro i hi
  obtain ⟨y, -, rfl⟩ := Finset.mem_map.mp hi
  rw [View.writes_singleton]
  have e : (o1K L r).view.emb y = ((o1K L r).view.slice (Rect.whole S128x128)).emb y := by
    rw [View.emb_slice]
    show _ = (o1K L r).view.emb ((Rect.whole S128x128).emb y)
    rw [Rect.emb_whole_apply]
  rw [e, View.write_emb_of_mem _ _ (Finset.mem_univ y), cast_eq, ← e, read_m2]
  exact gath_chunk gathers_S50000x128_S128x128 gBig1 f2 f11 hin11 _ hn hl (base L + 128 * r.val)
    (by have := base_le L; have := r.isLt; omega) (fun x => list11 d L f11 b9 r hr hR x) y _ (o1K_emb0 L r y) (o1K_emb1 L r y)

end Cert.KernelIdeal.Tile

end
-- ==== Proof.TileBody.lean ====
/-
  The SparseCore gather kernel's body at one tile, run once at symbolic grid coordinates: whatever the arrays hold,
  it returns the read shares it was handed and leaves on each chunk of the two outputs the gathered array.
-/
import proofs.«205759_g46823733461237_cont_8to1_c_287_19_alg».proof.Proof.TileVal

set_option synthInstance.maxSize 4096

noncomputable section

namespace Cert.KernelIdeal.Tile

open Cert.KernelIdeal Cert.KernelIdeal.Gen Cert.KernelIdeal.KL
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "m9" => (Memref.whole Cert.KernelIdeal.main_v9_scv : Memref Cert.KernelIdeal.sig Kind.scVector Space.hbm Cert.KernelIdeal.S16384 EltTy.i32)
local notation "m11" => (Memref.whole Cert.KernelIdeal.main_v11_scv : Memref Cert.KernelIdeal.sig Kind.scVector Space.hbm Cert.KernelIdeal.S16384 EltTy.i32)
local notation "m1" => (Memref.whole Cert.KernelIdeal.main_v1_scv : Memref Cert.KernelIdeal.sig Kind.scVector Space.hbm Cert.KernelIdeal.S507904x128 EltTy.f32)
local notation "m2" => (Memref.whole Cert.KernelIdeal.main_v2_scv : Memref Cert.KernelIdeal.sig Kind.scVector Space.hbm Cert.KernelIdeal.S50000x128 EltTy.f32)
local notation "mo0" => (Memref.whole Cert.KernelIdeal.main_v20_0_scv : Memref Cert.KernelIdeal.sig Kind.scVector Space.hbm Cert.KernelIdeal.S16384x128 EltTy.f32)
local notation "mo1" => (Memref.whole Cert.KernelIdeal.main_v20_1_scv : Memref Cert.KernelIdeal.sig Kind.scVector Space.hbm Cert.KernelIdeal.S16384x128 EltTy.f32)
local notation "s8" => (Memref.whole Cert.KernelIdeal.cc1_scratch0 : Memref Cert.KernelIdeal.sig Kind.scVector Space.vmem Cert.KernelIdeal.S512 EltTy.i32)
local notation "s9" => (Memref.whole Cert.KernelIdeal.cc1_scratch1 : Memref Cert.KernelIdeal.sig Kind.scVector Space.vmem Cert.KernelIdeal.S512 EltTy.i32)
local notation "s10" => (Memref.whole Cert.KernelIdeal.cc1_scratch2 : Memref Cert.KernelIdeal.sig Kind.scVector Space.vmem Cert.KernelIdeal.S2x128x128 EltTy.f32)
local notation "s11" => (Memref.whole Cert.KernelIdeal.cc1_scratch3 : Memref Cert.KernelIdeal.sig Kind.scVector Space.vmem Cert.KernelIdeal.S2x128x128 EltTy.f32)
open Idealize.ShloMosaic.ValueIdx (ix1 ix2)

variable [FloatOps F]

set_option maxHeartbeats 4000000 in
/-- The gather kernel's body at one tile, whatever the arrays hold: from read shares of the two index arrays and the
    two tables (every index naming a row), the tile's chunks of the two outputs, its scratch and its semaphores at
    zero, the body runs to its end — the two index fetches, then per chunk the two gathers into a slot, their waits,
    the two copy-outs, each copy-out waited for before its slot is gathered into again and at the end — and leaves
    the shares as they were and each chunk holding the gathered array on its rows. -/
theorem tile_core (d : Dev nD) (L : grid1.Coords) (O : CellTallies nD τ sig (HIx 1)) (W : Waits sig (HIx 1))
    (q9 q11 q1 q2 : PosShare TreeShare)
    (f9 : Buf (Elt F) ((m9).view.loc (thr d L))) (f11 : Buf (Elt F) ((m11).view.loc (thr d L)))
    (f1 : Buf (Elt F) ((m1).view.loc (thr d L))) (f2 : Buf (Elt F) ((m2).view.loc (thr d L)))
    (g0 : Buf (Elt F) ((mo0).view.loc (thr d L))) (g1 : Buf (Elt F) ((mo1).view.loc (thr d L)))
    (b8 : Buf (Elt F) ((s8).view.loc (thr d L))) (b9 : Buf (Elt F) ((s9).view.loc (thr d L)))
    (b10 : Buf (Elt F) ((s10).view.loc (thr d L))) (b11 : Buf (Elt F) ((s11).view.loc (thr d L)))
    (hin9 : ∀ j, (f9 j).toNat < 507904) (hin11 : ∀ j, (f11 j).toNat < 50000) :
    (iprop(Transfers.MayWaits (thr d L) none O
        ∗ ((m9).view.loc (thr d L) ↦{q9} f9) ∗ ((m11).view.loc (thr d L) ↦{q11} f11)
        ∗ ((m1).view.loc (thr d L) ↦{q1} f1) ∗ ((m2).view.loc (thr d L) ↦{q2} f2)
        ∗ ((o0K L 0).view.loc (thr d L) ↦[(o0K L 0).view.set]{fullShare} g0)
        ∗ ((o0K L 1).view.loc (thr d L) ↦[(o0K L 1).view.set]{fullShare} g0)
        ∗ ((o0K L 2).view.loc (thr d L) ↦[(o0K L 2).view.set]{fullShare} g0)
        ∗ ((o0K L 3).view.loc (thr d L) ↦[(o0K L 3).view.set]{fullShare} g0)
        ∗ ((o1K L 0).view.loc (thr d L) ↦[(o1K L 0).view.set]{fullShare} g1)
        ∗ ((o1K L 1).view.loc (thr d L) ↦[(o1K L 1).view.set]{fullShare} g1)
        ∗ ((o1K L 2).view.loc (thr d L) ↦[(o1K L 2).view.set]{fullShare} g1)
        ∗ ((o1K L 3).view.loc (thr d L) ↦[(o1K L 3).view.set]{fullShare} g1)
        ∗ ((s8).view.loc (thr d L) ↦{fullShare} b8) ∗ ((s9).view.loc (thr d L) ↦{fullShare} b9)
        ∗ ((s10).view.loc (thr d L) ↦{fullShare} b10) ∗ ((s11).view.loc (thr d L) ↦{fullShare} b11)
        ∗ semVal (semc d L cc1_scratch4) 0 ∗ semVal (semc d L cc1_scratch5) 0 ∗ semVal (semc d L cc1_scratch6) 0
        ∗ semVal (semc d L cc1_scratch7) 0 ∗ semVal (semc d L cc1_scratch8) 0 ∗ semVal (semc d L cc1_scratch9) 0
        ∗ semVal (semc d L cc1_scoped0) 0 ∗ semVal (semc d L cc1_scoped1) 0
        ∗ owes (thr d L) O W) : sProp 𝕄)
      ⊢ wp frame (wpE (defs₀ (F := F)) Variants.none (thr d L) none) Set.univ
          (cc1_gather_kernel L m9 (Memref.isWhole_whole _) m11 (Memref.isWhole_whole _) m1 (Memref.isWhole_whole _) m2 (Memref.isWhole_whole _)
            mo0 (Memref.isWhole_whole _) mo1 (Memref.isWhole_whole _) s8 (Memref.isWhole_whole _) s9 (Memref.isWhole_whole _)
            s10 (Memref.isWhole_whole _) s11 (Memref.isWhole_whole _)
            cc1_scratch4 cc1_scratch5 cc1_scratch6 cc1_scratch7 cc1_scratch8 cc1_scratch9 cc1_scoped0 cc1_scoped1)
          (fun _ => iprop(
            ((m9).view.loc (thr d L) ↦{q9} f9) ∗ ((m11).view.loc (thr d L) ↦{q11} f11)
            ∗ ((m1).view.loc (thr d L) ↦{q1} f1) ∗ ((m2).view.loc (thr d L) ↦{q2} f2)
            ∗ ((o0K L 0).view.loc (thr d L) ↦[(o0K L 0).view.set]{fullShare} gath gBig0 f9 f1 hin9)
            ∗ ((o0K L 1).view.loc (thr d L) ↦[(o0K L 1).view.set]{fullShare} gath gBig0 f9 f1 hin9)
            ∗ ((o0K L 2).view.loc (thr d L) ↦[(o0K L 2).view.set]{fullShare} gath gBig0 f9 f1 hin9)
            ∗ ((o0K L 3).view.loc (thr d L) ↦[(o0K L 3).view.set]{fullShare} gath gBig0 f9 f1 hin9)
            ∗ ((o1K L 0).view.loc (thr d L) ↦[(o1K L 0).view.set]{fullShare} gath gBig1 f11 f2 hin11)
            ∗ ((o1K L 1).view.loc (thr d L) ↦[(o1K L 1).view.set]{fullShare} gath gBig1 f11 f2 hin11)
            ∗ ((o1K L 2).view.loc (thr d L) ↦[(o1K L 2).view.set]{fullShare} gath gBig1 f11 f2 hin11)
            ∗ ((o1K L 3).view.loc (thr d L) ↦[(o1K L 3).view.set]{fullShare} gath gBig1 f11 f2 hin11)
            ∗ (∃ b, (s8).view.loc (thr d L) ↦{fullShare} b) ∗ (∃ b, (s9).view.loc (thr d L) ↦{fullShare} b)
            ∗ (∃ b, (s10).view.loc (thr d L) ↦{fullShare} b) ∗ (∃ b, (s11).view.loc (thr d L) ↦{fullShare} b)
            ∗ semVal (semc d L cc1_scratch4) 0 ∗ semVal (semc d L cc1_scratch5) 0 ∗ semVal (semc d L cc1_scratch6) 0
            ∗ semVal (semc d L cc1_scratch7) 0 ∗ semVal (semc d L cc1_scratch8) 0 ∗ semVal (semc d L cc1_scratch9) 0
            ∗ semVal (semc d L cc1_scoped0) 0 ∗ semVal (semc d L cc1_scoped1) 0
            ∗ ∃ W', ⌜∀ p ∈ W', p ∈ W ∨ p.2 = none⌝ ∗ owes (thr d L) O W')) := by
  iintro ⟨#Hmw, H9, H11, H1, H2, Ho00, Ho01, Ho02, Ho03, Ho10, Ho11, Ho12, Ho13, H8, Hs9, H10, Hs11, Hc4, Hc5, Hc6, Hc7, Hc8, Hc9, Hp0, Hp1, HO⟩
  have hin8 := idx_inb9 d L 507904 f9 hin9
  have hin9' := idx_inb11 d L 50000 f11 hin11
  sl_unfold [cc1_gather_kernel]
  sl_exec_parts
  sl_step
  isplitl [H9]; · iexact H9
  isplitl [H11]; · iexact H11
  isplitl [H1]; · iexact H1
  isplitl [H2]; · iexact H2
  isplitl [Ho00]
  · rw [← piece0 d L 0 f9 f1 hin9 g0 b8 _ _ _ _ _ (tile_core.sl.dma0_2 d L f9 f1 b8 b10 hin8) (View.read_write_univ _ _)]; iexact Ho00
  isplitl [Ho01]
  · rw [← piece0 d L 1 f9 f1 hin9 g0 b8 _ _ _ _ _ (tile_core.sl.dma0_4 d L f9 f1 b8 b10 hin8) (View.read_write_univ _ _)]; iexact Ho01
  isplitl [Ho02]
  · rw [← piece0 d L 2 f9 f1 hin9 g0 b8 _ _ _ _ _ (tile_core.sl.dma0_6 d L f9 f1 b8 b10 hin8) (View.read_write_univ _ _)]; iexact Ho02
  isplitl [Ho03]
  · rw [← piece0 d L 3 f9 f1 hin9 g0 b8 _ _ _ _ _ (tile_core.sl.dma0_8 d L f9 f1 b8 b10 hin8) (View.read_write_univ _ _)]; iexact Ho03
  isplitl [Ho10]
  · rw [← piece1 d L 0 f11 f2 hin11 g1 b9 _ _ _ _ _ (tile_core.sl.dma0_3 d L f11 f2 b9 b11 hin9') (View.read_write_univ _ _)]; iexact Ho10
  isplitl [Ho11]
  · rw [← piece1 d L 1 f11 f2 hin11 g1 b9 _ _ _ _ _ (tile_core.sl.dma0_5 d L f11 f2 b9 b11 hin9') (View.read_write_univ _ _)]; iexact Ho11
  isplitl [Ho12]
  · rw [← piece1 d L 2 f11 f2 hin11 g1 b9 _ _ _ _ _ (tile_core.sl.dma0_7 d L f11 f2 b9 b11 hin9') (View.read_write_univ _ _)]; iexact Ho12
  isplitl [Ho13]
  · rw [← piece1 d L 3 f11 f2 hin11 g1 b9 _ _ _ _ _ (tile_core.sl.dma0_9 d L f11 f2 b9 b11 hin9') (View.read_write_univ _ _)]; iexact Ho13
  isplitl [H8]; · iexists _; iexact H8
  isplitl [Hs9]; · iexists _; iexact Hs9
  isplitl [H10]; · iexists _; iexact H10
  isplitl [Hs11]; · iexists _; iexact Hs11
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hp0]; · iexact Hp0
  isplitl [Hp1]; · iexact Hp1
  iexists _
  isplitr
  swap
  · iexact HO
  · ipureintro
    intro p hp
    repeat (rcases Finset.mem_insert.mp hp with rfl | hp; · exact Or.inr rfl)
    exact Or.inl hp

end Cert.KernelIdeal.Tile

end
-- ==== Proof.TileObl.lean ====
/-
  The gather kernel's obligation to the SparseCore launch: a tile's scoped storage opened into the kernel's four scratch
  buffers and eight semaphores, the task run from what the go signal carries to what taskDone carries, and the
  gathered arrays identified with the launch's closed forms of them.
-/
import proofs.«205759_g46823733461237_cont_8to1_c_287_19_alg».proof.Proof.TileBody
import proofs.«205759_g46823733461237_cont_8to1_c_287_19_alg».proof.Proof.KPay

set_option synthInstance.maxSize 4096

noncomputable section

namespace Cert.KernelIdeal.Tile

open Cert.KernelIdeal Cert.KernelIdeal.Gen Cert.KernelIdeal.KL
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "m9" => (Memref.whole Cert.KernelIdeal.main_v9_scv : Memref Cert.KernelIdeal.sig Kind.scVector Space.hbm Cert.KernelIdeal.S16384 EltTy.i32)
local notation "m11" => (Memref.whole Cert.KernelIdeal.main_v11_scv : Memref Cert.KernelIdeal.sig Kind.scVector Space.hbm Cert.KernelIdeal.S16384 EltTy.i32)
local notation "m1" => (Memref.whole Cert.KernelIdeal.main_v1_scv : Memref Cert.KernelIdeal.sig Kind.scVector Space.hbm Cert.KernelIdeal.S507904x128 EltTy.f32)
local notation "m2" => (Memref.whole Cert.KernelIdeal.main_v2_scv : Memref Cert.KernelIdeal.sig Kind.scVector Space.hbm Cert.KernelIdeal.S50000x128 EltTy.f32)
local notation "mo0" => (Memref.whole Cert.KernelIdeal.main_v20_0_scv : Memref Cert.KernelIdeal.sig Kind.scVector Space.hbm Cert.KernelIdeal.S16384x128 EltTy.f32)
local notation "mo1" => (Memref.whole Cert.KernelIdeal.main_v20_1_scv : Memref Cert.KernelIdeal.sig Kind.scVector Space.hbm Cert.KernelIdeal.S16384x128 EltTy.f32)
local notation "s8" => (Memref.whole Cert.KernelIdeal.cc1_scratch0 : Memref Cert.KernelIdeal.sig Kind.scVector Space.vmem Cert.KernelIdeal.S512 EltTy.i32)
local notation "s9" => (Memref.whole Cert.KernelIdeal.cc1_scratch1 : Memref Cert.KernelIdeal.sig Kind.scVector Space.vmem Cert.KernelIdeal.S512 EltTy.i32)
local notation "s10" => (Memref.whole Cert.KernelIdeal.cc1_scratch2 : Memref Cert.KernelIdeal.sig Kind.scVector Space.vmem Cert.KernelIdeal.S2x128x128 EltTy.f32)
local notation "s11" => (Memref.whole Cert.KernelIdeal.cc1_scratch3 : Memref Cert.KernelIdeal.sig Kind.scVector Space.vmem Cert.KernelIdeal.S2x128x128 EltTy.f32)

open Idealize.ShloMosaic.ValueIdx (ix1 ix2)

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

variable (m : (ℓ : Loc nD τ sig) → Buf (Elt F) ℓ)
variable [FloatOps F]

/-- The gathered array of the first table is the launch's closed form of it; -/
theorem gath_eq_D20 (d : Dev nD) (f1 : Buf (Elt F) (tcLoc d main_v1)) (h : ∀ j, (A9 m d j).toNat < 507904) :
    gath gBig0 (A9 m d) f1 h = D20 m d f1 := by
  funext x
  unfold D20
  apply gath_apply
  · show (A9 m d (ix1 (x 0))).toNat % 507904 = (A9 m d (ix1 (x 0))).toNat
    exact Nat.mod_eq_of_lt (h _)
  · intro b hb
    have hb1 : b.val = 1 := by have := b.isLt; change _ < 2 at this; omega
    have e : b = ⟨1, by decide⟩ := Fin.ext hb1
    subst e
    rfl

/-- and of the second. -/
theorem gath_eq_G20 (d : Dev nD) (h : ∀ j, (A11 m d j).toNat < 50000) :
    gath gBig1 (A11 m d) (A2 m d) h = G20 m d := by
  funext x
  unfold G20
  apply gath_apply
  · show (A11 m d (ix1 (x 0))).toNat % 50000 = (A11 m d (ix1 (x 0))).toNat
    exact Nat.mod_eq_of_lt (h _)
  · intro b hb
    have hb1 : b.val = 1 := by have := b.isLt; change _ < 2 at this; omega
    have e : b = ⟨1, by decide⟩ := Fin.ext hb1
    subst e
    rfl

/-- Two of the tile's semaphore cells differ when their semaphores do. -/
theorem semc_ne (d : Dev nD) (L : grid1.Coords) {a b : DmaSems sig S_} (h : a.sem ≠ b.sem) : semc d L a ≠ semc d L b :=
  fun e => h (by injection e with _ e2; injection e2)

theorem mem_own (d : Dev nD) (L : grid1.Coords) (a : DmaSems sig S_) (h : (SemLoc.dma a.sem : SemLoc sig).isScoped .scVector = true) :
    semc d L a ∈ ownCells (thr d L) := (mem_ownCells (g := semc d L a)).mpr ⟨rfl, h⟩

/-- The tile's eight DMA semaphores are among its own cells: they, at zero, and the rest. -/
theorem ownSems0_V (d : Dev nD) (L : grid1.Coords) :
    (ownSems0 (thr d L) : sProp 𝕄)
      = iprop(semVal (semc d L cc1_scratch4) 0 ∗ semVal (semc d L cc1_scratch5) 0 ∗ semVal (semc d L cc1_scratch6) 0 ∗ semVal (semc d L cc1_scratch7) 0 ∗ semVal (semc d L cc1_scratch8) 0 ∗ semVal (semc d L cc1_scratch9) 0 ∗ semVal (semc d L cc1_scoped0) 0 ∗ semVal (semc d L cc1_scoped1) 0
          ∗ bigSep (((((((((ownCells (thr d L)).erase (semc d L cc1_scratch4)).erase (semc d L cc1_scratch5)).erase (semc d L cc1_scratch6)).erase (semc d L cc1_scratch7)).erase (semc d L cc1_scratch8)).erase (semc d L cc1_scratch9)).erase (semc d L cc1_scoped0)).erase (semc d L cc1_scoped1)) fun g => semVal g 0) := by
  unfold SparseCore.Cfg.ownSems0
  rw [SparseCore.bigSep_erase' (mem_own d L cc1_scratch4 (by decide)),
    SparseCore.bigSep_erase' (Finset.mem_erase.mpr ⟨semc_ne d L (by decide), mem_own d L cc1_scratch5 (by decide)⟩),
    SparseCore.bigSep_erase' (Finset.mem_erase.mpr ⟨semc_ne d L (by decide), Finset.mem_erase.mpr ⟨semc_ne d L (by decide), mem_own d L cc1_scratch6 (by decide)⟩⟩),
    SparseCore.bigSep_erase' (Finset.mem_erase.mpr ⟨semc_ne d L (by decide), Finset.mem_erase.mpr ⟨semc_ne d L (by decide), Finset.mem_erase.mpr ⟨semc_ne d L (by decide), mem_own d L cc1_scratch7 (by decide)⟩⟩⟩),
    SparseCore.bigSep_erase' (Finset.mem_erase.mpr ⟨semc_ne d L (by decide), Finset.mem_erase.mpr ⟨semc_ne d L (by decide), Finset.mem_erase.mpr ⟨semc_ne d L (by decide), Finset.mem_erase.mpr ⟨semc_ne d L (by decide), mem_own d L cc1_scratch8 (by decide)⟩⟩⟩⟩),
    SparseCore.bigSep_erase' (Finset.mem_erase.mpr ⟨semc_ne d L (by decide), Finset.mem_erase.mpr ⟨semc_ne d L (by decide), Finset.mem_erase.mpr ⟨semc_ne d L (by decide), Finset.mem_erase.mpr ⟨semc_ne d L (by decide), Finset.mem_erase.mpr ⟨semc_ne d L (by decide), mem_own d L cc1_scratch9 (by decide)⟩⟩⟩⟩⟩),
    SparseCore.bigSep_erase' (Finset.mem_erase.mpr ⟨semc_ne d L (by decide), Finset.mem_erase.mpr ⟨semc_ne d L (by decide), Finset.mem_erase.mpr ⟨semc_ne d L (by decide), Finset.mem_erase.mpr ⟨semc_ne d L (by decide), Finset.mem_erase.mpr ⟨semc_ne d L (by decide), Finset.mem_erase.mpr ⟨semc_ne d L (by decide), mem_own d L cc1_scoped0 (by decide)⟩⟩⟩⟩⟩⟩),
    SparseCore.bigSep_erase' (Finset.mem_erase.mpr ⟨semc_ne d L (by decide), Finset.mem_erase.mpr ⟨semc_ne d L (by decide), Finset.mem_erase.mpr ⟨semc_ne d L (by decide), Finset.mem_erase.mpr ⟨semc_ne d L (by decide), Finset.mem_erase.mpr ⟨semc_ne d L (by decide), Finset.mem_erase.mpr ⟨semc_ne d L (by decide), Finset.mem_erase.mpr ⟨semc_ne d L (by decide), mem_own d L cc1_scoped1 (by decide)⟩⟩⟩⟩⟩⟩⟩)]

theorem scr_ne_10 : (cc1_scratch1 : Ref sig .scVector) ≠ cc1_scratch0 := by decide
theorem scr_ne_21 : (cc1_scratch2 : Ref sig .scVector) ≠ cc1_scratch1 := by decide
theorem scr_ne_20 : (cc1_scratch2 : Ref sig .scVector) ≠ cc1_scratch0 := by decide
theorem scr_ne_32 : (cc1_scratch3 : Ref sig .scVector) ≠ cc1_scratch2 := by decide
theorem scr_ne_31 : (cc1_scratch3 : Ref sig .scVector) ≠ cc1_scratch1 := by decide
theorem scr_ne_30 : (cc1_scratch3 : Ref sig .scVector) ≠ cc1_scratch0 := by decide

/-- A scratch buffer of the tile, as a buffer of the device. -/
abbrev sref (L : grid1.Coords) (b : Ref sig .scVector) : DevRef τ sig := (Proc.scVector (cV L) (jV L)).devRef b

/-- The four scratch buffers are among the tile's own: they, at some contents, and the rest. -/
theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f)
          ∗ bigSep (((((ownRefs (τ := τ) (.scVector (cV L) (jV L))).erase (sref L cc1_scratch0)).erase (sref L cc1_scratch1)).erase (sref L cc1_scratch2)).erase (sref L cc1_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := sref L cc1_scratch0) rfl)).trans ?_
  rw [SparseCore.bigSep_erase' (Finset.mem_erase.mpr ⟨fun e => absurd (Proc.devRef_injective _ e) scr_ne_10, SparseCore.Cfg.mem_ownRefs_of_owner (p := Proc.scVector (cV L) (jV L)) (b := sref L cc1_scratch1) rfl⟩),
    SparseCore.bigSep_erase' (Finset.mem_erase.mpr ⟨fun e => absurd (Proc.devRef_injective _ e) scr_ne_21, Finset.mem_erase.mpr ⟨fun e => absurd (Proc.devRef_injective _ e) scr_ne_20, SparseCore.Cfg.mem_ownRefs_of_owner (p := Proc.scVector (cV L) (jV L)) (b := sref L cc1_scratch2) rfl⟩⟩),
    SparseCore.bigSep_erase' (Finset.mem_erase.mpr ⟨fun e => absurd (Proc.devRef_injective _ e) scr_ne_32, Finset.mem_erase.mpr ⟨fun e => absurd (Proc.devRef_injective _ e) scr_ne_31, Finset.mem_erase.mpr ⟨fun e => absurd (Proc.devRef_injective _ e) scr_ne_30, SparseCore.Cfg.mem_ownRefs_of_owner (p := Proc.scVector (cV L) (jV L)) (b := sref L cc1_scratch3) rfl⟩⟩⟩)]

set_option maxHeartbeats 4000000 in
/-- What the task's obligation asks after the body: the tile's results packed as the handshake carries them, its
    scratch and semaphores as it got them. -/
theorem post_conv (hF : (K (F := F)).Facts) (hin9 : ∀ d j, (A9 m d j).toNat < 507904) (hin11 : ∀ d j, (A11 m d j).toNat < 50000)
    (d : Dev nD) (c : Fin (grid1.bound 0)) (s : Fin (grid1.bound 1)) (O : CellTallies nD τ sig (HIx 1)) (W : Waits sig (HIx 1))
    (f1 : Buf (Elt F) (tcLoc d main_v1)) (hG : Good1 m d f1) (Rb Rs : sProp 𝕄)
    (hRb : (ownBufs (thr d (coordsV c s)) : sProp 𝕄) = iprop((∃ f, (thr d (coordsV c s)).loc cc1_scratch0 ↦{fullShare} f) ∗ (∃ f, (thr d (coordsV c s)).loc cc1_scratch1 ↦{fullShare} f) ∗ (∃ f, (thr d (coordsV c s)).loc cc1_scratch2 ↦{fullShare} f) ∗ (∃ f, (thr d (coordsV c s)).loc cc1_scratch3 ↦{fullShare} f) ∗ Rb))
    (hRs : (ownSems0 (thr d (coordsV c s)) : sProp 𝕄) = iprop(semVal (semc d (coordsV c s) cc1_scratch4) 0 ∗ semVal (semc d (coordsV c s) cc1_scratch5) 0 ∗ semVal (semc d (coordsV c s) cc1_scratch6) 0 ∗ semVal (semc d (coordsV c s) cc1_scratch7) 0 ∗ semVal (semc d (coordsV c s) cc1_scratch8) 0 ∗ semVal (semc d (coordsV c s) cc1_scratch9) 0 ∗ semVal (semc d (coordsV c s) cc1_scoped0) 0 ∗ semVal (semc d (coordsV c s) cc1_scoped1) 0 ∗ Rs)) :
    (iprop((((m9).view.loc (thr d (coordsV c s)) ↦{sh c s} A9 m d) ∗ ((m11).view.loc (thr d (coordsV c s)) ↦{sh c s} A11 m d)
        ∗ ((m1).view.loc (thr d (coordsV c s)) ↦{sh c s} f1) ∗ ((m2).view.loc (thr d (coordsV c s)) ↦{sh c s} A2 m d)
        ∗ ((o0K (coordsV c s) 0).view.loc (thr d (coordsV c s)) ↦[(o0K (coordsV c s) 0).view.set]{fullShare} gath gBig0 (A9 m d) f1 (hin9 d))
        ∗ ((o0K (coordsV c s) 1).view.loc (thr d (coordsV c s)) ↦[(o0K (coordsV c s) 1).view.set]{fullShare} gath gBig0 (A9 m d) f1 (hin9 d))
        ∗ ((o0K (coordsV c s) 2).view.loc (thr d (coordsV c s)) ↦[(o0K (coordsV c s) 2).view.set]{fullShare} gath gBig0 (A9 m d) f1 (hin9 d))
        ∗ ((o0K (coordsV c s) 3).view.loc (thr d (coordsV c s)) ↦[(o0K (coordsV c s) 3).view.set]{fullShare} gath gBig0 (A9 m d) f1 (hin9 d))
        ∗ ((o1K (coordsV c s) 0).view.loc (thr d (coordsV c s)) ↦[(o1K (coordsV c s) 0).view.set]{fullShare} gath gBig1 (A11 m d) (A2 m d) (hin11 d))
        ∗ ((o1K (coordsV c s) 1).view.loc (thr d (coordsV c s)) ↦[(o1K (coordsV c s) 1).view.set]{fullShare} gath gBig1 (A11 m d) (A2 m d) (hin11 d))
        ∗ ((o1K (coordsV c s) 2).view.loc (thr d (coordsV c s)) ↦[(o1K (coordsV c s) 2).view.set]{fullShare} gath gBig1 (A11 m d) (A2 m d) (hin11 d))
        ∗ ((o1K (coordsV c s) 3).view.loc (thr d (coordsV c s)) ↦[(o1K (coordsV c s) 3).view.set]{fullShare} gath gBig1 (A11 m d) (A2 m d) (hin11 d))
        ∗ (∃ b, (s8).view.loc (thr d (coordsV c s)) ↦{fullShare} b) ∗ (∃ b, (s9).view.loc (thr d (coordsV c s)) ↦{fullShare} b)
        ∗ (∃ b, (s10).view.loc (thr d (coordsV c s)) ↦{fullShare} b) ∗ (∃ b, (s11).view.loc (thr d (coordsV c s)) ↦{fullShare} b)
        ∗ semVal (semc d (coordsV c s) cc1_scratch4) 0 ∗ semVal (semc d (coordsV c s) cc1_scratch5) 0 ∗ semVal (semc d (coordsV c s) cc1_scratch6) 0 ∗ semVal (semc d (coordsV c s) cc1_scratch7) 0 ∗ semVal (semc d (coordsV c s) cc1_scratch8) 0 ∗ semVal (semc d (coordsV c s) cc1_scratch9) 0 ∗ semVal (semc d (coordsV c s) cc1_scoped0) 0 ∗ semVal (semc d (coordsV c s) cc1_scoped1) 0
        ∗ ∃ W', ⌜∀ p ∈ W', p ∈ W ∨ p.2 = none⌝ ∗ owes (thr d (coordsV c s)) O W') ∗ Rb ∗ Rs) : sProp 𝕄)
      ⊢ iprop(tileTd m d c s ∗ scopedBufs (thr d (coordsV c s)) ∗ scopedSems0 (thr d (coordsV c s))
          ∗ ∃ W', ⌜∀ p ∈ W', p ∈ W ∨ p.2 = none⌝ ∗ owes (thr d (coordsV c s)) O W') := by
  iintro ⟨⟨H9, H11, H1, H2, Ho00, Ho01, Ho02, Ho03, Ho10, Ho11, Ho12, Ho13, H8, Hs9, H10, Hs11, Hc4, Hc5, Hc6, Hc7, Hc8, Hc9, Hp0, Hp1, HO⟩, HRb, HRs⟩
  isplitl [H9 H11 H1 H2 Ho00 Ho01 Ho02 Ho03 Ho10 Ho11 Ho12 Ho13]
  · unfold tileTd
    simp only [bigSep_fin4]
    rewrite [← gath_eq_G20 m d (hin11 d)]
    isplitl [H9]; · iexact H9
    isplitl [H11]; · iexact H11
    isplitl [H1 Ho00 Ho01 Ho02 Ho03]
    · iexists f1
      rewrite [← gath_eq_D20 m d f1 (hin9 d)]
      isplitr; · ipureintro; exact hG
      isplitl [H1]; · iexact H1
      isplitl [Ho00]; · iexact Ho00
      isplitl [Ho01]; · iexact Ho01
      isplitl [Ho02]; · iexact Ho02
      iexact Ho03
    isplitl [H2]; · iexact H2
    isplitl [Ho10]; · iexact Ho10
    isplitl [Ho11]; · iexact Ho11
    isplitl [Ho12]; · iexact Ho12
    iexact Ho13
  isplitl [H8 Hs9 H10 Hs11 HRb]
  · iapply (Entails.of_eq ((K (F := F)).scopedBufs_V hF d _ _).symm)
    iapply (Entails.of_eq hRb.symm)
    isplitl [H8]; · iexact H8
    isplitl [Hs9]; · iexact Hs9
    isplitl [H10]; · iexact H10
    isplitl [Hs11]; · iexact Hs11
    iexact HRb
  isplitl [Hc4 Hc5 Hc6 Hc7 Hc8 Hc9 Hp0 Hp1 HRs]
  · iapply (Entails.of_eq (SparseCore.Cfg.scopedSems0_V d _ _).symm)
    iapply (Entails.of_eq hRs.symm)
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hp0]; · iexact Hp0
    isplitl [Hp1]; · iexact Hp1
    iexact HRs
  iexact HO

set_option maxHeartbeats 4000000 in
/-- The task on the tile at SparseCore `c`, vector subcore `s`: from what the go signal carries and the tile's scoped
    storage to what taskDone carries and the storage back. -/
theorem tile_body (hF : (K (F := F)).Facts) (hin9 : ∀ d j, (A9 m d j).toNat < 507904) (hin11 : ∀ d j, (A11 m d j).toNat < 50000)
    (d : Dev nD) (c : Fin (grid1.bound 0)) (s : Fin (grid1.bound 1)) (O : CellTallies nD τ sig (HIx 1)) (W : Waits sig (HIx 1))
    (hO : ∀ g, O g none = 0) :
    (iprop(levAts (K (F := F)).L (K (F := F)).lev ∗ emp ∗ tileGo m d c s
        ∗ scopedBufs (thr d (coordsV c s)) ∗ scopedSems0 (thr d (coordsV c s)) ∗ owes (thr d (coordsV c s)) O W) : sProp 𝕄)
      ⊢ wp frame (wpE (defs₀ (F := F)) 𝒱₀ (thr d (coordsV c s)) none) Set.univ
          (cc1_gather_kernel (coordsV c s) m9 (Memref.isWhole_whole _) m11 (Memref.isWhole_whole _) m1 (Memref.isWhole_whole _) m2 (Memref.isWhole_whole _)
            mo0 (Memref.isWhole_whole _) mo1 (Memref.isWhole_whole _) s8 (Memref.isWhole_whole _) s9 (Memref.isWhole_whole _)
            s10 (Memref.isWhole_whole _) s11 (Memref.isWhole_whole _)
            cc1_scratch4 cc1_scratch5 cc1_scratch6 cc1_scratch7 cc1_scratch8 cc1_scratch9 cc1_scoped0 cc1_scoped1)
          fun _ => iprop(tileTd m d c s ∗ scopedBufs (thr d (coordsV c s)) ∗ scopedSems0 (thr d (coordsV c s))
            ∗ ∃ W', ⌜∀ p ∈ W', p ∈ W ∨ p.2 = none⌝ ∗ owes (thr d (coordsV c s)) O W') := by
  iintro ⟨#Hlv, -, Hgo, Hb, Hs, HO⟩
  ihave Hb1 := (Entails.of_eq ((K (F := F)).scopedBufs_V hF d _ _)) $$ Hb
  ihave Hb2 := (Entails.of_eq (ownBufs_V d (coordsV c s))) $$ Hb1
  ihave Hs1 := (Entails.of_eq (SparseCore.Cfg.scopedSems0_V d _ _)) $$ Hs
  ihave Hs2 := (Entails.of_eq (ownSems0_V d (coordsV c s))) $$ Hs1
  icases Hb2 with ⟨⟨%b8, H8⟩, ⟨%b9, Hs9⟩, ⟨%b10, H10⟩, ⟨%b11, Hs11⟩, HRb⟩
  icases Hs2 with ⟨Hc4, Hc5, Hc6, Hc7, Hc8, Hc9, Hp0, Hp1, HRs⟩
  unfold tileGo
  simp only [bigSep_fin4]
  icases Hgo with ⟨H9, H11, ⟨%f1, %hG, H1⟩, H2, ⟨Ho00, Ho01, Ho02, Ho03⟩, ⟨Ho10, Ho11, Ho12, Ho13⟩⟩
  ihave Hmw := ((K (F := F)).mayWaits_none (thr := (thr d (coordsV c s))) hO) $$ Hlv
  have core := tile_core d (coordsV c s) O W (sh c s) (sh c s) (sh c s) (sh c s) (A9 m d) (A11 m d) f1 (A2 m d)
    (VB m d (Proc.devRef .tc main_v20_0)) (VB m d (Proc.devRef .tc main_v20_1)) b8 b9 b10 b11 (hin9 d) (hin11 d)
  iapply ((sep_mono core .rfl).trans ((wp_frame_r frame _ _).trans (wp_mono frame _ _ fun _ =>
    post_conv m hF hin9 hin11 d c s O W f1 hG _ _ (ownBufs_V d (coordsV c s)) (ownSems0_V d (coordsV c s)))))
  isplitr [HRb HRs]
  · isplitr; · iexact Hmw
    isplitl [H9]; · iexact H9
    isplitl [H11]; · iexact H11
    isplitl [H1]; · iexact H1
    isplitl [H2]; · iexact H2
    isplitl [Ho00]; · iexact Ho00
    isplitl [Ho01]; · iexact Ho01
    isplitl [Ho02]; · iexact Ho02
    isplitl [Ho03]; · iexact Ho03
    isplitl [Ho10]; · iexact Ho10
    isplitl [Ho11]; · iexact Ho11
    isplitl [Ho12]; · iexact Ho12
    isplitl [Ho13]; · iexact Ho13
    isplitl [H8]; · iexact H8
    isplitl [Hs9]; · iexact Hs9
    isplitl [H10]; · iexact H10
    isplitl [Hs11]; · iexact Hs11
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hp0]; · iexact Hp0
    isplitl [Hp1]; · iexact Hp1
    iexact HO
  · isplitl [HRb]; · iexact HRb
    iexact HRs

/-- The body table at a vector subcore, for the gather kernel's label: the kernel at the subcore's coordinates. -/
theorem defs₀_vector (c : Fin τ.nSC) (s : Fin τ.nSub) :
    defs₀ (F := F) (.scVector c s) 1 ()
      = SparseCore.onTile hcore1 hsub1 (fun c s => (cc1_gather_kernel (coordsV c s) m9 (Memref.isWhole_whole _) m11 (Memref.isWhole_whole _) m1 (Memref.isWhole_whole _) m2 (Memref.isWhole_whole _) mo0 (Memref.isWhole_whole _) mo1 (Memref.isWhole_whole _) s8 (Memref.isWhole_whole _) s9 (Memref.isWhole_whole _) s10 (Memref.isWhole_whole _) s11 (Memref.isWhole_whole _) cc1_scratch4 cc1_scratch5 cc1_scratch6 cc1_scratch7 cc1_scratch8 cc1_scratch9 cc1_scoped0 cc1_scoped1)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
set_option maxHeartbeats 4000000 in
/-- The gather kernel's obligation to the launch: every tile's task, from the go signal's payload to taskDone's. -/
theorem tileObl (hF : (K (F := F)).Facts) (hin9 : ∀ d j, (A9 m d j).toNat < 507904) (hin11 : ∀ d j, (A11 m d j).toNat < 50000) :
    (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hin9 hin11 d ⟨_, hci.1⟩ ⟨_, hci.2⟩ O W hO).trans (wp_mono frame _ _ fun _ => obl_post)

end Cert.KernelIdeal.Tile

end
-- ==== Proof.RegBase.lean ====
import proofs.«205759_g46823733461237_cont_8to1_c_287_19_alg».proof.Proof.Gen.KernelIdeal.Launch

noncomputable section

namespace Cert.KernelIdeal.Reg

open Cert.KernelIdeal Cert.KernelIdeal.Gen
open Idealize.ShloMosaic Idealize.ShloMosaic.TcCoe

variable {F : FTy → Type} [FloatOps F]

/-- The TensorCore's buffer contents on every device: what a region's proof data are stated at. -/
abbrev TcVal (F : FTy → Type) : Type := (c : Dev nD) → (b : Ref sig .tc) → Buf (Elt F) ((c : Thread nD τ).loc b)

/-- The prefetched tables' admissible contents: neither pipeline has a table. -/
abbrev adm : (p : Fin 2) → (pcfgs (F := F) p).Adm := fun p => (cfgs p).toPCfg_adm

end Cert.KernelIdeal.Reg

end
-- ==== Proof.RegBody0.lean ====
import proofs.«205759_g46823733461237_cont_8to1_c_287_19_alg».proof.Proof.Gen.KernelIdeal.Launch
import proofs.«205759_g46823733461237_cont_8to1_c_287_19_alg».proof.Proof.Gen.KernelIdeal.Skeleton
import proofs.«205759_g46823733461237_cont_8to1_c_287_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants)

/-! # The first TensorCore call's body: what it leaves in the output block

The body reads its whole (64, 16384) input block, transposes its two 8192-column halves and stores them side by side as the
whole (8192, 128) output block: output row `r` is `[in(:, r), in(:, 8192 + r)]`. -/

abbrev r0_i : Rect S64x16384 := Rect.unit (s := S64x16384) ![0, 0] S64x16384.size inb_S64x16384_S64x16384_0_0
abbrev r0_o : Rect S8192x128 := Rect.unit (s := S8192x128) ![0, 0] S8192x128.size inb_S8192x128_S8192x128_0_0

/-- The output staging buffer after the body: its one store, as a piece. -/
def out0_1 (x0 : Vec F S64x16384 .f32) : Vec F S8192x128 .f32 :=
  View.canon [⟨r0_o, k0_pay1 (View.ld x0 r0_i)⟩]

/-- The store tiles the buffer. -/
theorem cover0_1 (p0 : Vec F S8192x128 .f32) (y : S8192x128.Idx) :
    ∃ pc ∈ ([⟨r0_o, p0⟩] : List (View.Piece (Elt F) S8192x128 .f32)), y ∈ pc.1.set :=
  View.cover_of_tiled [⟨r0_o, p0⟩] S8192x128.size (by rfl) y

set_option maxHeartbeats 1000000 in
/-- The body on whole staging memrefs, the input's at read contents `x0` and the output's at anything, runs to the
    continuation holding the input's as it was and the output's at `out0_1 x0`. -/
theorem sound_kernel0 (c : Dev nD) (E : Set Name) (i : grid0.Coords) (arg1 : Memref sig .tc .vmem S64x16384 .f32) (harg1 : arg1.IsWhole)
    (arg2 : Memref sig .tc .vmem S8192x128 .f32) (harg2 : arg2.IsWhole) (x0 : Vec F S64x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) 𝒱₀ c none) E (cc0__tp_body i arg1 harg1 arg2 harg2) K := by
  simp only [cc0__tp_body_eq_skeleton]; unfold cc0__tp_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The output block at an index -/

/-- The payload at a lane of the first half: the first half's transposed column. -/
theorem k0_pay1_left (x0 : Vec F S64x16384 .f32) (r : Fin 8192) (k : Fin 64) :
    k0_pay1 x0 (ix2 r ⟨k.val, by omega⟩) = x0 (ix2 k ⟨r.val, by omega⟩) := by
  unfold k0_pay1
  refine (concatenate_pair_apply_left (t := S8192x128) (1 : Fin 2) _ _ concatenates_S8192x64_S8192x64_S8192x128_d1 (ix2 r (⟨k.val, by omega⟩ : Fin 128)) rfl (ix2 r k) ?_).trans ?_
  · intro b; match b with | ⟨0, _⟩ => rfl | ⟨1, _⟩ => rfl
  refine (transpose_apply [1, 0] _ transposes_S64x8192_p1_0_S8192x64 (ix2 r k) (ix2 k r) ?_).trans ?_
  · intro b; match b with | ⟨0, _⟩ => rfl | ⟨1, _⟩ => rfl
  refine (extractStridedSlice_apply ![0, 0] _ slices_S64x16384_o0_0_S64x8192 (ix2 k r) (ix2 k (⟨r.val, by omega⟩ : Fin 16384)) ?_).trans ?_
  · intro b; match b with | ⟨0, _⟩ => (show k.val = 0 + k.val; omega) | ⟨1, _⟩ => (show r.val = 0 + r.val; omega)
  rw [shapeCast_self]

/-- The payload at a lane of the second half: the second half's transposed column. -/
theorem k0_pay1_right (x0 : Vec F S64x16384 .f32) (r : Fin 8192) (k : Fin 64) :
    k0_pay1 x0 (ix2 r ⟨64 + k.val, by omega⟩) = x0 (ix2 k ⟨8192 + r.val, by omega⟩) := by
  unfold k0_pay1
  refine (concatenate_pair_apply_right (t := S8192x128) (1 : Fin 2) _ _ concatenates_S8192x64_S8192x64_S8192x128_d1 (ix2 r (⟨64 + k.val, by omega⟩ : Fin 128)) rfl rfl (ix2 r k) ?_ ?_).trans ?_
  · intro b hb; match b, hb with | ⟨0, _⟩, _ => rfl | ⟨1, _⟩, hb => exact absurd rfl hb
  · show k.val + 64 = 64 + k.val; omega
  refine (transpose_apply [1, 0] _ transposes_S64x8192_p1_0_S8192x64 (ix2 r k) (ix2 k r) ?_).trans ?_
  · intro b; match b with | ⟨0, _⟩ => rfl | ⟨1, _⟩ => rfl
  refine (extractStridedSlice_apply ![0, 8192] _ slices_S64x16384_o0_8192_S64x8192 (ix2 k r) (ix2 k (⟨8192 + r.val, by omega⟩ : Fin 16384)) ?_).trans ?_
  · intro b; match b with | ⟨0, _⟩ => (show k.val = 0 + k.val; omega) | ⟨1, _⟩ => (show 8192 + r.val = 8192 + r.val; rfl)
  rw [shapeCast_self]

/-- The output block is the payload of the whole input block. -/
theorem out0_1_eq (x0 : Vec F S64x16384 .f32) : out0_1 x0 = k0_pay1 x0 := by
  have hz : (![0, 0] : Fin 2 → Nat) = fun _ => 0 := funext fun a => by fin_cases a <;> rfl
  unfold out0_1
  rw [View.canon_unit_zero hz, View.ld_unit_zero hz]

/-- Output row `r`, lane `64 h + k` is input row `k`, column `8192 h + r`. -/
theorem out0_1_apply (x0 : Vec F S64x16384 .f32) (r : Fin 8192) (h : Fin 2) (k : Fin 64) :
    out0_1 x0 (ix2 r (⟨64 * h.val + k.val, by omega⟩ : Fin 128)) = x0 (ix2 k (⟨8192 * h.val + r.val, by omega⟩ : Fin 16384)) := by
  rw [out0_1_eq]
  match h with
  | ⟨0, _⟩ =>
    have e := k0_pay1_left x0 r k
    refine Eq.trans (congrArg (k0_pay1 x0) ?_) (e.trans (congrArg x0 ?_))
    · exact congrArg (ix2 r) (Fin.ext (by show 64 * 0 + k.val = k.val; omega))
    · exact congrArg (ix2 k) (Fin.ext (by show r.val = 8192 * 0 + r.val; omega))
  | ⟨1, _⟩ =>
    have e := k0_pay1_right x0 r k
    refine Eq.trans (congrArg (k0_pay1 x0) ?_) (e.trans (congrArg x0 ?_))
    · exact congrArg (ix2 r) (Fin.ext (by show 64 * 1 + k.val = 64 + k.val; omega))
    · exact congrArg (ix2 k) (Fin.ext (by show 8192 + r.val = 8192 * 1 + r.val; omega))

end Cert.KernelIdeal.Reg

end
-- ==== Proof.RegDat0.lean ====
import proofs.«205759_g46823733461237_cont_8to1_c_287_19_alg».proof.Proof.RegBase
import proofs.«205759_g46823733461237_cont_8to1_c_287_19_alg».proof.Proof.RegBody0

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants) (ι : Ix)
variable (V : TcVal F) (O : Dev nD → CellTallies nD τ sig Ix) (R : Dev nD → Set (SemLoc sig × Ix))

/-! # The first TensorCore call: proof data and body obligation, at the entry contents `V`

The input's last block overhangs the array: the fetch fills the staging buffer's columns inside the array and leaves the
others at words nothing names, and the body transposes those too. So what the body leaves in the output buffer is
constrained, not named: on the columns inside the array it is the transposed halves of the input block. -/

/-- A coordinate of a block is among those a cut transfer moves iff it lies inside the array. -/
theorem clip_of_extent_lt {ix k d j : Nat} (hj : j < k) : j < (Pipeline.Clip.of ix k d).extent k ↔ ix * k + j < d := by
  have e : (ix + 1) * k = ix * k + k := Nat.succ_mul ix k
  unfold Pipeline.Clip.of; split
  · next h => exact ⟨fun _ => by omega, fun _ => hj⟩
  · next h => show j < d - ix * k ↔ _; omega

/-- The input array as the region finds it, as a function of row and column. -/
abbrev in0 (c : Dev nD) : S64x1000000.Idx → Elt F .f32 := V c main_v0

/-! ## The input block, read at an index -/

/-- Every row of the input block is moved: the array has the block's 64 rows. -/
theorem xsize0_0 (t : Fin cfg0.N) (j : Fin 64) : j.val < win0_0.xsize (grid0.coords t) 0 := by
  show j.val < (Pipeline.Clip.of (cc0_transform_0 (grid0.coords t) 0) 64 64).extent 64
  rw [clip_of_extent_lt j.isLt]
  show 0 * 64 + j.val < 64
  omega

/-- A column of the input block is moved iff it lies inside the array. -/
theorem xsize0_1 (t : Fin cfg0.N) (j : Fin 16384) : j.val < win0_0.xsize (grid0.coords t) 1 ↔ 16384 * t.val + j.val < 1000000 := by
  show j.val < (Pipeline.Clip.of (cc0_transform_0 (grid0.coords t) 1) 16384 1000000).extent 16384 ↔ _
  rw [clip_of_extent_lt j.isLt]
  have e : cc0_transform_0 (grid0.coords t) 1 = t.val :=
    (by decide +kernel : ∀ t : Fin grid0.N, cc0_transform_0 (grid0.coords t) 1 = t.val) t
  rw [e]; omega

/-- The input block at point `t`, read at an index: the array at the block's offset. -/
theorem blk0_read (c : Dev nD) (t : Fin cfg0.N) (y : (win0_0.xblock (grid0.coords t)).Idx)
    (h0 : (y 0).val < 64) (h1 : 16384 * t.val + (y 1).val < 1000000) :
    (win0_0.blk t).view.read (Elt F) (V c main_v0) y = in0 V c (ix2 ⟨(y 0).val, h0⟩ ⟨16384 * t.val + (y 1).val, h1⟩) := by
  rw [View.read_apply]
  show in0 V c _ = in0 V c _
  refine congrArg (in0 V c) (funext fun a => Fin.ext ?_)
  have hi : win0_0.index t 1 = t.val := (by decide +kernel : ∀ t : Fin grid0.N, win0_0.index t 1 = t.val) t
  have hi0 : win0_0.index t 0 = 0 := (by decide +kernel : ∀ t : Fin grid0.N, win0_0.index t 0 = 0) t
  match a with
  | ⟨0, _⟩ =>
    show ((win0_0.rect t).emb y (0 : Fin 2) : Nat) = (y 0).val
    rw [win0_0.rect_emb_val t y 0, hi0]; show 0 * 64 + (y 0).val = _; omega
  | ⟨1, _⟩ =>
    show ((win0_0.rect t).emb y (1 : Fin 2) : Nat) = 16384 * t.val + (y 1).val
    rw [win0_0.rect_emb_val t y 1, hi]; show t.val * 16384 + (y 1).val = _; omega

/-- The block index built from a row and a column inside the array. -/
def yOf (t : Fin cfg0.N) (k : Fin 64) (j : Fin 16384) (hc : 16384 * t.val + j.val < 1000000) : (win0_0.xblock (grid0.coords t)).Idx :=
  fun a => match a with
    | ⟨0, _⟩ => ⟨k.val, xsize0_0 t k⟩
    | ⟨1, _⟩ => ⟨j.val, (xsize0_1 t j).mpr hc⟩

/-- A just-fetched input buffer, at a column inside the array, holds the array's word. -/
theorem fetched0_apply (c : Dev nD) (t : Fin cfg0.N) (d : S64x16384.Idx → Elt F .f32) (k : Fin 64) (j : Fin 16384) (hc : 16384 * t.val + j.val < 1000000) :
    win0_0.fill (grid0.coords t) d ((win0_0.blk t).view.read (Elt F) (V c main_v0)) (ix2 k j) = in0 V c (ix2 k (⟨16384 * t.val + j.val, hc⟩ : Fin 1000000)) := by
  have e : (ix2 k j : S64x16384.Idx) = win0_0.xinj (grid0.coords t) (yOf t k j hc) := by
    funext a; match a with | ⟨0, _⟩ => rfl | ⟨1, _⟩ => rfl
  rw [e, win0_0.fill_xinj]
  exact blk0_read V c t (yOf t k j hc) k.isLt hc

/-! ## The proof data -/

/-- What the body may leave in the output block at point `t`: row `r`, lane `64 h + k` is the input array's row `k`,
    column `16384 t + 8192 h + r`, wherever that column is inside the array. -/
def Rel0 (c : Dev nD) (t : Fin cfg0.N) (X : S8192x128.Idx → Elt F .f32) : Prop :=
  ∀ (r : Fin 8192) (h : Fin 2) (k : Fin 64) (hc : 16384 * t.val + 8192 * h.val + r.val < 1000000),
    X (ix2 r (⟨64 * h.val + k.val, by omega⟩ : Fin 128)) = in0 V c (ix2 k (⟨16384 * t.val + 8192 * h.val + r.val, hc⟩ : Fin 1000000))

/-- The proof data of the first pipeline on core `c`: the arrays as the region finds them; the input's buffer left as
    found, the output's in the relation `Rel0`; the invariant the scoped buffers no window stages, untouched; the core
    owing `O c` throughout, its recorded pairs within `R c`. -/
def rdat0 (c : Dev nD) : RDat τ (Elt F) Ix Name U Lvl cfg0 c where
  A w := V c (Pipeline.arrRef spec0 w)
  after w t Y X := match w with
    | ⟨0, _⟩ => X = Y
    | ⟨1, _⟩ => Rel0 V c t X
  Φ _ := Pipeline.scopedRest (Ix := Ix) (Name := Name) (U := U) (Lvl := Lvl) (Val := Elt F) spec0 c
  q _ := fullShare
  owed _ := O c
  recorded _ := R c

theorem after0_0 (c : Dev nD) (t : Fin cfg0.N) (Y X) : (rdat0 (Name := Name) (U := U) (Lvl := Lvl) V O R c).after 0 t Y X = (X = Y) := by dsimp only [rdat0]
theorem after0_1 (c : Dev nD) (t : Fin cfg0.N) (Y X) : (rdat0 (Name := Name) (U := U) (Lvl := Lvl) V O R c).after 1 t Y X = Rel0 V c t X := by dsimp only [rdat0]

/-! ## The body obligation -/

/-- What the body leaves from a just-fetched input block is in the relation. -/
theorem rel0_out (c : Dev nD) (t : Fin cfg0.N) (d : S64x16384.Idx → Elt F .f32) :
    Rel0 V c t (out0_1 (win0_0.fill (grid0.coords t) d ((win0_0.blk t).view.read (Elt F) (V c main_v0)))) := by
  intro r h k hc
  rw [out0_1_apply]
  refine (fetched0_apply V c t d k (⟨8192 * h.val + r.val, by omega⟩ : Fin 16384) (by show 16384 * t.val + (8192 * h.val + r.val) < 1000000; omega)).trans ?_
  exact congrArg (in0 V c) (congrArg (ix2 k) (Fin.ext (by show 16384 * t.val + (8192 * h.val + r.val) = 16384 * t.val + 8192 * h.val + r.val; omega)))

/-- The body at any point, on a just-fetched input buffer and any output buffer: the input's is left as found, the output's
    in the relation; the invariant and the core's `owes` pass through unread. -/
theorem sound_body0 (c : Dev nD) (t : Fin cfg0.N) (Y0 : S64x16384.Idx → Elt F .f32) (Y1 : S8192x128.Idx → Elt F .f32)
    (d : S64x16384.Idx → Elt F .f32) (hd : Y0 = win0_0.fill (grid0.coords t) d ((win0_0.blk t).view.read (Elt F) (V c main_v0))) :
    iprop((rdat0 (Name := Name) (U := U) (Lvl := Lvl) V O R c).Φ t.castSucc ∗ (rdat0 (Name := Name) (U := U) (Lvl := Lvl) V O R c).owesAt ι t.castSucc
        ∗ owns (c : Thread nD τ) (st0_0 t) fullShare Y0 ∗ owns (c : Thread nD τ) (st0_1 t) fullShare Y1)
      ⊢ wp frame (wpE (defs₀ (F := F)) 𝒱₀ c none) Set.univ (bodyAt0 t) (fun _ =>
          iprop((rdat0 (Name := Name) (U := U) (Lvl := Lvl) V O R c).Φ t.succ ∗ (rdat0 (Name := Name) (U := U) (Lvl := Lvl) V O R c).owesAt ι t.succ
            ∗ (∃ X, ⌜(rdat0 (Name := Name) (U := U) (Lvl := Lvl) V O R c).after 0 t Y0 X⌝ ∗ owns (c : Thread nD τ) (st0_0 t) fullShare X)
            ∗ (∃ X, ⌜(rdat0 (Name := Name) (U := U) (Lvl := Lvl) V O R c).after 1 t Y1 X⌝ ∗ owns (c : Thread nD τ) (st0_1 t) fullShare X))) := by
  unfold bodyAt0
  rw [show (rdat0 (Name := Name) (U := U) (Lvl := Lvl) V O R c).Φ t.succ = (rdat0 (Name := Name) (U := U) (Lvl := Lvl) V O R c).Φ t.castSucc from rfl,
    show (rdat0 (Name := Name) (U := U) (Lvl := Lvl) V O R c).owesAt ι t.succ = (rdat0 (Name := Name) (U := U) (Lvl := Lvl) V O R c).owesAt ι t.castSucc from rfl]
  iintro ⟨HΦ, Ho, H0, H1⟩
  iapply (sound_kernel0 𝒱₀ c Set.univ _ _ _ _ _ Y0 _)
  isplitl [H0]; · iexact H0
  isplitl [H1]; · iexists _; iexact H1
  iintro ⟨H0, H1⟩
  isplitl [HΦ]; · iexact HΦ
  isplitl [Ho]; · iexact Ho
  isplitl [H0]
  · iexists Y0; isplitr; · ipureintro; rw [after0_0]
    iexact H0
  iexists (out0_1 Y0); isplitr
  · ipureintro; rw [after0_1, hd]; exact rel0_out V c t d
  iexact H1

/-- The library's body obligation of relational proof data, at every point. -/
theorem body_obligation0 (c : Dev nD) : (rdat0 (Name := Name) (U := U) (Lvl := Lvl) V O R c).BodyObligation (defs₀ (F := F)) 𝒱₀ ι Set.univ := fun t Y hY => by
  rw [bigSep_W0, bigSep_W0]
  obtain ⟨d, hd⟩ := ((rdat0 (Name := Name) (U := U) (Lvl := Lvl) V O R c).finds_of_fetch (fetch0_0 t) (Y 0)).mp (hY 0)
  exact sound_body0 𝒱₀ ι V O R c t (Y 0) (Y 1) d hd

end Cert.KernelIdeal.Reg

end
-- ==== Proof.RegBody2.lean ====
import proofs.«205759_g46823733461237_cont_8to1_c_287_19_alg».proof.Proof.Gen.KernelIdeal.Launch
import proofs.«205759_g46823733461237_cont_8to1_c_287_19_alg».proof.Proof.Gen.KernelIdeal.Skeleton
import proofs.«205759_g46823733461237_cont_8to1_c_287_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants)

/-! # The second TensorCore call's body: what it leaves in the output block

The body reads its eight input blocks whole, computes, and stores the whole output block. -/

abbrev r2_a : Rect S2048x128 := Rect.unit (s := S2048x128) ![0, 0] S2048x128.size inb_S2048x128_S2048x128_0_0
abbrev r2_b : Rect S2048x1 := Rect.unit (s := S2048x1) ![0, 0] S2048x1.size inb_S2048x1_S2048x1_0_0
abbrev r2_c : Rect S64x128 := Rect.unit (s := S64x128) ![0, 0] S64x128.size inb_S64x128_S64x128_0_0
abbrev r2_d : Rect S1x128 := Rect.unit (s := S1x128) ![0, 0] S1x128.size inb_S1x128_S1x128_0_0
abbrev r2_e : Rect S1x1 := Rect.unit (s := S1x1) ![0, 0] S1x1.size inb_S1x1_S1x1_0_0
abbrev r2_o : Rect S2048 := Rect.unit (s := S2048) ![0] S2048.size inb_S2048_S2048_0

/-- The output block as the body's arithmetic over the eight input blocks (the generated payloads). -/
def pay2 (x0 : Vec F S2048x128 .f32) (x1 : Vec F S2048x128 .f32) (x2 : Vec F S2048x1 .i32) (x3 : Vec F S2048x1 .i32) (x4 : Vec F S64x128 .f32) (x5 : Vec F S1x128 .f32) (x6 : Vec F S1x128 .f32) (x7 : Vec F S1x1 .f32) : FVec F S2048 .f32 :=
  k2_pay1 (k2_pay2 (View.ld x0 r2_a) (View.ld x2 r2_b)) (k2_pay3 (View.ld x1 r2_a) (View.ld x3 r2_b))
    (k2_pay4 (View.ld x1 r2_a) (View.ld x3 r2_b)) (k2_pay5 (View.ld x0 r2_a) (View.ld x2 r2_b))
    (k2_pay6 (View.ld x1 r2_a) (View.ld x3 r2_b)) (k2_pay7 (F := F))
    (View.ld x4 r2_c) (View.ld x5 r2_d) (View.ld x6 r2_d) (View.ld x7 r2_e)

/-- The output staging buffer after the body: its one store, as a piece. -/
def out2_8 (x0 : Vec F S2048x128 .f32) (x1 : Vec F S2048x128 .f32) (x2 : Vec F S2048x1 .i32) (x3 : Vec F S2048x1 .i32) (x4 : Vec F S64x128 .f32) (x5 : Vec F S1x128 .f32) (x6 : Vec F S1x128 .f32) (x7 : Vec F S1x1 .f32) : Vec F S2048 .f32 :=
  View.canon [⟨r2_o, pay2 x0 x1 x2 x3 x4 x5 x6 x7⟩]

/-- The store tiles the buffer. -/
theorem cover2_8 (p0 : Vec F S2048 .f32) (y : S2048.Idx) :
    ∃ pc ∈ ([⟨r2_o, p0⟩] : List (View.Piece (Elt F) S2048 .f32)), y ∈ pc.1.set :=
  View.cover_of_tiled [⟨r2_o, p0⟩] S2048.size (by rfl) y

set_option maxHeartbeats 1000000 in
/-- The body on whole staging memrefs, the inputs' at read contents `xW` and the output's at anything, runs to the
    continuation holding the inputs' as they were and the output's at `out2_8` of the inputs'. -/
theorem sound_kernel2 (c : Dev nD) (E : Set Name) (i : grid2.Coords) (arg1 : Memref sig .tc .vmem S2048x128 .f32) (harg1 : arg1.IsWhole) (arg2 : Memref sig .tc .vmem S2048x128 .f32) (harg2 : arg2.IsWhole) (arg3 : Memref sig .tc .vmem S2048x1 .i32) (harg3 : arg3.IsWhole) (arg4 : Memref sig .tc .vmem S2048x1 .i32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S2048 .f32) (harg9 : arg9.IsWhole)
    (x0 : Vec F S2048x128 .f32) (x1 : Vec F S2048x128 .f32) (x2 : Vec F S2048x1 .i32) (x3 : Vec F S2048x1 .i32) (x4 : Vec F S64x128 .f32) (x5 : Vec F S1x128 .f32) (x6 : Vec F S1x128 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) 𝒱₀ c none) E (cc2__head_body i arg1 harg1 arg2 harg2 arg3 harg3 arg4 harg4 arg5 harg5 arg6 harg6 arg7 harg7 arg8 harg8 arg9 harg9) K := by
  simp only [cc2__head_body_eq_skeleton]; unfold cc2__head_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

end Cert.KernelIdeal.Reg

end
-- ==== Proof.RegDat2.lean ====
import proofs.«205759_g46823733461237_cont_8to1_c_287_19_alg».proof.Proof.RegBase
import proofs.«205759_g46823733461237_cont_8to1_c_287_19_alg».proof.Proof.RegBody2

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants) (ι : Ix)
variable (V : TcVal F) (O : Dev nD → CellTallies nD τ sig Ix) (R : Dev nD → Set (SemLoc sig × Ix))

/-! # The second TensorCore call: proof data and body obligation, at the entry contents `V`

## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not (the four
    whole-array windows are fetched once, at the first point), for any proof data whose array is `V`'s and whose body
    leaves the block in place. -/
theorem before2_0_of {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Ix Name U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Ix Name U Lvl cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Ix Name U Lvl cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Ix Name U Lvl cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Ix Name U Lvl cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The proof data of the second pipeline on core `c`: the arrays as the region finds them; after the body at point
    `t` each input's buffer at its block and the output's at `out2_8` of the input blocks; the invariant the scoped
    buffers no window stages, untouched; the core owing `O c` throughout, its recorded pairs within `R c`. -/
def dat2 (c : Dev nD) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.scopedRest (Ix := Ix) (Name := Name) (U := U) (Lvl := Lvl) (Val := Elt F) spec2 c
  q _ := fullShare
  owed _ := O c
  recorded _ := R c

theorem A_eq2 (c : Dev nD) (w : Fin cfg2.W) : (dat2 (Name := Name) (U := U) (Lvl := Lvl) V O R c).A w = V c (Pipeline.arrRef spec2 w) := by
  dsimp only [dat2]

theorem after2_0 (c : Dev nD) (t : Fin cfg2.N) : (dat2 (Name := Name) (U := U) (Lvl := Lvl) V O R c).after 0 t = iblk2 V c 0 t := by dsimp only [dat2]
theorem after2_1 (c : Dev nD) (t : Fin cfg2.N) : (dat2 (Name := Name) (U := U) (Lvl := Lvl) V O R c).after 1 t = iblk2 V c 1 t := by dsimp only [dat2]
theorem after2_2 (c : Dev nD) (t : Fin cfg2.N) : (dat2 (Name := Name) (U := U) (Lvl := Lvl) V O R c).after 2 t = iblk2 V c 2 t := by dsimp only [dat2]
theorem after2_3 (c : Dev nD) (t : Fin cfg2.N) : (dat2 (Name := Name) (U := U) (Lvl := Lvl) V O R c).after 3 t = iblk2 V c 3 t := by dsimp only [dat2]
theorem after2_4 (c : Dev nD) (t : Fin cfg2.N) : (dat2 (Name := Name) (U := U) (Lvl := Lvl) V O R c).after 4 t = iblk2 V c 4 t := by dsimp only [dat2]
theorem after2_5 (c : Dev nD) (t : Fin cfg2.N) : (dat2 (Name := Name) (U := U) (Lvl := Lvl) V O R c).after 5 t = iblk2 V c 5 t := by dsimp only [dat2]
theorem after2_6 (c : Dev nD) (t : Fin cfg2.N) : (dat2 (Name := Name) (U := U) (Lvl := Lvl) V O R c).after 6 t = iblk2 V c 6 t := by dsimp only [dat2]
theorem after2_7 (c : Dev nD) (t : Fin cfg2.N) : (dat2 (Name := Name) (U := U) (Lvl := Lvl) V O R c).after 7 t = iblk2 V c 7 t := by dsimp only [dat2]
theorem after2_8 (c : Dev nD) (t : Fin cfg2.N) : (dat2 (Name := Name) (U := U) (Lvl := Lvl) V O R c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 (Name := Name) (U := U) (Lvl := Lvl) V O R c).before 0 t d = iblk2 V c 0 t :=
  before2_0_of V (dat2 (Name := Name) (U := U) (Lvl := Lvl) V O R c) (A_eq2 V O R c 0) (after2_0 V O R c) t d
theorem before2_1 (c : Dev nD) (t : Fin cfg2.N) (d) : (dat2 (Name := Name) (U := U) (Lvl := Lvl) V O R c).before 1 t d = iblk2 V c 1 t :=
  before2_1_of V (dat2 (Name := Name) (U := U) (Lvl := Lvl) V O R c) (A_eq2 V O R c 1) (after2_1 V O R c) t d
theorem before2_2 (c : Dev nD) (t : Fin cfg2.N) (d) : (dat2 (Name := Name) (U := U) (Lvl := Lvl) V O R c).before 2 t d = iblk2 V c 2 t :=
  before2_2_of V (dat2 (Name := Name) (U := U) (Lvl := Lvl) V O R c) (A_eq2 V O R c 2) (after2_2 V O R c) t d
theorem before2_3 (c : Dev nD) (t : Fin cfg2.N) (d) : (dat2 (Name := Name) (U := U) (Lvl := Lvl) V O R c).before 3 t d = iblk2 V c 3 t :=
  before2_3_of V (dat2 (Name := Name) (U := U) (Lvl := Lvl) V O R c) (A_eq2 V O R c 3) (after2_3 V O R c) t d
theorem before2_4 (c : Dev nD) (t : Fin cfg2.N) (d) : (dat2 (Name := Name) (U := U) (Lvl := Lvl) V O R c).before 4 t d = iblk2 V c 4 t :=
  before2_4_of V (dat2 (Name := Name) (U := U) (Lvl := Lvl) V O R c) (A_eq2 V O R c 4) (after2_4 V O R c) t d
theorem before2_5 (c : Dev nD) (t : Fin cfg2.N) (d) : (dat2 (Name := Name) (U := U) (Lvl := Lvl) V O R c).before 5 t d = iblk2 V c 5 t :=
  before2_5_of V (dat2 (Name := Name) (U := U) (Lvl := Lvl) V O R c) (A_eq2 V O R c 5) (after2_5 V O R c) t d
theorem before2_6 (c : Dev nD) (t : Fin cfg2.N) (d) : (dat2 (Name := Name) (U := U) (Lvl := Lvl) V O R c).before 6 t d = iblk2 V c 6 t :=
  before2_6_of V (dat2 (Name := Name) (U := U) (Lvl := Lvl) V O R c) (A_eq2 V O R c 6) (after2_6 V O R c) t d
theorem before2_7 (c : Dev nD) (t : Fin cfg2.N) (d) : (dat2 (Name := Name) (U := U) (Lvl := Lvl) V O R c).before 7 t d = iblk2 V c 7 t :=
  before2_7_of V (dat2 (Name := Name) (U := U) (Lvl := Lvl) V O R c) (A_eq2 V O R c 7) (after2_7 V O R c) t d

/-! ## The body obligation, at a generic point -/

/-- What the body is called with at point `t`, the windows one by one, -/
def bodyPre2 (c : Dev nD) (t : Fin cfg2.N) : sProp 𝕄 :=
  iprop((dat2 (Name := Name) (U := U) (Lvl := Lvl) V O R c).Φ t.castSucc ∗ (dat2 (Name := Name) (U := U) (Lvl := Lvl) V O R c).owesAt ι t.castSucc
    ∗ (∃ d, owns (c : Thread nD τ) (st2_0 t) fullShare ((dat2 (Name := Name) (U := U) (Lvl := Lvl) V O R c).before 0 t d))
    ∗ (∃ d, owns (c : Thread nD τ) (st2_1 t) fullShare ((dat2 (Name := Name) (U := U) (Lvl := Lvl) V O R c).before 1 t d))
    ∗ (∃ d, owns (c : Thread nD τ) (st2_2 t) fullShare ((dat2 (Name := Name) (U := U) (Lvl := Lvl) V O R c).before 2 t d))
    ∗ (∃ d, owns (c : Thread nD τ) (st2_3 t) fullShare ((dat2 (Name := Name) (U := U) (Lvl := Lvl) V O R c).before 3 t d))
    ∗ (∃ d, owns (c : Thread nD τ) (st2_4 t) fullShare ((dat2 (Name := Name) (U := U) (Lvl := Lvl) V O R c).before 4 t d))
    ∗ (∃ d, owns (c : Thread nD τ) (st2_5 t) fullShare ((dat2 (Name := Name) (U := U) (Lvl := Lvl) V O R c).before 5 t d))
    ∗ (∃ d, owns (c : Thread nD τ) (st2_6 t) fullShare ((dat2 (Name := Name) (U := U) (Lvl := Lvl) V O R c).before 6 t d))
    ∗ (∃ d, owns (c : Thread nD τ) (st2_7 t) fullShare ((dat2 (Name := Name) (U := U) (Lvl := Lvl) V O R c).before 7 t d))
    ∗ (∃ d, owns (c : Thread nD τ) (st2_8 t) fullShare ((dat2 (Name := Name) (U := U) (Lvl := Lvl) V O R c).before 8 t d)))

/-- and what it returns. -/
def bodyPost2 (c : Dev nD) (t : Fin cfg2.N) : sProp 𝕄 :=
  iprop((dat2 (Name := Name) (U := U) (Lvl := Lvl) V O R c).Φ t.succ ∗ (dat2 (Name := Name) (U := U) (Lvl := Lvl) V O R c).owesAt ι t.succ
    ∗ owns (c : Thread nD τ) (st2_0 t) fullShare ((dat2 (Name := Name) (U := U) (Lvl := Lvl) V O R c).after 0 t)
    ∗ owns (c : Thread nD τ) (st2_1 t) fullShare ((dat2 (Name := Name) (U := U) (Lvl := Lvl) V O R c).after 1 t)
    ∗ owns (c : Thread nD τ) (st2_2 t) fullShare ((dat2 (Name := Name) (U := U) (Lvl := Lvl) V O R c).after 2 t)
    ∗ owns (c : Thread nD τ) (st2_3 t) fullShare ((dat2 (Name := Name) (U := U) (Lvl := Lvl) V O R c).after 3 t)
    ∗ owns (c : Thread nD τ) (st2_4 t) fullShare ((dat2 (Name := Name) (U := U) (Lvl := Lvl) V O R c).after 4 t)
    ∗ owns (c : Thread nD τ) (st2_5 t) fullShare ((dat2 (Name := Name) (U := U) (Lvl := Lvl) V O R c).after 5 t)
    ∗ owns (c : Thread nD τ) (st2_6 t) fullShare ((dat2 (Name := Name) (U := U) (Lvl := Lvl) V O R c).after 6 t)
    ∗ owns (c : Thread nD τ) (st2_7 t) fullShare ((dat2 (Name := Name) (U := U) (Lvl := Lvl) V O R c).after 7 t)
    ∗ owns (c : Thread nD τ) (st2_8 t) fullShare ((dat2 (Name := Name) (U := U) (Lvl := Lvl) V O R c).after 8 t))

/-- The body at any point: the inputs' memrefs hold their blocks, so the body's triple applies; the invariant and the
    core's `owes` pass through unread. -/
theorem sound_body2 (c : Dev nD) (t : Fin cfg2.N) :
    bodyPre2 (Name := Name) (U := U) (Lvl := Lvl) ι V O R c t ⊢ wp frame (wpE (defs₀ (F := F)) 𝒱₀ c none) Set.univ (bodyAt2 t) (fun _ => bodyPost2 ι V O R c t) := by
  unfold bodyPre2 bodyPost2 bodyAt2
  simp only [before2_0, before2_1, before2_2, before2_3, before2_4, before2_5, before2_6, before2_7]
  rw [show (dat2 (Name := Name) (U := U) (Lvl := Lvl) V O R c).Φ t.succ = (dat2 (Name := Name) (U := U) (Lvl := Lvl) V O R c).Φ t.castSucc from rfl,
    show (dat2 (Name := Name) (U := U) (Lvl := Lvl) V O R c).owesAt ι t.succ = (dat2 (Name := Name) (U := U) (Lvl := Lvl) V O R c).owesAt ι t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 𝒱₀ c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) (Name := Name) (U := U) (Lvl := Lvl) V O R c) (defs₀ (F := F)) 𝒱₀ ι Set.univ := fun t => by
  rw [bigSep_W2, bigSep_W2]
  exact sound_body2 𝒱₀ ι V O R c t

end Cert.KernelIdeal.Reg

end
-- ==== Proof.RegSeg.lean ====
import proofs.«205759_g46823733461237_cont_8to1_c_287_19_alg».proof.Proof.RegBase
import proofs.«205759_g46823733461237_cont_8to1_c_287_19_alg».proof.Proof.RegDat0
import proofs.«205759_g46823733461237_cont_8to1_c_287_19_alg».proof.Proof.RegDat2

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants) (ι : Ix) (L : GSem nD τ sig → Finset Ix) (lv : GSem nD τ sig → Ix → Lvl)
variable (V0 : TcVal F) (O0 : Dev nD → CellTallies nD τ sig Ix) (R0 : Dev nD → Set (SemLoc sig × Ix))
variable (V2 : TcVal F) (O2 : Dev nD → CellTallies nD τ sig Ix) (R2 : Dev nD → Set (SemLoc sig × Ix))

/-! # The two TensorCore calls as regions -/

/-- Both pipelines' proof data, each at its region's entry contents, what the core owes during it and the bound on its
    recorded pairs at its entry — a literal match, so that the pinned configuration at a numeral reduces to the printed one. -/
def rdats : (p : Fin 2) → (c : Dev nD) → RDat τ (Elt F) Ix Name U Lvl (Pipeline.pin (pcfgs (F := F)) adm p) c
  | ⟨0, _⟩ => fun c => rdat0 V0 O0 R0 c
  | ⟨1, _⟩ => fun c => (dat2 V2 O2 R2 c).toR

local notation "𝔯" => rdats (Name := Name) (U := U) (Lvl := Lvl) V0 O0 R0 V2 O2 R2
local notation "𝔡₂" => dat2 (Name := Name) (U := U) (Lvl := Lvl) V2 O2 R2

set_option backward.isDefEq.respectTransparency.types false in
/-- The second TensorCore call as a region: entered from its nine arrays at `V2` and the core owing `O2 c`, left at the
    arrays as the write-backs leave them (the inputs as entered) and the core owing the same, its recorded pairs grown by
    the staging cells' waits; the scoped buffers pass through the invariant untouched; no semaphore of the kernel's own. -/
def reg2 (hw : ∀ (c : Dev nD) (sm : SemLoc sig), (levAts L lv : sProp 𝕄) ⊢ MayWait (c : Thread nD τ) sm ι (O2 c)) :
    Pipeline.RDat.RegionSeg (pcfgs (F := F)) adm 𝔯 ι defs₀ 𝒱₀ L lv 1 where
  win := launch2.win.to₀
  block_pos := launch2.block_pos
  stage_whole := launch2.stage_whole
  K := PEmpty
  osem k := k.elim
  ho := Pipeline.OwnSemFacts.none _
  hbody c := (body_obligation2 𝒱₀ ι V2 O2 R2 c).toR
  hwaits c := Pipeline.RDat.cellsWaits_intro _ _ _ 1 c fun w s t => hw c _
  pre c := iprop((𝔡₂ c).arrays (fun w => V2 c (Pipeline.arrRef spec2 w)) ∗ Pipeline.owesWithin c (O2 c) (R2 c))
  post c := iprop((𝔡₂ c).arrays (fun w => (𝔡₂ c).arrAt w cfg2.N) ∗ Pipeline.owesWithin c (O2 c) (R2 c ∪ cfg2.waitPairs ι))
  X c := iprop(emp)
  Y c := iprop(emp)
  Z c := iprop(emp)
  hentry c := by
    rw [Pipeline.ownSems0_none,
      show (𝔯 1 c).arrays (𝔯 1 c).A = (𝔡₂ c).arrays (fun w => V2 c (Pipeline.arrRef spec2 w)) from rfl,
      show (𝔯 1 c).owesAt ι 0 = Pipeline.owesWithin c (O2 c) (R2 c ∪ cfg2.waitPairs ι) from rfl]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O2 c) (Set.subset_union_left)); iexact HO
    isplitr <;> iempintro
  hin c := by
    rw [show (𝔯 1 c).Φ 0 = Pipeline.scopedRest spec2 c from rfl]
    iintro ⟨-, -, Hr⟩; iexact Hr
  hout c := by
    rw [Pipeline.ownSems0_none, show (𝔯 1 c).Φ (Fin.last _) = Pipeline.scopedRest spec2 c from rfl]
    iintro Hr
    isplitr; · iempintro
    isplitr; · iempintro
    iexact Hr
  hexit c := by
    rw [show (𝔯 1 c).arraysAt (Pipeline.pin (pcfgs (F := F)) adm 1).N = (𝔡₂ c).toR.arraysAt cfg2.N from rfl,
      show (𝔯 1 c).owesAt ι (Fin.last (Pipeline.pin (pcfgs (F := F)) adm 1).N) = Pipeline.owesWithin c (O2 c) (R2 c ∪ cfg2.waitPairs ι) from rfl]
    iintro ⟨Ha, HO, -, -⟩
    imodintro
    isplitl [Ha]
    · iapply ((𝔡₂ c).toR_arraysAt_post cfg2.N); iexact Ha
    iexact HO

local notation "𝔯₀" => rdat0 (Name := Name) (U := U) (Lvl := Lvl) V0 O0 R0

set_option backward.isDefEq.respectTransparency.types false in
/-- The first TensorCore call as a region: entered from its two arrays at `V0` and the core owing `O0 c`, left at the arrays
    at some contents they may hold after the write-backs (the input as entered; the result constrained on the columns
    inside the input array) and the core owing the same, its recorded pairs grown by the staging cells' waits. -/
def reg0 (hw : ∀ (c : Dev nD) (sm : SemLoc sig), (levAts L lv : sProp 𝕄) ⊢ MayWait (c : Thread nD τ) sm ι (O0 c)) :
    Pipeline.RDat.RegionSeg (pcfgs (F := F)) adm 𝔯 ι defs₀ 𝒱₀ L lv 0 where
  win := launch0.win.to₀
  block_pos := launch0.block_pos
  stage_whole := launch0.stage_whole
  K := PEmpty
  osem k := k.elim
  ho := Pipeline.OwnSemFacts.none _
  hbody c := body_obligation0 𝒱₀ ι V0 O0 R0 c
  hwaits c := Pipeline.RDat.cellsWaits_intro _ _ _ 0 c fun w s t => hw c _
  pre c := iprop((𝔯₀ c).arrays (fun w => V0 c (Pipeline.arrRef spec0 w)) ∗ Pipeline.owesWithin c (O0 c) (R0 c))
  post c := iprop((𝔯₀ c).arraysAt cfg0.N ∗ Pipeline.owesWithin c (O0 c) (R0 c ∪ cfg0.waitPairs ι))
  X c := iprop(emp)
  Y c := iprop(emp)
  Z c := iprop(emp)
  hentry c := by
    rw [Pipeline.ownSems0_none,
      show (𝔯 0 c).arrays (𝔯 0 c).A = (𝔯₀ c).arrays (fun w => V0 c (Pipeline.arrRef spec0 w)) from rfl,
      show (𝔯 0 c).owesAt ι 0 = Pipeline.owesWithin c (O0 c) (R0 c ∪ cfg0.waitPairs ι) from rfl]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O0 c) (Set.subset_union_left)); iexact HO
    isplitr <;> iempintro
  hin c := by
    rw [show (𝔯 0 c).Φ 0 = Pipeline.scopedRest spec0 c from rfl]
    iintro ⟨-, -, Hr⟩; iexact Hr
  hout c := by
    rw [Pipeline.ownSems0_none, show (𝔯 0 c).Φ (Fin.last _) = Pipeline.scopedRest spec0 c from rfl]
    iintro Hr
    isplitr; · iempintro
    isplitr; · iempintro
    iexact Hr
  hexit c := by
    rw [show (𝔯 0 c).arraysAt (Pipeline.pin (pcfgs (F := F)) adm 0).N = (𝔯₀ c).arraysAt cfg0.N from rfl,
      show (𝔯 0 c).owesAt ι (Fin.last (Pipeline.pin (pcfgs (F := F)) adm 0).N) = Pipeline.owesWithin c (O0 c) (R0 c ∪ cfg0.waitPairs ι) from rfl]
    iintro ⟨Ha, HO, -, -⟩
    imodintro
    isplitl [Ha]; · iexact Ha
    iexact HO

end Cert.KernelIdeal.Reg

end
-- ==== Proof.RegVal0.lean ====
import proofs.«205759_g46823733461237_cont_8to1_c_287_19_alg».proof.Proof.RegBase
import proofs.«205759_g46823733461237_cont_8to1_c_287_19_alg».proof.Proof.RegDat0
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : TcVal F) (O : Dev nD → CellTallies nD τ sig Ix) (R : Dev nD → Set (SemLoc sig × Ix))

/-! # The first TensorCore call: the result array after the run

Each point writes its whole (8192, 128) block back to rows `8192 t ‥ 8192 t + 8191`; the blocks are disjoint, so after the
run row `8192 i + r`, lane `64 h + k` holds what point `i` left at row `r` there: the input's row `k`, column
`16384 i + 8192 h + r`, wherever that column is inside the input array. Nothing is said of the other entries. -/

/-- The output block at point `t`, read at an index: the array at the block's row offset. -/
theorem blk0_1_read (G : S507904x128.Idx → Elt F .f32) (t : Fin cfg0.N) (a : Fin 8192) (b : Fin 128) :
    (win0_1.blk t).view.read (Elt F) G (ix2 a b)
      = G (ix2 (⟨8192 * t.val + a.val, by have := t.isLt; have e : cfg0.N = 62 := N_0; omega⟩ : Fin 507904) b) := by
  rw [View.read_apply]
  show G _ = G _
  refine congrArg G (funext fun x => Fin.ext ?_)
  have hi0 : win0_1.index t 0 = t.val := (by decide +kernel : ∀ t : Fin grid0.N, win0_1.index t 0 = t.val) t
  have hi1 : win0_1.index t 1 = 0 := (by decide +kernel : ∀ t : Fin grid0.N, win0_1.index t 1 = 0) t
  match x with
  | ⟨0, _⟩ =>
    show ((win0_1.rect t).emb (ix2 a b) (0 : Fin 2) : Nat) = 8192 * t.val + a.val
    rw [win0_1.rect_emb_val t _ 0, hi0]; show t.val * 8192 + a.val = _; omega
  | ⟨1, _⟩ =>
    show ((win0_1.rect t).emb (ix2 a b) (1 : Fin 2) : Nat) = b.val
    rw [win0_1.rect_emb_val t _ 1, hi1]; show 0 * 128 + b.val = _; omega

/-- A row of another point's block is not in point `n`'s. -/
theorem not_mem_blk0_1 (n : Fin cfg0.N) (i : Nat) (hi : i < n.val) (r : Fin 8192) (b : Fin 128) (hlt : 8192 * i + r.val < 507904) :
    (ix2 (⟨8192 * i + r.val, hlt⟩ : Fin 507904) b : S507904x128.Idx) ∉ (win0_1.blk n).view.setOn Finset.univ := by
  rw [View.setOn_univ]
  show _ ∉ ((View.whole main_v1).slice (win0_1.rect n)).set
  rw [View.set_slice_whole, Rect.mem_set_unit]
  have hi0 : win0_1.index n 0 = n.val := (by decide +kernel : ∀ t : Fin grid0.N, win0_1.index t 0 = t.val) n
  intro hmem
  have h0 := (hmem (0 : Fin 2)).1
  change win0_1.index n 0 * 8192 ≤ 8192 * i + r.val at h0
  rw [hi0] at h0
  have := r.isLt
  omega

/-- What the result array may hold after the write-backs below `n`, under the blocks of the points below `n`. -/
theorem arrAt0_1_aux (c : Dev nD) : ∀ (n : Nat) (hn : n ≤ 62) (G : S507904x128.Idx → Elt F .f32), (rdat0 (Name := Name) (U := U) (Lvl := Lvl) V O R c).ArrAt 1 n G →
    ∀ (i : Nat) (r : Fin 8192) (h : Fin 2) (k : Fin 64), i < n → ∀ (hc : 16384 * i + 8192 * h.val + r.val < 1000000) (hlt : 8192 * i + r.val < 507904),
      G (ix2 (⟨8192 * i + r.val, hlt⟩ : Fin 507904) (⟨64 * h.val + k.val, by omega⟩ : Fin 128))
        = in0 V c (ix2 k (⟨16384 * i + 8192 * h.val + r.val, hc⟩ : Fin 1000000))
  | 0, _, _, _, i, _, _, _, hi, _, _ => absurd hi (Nat.not_lt_zero _)
  | n + 1, hn, G, hG, i, r, h, k, hi, hc, hlt => by
    have hn' : n < cfg0.N := by have e : cfg0.N = 62 := N_0; omega
    rw [show n + 1 = (⟨n, hn'⟩ : Fin cfg0.N).val + 1 from rfl, RDat.ArrAt_succ, if_pos (flush0_1 _)] at hG
    obtain ⟨G₀, X, hG₀, ⟨Y, -, hXY⟩, rfl⟩ := hG
    rw [after0_1] at hXY
    by_cases hin : i = n
    · subst hin
      have e := blk0_1_read ((win0_1.blk ⟨i, hn'⟩).view.write (Elt F) G₀ (win0_1.cut (grid0.coords ⟨i, hn'⟩) X) Finset.univ) ⟨i, hn'⟩ r (⟨64 * h.val + k.val, by omega⟩ : Fin 128)
      rw [View.read_write_univ] at e
      exact e.symm.trans (hXY r h k hc)
    · rw [View.write_of_not_mem _ _ _ (not_mem_blk0_1 ⟨n, hn'⟩ i (by show i < n; omega) r _ hlt)]
      exact arrAt0_1_aux c n (by omega) G₀ hG₀ i r h k (by omega) hc hlt

/-- THE RESULT ARRAY AFTER THE RUN: whatever it may hold, row `8192 i + r`, lane `64 h + k` is the input array's row `k`,
    column `16384 i + 8192 h + r`, wherever that column is inside the input array. -/
theorem arrAt0_1_apply (c : Dev nD) (G : S507904x128.Idx → Elt F .f32) (hG : (rdat0 (Name := Name) (U := U) (Lvl := Lvl) V O R c).ArrAt 1 cfg0.N G)
    (i : Fin 62) (r : Fin 8192) (h : Fin 2) (k : Fin 64) (hc : 16384 * i.val + 8192 * h.val + r.val < 1000000) :
    G (ix2 (⟨8192 * i.val + r.val, by omega⟩ : Fin 507904) (⟨64 * h.val + k.val, by omega⟩ : Fin 128))
      = in0 V c (ix2 k (⟨16384 * i.val + 8192 * h.val + r.val, hc⟩ : Fin 1000000)) :=
  arrAt0_1_aux V O R c 62 le_rfl G (by rw [show (62 : Nat) = cfg0.N from N_0.symm]; exact hG) i.val r h k i.isLt hc (by omega)

/-- The input array ends as the region found it. -/
theorem arrAt0_0 (c : Dev nD) (n : Nat) : (rdat0 (Name := Name) (U := U) (Lvl := Lvl) V O R c).ArrAt 0 n = fun G => G = V c main_v0 :=
  (rdat0 (Name := Name) (U := U) (Lvl := Lvl) V O R c).ArrAt_in 0 rfl n

end Cert.KernelIdeal.Reg

end
-- ==== Proof.RegVal2.lean ====
import proofs.«205759_g46823733461237_cont_8to1_c_287_19_alg».proof.Proof.RegBase
import proofs.«205759_g46823733461237_cont_8to1_c_287_19_alg».proof.Proof.RegDat2
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : TcVal F) (O : Dev nD → CellTallies nD τ sig Ix) (R : Dev nD → Set (SemLoc sig × Ix))

/-! # The second TensorCore call: the arrays after the run

## The input blocks, read at an index -/

/-- Window 0's array as the region finds it. -/
abbrev arr2_0 (c : Dev nD) : S16384x128.Idx → Elt F .f32 := V c main_v20_0
/-- Window 1's array as the region finds it. -/
abbrev arr2_1 (c : Dev nD) : S16384x128.Idx → Elt F .f32 := V c main_v20_1
/-- Window 2's array as the region finds it. -/
abbrev arr2_2 (c : Dev nD) : S16384x1.Idx → Elt F .i32 := V c main_v16
/-- Window 3's array as the region finds it. -/
abbrev arr2_3 (c : Dev nD) : S16384x1.Idx → Elt F .i32 := V c main_v19
/-- Window 4's array as the region finds it. -/
abbrev arr2_4 (c : Dev nD) : S64x128.Idx → Elt F .f32 := V c main_arg4
/-- Window 5's array as the region finds it. -/
abbrev arr2_5 (c : Dev nD) : S1x128.Idx → Elt F .f32 := V c main_v21
/-- Window 6's array as the region finds it. -/
abbrev arr2_6 (c : Dev nD) : S1x128.Idx → Elt F .f32 := V c main_v22
/-- Window 7's array as the region finds it. -/
abbrev arr2_7 (c : Dev nD) : S1x1.Idx → Elt F .f32 := V c main_v23

/-- Window 0's block at point `t`: rows `2048 t ‥ 2048 t + 2047` of its array. -/
theorem iblk2_0_apply (c : Dev nD) (t : Fin cfg2.N) (a : Fin 2048) (b : Fin 128) :
    iblk2 V c 0 t (ix2 a b) = arr2_0 V c (ix2 (⟨2048 * t.val + a.val, by have := t.isLt; have e : cfg2.N = 8 := N_2; omega⟩ : Fin 16384) b) := by
  unfold iblk2
  rw [View.read_apply]
  show arr2_0 V c _ = arr2_0 V c _
  refine congrArg (arr2_0 V c) (funext fun x => Fin.ext ?_)
  have hi0 : win2_0.index t 0 = t.val := (by decide +kernel : ∀ t : Fin grid2.N, win2_0.index t 0 = t.val) t
  have hi1 : win2_0.index t 1 = 0 := (by decide +kernel : ∀ t : Fin grid2.N, win2_0.index t 1 = 0) t
  match x with
  | ⟨0, _⟩ =>
    show ((win2_0.rect t).emb (ix2 a b) (0 : Fin 2) : Nat) = 2048 * t.val + a.val
    rw [win2_0.rect_emb_val t _ 0, hi0]; show t.val * 2048 + a.val = _; omega
  | ⟨1, _⟩ =>
    show ((win2_0.rect t).emb (ix2 a b) (1 : Fin 2) : Nat) = b.val
    rw [win2_0.rect_emb_val t _ 1, hi1]; show 0 * 128 + b.val = _; omega

/-- Window 1's block at point `t`: rows `2048 t ‥ 2048 t + 2047` of its array. -/
theorem iblk2_1_apply (c : Dev nD) (t : Fin cfg2.N) (a : Fin 2048) (b : Fin 128) :
    iblk2 V c 1 t (ix2 a b) = arr2_1 V c (ix2 (⟨2048 * t.val + a.val, by have := t.isLt; have e : cfg2.N = 8 := N_2; omega⟩ : Fin 16384) b) := by
  unfold iblk2
  rw [View.read_apply]
  show arr2_1 V c _ = arr2_1 V c _
  refine congrArg (arr2_1 V c) (funext fun x => Fin.ext ?_)
  have hi0 : win2_1.index t 0 = t.val := (by decide +kernel : ∀ t : Fin grid2.N, win2_1.index t 0 = t.val) t
  have hi1 : win2_1.index t 1 = 0 := (by decide +kernel : ∀ t : Fin grid2.N, win2_1.index t 1 = 0) t
  match x with
  | ⟨0, _⟩ =>
    show ((win2_1.rect t).emb (ix2 a b) (0 : Fin 2) : Nat) = 2048 * t.val + a.val
    rw [win2_1.rect_emb_val t _ 0, hi0]; show t.val * 2048 + a.val = _; omega
  | ⟨1, _⟩ =>
    show ((win2_1.rect t).emb (ix2 a b) (1 : Fin 2) : Nat) = b.val
    rw [win2_1.rect_emb_val t _ 1, hi1]; show 0 * 128 + b.val = _; omega

/-- Window 2's block at point `t`: rows `2048 t ‥ 2048 t + 2047` of its array. -/
theorem iblk2_2_apply (c : Dev nD) (t : Fin cfg2.N) (a : Fin 2048) (b : Fin 1) :
    iblk2 V c 2 t (ix2 a b) = arr2_2 V c (ix2 (⟨2048 * t.val + a.val, by have := t.isLt; have e : cfg2.N = 8 := N_2; omega⟩ : Fin 16384) b) := by
  unfold iblk2
  rw [View.read_apply]
  show arr2_2 V c _ = arr2_2 V c _
  refine congrArg (arr2_2 V c) (funext fun x => Fin.ext ?_)
  have hi0 : win2_2.index t 0 = t.val := (by decide +kernel : ∀ t : Fin grid2.N, win2_2.index t 0 = t.val) t
  have hi1 : win2_2.index t 1 = 0 := (by decide +kernel : ∀ t : Fin grid2.N, win2_2.index t 1 = 0) t
  match x with
  | ⟨0, _⟩ =>
    show ((win2_2.rect t).emb (ix2 a b) (0 : Fin 2) : Nat) = 2048 * t.val + a.val
    rw [win2_2.rect_emb_val t _ 0, hi0]; show t.val * 2048 + a.val = _; omega
  | ⟨1, _⟩ =>
    show ((win2_2.rect t).emb (ix2 a b) (1 : Fin 2) : Nat) = b.val
    rw [win2_2.rect_emb_val t _ 1, hi1]; show 0 * 1 + b.val = _; omega

/-- Window 3's block at point `t`: rows `2048 t ‥ 2048 t + 2047` of its array. -/
theorem iblk2_3_apply (c : Dev nD) (t : Fin cfg2.N) (a : Fin 2048) (b : Fin 1) :
    iblk2 V c 3 t (ix2 a b) = arr2_3 V c (ix2 (⟨2048 * t.val + a.val, by have := t.isLt; have e : cfg2.N = 8 := N_2; omega⟩ : Fin 16384) b) := by
  unfold iblk2
  rw [View.read_apply]
  show arr2_3 V c _ = arr2_3 V c _
  refine congrArg (arr2_3 V c) (funext fun x => Fin.ext ?_)
  have hi0 : win2_3.index t 0 = t.val := (by decide +kernel : ∀ t : Fin grid2.N, win2_3.index t 0 = t.val) t
  have hi1 : win2_3.index t 1 = 0 := (by decide +kernel : ∀ t : Fin grid2.N, win2_3.index t 1 = 0) t
  match x with
  | ⟨0, _⟩ =>
    show ((win2_3.rect t).emb (ix2 a b) (0 : Fin 2) : Nat) = 2048 * t.val + a.val
    rw [win2_3.rect_emb_val t _ 0, hi0]; show t.val * 2048 + a.val = _; omega
  | ⟨1, _⟩ =>
    show ((win2_3.rect t).emb (ix2 a b) (1 : Fin 2) : Nat) = b.val
    rw [win2_3.rect_emb_val t _ 1, hi1]; show 0 * 1 + b.val = _; omega

/-- Window 4's block at every point is its whole array. -/
theorem iblk2_4_eq (c : Dev nD) (t : Fin cfg2.N) : iblk2 V c 4 t = arr2_4 V c := by
  funext y
  unfold iblk2
  rw [View.read_apply]
  show arr2_4 V c _ = arr2_4 V c _
  refine congrArg (arr2_4 V c) (funext fun x => Fin.ext ?_)
  have hi0 : win2_4.index t 0 = 0 := (by decide +kernel : ∀ t : Fin grid2.N, win2_4.index t 0 = 0) t
  have hi1 : win2_4.index t 1 = 0 := (by decide +kernel : ∀ t : Fin grid2.N, win2_4.index t 1 = 0) t
  match x with
  | ⟨0, _⟩ =>
    show ((win2_4.rect t).emb y (0 : Fin 2) : Nat) = (y (0 : Fin 2)).val
    rw [win2_4.rect_emb_val t _ 0, hi0]; show 0 * 64 + (y (0 : Fin 2)).val = _; omega
  | ⟨1, _⟩ =>
    show ((win2_4.rect t).emb y (1 : Fin 2) : Nat) = (y (1 : Fin 2)).val
    rw [win2_4.rect_emb_val t _ 1, hi1]; show 0 * 128 + (y (1 : Fin 2)).val = _; omega

/-- Window 5's block at every point is its whole array. -/
theorem iblk2_5_eq (c : Dev nD) (t : Fin cfg2.N) : iblk2 V c 5 t = arr2_5 V c := by
  funext y
  unfold iblk2
  rw [View.read_apply]
  show arr2_5 V c _ = arr2_5 V c _
  refine congrArg (arr2_5 V c) (funext fun x => Fin.ext ?_)
  have hi0 : win2_5.index t 0 = 0 := (by decide +kernel : ∀ t : Fin grid2.N, win2_5.index t 0 = 0) t
  have hi1 : win2_5.index t 1 = 0 := (by decide +kernel : ∀ t : Fin grid2.N, win2_5.index t 1 = 0) t
  match x with
  | ⟨0, _⟩ =>
    show ((win2_5.rect t).emb y (0 : Fin 2) : Nat) = (y (0 : Fin 2)).val
    rw [win2_5.rect_emb_val t _ 0, hi0]; show 0 * 1 + (y (0 : Fin 2)).val = _; omega
  | ⟨1, _⟩ =>
    show ((win2_5.rect t).emb y (1 : Fin 2) : Nat) = (y (1 : Fin 2)).val
    rw [win2_5.rect_emb_val t _ 1, hi1]; show 0 * 128 + (y (1 : Fin 2)).val = _; omega

/-- Window 6's block at every point is its whole array. -/
theorem iblk2_6_eq (c : Dev nD) (t : Fin cfg2.N) : iblk2 V c 6 t = arr2_6 V c := by
  funext y
  unfold iblk2
  rw [View.read_apply]
  show arr2_6 V c _ = arr2_6 V c _
  refine congrArg (arr2_6 V c) (funext fun x => Fin.ext ?_)
  have hi0 : win2_6.index t 0 = 0 := (by decide +kernel : ∀ t : Fin grid2.N, win2_6.index t 0 = 0) t
  have hi1 : win2_6.index t 1 = 0 := (by decide +kernel : ∀ t : Fin grid2.N, win2_6.index t 1 = 0) t
  match x with
  | ⟨0, _⟩ =>
    show ((win2_6.rect t).emb y (0 : Fin 2) : Nat) = (y (0 : Fin 2)).val
    rw [win2_6.rect_emb_val t _ 0, hi0]; show 0 * 1 + (y (0 : Fin 2)).val = _; omega
  | ⟨1, _⟩ =>
    show ((win2_6.rect t).emb y (1 : Fin 2) : Nat) = (y (1 : Fin 2)).val
    rw [win2_6.rect_emb_val t _ 1, hi1]; show 0 * 128 + (y (1 : Fin 2)).val = _; omega

/-- Window 7's block at every point is its whole array. -/
theorem iblk2_7_eq (c : Dev nD) (t : Fin cfg2.N) : iblk2 V c 7 t = arr2_7 V c := by
  funext y
  unfold iblk2
  rw [View.read_apply]
  show arr2_7 V c _ = arr2_7 V c _
  refine congrArg (arr2_7 V c) (funext fun x => Fin.ext ?_)
  have hi0 : win2_7.index t 0 = 0 := (by decide +kernel : ∀ t : Fin grid2.N, win2_7.index t 0 = 0) t
  have hi1 : win2_7.index t 1 = 0 := (by decide +kernel : ∀ t : Fin grid2.N, win2_7.index t 1 = 0) t
  match x with
  | ⟨0, _⟩ =>
    show ((win2_7.rect t).emb y (0 : Fin 2) : Nat) = (y (0 : Fin 2)).val
    rw [win2_7.rect_emb_val t _ 0, hi0]; show 0 * 1 + (y (0 : Fin 2)).val = _; omega
  | ⟨1, _⟩ =>
    show ((win2_7.rect t).emb y (1 : Fin 2) : Nat) = (y (1 : Fin 2)).val
    rw [win2_7.rect_emb_val t _ 1, hi1]; show 0 * 1 + (y (1 : Fin 2)).val = _; omega

/-! ## The output block is the payload of the input blocks -/

theorem out2_8_eq (x0 : Vec F S2048x128 .f32) (x1 : Vec F S2048x128 .f32) (x2 : Vec F S2048x1 .i32) (x3 : Vec F S2048x1 .i32) (x4 : Vec F S64x128 .f32) (x5 : Vec F S1x128 .f32) (x6 : Vec F S1x128 .f32) (x7 : Vec F S1x1 .f32) :
    out2_8 x0 x1 x2 x3 x4 x5 x6 x7
      = k2_pay1 (k2_pay2 x0 x2) (k2_pay3 x1 x3) (k2_pay4 x1 x3) (k2_pay5 x0 x2) (k2_pay6 x1 x3) (k2_pay7 (F := F)) x4 x5 x6 x7 := by
  have hz2 : (![0, 0] : Fin 2 → Nat) = fun _ => 0 := funext fun a => by fin_cases a <;> rfl
  have hz1 : (![0] : Fin 1 → Nat) = fun _ => 0 := funext fun a => by fin_cases a; rfl
  unfold out2_8 pay2
  rw [View.canon_unit_zero hz1]
  simp only [View.ld_unit_zero (S := S2048x128) hz2, View.ld_unit_zero (S := S2048x1) hz2, View.ld_unit_zero (S := S64x128) hz2,
    View.ld_unit_zero (S := S1x128) hz2, View.ld_unit_zero (S := S1x1) hz2]

/-! ## The arrays after the run -/

/-- An input's array ends as the region found it. -/
theorem arrAt2_in (c : Dev nD) (w : Fin cfg2.W) (hw : (cfg2.win w).isOut = false) (n : Nat) :
    (dat2 (Name := Name) (U := U) (Lvl := Lvl) V O R c).arrAt w n = V c (Pipeline.arrRef spec2 w) :=
  ((dat2 (Name := Name) (U := U) (Lvl := Lvl) V O R c).arrAt_in w hw n).trans (A_eq2 V O R c w)

/-- The point whose block holds element `j` of the result. -/
def pt2 (j : Fin 16384) : Fin cfg2.N := ⟨j.val / 2048, by have e : cfg2.N = 8 := N_2; rw [e]; have := j.isLt; omega⟩

/-- The result array after the run, as one function of the region-entry contents: element `j` is element `j % 2048` of the
    payload of the eight inputs' blocks at point `j / 2048`. -/
def res2 (c : Dev nD) : S16384.Idx → Elt F .f32 := fun j =>
  out2_8 (iblk2 V c 0 (pt2 (j 0))) (iblk2 V c 1 (pt2 (j 0))) (iblk2 V c 2 (pt2 (j 0))) (iblk2 V c 3 (pt2 (j 0)))
    (iblk2 V c 4 (pt2 (j 0))) (iblk2 V c 5 (pt2 (j 0))) (iblk2 V c 6 (pt2 (j 0))) (iblk2 V c 7 (pt2 (j 0)))
    (ix1 (⟨(j 0).val % 2048, Nat.mod_lt _ (by decide)⟩ : Fin 2048))

/-- The result block at point `t`, read at an index: the array at the block's offset. -/
theorem blk2_8_read (G : S16384.Idx → Elt F .f32) (t : Fin cfg2.N) (a : Fin 2048) :
    (win2_8.blk t).view.read (Elt F) G (ix1 a)
      = G (ix1 (⟨2048 * t.val + a.val, by have := t.isLt; have e : cfg2.N = 8 := N_2; omega⟩ : Fin 16384)) := by
  rw [View.read_apply]
  show G _ = G _
  refine congrArg G (funext fun x => Fin.ext ?_)
  have hi0 : win2_8.index t 0 = t.val := (by decide +kernel : ∀ t : Fin grid2.N, win2_8.index t 0 = t.val) t
  match x with
  | ⟨0, _⟩ =>
    show ((win2_8.rect t).emb (ix1 a) (0 : Fin 1) : Nat) = 2048 * t.val + a.val
    rw [win2_8.rect_emb_val t _ 0, hi0]; show t.val * 2048 + a.val = _; omega

/-- THE RESULT ARRAY AFTER THE RUN is `res2`: every point writes back its block of it, and the blocks cover the array. -/
theorem arrAt2_8 (c : Dev nD) : (dat2 (Name := Name) (U := U) (Lvl := Lvl) V O R c).arrAt 8 cfg2.N = res2 V c := by
  refine (dat2 (Name := Name) (U := U) (Lvl := Lvl) V O R c).arrAt_eq_of_cover 8 (res2 V c) (fun t _ => ?_) (fun i => ?_)
  · funext y
    obtain ⟨a, rfl⟩ : ∃ a : Fin 2048, y = ix1 a := ⟨y 0, eq_ix1 y⟩
    have hlt : 2048 * t.val + a.val < 16384 := by have ht : t.val < 8 := lt_of_lt_of_eq t.isLt N_2; have := a.isLt; omega
    have hp : pt2 (⟨2048 * t.val + a.val, hlt⟩ : Fin 16384) = t := Fin.ext (by show (2048 * t.val + a.val) / 2048 = t.val; omega)
    have hm : (⟨(2048 * t.val + a.val) % 2048, Nat.mod_lt _ (by decide)⟩ : Fin 2048) = a := Fin.ext (by show (2048 * t.val + a.val) % 2048 = a.val; omega)
    refine Eq.trans ?_ (blk2_8_read (res2 V c) t a).symm
    show (dat2 (Name := Name) (U := U) (Lvl := Lvl) V O R c).after 8 t (win2_8.xinj (grid2.coords t) (ix1 a)) = _
    rw [show win2_8.xinj (grid2.coords t) (ix1 a) = ix1 a from funext fun d => match d with | ⟨0, _⟩ => rfl, after2_8]
    show _ = out2_8 (iblk2 V c 0 (pt2 ⟨2048 * t.val + a.val, hlt⟩)) (iblk2 V c 1 (pt2 ⟨2048 * t.val + a.val, hlt⟩)) (iblk2 V c 2 (pt2 ⟨2048 * t.val + a.val, hlt⟩)) (iblk2 V c 3 (pt2 ⟨2048 * t.val + a.val, hlt⟩))
      (iblk2 V c 4 (pt2 ⟨2048 * t.val + a.val, hlt⟩)) (iblk2 V c 5 (pt2 ⟨2048 * t.val + a.val, hlt⟩)) (iblk2 V c 6 (pt2 ⟨2048 * t.val + a.val, hlt⟩)) (iblk2 V c 7 (pt2 ⟨2048 * t.val + a.val, hlt⟩))
      (ix1 (⟨(2048 * t.val + a.val) % 2048, Nat.mod_lt _ (by decide)⟩ : Fin 2048))
    rw [hp, hm]
  · refine ⟨pt2 (i 0), flush2_8 _, ?_⟩
    show i ∈ ((View.whole main_v24).slice (win2_8.rect (pt2 (i 0)))).set
    rw [View.set_slice_whole, Rect.mem_set_unit]
    have hi0 : win2_8.index (pt2 (i 0)) 0 = (pt2 (i 0)).val := (by decide +kernel : ∀ t : Fin grid2.N, win2_8.index t 0 = t.val) _
    intro a
    match a with
    | ⟨0, _⟩ =>
      show win2_8.index (pt2 (i 0)) 0 * 2048 ≤ (i 0).val ∧ (i 0).val < win2_8.index (pt2 (i 0)) 0 * 2048 + 2048
      rw [hi0]
      show (i 0).val / 2048 * 2048 ≤ (i 0).val ∧ (i 0).val < (i 0).val / 2048 * 2048 + 2048
      omega

end Cert.KernelIdeal.Reg

end
-- ==== Proof.RegGlueA.lean ====
import proofs.«205759_g46823733461237_cont_8to1_c_287_19_alg».proof.Proof.KSpecs
import proofs.«205759_g46823733461237_cont_8to1_c_287_19_alg».proof.Proof.RegSeg
import proofs.«205759_g46823733461237_cont_8to1_c_287_19_alg».proof.Proof.RegVal0
import proofs.«205759_g46823733461237_cont_8to1_c_287_19_alg».proof.Proof.RegVal2

set_option maxRecDepth 16384

noncomputable section

namespace Cert.KernelIdeal.KL

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)
open Idealize.ShloMosaic.ValueIdx (ix1 ix2)

variable {F : FTy → Type} [FloatOps F] [∀ e, Nonempty (Elt F e)]

local notation "𝕄" => MT nD τ sig (HIx 1) (Elt F) ℕ UU ℕ

/-! # The two TensorCore calls as the TensorCore's program meets them, from the regions' records -/

/-- A valuation of every TensorCore's buffers that holds `Vd` on device `d`. -/
def valAt (d : Dev nD) (Vd : (b : Ref sig .tc) → Buf (Elt F) (tcLoc d b)) : Reg.TcVal F :=
  fun c b => if h : c = d then (by subst h; exact Vd b) else fun _ => Classical.arbitrary _

theorem valAt_self (d : Dev nD) (Vd : (b : Ref sig .tc) → Buf (Elt F) (tcLoc d b)) (b : Ref sig .tc) : valAt d Vd d b = Vd b := by
  unfold valAt; rw [dif_pos rfl]

/-- The buffers' contents on device `d` with nine of them named (the last call's arrays). -/
def vd2 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : (b : Ref sig .tc) → Buf (Elt F) (tcLoc d b) := fun b =>
  if h : b = main_v20_0 then (by subst h; exact g0) else
  if h : b = main_v20_1 then (by subst h; exact g1) else
  if h : b = main_v16 then (by subst h; exact p0) else
  if h : b = main_v19 then (by subst h; exact p1) else
  if h : b = main_arg4 then (by subst h; exact w1) else
  if h : b = main_v21 then (by subst h; exact b1) else
  if h : b = main_v22 then (by subst h; exact w2) else
  if h : b = main_v23 then (by subst h; exact b2) else
  if h : b = main_v24 then (by subst h; exact o) else fun _ => Classical.arbitrary _

theorem vd2_0 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v20_0 = g0 := by
  unfold vd2; rw [dif_pos rfl]
theorem vd2_1 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v20_1 = g1 := by
  unfold vd2; rw [dif_neg (by decide), dif_pos rfl]
theorem vd2_2 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v16 = p0 := by
  unfold vd2; rw [dif_neg (by decide), dif_neg (by decide), dif_pos rfl]
theorem vd2_3 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v19 = p1 := by
  unfold vd2; rw [dif_neg (by decide), dif_neg (by decide), dif_neg (by decide), dif_pos rfl]
theorem vd2_4 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_arg4 = w1 := by
  unfold vd2; rw [dif_neg (by decide), dif_neg (by decide), dif_neg (by decide), dif_neg (by decide), dif_pos rfl]
theorem vd2_5 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v21 = b1 := by
  unfold vd2; rw [dif_neg (by decide), dif_neg (by decide), dif_neg (by decide), dif_neg (by decide), dif_neg (by decide), dif_pos rfl]
theorem vd2_6 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v22 = w2 := by
  unfold vd2; rw [dif_neg (by decide), dif_neg (by decide), dif_neg (by decide), dif_neg (by decide), dif_neg (by decide), dif_neg (by decide), dif_pos rfl]
theorem vd2_7 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v23 = b2 := by
  unfold vd2; rw [dif_neg (by decide), dif_neg (by decide), dif_neg (by decide), dif_neg (by decide), dif_neg (by decide), dif_neg (by decide), dif_neg (by decide), dif_pos rfl]
theorem vd2_8 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v24 = o := by
  unfold vd2; rw [dif_neg (by decide), dif_neg (by decide), dif_neg (by decide), dif_neg (by decide), dif_neg (by decide), dif_neg (by decide), dif_neg (by decide), dif_neg (by decide), dif_pos rfl]

/-! ## The last call -/

set_option backward.isDefEq.respectTransparency.types false in
/-- The last call's nine arrays, one by one. -/
theorem arrays2_eq (V : Reg.TcVal F) (O : CellTallies nD τ sig (HIx 1)) (W : Waits sig (HIx 1)) (d : Dev nD)
    (Fn : (w : Fin cfg2.W) → Buf (Elt F) ((cfg2.win w).arr.view.loc (d.tc : Thread nD τ))) :
    ((Reg.dat2 (Ix := HIx 1) (Name := ℕ) (U := UU) (Lvl := ℕ) V (fun _ => O) (fun _ => (↑W : Set (SemLoc sig × HIx 1))) d).arrays Fn : sProp 𝕄)
      = iprop((tcLoc d main_v20_0 ↦{fullShare} Fn 0) ∗ (tcLoc d main_v20_1 ↦{fullShare} Fn 1) ∗ (tcLoc d main_v16 ↦{fullShare} Fn 2) ∗ (tcLoc d main_v19 ↦{fullShare} Fn 3) ∗ (tcLoc d main_arg4 ↦{fullShare} Fn 4) ∗ (tcLoc d main_v21 ↦{fullShare} Fn 5) ∗ (tcLoc d main_v22 ↦{fullShare} Fn 6) ∗ (tcLoc d main_v23 ↦{fullShare} Fn 7) ∗ (tcLoc d main_v24 ↦{fullShare} Fn 8)) := by
  have e := Pipeline.RDat.arrays_eq (pcfgs (F := F)) adm (Reg.rdats (F := F) (Ix := HIx 1) (Name := ℕ) (U := UU) (Lvl := ℕ) V (fun _ => O) (fun _ => (↑W : Set (SemLoc sig × HIx 1))) V (fun _ => O) (fun _ => (↑W : Set (SemLoc sig × HIx 1)))) 1 d launch2.arr_whole
    (fun w => by unfold RDat.share; split <;> rfl) Fn
  rw [bigSep_W2] at e
  exact e
/-- The regions' whole-array result is the specification's, once the arrays are the named ones. -/
theorem res2_eq (V : Reg.TcVal F) (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))

    (h0 : V d main_v20_0 = g0) (h1 : V d main_v20_1 = g1) (h2 : V d main_v16 = p0) (h3 : V d main_v19 = p1)
    (h4 : V d main_arg4 = w1) (h5 : V d main_v21 = b1) (h6 : V d main_v22 = w2) (h7 : V d main_v23 = b2) :
    Reg.res2 V d = Res2 d g0 g1 p0 p1 w1 b1 w2 b2 := by
  funext j
  unfold Reg.res2 Res2 pay2F
  rw [Reg.out2_8_eq]
  have e0 : Reg.iblk2 V d 0 (Reg.pt2 (j 0)) = rowsD d g0 ⟨(j 0).val / 2048, by have : (j 0).val < 16384 := (j 0).isLt; omega⟩ := by
    funext y
    obtain ⟨a, b, rfl⟩ : ∃ (a : Fin 2048) (b : Fin 128), y = ix2 a b := ⟨y 0, y 1, ValueIdx.eq_ix2 y⟩
    rw [Reg.iblk2_0_apply]; unfold rowsD Reg.arr2_0; rw [h0]; rfl
  have e1 : Reg.iblk2 V d 1 (Reg.pt2 (j 0)) = rowsD d g1 ⟨(j 0).val / 2048, by have : (j 0).val < 16384 := (j 0).isLt; omega⟩ := by
    funext y
    obtain ⟨a, b, rfl⟩ : ∃ (a : Fin 2048) (b : Fin 128), y = ix2 a b := ⟨y 0, y 1, ValueIdx.eq_ix2 y⟩
    rw [Reg.iblk2_1_apply]; unfold rowsD Reg.arr2_1; rw [h1]; rfl
  have e2 : Reg.iblk2 V d 2 (Reg.pt2 (j 0)) = rowsP d p0 ⟨(j 0).val / 2048, by have : (j 0).val < 16384 := (j 0).isLt; omega⟩ := by
    funext y
    obtain ⟨a, b, rfl⟩ : ∃ (a : Fin 2048) (b : Fin 1), y = ix2 a b := ⟨y 0, y 1, ValueIdx.eq_ix2 y⟩
    rw [Reg.iblk2_2_apply]; unfold rowsP Reg.arr2_2; rw [h2]; rfl
  have e3 : Reg.iblk2 V d 3 (Reg.pt2 (j 0)) = rowsP d p1 ⟨(j 0).val / 2048, by have : (j 0).val < 16384 := (j 0).isLt; omega⟩ := by
    funext y
    obtain ⟨a, b, rfl⟩ : ∃ (a : Fin 2048) (b : Fin 1), y = ix2 a b := ⟨y 0, y 1, ValueIdx.eq_ix2 y⟩
    rw [Reg.iblk2_3_apply]; unfold rowsP Reg.arr2_3; rw [h3]; rfl
  rw [e0, e1, e2, e3, Reg.iblk2_4_eq, Reg.iblk2_5_eq, Reg.iblk2_6_eq, Reg.iblk2_7_eq]
  unfold Reg.arr2_4 Reg.arr2_5 Reg.arr2_6 Reg.arr2_7
  rw [h4, h5, h6, h7]

/-- A recorded pair within the entry's pairs and the staging cells' own is one of the entry's or sits at the kernels' index. -/
theorem mem_or_none_of_subset {cfg : Pipeline.Cfg sig Λ₀} {W W' : Waits sig (HIx 1)}
    (h : (↑W' : Set (SemLoc sig × HIx 1)) ⊆ ↑W ∪ cfg.waitPairs none) : ∀ p ∈ W', p ∈ W ∨ p.2 = none := by
  intro p hp
  rcases h (Finset.mem_coe.mpr hp) with h | ⟨w, s, rfl⟩
  · exact .inl (Finset.mem_coe.mp h)
  · exact .inr rfl

/-- From what @main holds at the last call to what its region is entered with, and back. -/
theorem glue2 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) (O : CellTallies nD τ sig (HIx 1)) (W : Waits sig (HIx 1))
    {α : Type} (k : PUnit → KProg (F := F) α) (Q : α → sProp 𝕄) :
    iprop((iprop(boundary (SparseCore.T d) ∗ (tcLoc d main_v20_0 ↦{fullShare} g0) ∗ (tcLoc d main_v20_1 ↦{fullShare} g1) ∗ (tcLoc d main_v16 ↦{fullShare} p0) ∗ (tcLoc d main_v19 ↦{fullShare} p1) ∗ (tcLoc d main_arg4 ↦{fullShare} w1) ∗ (tcLoc d main_v21 ↦{fullShare} b1) ∗ (tcLoc d main_v22 ↦{fullShare} w2) ∗ (tcLoc d main_v23 ↦{fullShare} b2) ∗ (tcLoc d main_v24 ↦{fullShare} Res2 d g0 g1 p0 p1 w1 b1 w2 b2)
            ∗ ∃ W', ⌜∀ p ∈ W', p ∈ W ∨ p.2 = none⌝ ∗ owes (SparseCore.T d) O W')
          -∗ wp frame (wpE ((K (F := F)).defs (D (F := F))) 𝒱 (SparseCore.T d) none) Set.univ (k ⟨⟩) Q)
        ∗ boundary (SparseCore.T d) ∗ (tcLoc d main_v20_0 ↦{fullShare} g0) ∗ (tcLoc d main_v20_1 ↦{fullShare} g1) ∗ (tcLoc d main_v16 ↦{fullShare} p0) ∗ (tcLoc d main_v19 ↦{fullShare} p1) ∗ (tcLoc d main_arg4 ↦{fullShare} w1) ∗ (tcLoc d main_v21 ↦{fullShare} b1) ∗ (tcLoc d main_v22 ↦{fullShare} w2) ∗ (tcLoc d main_v23 ↦{fullShare} b2)
        ∗ (tcLoc d main_v24 ↦{fullShare} o) ∗ owes (SparseCore.T d) O W
        ∗ levAts (K (F := F)).L (K (F := F)).lev
        ∗ Pipeline.cellsGhost (Pipeline.pin (pcfgs (F := F)) adm) (EP (F := F)) 1 d ∗ Pipeline.toksInit (Pipeline.pin (pcfgs (F := F)) adm) (EP (F := F)) 1 d)
      ⊢ iprop((iprop(boundary (SparseCore.T d) ∗ iprop(((tcLoc d main_v20_0 ↦{fullShare} g0) ∗ (tcLoc d main_v20_1 ↦{fullShare} g1) ∗ (tcLoc d main_v16 ↦{fullShare} p0) ∗ (tcLoc d main_v19 ↦{fullShare} p1) ∗ (tcLoc d main_arg4 ↦{fullShare} w1) ∗ (tcLoc d main_v21 ↦{fullShare} b1) ∗ (tcLoc d main_v22 ↦{fullShare} w2) ∗ (tcLoc d main_v23 ↦{fullShare} b2) ∗ (tcLoc d main_v24 ↦{fullShare} Res2 d g0 g1 p0 p1 w1 b1 w2 b2))
          ∗ Pipeline.owesWithin d O ((↑W : Set (SemLoc sig × HIx 1)) ∪ cfg2.waitPairs none))) -∗ wp frame (wpE ((K (F := F)).defs (D (F := F))) 𝒱 (SparseCore.T d) none) Set.univ (k ⟨⟩) Q)
        ∗ boundary (SparseCore.T d) ∗ iprop(((tcLoc d main_v20_0 ↦{fullShare} g0) ∗ (tcLoc d main_v20_1 ↦{fullShare} g1) ∗ (tcLoc d main_v16 ↦{fullShare} p0) ∗ (tcLoc d main_v19 ↦{fullShare} p1) ∗ (tcLoc d main_arg4 ↦{fullShare} w1) ∗ (tcLoc d main_v21 ↦{fullShare} b1) ∗ (tcLoc d main_v22 ↦{fullShare} w2) ∗ (tcLoc d main_v23 ↦{fullShare} b2) ∗ (tcLoc d main_v24 ↦{fullShare} o)) ∗ Pipeline.owesWithin d O (↑W : Set (SemLoc sig × HIx 1)))
        ∗ levAts (K (F := F)).L (K (F := F)).lev
        ∗ Pipeline.cellsGhost (Pipeline.pin (pcfgs (F := F)) adm) (EP (F := F)) 1 d ∗ Pipeline.toksInit (Pipeline.pin (pcfgs (F := F)) adm) (EP (F := F)) 1 d) := by
  iintro ⟨Hk, Hb, H0, H1, H2, H3, H4, H5, H6, H7, H8, HO, Hlev, Hg, Ht⟩
  isplitl [Hk]
  · iintro ⟨Hb, ⟨H0, H1, H2, H3, H4, H5, H6, H7, H8⟩, HO⟩
    iapply Hk
    isplitl [Hb]; · iexact Hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    icases HO with ⟨%W', %hW', HO⟩
    iexists W'; isplitr
    · ipureintro; exact mem_or_none_of_subset hW'
    iexact HO
  isplitl [Hb]; · iexact Hb
  isplitl [H0 H1 H2 H3 H4 H5 H6 H7 H8 HO]
  · isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexists W; isplitr
    · ipureintro; exact subset_rfl
    iexact HO
  isplitl [Hlev]; · iexact Hlev
  isplitl [Hg]; · iexact Hg
  iexact Ht

/-! ## The first call -/

/-- The buffers' contents on device `d` with the first call's two arrays named. -/
def vd0 (d : Dev nD) (f0 : Buf (Elt F) (tcLoc d main_v0)) (f1 : Buf (Elt F) (tcLoc d main_v1)) : (b : Ref sig .tc) → Buf (Elt F) (tcLoc d b) := fun b =>
  if h : b = main_v0 then (by subst h; exact f0) else
  if h : b = main_v1 then (by subst h; exact f1) else fun _ => Classical.arbitrary _

theorem vd0_0 (d : Dev nD) (f0 : Buf (Elt F) (tcLoc d main_v0)) (f1 : Buf (Elt F) (tcLoc d main_v1)) : vd0 d f0 f1 main_v0 = f0 := by
  unfold vd0; rw [dif_pos rfl]
theorem vd0_1 (d : Dev nD) (f0 : Buf (Elt F) (tcLoc d main_v0)) (f1 : Buf (Elt F) (tcLoc d main_v1)) : vd0 d f0 f1 main_v1 = f1 := by
  unfold vd0; rw [dif_neg (by decide), dif_pos rfl]

set_option backward.isDefEq.respectTransparency.types false in
/-- The first call's two arrays, one by one. -/
theorem arrays0_eq (V : Reg.TcVal F) (O : CellTallies nD τ sig (HIx 1)) (W : Waits sig (HIx 1)) (d : Dev nD)
    (Fn : (w : Fin cfg0.W) → Buf (Elt F) ((cfg0.win w).arr.view.loc (d.tc : Thread nD τ))) :
    ((Reg.rdat0 (Ix := HIx 1) (Name := ℕ) (U := UU) (Lvl := ℕ) V (fun _ => O) (fun _ => (↑W : Set (SemLoc sig × HIx 1))) d).arrays Fn : sProp 𝕄)
      = iprop((tcLoc d main_v0 ↦{fullShare} Fn 0) ∗ (tcLoc d main_v1 ↦{fullShare} Fn 1)) := by
  have e := Pipeline.RDat.arrays_eq (pcfgs (F := F)) adm (Reg.rdats (F := F) (Ix := HIx 1) (Name := ℕ) (U := UU) (Lvl := ℕ) V (fun _ => O) (fun _ => (↑W : Set (SemLoc sig × HIx 1))) V (fun _ => O) (fun _ => (↑W : Set (SemLoc sig × HIx 1)))) 0 d launch0.arr_whole
    (fun w => by unfold RDat.share; split <;> rfl) Fn
  rw [bigSep_W0] at e
  exact e

set_option backward.isDefEq.respectTransparency.types false in
/-- The first call's two arrays after the run, one by one: each at some contents it may then hold. -/
theorem arraysAt0_eq (V : Reg.TcVal F) (O : CellTallies nD τ sig (HIx 1)) (W : Waits sig (HIx 1)) (d : Dev nD) (n : Nat) :
    ((Reg.rdat0 (Ix := HIx 1) (Name := ℕ) (U := UU) (Lvl := ℕ) V (fun _ => O) (fun _ => (↑W : Set (SemLoc sig × HIx 1))) d).arraysAt n : sProp 𝕄)
      = iprop((∃ G, ⌜(Reg.rdat0 (Ix := HIx 1) (Name := ℕ) (U := UU) (Lvl := ℕ) V (fun _ => O) (fun _ => (↑W : Set (SemLoc sig × HIx 1))) d).ArrAt 0 n G⌝ ∗ tcLoc d main_v0 ↦{fullShare} G)
          ∗ (∃ G, ⌜(Reg.rdat0 (Ix := HIx 1) (Name := ℕ) (U := UU) (Lvl := ℕ) V (fun _ => O) (fun _ => (↑W : Set (SemLoc sig × HIx 1))) d).ArrAt 1 n G⌝ ∗ tcLoc d main_v1 ↦{fullShare} G)) := by
  have e : ((Reg.rdat0 (Ix := HIx 1) (Name := ℕ) (U := UU) (Lvl := ℕ) V (fun _ => O) (fun _ => (↑W : Set (SemLoc sig × HIx 1))) d).arraysAt n : sProp 𝕄)
      = bigSep Finset.univ fun w : Fin cfg0.W => iprop(∃ G, ⌜(Reg.rdat0 (Ix := HIx 1) (Name := ℕ) (U := UU) (Lvl := ℕ) V (fun _ => O) (fun _ => (↑W : Set (SemLoc sig × HIx 1))) d).ArrAt w n G⌝
          ∗ ((d.tc : Thread nD τ).loc (Pipeline.arrRef spec0 w)) ↦{fullShare} G) := by
    unfold RDat.arraysAt
    exact bigSep_congr fun w _ => by
      have hs : (cfg0.win w).arr.view.set = Finset.univ := (launch0.arr_whole w).set_eq_univ
      rw [hs, show (Reg.rdat0 (Ix := HIx 1) (Name := ℕ) (U := UU) (Lvl := ℕ) V (fun _ => O) (fun _ => (↑W : Set (SemLoc sig × HIx 1))) d).share w = fullShare from by unfold RDat.share; split <;> rfl]
  rw [e, bigSep_W0]

/-- Whatever the layout's array may hold after the run is a right layout of the transposed table. -/
theorem goodOut_of_arrAt (V : Reg.TcVal F) (O : Dev nD → CellTallies nD τ sig (HIx 1)) (R : Dev nD → Set (SemLoc sig × HIx 1)) (d : Dev nD)
    (f0 : Buf (Elt F) (tcLoc d main_v0)) (h0 : V d main_v0 = f0) (G : Buf (Elt F) (tcLoc d main_v1))
    (hG : (Reg.rdat0 (Ix := HIx 1) (Name := ℕ) (U := UU) (Lvl := ℕ) V O R d).ArrAt 1 cfg0.N G) : GoodOut d f0 G := by
  intro Rr l h
  have hR := Rr.isLt
  have hl := l.isLt
  have hc : 16384 * (Rr.val / 8192) + 8192 * (l.val / 64) + Rr.val % 8192 < 1000000 := h
  have e := Reg.arrAt0_1_apply V O R d G hG (⟨Rr.val / 8192, by omega⟩ : Fin 62) (⟨Rr.val % 8192, Nat.mod_lt _ (by decide)⟩ : Fin 8192)
    (⟨l.val / 64, by omega⟩ : Fin 2) (⟨l.val % 64, Nat.mod_lt _ (by decide)⟩ : Fin 64) hc
  refine Eq.trans (congrArg G ?_) (e.trans ?_)
  · exact congr (congrArg ix2 (Fin.ext (by show Rr.val = 8192 * (Rr.val / 8192) + Rr.val % 8192; omega)))
      (Fin.ext (by show l.val = 64 * (l.val / 64) + l.val % 64; omega))
  · show V d main_v0 _ = f0 _
    rw [h0]
    rfl

/-- From what @main holds at the first call to what its region is entered with, and back. -/
theorem glue0 (V : Reg.TcVal F) (d : Dev nD) (f0 : Buf (Elt F) (tcLoc d main_v0)) (f1 : Buf (Elt F) (tcLoc d main_v1)) (h0 : V d main_v0 = f0) (O : CellTallies nD τ sig (HIx 1)) (W : Waits sig (HIx 1))
    {α : Type} (k : PUnit → KProg (F := F) α) (Q : α → sProp 𝕄) :
    iprop((iprop(boundary (SparseCore.T d) ∗ (tcLoc d main_v0 ↦{fullShare} f0) ∗ (∃ G, ⌜GoodOut d f0 G⌝ ∗ tcLoc d main_v1 ↦{fullShare} G)
            ∗ ∃ W', ⌜∀ p ∈ W', p ∈ W ∨ p.2 = none⌝ ∗ owes (SparseCore.T d) O W')
          -∗ wp frame (wpE ((K (F := F)).defs (D (F := F))) 𝒱 (SparseCore.T d) none) Set.univ (k ⟨⟩) Q)
        ∗ boundary (SparseCore.T d) ∗ (tcLoc d main_v0 ↦{fullShare} f0) ∗ (tcLoc d main_v1 ↦{fullShare} f1) ∗ owes (SparseCore.T d) O W
        ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ iprop((iprop(boundary (SparseCore.T d) ∗ iprop(((∃ G, ⌜(Reg.rdat0 (Ix := HIx 1) (Name := ℕ) (U := UU) (Lvl := ℕ) V (fun _ => O) (fun _ => (↑W : Set (SemLoc sig × HIx 1))) d).ArrAt 0 cfg0.N G⌝ ∗ tcLoc d main_v0 ↦{fullShare} G)
          ∗ (∃ G, ⌜(Reg.rdat0 (Ix := HIx 1) (Name := ℕ) (U := UU) (Lvl := ℕ) V (fun _ => O) (fun _ => (↑W : Set (SemLoc sig × HIx 1))) d).ArrAt 1 cfg0.N G⌝ ∗ tcLoc d main_v1 ↦{fullShare} G))
          ∗ Pipeline.owesWithin d O ((↑W : Set (SemLoc sig × HIx 1)) ∪ cfg0.waitPairs none))) -∗ wp frame (wpE ((K (F := F)).defs (D (F := F))) 𝒱 (SparseCore.T d) none) Set.univ (k ⟨⟩) Q)
        ∗ boundary (SparseCore.T d) ∗ iprop(((tcLoc d main_v0 ↦{fullShare} f0) ∗ (tcLoc d main_v1 ↦{fullShare} f1)) ∗ Pipeline.owesWithin d O (↑W : Set (SemLoc sig × HIx 1)))
        ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d) := by
  iintro ⟨Hk, Hb, H0, H1, HO, Hlev, Hg, Ht⟩
  isplitl [Hk]
  · iintro ⟨Hb, ⟨⟨%G0, %hG0, H0⟩, ⟨%G1, %hG1, H1⟩⟩, HO⟩
    iapply Hk
    isplitl [Hb]; · iexact Hb
    isplitl [H0]
    · have e : G0 = f0 := by rw [Reg.arrAt0_0] at hG0; exact hG0.trans h0
      subst e
      iexact H0
    isplitl [H1]
    · iexists G1; isplitr
      · ipureintro; exact goodOut_of_arrAt V _ _ d _ h0 G1 hG1
      iexact H1
    icases HO with ⟨%W', %hW', HO⟩
    iexists W'; isplitr
    · ipureintro; exact mem_or_none_of_subset hW'
    iexact HO
  isplitl [Hb]; · iexact Hb
  isplitl [H0 H1 HO]
  · isplitl [H0 H1]
    · isplitl [H0]; · iexact H0
      iexact H1
    iexists W; isplitr
    · ipureintro; exact subset_rfl
    iexact HO
  isplitl [Hlev]; · iexact Hlev
  isplitl [Hg]; · iexact Hg
  iexact Ht

end Cert.KernelIdeal.KL

end
-- ==== Proof.RegSegEq.lean ====
import proofs.«205759_g46823733461237_cont_8to1_c_287_19_alg».proof.Proof.RegSeg

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants) (ι : Ix) (L : GSem nD τ sig → Finset Ix) (lv : GSem nD τ sig → Ix → Lvl)
variable (V0 : TcVal F) (O0 : Dev nD → CellTallies nD τ sig Ix) (R0 : Dev nD → Set (SemLoc sig × Ix))
variable (V2 : TcVal F) (O2 : Dev nD → CellTallies nD τ sig Ix) (R2 : Dev nD → Set (SemLoc sig × Ix))

/-! # The regions' thread states, spelt out -/

set_option backward.isDefEq.respectTransparency.types false in
theorem reg2_pre (hw : ∀ (c : Dev nD) (sm : SemLoc sig), (levAts L lv : sProp 𝕄) ⊢ MayWait (c : Thread nD τ) sm ι (O2 c)) (c : Dev nD) :
    (reg2 (Name := Name) (U := U) 𝒱₀ ι L lv V0 O0 R0 V2 O2 R2 hw).pre c
      = iprop((dat2 (Name := Name) (U := U) (Lvl := Lvl) V2 O2 R2 c).arrays (fun w => V2 c (Pipeline.arrRef spec2 w)) ∗ Pipeline.owesWithin c (O2 c) (R2 c)) := rfl

set_option backward.isDefEq.respectTransparency.types false in
theorem reg2_post (hw : ∀ (c : Dev nD) (sm : SemLoc sig), (levAts L lv : sProp 𝕄) ⊢ MayWait (c : Thread nD τ) sm ι (O2 c)) (c : Dev nD) :
    (reg2 (Name := Name) (U := U) 𝒱₀ ι L lv V0 O0 R0 V2 O2 R2 hw).post c
      = iprop((dat2 (Name := Name) (U := U) (Lvl := Lvl) V2 O2 R2 c).arrays (fun w => (dat2 (Name := Name) (U := U) (Lvl := Lvl) V2 O2 R2 c).arrAt w cfg2.N)
          ∗ Pipeline.owesWithin c (O2 c) (R2 c ∪ cfg2.waitPairs ι)) := rfl

set_option backward.isDefEq.respectTransparency.types false in
theorem reg0_pre (hw : ∀ (c : Dev nD) (sm : SemLoc sig), (levAts L lv : sProp 𝕄) ⊢ MayWait (c : Thread nD τ) sm ι (O0 c)) (c : Dev nD) :
    (reg0 (Name := Name) (U := U) 𝒱₀ ι L lv V0 O0 R0 V2 O2 R2 hw).pre c
      = iprop((rdat0 (Name := Name) (U := U) (Lvl := Lvl) V0 O0 R0 c).arrays (fun w => V0 c (Pipeline.arrRef spec0 w)) ∗ Pipeline.owesWithin c (O0 c) (R0 c)) := rfl

set_option backward.isDefEq.respectTransparency.types false in
theorem reg0_post (hw : ∀ (c : Dev nD) (sm : SemLoc sig), (levAts L lv : sProp 𝕄) ⊢ MayWait (c : Thread nD τ) sm ι (O0 c)) (c : Dev nD) :
    (reg0 (Name := Name) (U := U) 𝒱₀ ι L lv V0 O0 R0 V2 O2 R2 hw).post c
      = iprop((rdat0 (Name := Name) (U := U) (Lvl := Lvl) V0 O0 R0 c).arraysAt cfg0.N ∗ Pipeline.owesWithin c (O0 c) (R0 c ∪ cfg0.waitPairs ι)) := rfl

end Cert.KernelIdeal.Reg

end
-- ==== Proof.RegGlue0.lean ====
import proofs.«205759_g46823733461237_cont_8to1_c_287_19_alg».proof.Proof.RegGlueA
import proofs.«205759_g46823733461237_cont_8to1_c_287_19_alg».proof.Proof.RegSegEq

set_option maxRecDepth 16384

noncomputable section

namespace Cert.KernelIdeal.KL

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)
open Idealize.ShloMosaic.ValueIdx (ix1 ix2)

variable {F : FTy → Type} [FloatOps F] [∀ e, Nonempty (Elt F e)]

local notation "𝕄" => MT nD τ sig (HIx 1) (Elt F) ℕ UU ℕ

/-! # The two TensorCore calls as the TensorCore's program meets them -/

set_option backward.isDefEq.respectTransparency.types false in
/-- The first TensorCore call as @main meets it: the region rule at the first call's record, the arrays named. -/
theorem region0Spec : Region0Spec (F := F) := by
  intro d O W hO f0 f1 α k Q
  generalize hV : valAt d (vd0 d f0 f1) = V
  have h0 : V d main_v0 = f0 := by rw [← hV, valAt_self, vd0_0]
  have h1 : V d main_v1 = f1 := by rw [← hV, valAt_self, vd0_1]
  have h0' : V d (Pipeline.arrRef spec0 0) = f0 := h0
  have h1' : V d (Pipeline.arrRef spec0 1) = f1 := h1
  have key := wp_region (Reg.reg0 (F := F) (Ix := HIx 1) (Name := ℕ) (U := UU) (Lvl := ℕ) 𝒱₀ none (K (F := F)).L (K (F := F)).lev
      V (fun _ => O) (fun _ => (↑W : Set (SemLoc sig × HIx 1))) V (fun _ => O) (fun _ => (↑W : Set (SemLoc sig × HIx 1)))
      (fun c sm => (K (F := F)).mayWait_none sm hO)) d k Q
  rw [Reg.reg0_pre, Reg.reg0_post, arrays0_eq, arraysAt0_eq, h0', h1'] at key
  exact (glue0 V d f0 f1 h0 O W k Q).trans key

end Cert.KernelIdeal.KL

end
-- ==== Proof.RegGlue2.lean ====
import proofs.«205759_g46823733461237_cont_8to1_c_287_19_alg».proof.Proof.RegGlueA
import proofs.«205759_g46823733461237_cont_8to1_c_287_19_alg».proof.Proof.RegSegEq

set_option maxRecDepth 16384

noncomputable section

namespace Cert.KernelIdeal.KL

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)
open Idealize.ShloMosaic.ValueIdx (ix1 ix2)

variable {F : FTy → Type} [FloatOps F] [∀ e, Nonempty (Elt F e)]

local notation "𝕄" => MT nD τ sig (HIx 1) (Elt F) ℕ UU ℕ

/-! # The two TensorCore calls as the TensorCore's program meets them -/

set_option maxHeartbeats 4000000 in
set_option backward.isDefEq.respectTransparency.types false in
/-- The last TensorCore call as @main meets it: the region rule at the last call's record, the arrays named. -/
theorem region2Spec : Region2Spec (F := F) := by
  intro d O W hO g0 g1 p0 p1 w1 b1 w2 b2 o α k Q
  generalize hV : valAt d (vd2 d g0 g1 p0 p1 w1 b1 w2 b2 o) = V
  have h0 : V d main_v20_0 = g0 := by rw [← hV, valAt_self, vd2_0]
  have h1 : V d main_v20_1 = g1 := by rw [← hV, valAt_self, vd2_1]
  have h2 : V d main_v16 = p0 := by rw [← hV, valAt_self, vd2_2]
  have h3 : V d main_v19 = p1 := by rw [← hV, valAt_self, vd2_3]
  have h4 : V d main_arg4 = w1 := by rw [← hV, valAt_self, vd2_4]
  have h5 : V d main_v21 = b1 := by rw [← hV, valAt_self, vd2_5]
  have h6 : V d main_v22 = w2 := by rw [← hV, valAt_self, vd2_6]
  have h7 : V d main_v23 = b2 := by rw [← hV, valAt_self, vd2_7]
  have h8 : V d main_v24 = o := by rw [← hV, valAt_self, vd2_8]
  have h0' : V d (Pipeline.arrRef spec2 0) = g0 := h0
  have h1' : V d (Pipeline.arrRef spec2 1) = g1 := h1
  have h2' : V d (Pipeline.arrRef spec2 2) = p0 := h2
  have h3' : V d (Pipeline.arrRef spec2 3) = p1 := h3
  have h4' : V d (Pipeline.arrRef spec2 4) = w1 := h4
  have h5' : V d (Pipeline.arrRef spec2 5) = b1 := h5
  have h6' : V d (Pipeline.arrRef spec2 6) = w2 := h6
  have h7' : V d (Pipeline.arrRef spec2 7) = b2 := h7
  have h8' : V d (Pipeline.arrRef spec2 8) = o := h8
  have a0 : (Reg.dat2 (Ix := HIx 1) (Name := ℕ) (U := UU) (Lvl := ℕ) V (fun _ => O) (fun _ => (↑W : Set (SemLoc sig × HIx 1))) d).arrAt 0 cfg2.N = g0 :=
    (Reg.arrAt2_in (Ix := HIx 1) (Name := ℕ) (U := UU) (Lvl := ℕ) V (fun _ => O) (fun _ => (↑W : Set (SemLoc sig × HIx 1))) d 0 rfl cfg2.N).trans h0'
  have a1 : (Reg.dat2 (Ix := HIx 1) (Name := ℕ) (U := UU) (Lvl := ℕ) V (fun _ => O) (fun _ => (↑W : Set (SemLoc sig × HIx 1))) d).arrAt 1 cfg2.N = g1 :=
    (Reg.arrAt2_in (Ix := HIx 1) (Name := ℕ) (U := UU) (Lvl := ℕ) V (fun _ => O) (fun _ => (↑W : Set (SemLoc sig × HIx 1))) d 1 rfl cfg2.N).trans h1'
  have a2 : (Reg.dat2 (Ix := HIx 1) (Name := ℕ) (U := UU) (Lvl := ℕ) V (fun _ => O) (fun _ => (↑W : Set (SemLoc sig × HIx 1))) d).arrAt 2 cfg2.N = p0 :=
    (Reg.arrAt2_in (Ix := HIx 1) (Name := ℕ) (U := UU) (Lvl := ℕ) V (fun _ => O) (fun _ => (↑W : Set (SemLoc sig × HIx 1))) d 2 rfl cfg2.N).trans h2'
  have a3 : (Reg.dat2 (Ix := HIx 1) (Name := ℕ) (U := UU) (Lvl := ℕ) V (fun _ => O) (fun _ => (↑W : Set (SemLoc sig × HIx 1))) d).arrAt 3 cfg2.N = p1 :=
    (Reg.arrAt2_in (Ix := HIx 1) (Name := ℕ) (U := UU) (Lvl := ℕ) V (fun _ => O) (fun _ => (↑W : Set (SemLoc sig × HIx 1))) d 3 rfl cfg2.N).trans h3'
  have a4 : (Reg.dat2 (Ix := HIx 1) (Name := ℕ) (U := UU) (Lvl := ℕ) V (fun _ => O) (fun _ => (↑W : Set (SemLoc sig × HIx 1))) d).arrAt 4 cfg2.N = w1 :=
    (Reg.arrAt2_in (Ix := HIx 1) (Name := ℕ) (U := UU) (Lvl := ℕ) V (fun _ => O) (fun _ => (↑W : Set (SemLoc sig × HIx 1))) d 4 rfl cfg2.N).trans h4'
  have a5 : (Reg.dat2 (Ix := HIx 1) (Name := ℕ) (U := UU) (Lvl := ℕ) V (fun _ => O) (fun _ => (↑W : Set (SemLoc sig × HIx 1))) d).arrAt 5 cfg2.N = b1 :=
    (Reg.arrAt2_in (Ix := HIx 1) (Name := ℕ) (U := UU) (Lvl := ℕ) V (fun _ => O) (fun _ => (↑W : Set (SemLoc sig × HIx 1))) d 5 rfl cfg2.N).trans h5'
  have a6 : (Reg.dat2 (Ix := HIx 1) (Name := ℕ) (U := UU) (Lvl := ℕ) V (fun _ => O) (fun _ => (↑W : Set (SemLoc sig × HIx 1))) d).arrAt 6 cfg2.N = w2 :=
    (Reg.arrAt2_in (Ix := HIx 1) (Name := ℕ) (U := UU) (Lvl := ℕ) V (fun _ => O) (fun _ => (↑W : Set (SemLoc sig × HIx 1))) d 6 rfl cfg2.N).trans h6'
  have a7 : (Reg.dat2 (Ix := HIx 1) (Name := ℕ) (U := UU) (Lvl := ℕ) V (fun _ => O) (fun _ => (↑W : Set (SemLoc sig × HIx 1))) d).arrAt 7 cfg2.N = b2 :=
    (Reg.arrAt2_in (Ix := HIx 1) (Name := ℕ) (U := UU) (Lvl := ℕ) V (fun _ => O) (fun _ => (↑W : Set (SemLoc sig × HIx 1))) d 7 rfl cfg2.N).trans h7'
  have a8 : (Reg.dat2 (Ix := HIx 1) (Name := ℕ) (U := UU) (Lvl := ℕ) V (fun _ => O) (fun _ => (↑W : Set (SemLoc sig × HIx 1))) d).arrAt 8 cfg2.N = Res2 d g0 g1 p0 p1 w1 b1 w2 b2 :=
    (Reg.arrAt2_8 (Ix := HIx 1) (Name := ℕ) (U := UU) (Lvl := ℕ) V (fun _ => O) (fun _ => (↑W : Set (SemLoc sig × HIx 1))) d).trans (res2_eq V d g0 g1 p0 p1 w1 b1 w2 b2 h0 h1 h2 h3 h4 h5 h6 h7)
  have key := wp_region (Reg.reg2 (F := F) (Ix := HIx 1) (Name := ℕ) (U := UU) (Lvl := ℕ) 𝒱₀ none (K (F := F)).L (K (F := F)).lev
      V (fun _ => O) (fun _ => (↑W : Set (SemLoc sig × HIx 1))) V (fun _ => O) (fun _ => (↑W : Set (SemLoc sig × HIx 1)))
      (fun c sm => (K (F := F)).mayWait_none sm hO)) d k Q
  rw [Reg.reg2_pre, Reg.reg2_post, arrays2_eq, arrays2_eq, a0, a1, a2, a3, a4, a5, a6, a7, a8, h0', h1', h2', h3', h4', h5', h6', h7', h8'] at key
  exact (glue2 d g0 g1 p0 p1 w1 b1 w2 b2 o O W k Q).trans key

end Cert.KernelIdeal.KL

end
-- ==== Proof.KSplitSets.lean ====
/- The rows of a result array that the tiles write: chunk r of the tile on SparseCore c, subcore s is the 128 rows
   from 128 (8 s + 4 c + r); the 128 chunks are pairwise disjoint and cover the array, so a result array held
   whole is its 128 chunks held apart. -/
import proofs.«205759_g46823733461237_cont_8to1_c_287_19_alg».proof.Proof.KPay

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A chunk's element set is its rectangle's. -/
theorem oSet_eq (L : grid1.Coords) (r : Fin 4) :
    oSet L r = (Rect.unit (s := S16384x128) (k1_off2 L (BitVec.ofNat 32 (128 * r.val))) S128x128.size (k1_off2_inb L r)).set := by
  show ((View.whole (main_v20_0_scv : Ref sig .scVector)).slice _).set = _
  rw [View.set_slice]; exact Finset.map_refl

/-- An index lies in chunk `r` of tile (`c`, `s`) when its row does. -/
theorem mem_oSet (c : Fin 2) (s : Fin 16) (r : Fin 4) (x : S16384x128.Idx) :
    x ∈ oSet (coordsV c s) r ↔ 128 * (8 * s.val + 4 * c.val + r.val) ≤ (x 0).val
      ∧ (x 0).val < 128 * (8 * s.val + 4 * c.val + r.val) + 128 := by
  rw [oSet_eq, Rect.mem_set_unit, k1_off2_eq, Fin.forall_fin_two]
  show (1024 * s.val + 512 * c.val + 128 * r.val ≤ (x 0).val ∧ (x 0).val < 1024 * s.val + 512 * c.val + 128 * r.val + 128)
    ∧ (0 ≤ (x 1).val ∧ (x 1).val < 0 + 128) ↔ _
  have h1 : (x 1).val < 128 := (x 1).isLt
  constructor
  · intro h; omega
  · intro h; omega

/-- The chunk of a triple (SparseCore, subcore, chunk number). -/
abbrev oSetT (t : Fin 2 × Fin 16 × Fin 4) : Finset S16384x128.Idx := oSet (coordsV t.1 t.2.1) t.2.2

theorem oSets_disjoint : ∀ t ∈ (Finset.univ : Finset (Fin 2 × Fin 16 × Fin 4)), ∀ t' ∈ (Finset.univ : Finset (Fin 2 × Fin 16 × Fin 4)),
    t ≠ t' → Disjoint (oSetT t) (oSetT t') := by
  rintro ⟨c, s, r⟩ - ⟨c', s', r'⟩ - hne
  refine Finset.disjoint_left.mpr fun x hx hx' => hne ?_
  have h := (mem_oSet c s r x).mp hx
  have h' := (mem_oSet c' s' r' x).mp hx'
  have hc := c.isLt; have hc' := c'.isLt; have hr := r.isLt; have hr' := r'.isLt
  have e1 : c.val = c'.val := by omega
  have e2 : s.val = s'.val := by omega
  have e3 : r.val = r'.val := by omega
  rw [Fin.ext e1, Fin.ext e2, Fin.ext e3]

theorem oSets_cover : (Finset.univ : Finset (Fin 2 × Fin 16 × Fin 4)).biUnion oSetT = Finset.univ := by
  refine Finset.eq_univ_iff_forall.mpr fun x => Finset.mem_biUnion.mpr ?_
  have hx : (x 0).val < 16384 := (x 0).isLt
  refine ⟨(⟨(x 0).val / 128 / 4 % 2, by omega⟩, ⟨(x 0).val / 128 / 8, by omega⟩, ⟨(x 0).val / 128 % 4, by omega⟩), Finset.mem_univ _, ?_⟩
  refine (mem_oSet _ _ _ x).mpr ?_
  show 128 * (8 * ((x 0).val / 128 / 8) + 4 * ((x 0).val / 128 / 4 % 2) + (x 0).val / 128 % 4) ≤ (x 0).val
    ∧ (x 0).val < 128 * (8 * ((x 0).val / 128 / 8) + 4 * ((x 0).val / 128 / 4 % 2) + (x 0).val / 128 % 4) + 128
  omega

/-- The first result array held whole is its chunks held apart, tile by tile. -/
theorem out0_chunks (d : Dev nD) (f : Buf (Elt F) (tcLoc d main_v20_0)) :
    (tcLoc d main_v20_0 ↦{fullShare} f : sProp 𝕄)
      = bigSep Finset.univ fun c : Fin 2 => bigSep Finset.univ fun s : Fin 16 => bigSep Finset.univ fun r : Fin 4 =>
          tcLoc d main_v20_0 ↦[oSet (coordsV c s) r]{fullShare} f := by
  have h := pointsTo_biUnion (ℓ := tcLoc d main_v20_0) (q := fullShare) (f := f) (Ix := HIx 1) (Name := ℕ) (U := UU) (Lvl := ℕ)
    (Finset.univ : Finset (Fin 2 × Fin 16 × Fin 4)) oSetT oSets_disjoint
  rw [oSets_cover] at h
  refine Eq.trans (by rfl) (h.trans ?_)
  rw [bigSep_univ_prod]
  refine bigSep_congr fun c _ => ?_
  rw [bigSep_univ_prod]

/-- The second result array likewise. -/
theorem out1_chunks (d : Dev nD) (f : Buf (Elt F) (tcLoc d main_v20_1)) :
    (tcLoc d main_v20_1 ↦{fullShare} f : sProp 𝕄)
      = bigSep Finset.univ fun c : Fin 2 => bigSep Finset.univ fun s : Fin 16 => bigSep Finset.univ fun r : Fin 4 =>
          tcLoc d main_v20_1 ↦[oSet (coordsV c s) r]{fullShare} f := by
  have h := pointsTo_biUnion (ℓ := tcLoc d main_v20_1) (q := fullShare) (f := f) (Ix := HIx 1) (Name := ℕ) (U := UU) (Lvl := ℕ)
    (Finset.univ : Finset (Fin 2 × Fin 16 × Fin 4)) oSetT oSets_disjoint
  rw [oSets_cover] at h
  refine Eq.trans (by rfl) (h.trans ?_)
  rw [bigSep_univ_prod]
  refine bigSep_congr fun c _ => ?_
  rw [bigSep_univ_prod]

end Cert.KernelIdeal.KL

end
-- ==== Proof.KSplitRead.lean ====
/- An array every tile reads, held whole, is one read share per tile and a remainder: the full share gives one token
   to each SparseCore and each token one to each of its tiles; the remainder is what is left of the full share and of
   each SparseCore's token. -/
import proofs.«205759_g46823733461237_cont_8to1_c_287_19_alg».proof.Proof.KPay

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The separating conjunction, as the proof mode writes it, is commutative and associative: for reassociating
    long conjunctions in one step. -/
instance sepComm : Std.Commutative (α := sProp 𝕄) BIBase.sep :=
  ⟨fun P Q => show BI.sep P Q = BI.sep Q P from Std.Commutative.comm P Q⟩
instance sepAssoc : Std.Associative (α := sProp 𝕄) BIBase.sep :=
  ⟨fun P Q R => show BI.sep (BI.sep P Q) R = BI.sep P (BI.sep Q R) from Std.Associative.assoc P Q R⟩

/-- What is left of an array's full share once every tile has its token. -/
def readRem (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTok fullShare 2 c) 16} f)

/-- The array held whole is the remainder and every tile's token. -/
theorem read_tokens (ℓ : Loc nD τ sig) (f : Buf (Elt F) ℓ) :
    (ℓ ↦{fullShare} f : sProp 𝕄)
      = iprop(readRem ℓ f ∗ bigSep Finset.univ fun c : Fin 2 => bigSep Finset.univ fun s : Fin 16 => ℓ ↦{sh c s} f) := by
  have h1 := Transfers.pointsTo_toks (ℓ := ℓ) (S := Finset.univ) (f := f) (Ix := HIx 1) (Name := ℕ) (U := UU) (Lvl := ℕ) fullShare 2
  have e1 : (ℓ ↦{fullShare} f : sProp 𝕄) = iprop((ℓ ↦{Transfers.shareDrop fullShare 2} f)
      ∗ bigSep Finset.univ fun c : Fin 2 => ℓ ↦{Transfers.shareTok fullShare 2 c} f) := BI.equiv_iff.mp ⟨h1.1, h1.2⟩
  have e2 : ∀ c : Fin 2, (ℓ ↦{Transfers.shareTok fullShare 2 c} f : sProp 𝕄)
      = iprop((ℓ ↦{Transfers.shareDrop (Transfers.shareTok fullShare 2 c) 16} f) ∗ bigSep Finset.univ fun s : Fin 16 => ℓ ↦{sh c s} f) := fun c => by
    have h2 := Transfers.pointsTo_toks (ℓ := ℓ) (S := Finset.univ) (f := f) (Ix := HIx 1) (Name := ℕ) (U := UU) (Lvl := ℕ) (Transfers.shareTok fullShare 2 c) 16
    exact BI.equiv_iff.mp ⟨h2.1, h2.2⟩
  rw [e1, bigSep_congr (fun c _ => e2 c), bigSep_sep']
  unfold readRem
  ac_rfl

end Cert.KernelIdeal.KL

end
-- ==== Proof.KSplit.lean ====
/- The SparseCore call's operands dealt to the tiles and gathered back: the four arrays every tile reads go out as
   one read share per tile, the two result arrays as the tiles' chunks; on the way back every tile's copy of the
   laid-out table agrees with the TensorCore's remaining share of it, so the gathered rows are those of the known
   table, and the shares and chunks join to the whole arrays. -/
import proofs.«205759_g46823733461237_cont_8to1_c_287_19_alg».proof.Proof.KMain
import proofs.«205759_g46823733461237_cont_8to1_c_287_19_alg».proof.Proof.KSplitSets
import proofs.«205759_g46823733461237_cont_8to1_c_287_19_alg».proof.Proof.KSplitRead

noncomputable section

namespace Cert.KernelIdeal.KL

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

omit [FloatOps F] in
/-- A step that keeps an anchor, taken at every member of a family in turn. -/
theorem bigSep_anchor {T : Type} (s : Finset T) (A : sProp 𝕄) (Φ Ψ : T → sProp 𝕄)
    (h : ∀ t ∈ s, iprop(A ∗ Φ t) ⊢ iprop(A ∗ Ψ t)) : iprop(A ∗ bigSep s Φ) ⊢ iprop(A ∗ bigSep s Ψ) := by
  classical
  induction s using Finset.induction_on with
  | empty => exact .rfl
  | insert t s ht ih =>
    rw [bigSep_insert ht, bigSep_insert ht]
    have h1 := h t (Finset.mem_insert_self t s)
    have h2 := ih fun t' ht' => h t' (Finset.mem_insert_of_mem ht')
    refine (show iprop(A ∗ (Φ t ∗ bigSep s Φ)) ⊢ iprop(A ∗ (Ψ t ∗ bigSep s Ψ)) from ?_)
    iintro ⟨HA, Ht, Hs⟩
    ihave H1 := h1 $$ [HA Ht]
    · isplitl [HA]; · iexact HA
      iexact Ht
    icases H1 with ⟨HA, Ht⟩
    ihave H2 := h2 $$ [HA Hs]
    · isplitl [HA]; · iexact HA
      iexact Hs
    icases H2 with ⟨HA, Hs⟩
    isplitl [HA]; · iexact HA
    isplitl [Ht]; · iexact Ht
    iexact Hs

/-- A tile's copy of the laid-out table agrees with any other share of it at a known table. -/
theorem agree_tile (d : Dev nD) (G : Buf (Elt F) (tcLoc d main_v1)) (q q' : PosShare TreeShare)
    (X : Buf (Elt F) (tcLoc d main_v1) → sProp 𝕄) :
    iprop((tcLoc d main_v1 ↦{q} G) ∗ (∃ f1, ⌜Good1 m d f1⌝ ∗ (tcLoc d main_v1 ↦{q'} f1) ∗ X f1))
      ⊢ iprop((tcLoc d main_v1 ↦{q} G) ∗ ((tcLoc d main_v1 ↦{q'} G) ∗ X G)) := by
  iintro ⟨Ha, %f1, %hg, H1, HX⟩
  ihave Hag := (persistent_entails_right pointsTo_agree) $$ [Ha H1]
  · isplitl [Ha]; · iexact Ha
    iexact H1
  icases Hag with ⟨%hag, Ha, H1⟩
  have e : f1 = G := funext fun i =>
    ((hag i (Finset.mem_inter.mpr ⟨Finset.mem_univ _, Finset.mem_univ _⟩)).1).symm
  subst e
  isplitl [Ha]; · iexact Ha
  isplitl [H1]; · iexact H1
  iexact HX

omit [FloatOps F] in
/-- A family over the call's SparseCores is a family over two. -/
theorem cores_eq (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

set_option maxHeartbeats 1000000 in
theorem splitJoin : SplitJoin m := by
  intro d G hG
  refine ⟨iprop(readRem (tcLoc d main_v9) (A9 m d) ∗ readRem (tcLoc d main_v11) (A11 m d) ∗ readRem (tcLoc d main_v1) G ∗ readRem (tcLoc d main_v2) (A2 m d)), ?_, ?_⟩
  · have hst : (bigSep Finset.univ fun c : Fin ((K (F := F)).nCore 0) => (P m).st 0 d c)
        = (bigSep Finset.univ fun c : Fin 2 => bigSep Finset.univ fun s : Fin 16 => tileGo m d c s) :=
      cores_eq (fun c => bigSep Finset.univ fun s : Fin 16 => tileGo m d c s)
    have hgo : ∀ (c : Fin 2) (s : Fin 16),
        iprop((tcLoc d main_v9 ↦{sh c s} A9 m d) ∗ (tcLoc d main_v11 ↦{sh c s} A11 m d) ∗ (tcLoc d main_v1 ↦{sh c s} G) ∗ (tcLoc d main_v2 ↦{sh c s} A2 m d)
          ∗ (bigSep Finset.univ fun j : Fin 4 => tcLoc d main_v20_0 ↦[oSet (coordsV c s) j]{fullShare} VB m d (Proc.devRef .tc main_v20_0))
          ∗ (bigSep Finset.univ fun j : Fin 4 => tcLoc d main_v20_1 ↦[oSet (coordsV c s) j]{fullShare} VB m d (Proc.devRef .tc main_v20_1)))
        ⊢ tileGo m d c s := by
      intro c s
      unfold tileGo
      refine sep_mono .rfl (sep_mono .rfl (sep_mono ?_ .rfl))
      iintro H
      iexists G
      isplitr
      · ipureintro; exact hG
      · iexact H
    rw [read_tokens (tcLoc d main_v9), read_tokens (tcLoc d main_v11), read_tokens (tcLoc d main_v1), read_tokens (tcLoc d main_v2), out0_chunks, out1_chunks, hst]
    refine Entails.trans (Entails.of_eq ?_)
      (sep_mono (bigSep_mono fun c _ => bigSep_mono fun s _ => hgo c s) .rfl)
    simp only [bigSep_sep']
    ac_rfl
  · have hdn : (bigSep Finset.univ fun c : Fin ((K (F := F)).nCore 0) => (P m).dn 0 d c)
        = (bigSep Finset.univ fun c : Fin 2 => bigSep Finset.univ fun s : Fin 16 => tileTd m d c s) :=
      cores_eq (fun c => bigSep Finset.univ fun s : Fin 16 => tileTd m d c s)
    have stepB : iprop((tcLoc d main_v1 ↦{Transfers.shareDrop fullShare 2} G) ∗ (bigSep Finset.univ fun c : Fin 2 => bigSep Finset.univ fun s : Fin 16 => iprop(∃ f1, ⌜Good1 m d f1⌝ ∗ (tcLoc d main_v1 ↦{sh c s} f1) ∗ (bigSep Finset.univ fun j : Fin 4 => tcLoc d main_v20_0 ↦[oSet (coordsV c s) j]{fullShare} D20 m d f1))))
        ⊢ iprop((tcLoc d main_v1 ↦{Transfers.shareDrop fullShare 2} G) ∗ (bigSep Finset.univ fun c : Fin 2 => bigSep Finset.univ fun s : Fin 16 => iprop((tcLoc d main_v1 ↦{sh c s} G) ∗ (bigSep Finset.univ fun j : Fin 4 => tcLoc d main_v20_0 ↦[oSet (coordsV c s) j]{fullShare} D20 m d G)))) :=
      bigSep_anchor Finset.univ _ _ _ fun c _ => bigSep_anchor Finset.univ _ _ _ fun s _ =>
        agree_tile m d G _ _ (fun f1 => (bigSep Finset.univ fun j : Fin 4 => tcLoc d main_v20_0 ↦[oSet (coordsV c s) j]{fullShare} D20 m d f1))
    rw [read_tokens (tcLoc d main_v9), read_tokens (tcLoc d main_v11), read_tokens (tcLoc d main_v1), read_tokens (tcLoc d main_v2), out0_chunks, out1_chunks, hdn]
    have eA : iprop((bigSep Finset.univ fun c : Fin 2 => bigSep Finset.univ fun s : Fin 16 => tileTd m d c s) ∗ iprop(readRem (tcLoc d main_v9) (A9 m d) ∗ readRem (tcLoc d main_v11) (A11 m d) ∗ readRem (tcLoc d main_v1) G ∗ readRem (tcLoc d main_v2) (A2 m d)))
        = iprop(((tcLoc d main_v1 ↦{Transfers.shareDrop fullShare 2} G) ∗ (bigSep Finset.univ fun c : Fin 2 => bigSep Finset.univ fun s : Fin 16 => iprop(∃ f1, ⌜Good1 m d f1⌝ ∗ (tcLoc d main_v1 ↦{sh c s} f1) ∗ (bigSep Finset.univ fun j : Fin 4 => tcLoc d main_v20_0 ↦[oSet (coordsV c s) j]{fullShare} D20 m d f1)))) ∗ iprop((bigSep Finset.univ fun c : Fin 2 => bigSep Finset.univ fun s : Fin 16 => (tcLoc d main_v9 ↦{sh c s} A9 m d)) ∗ (bigSep Finset.univ fun c : Fin 2 => bigSep Finset.univ fun s : Fin 16 => (tcLoc d main_v11 ↦{sh c s} A11 m d)) ∗ (bigSep Finset.univ fun c : Fin 2 => bigSep Finset.univ fun s : Fin 16 => (tcLoc d main_v2 ↦{sh c s} A2 m d)) ∗ (bigSep Finset.univ fun c : Fin 2 => bigSep Finset.univ fun s : Fin 16 => (bigSep Finset.univ fun j : Fin 4 => tcLoc d main_v20_1 ↦[oSet (coordsV c s) j]{fullShare} G20 m d))
        ∗ readRem (tcLoc d main_v9) (A9 m d) ∗ readRem (tcLoc d main_v11) (A11 m d) ∗ (bigSep Finset.univ fun c : Fin 2 => tcLoc d main_v1 ↦{Transfers.shareDrop (Transfers.shareTok fullShare 2 c) 16} G) ∗ readRem (tcLoc d main_v2) (A2 m d))) := by
      simp only [tileTd, readRem, bigSep_sep']
      ac_rfl
    rw [eA]
    refine Entails.trans (sep_mono stepB .rfl) (Entails.of_eq ?_)
    simp only [readRem, bigSep_sep']
    ac_rfl

end Cert.KernelIdeal.KL

end
-- ==== Proof.KVPre.lean ====
/-
  What the precondition says of the two index arguments: every domain index is at most 999999 and every go index
  at most 99999, read unsigned. The precondition's last two conjuncts say so of the signed readings, which are not
  negative; the conjuncts about the float arguments are not used.
-/
import proofs.«205759_g46823733461237_cont_8to1_c_287_19_alg».proof.Proof.KPay
import proofs.«205759_g46823733461237_cont_8to1_c_287_19_alg».proof.Proof.Gen.Pre_input_domain
import proofs.«205759_g46823733461237_cont_8to1_c_287_19_alg».proof.Pre_input_domain
import Idealize.ShloMosaic.Lib.ReduceAll

noncomputable section

namespace Cert.KernelIdeal.KV

open Cert.KernelIdeal Cert.KernelIdeal.Gen Cert.KernelIdeal.KL
open Idealize.ShloMosaic Idealize.ShloMosaic.ValueIdx Idealize.SL.Sem

variable {F : FTy → Type} [FloatOps F]

instance : Subsingleton Cert.Pre_input_domain.S_.Idx := ⟨fun a b => funext fun d => d.elim0⟩

/-- A word between zero and `n` as a signed number is at most `n` as an unsigned one. -/
theorem toNat_le_of_signed (x : BitVec 32) (n : ℕ) (hn : n < 2 ^ 31)
    (h : IntOp.andi (IntOp.cmpi .sge x 0#32) (IntOp.cmpi .sle x (BitVec.ofNat 32 n)) = 1#1) : x.toNat ≤ n := by
  obtain ⟨h0, h1⟩ := IntOp.andi_eq_one.1 h
  have h0 := IntOp.cmpi_sge.1 h0
  have h1 := IntOp.cmpi_sle.1 h1
  have hx := x.isLt
  simp only [BitVec.toInt_eq_toNat_cond, BitVec.toNat_ofNat, Nat.reducePow, Nat.reduceMod, Nat.reduceMul] at h0 h1
  omega

/-- The two index arguments are in range of their tables. -/
theorem ok_of_pre (m : (ℓ : Loc nD τ sig) → Buf (Elt F) ℓ)
    (h : ∀ c : Dev nD, (Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))) = (fun _ => 1#1)) :
    ∀ (d : Dev nD) (j : Fin 16384),
      (m (tcLoc d main_arg0) (ix1 j)).toNat ≤ 999999 ∧ (m (tcLoc d main_arg1) (ix1 j)).toNat ≤ 99999 := by
  intro d j
  have e := congrFun (h d) ix0
  dsimp only [Cert.Pre_input_domain.fn, Cert.Pre_input_domain.fn_part1, Cert.Pre_input_domain.fn_part2] at e
  obtain ⟨e1, e41⟩ := IntOp.andi_eq_one.1 e
  obtain ⟨-, e34⟩ := IntOp.andi_eq_one.1 e1
  have a0 := Host.reduce_andi_all _ _ _ _ _ e34 (ix1 j)
  have a1 := Host.reduce_andi_all _ _ _ _ _ e41 (ix1 j)
  exact ⟨toNat_le_of_signed _ 999999 (by decide) a0, toNat_le_of_signed _ 99999 (by decide) a1⟩

end Cert.KernelIdeal.KV

end
-- ==== Proof.KVRows.lean ====
/-
  The row numbers the SparseCore call gathers by, as words: row number 8192 (x / 16384) + x mod 8192 of the laid-out
  first table for domain index x, and y / 2 of the reshaped second table for go index y. Both name rows that exist;
  the lane half the parity bit (x / 8192) mod 2 names holds, at lane k of that half, column x of the original first
  table; and row y / 2 holds row y of the original second table in the half y mod 2 names.
-/
import proofs.«205759_g46823733461237_cont_8to1_c_287_19_alg».proof.Proof.KPay

noncomputable section

namespace Cert.KernelIdeal.KV

open Cert.KernelIdeal Cert.KernelIdeal.Gen Cert.KernelIdeal.KL
open Idealize.ShloMosaic Idealize.ShloMosaic.ValueIdx Idealize.SL.Sem

variable {F : FTy → Type} [FloatOps F]

variable (m : (ℓ : Loc nD τ sig) → Buf (Elt F) ℓ)

/-! ## Words -/

theorem shr14 (x : BitVec 32) : (IntOp.shrui .host x 14#32).toNat = x.toNat / 16384 := by
  simp [IntOp.shrui, Nat.shiftRight_eq_div_pow]
theorem shr13 (x : BitVec 32) : (IntOp.shrui .host x 13#32).toNat = x.toNat / 8192 := by
  simp [IntOp.shrui, Nat.shiftRight_eq_div_pow]
theorem shr1 (x : BitVec 32) : (IntOp.shrui .host x 1#32).toNat = x.toNat / 2 := by
  simp [IntOp.shrui, Nat.shiftRight_eq_div_pow]
theorem and8191 (x : BitVec 32) : (IntOp.andi x 8191#32).toNat = x.toNat % 8192 := by
  show (x &&& 8191#32).toNat = _
  rw [BitVec.toNat_and]; exact Nat.and_two_pow_sub_one_eq_mod x.toNat 13
theorem and1 (x : BitVec 32) : (IntOp.andi x 1#32).toNat = x.toNat % 2 := by
  show (x &&& 1#32).toNat = _
  rw [BitVec.toNat_and]; exact Nat.and_two_pow_sub_one_eq_mod x.toNat 1

/-- The row number of domain index `x`, as a natural number. -/
theorem row9_toNat (x : BitVec 32) (hx : x.toNat ≤ 999999) :
    (IntOp.addi (IntOp.muli (IntOp.shrui .host x 14#32) 8192#32) (IntOp.andi x 8191#32)).toNat
      = 8192 * (x.toNat / 16384) + x.toNat % 8192 := by
  show ((IntOp.shrui .host x 14#32) * 8192#32 + (IntOp.andi x 8191#32)).toNat = _
  rw [BitVec.toNat_add, BitVec.toNat_mul, shr14, and8191]
  simp only [BitVec.toNat_ofNat, Nat.reducePow, Nat.reduceMod]
  omega

/-- The parity bit of domain index `x`, as a natural number. -/
theorem par9_toNat (x : BitVec 32) : (IntOp.andi (IntOp.shrui .host x 13#32) 1#32).toNat = x.toNat / 8192 % 2 := by
  rw [and1, shr13]

/-- In the lane half its parity bit names, the row of domain index `x` holds column `x`. -/
theorem col_self (x : BitVec 32) (hx : x.toNat ≤ 999999) (k : Fin 64) :
    colOf (IntOp.addi (IntOp.muli (IntOp.shrui .host x 14#32) 8192#32) (IntOp.andi x 8191#32)).toNat
        (64 * (IntOp.andi (IntOp.shrui .host x 13#32) 1#32).toNat + k.val) = x.toNat := by
  rw [row9_toNat x hx, par9_toNat]
  unfold colOf
  have := k.isLt
  omega

/-- Row `y / 2`, half `y mod 2` of the reshaped second table is row `y` of the original. -/
theorem go_self (y : BitVec 32) : 2 * (IntOp.shrui .host y 1#32).toNat + (IntOp.andi y 1#32).toNat = y.toNat := by
  rw [shr1, and1]; omega

/-! ## The row-number arrays read at an index -/

theorem A9_apply (d : Dev nD) (j : Fin 16384) :
    A9 m d (ix1 j) = IntOp.addi (IntOp.muli (IntOp.shrui .host (m (tcLoc d main_arg0) (ix1 j)) 14#32) 8192#32)
      (IntOp.andi (m (tcLoc d main_arg0) (ix1 j)) 8191#32) := by
  show VB m d (Proc.devRef .tc main_v9) (ix1 j) = _
  dsimp only [VB, VA, V0, opsB, opsA]
  after_results
  rfl

theorem A11_apply (d : Dev nD) (j : Fin 16384) :
    A11 m d (ix1 j) = IntOp.shrui .host (m (tcLoc d main_arg1) (ix1 j)) 1#32 := by
  show VB m d (Proc.devRef .tc main_v11) (ix1 j) = _
  dsimp only [VB, VA, V0, opsB, opsA]
  after_results
  rfl

/-! ## The rows they name exist -/

theorem hin9 (h0 : ∀ (d : Dev nD) (j : Fin 16384), (m (tcLoc d main_arg0) (ix1 j)).toNat ≤ 999999) (d : Dev nD) (j : Fin 16384) :
    (A9 m d (ix1 j)).toNat < 507904 := by
  rw [A9_apply, row9_toNat _ (h0 d j)]
  have := h0 d j
  omega

theorem hin11 (h1 : ∀ (d : Dev nD) (j : Fin 16384), (m (tcLoc d main_arg1) (ix1 j)).toNat ≤ 99999) (d : Dev nD) (j : Fin 16384) :
    (A11 m d (ix1 j)).toNat < 50000 := by
  rw [A11_apply, shr1]
  have := h1 d j
  omega

/-- The same two facts at any index of the row-number arrays. -/
theorem hin9_idx (h0 : ∀ (d : Dev nD) (j : Fin 16384), (m (tcLoc d main_arg0) (ix1 j)).toNat ≤ 999999) (d : Dev nD) (j : S16384.Idx) :
    (A9 m d j).toNat < 507904 := by
  rw [eq_ix1 j]; exact hin9 m h0 d (j 0)

theorem hin11_idx (h1 : ∀ (d : Dev nD) (j : Fin 16384), (m (tcLoc d main_arg1) (ix1 j)).toNat ≤ 99999) (d : Dev nD) (j : S16384.Idx) :
    (A11 m d j).toNat < 50000 := by
  rw [eq_ix1 j]; exact hin11 m h1 d (j 0)

end Cert.KernelIdeal.KV

end
-- ==== Proof.BrSelect.lean ====
/-
  The first step of the last call's body, read one entry at a time: of each gathered 128-wide row it keeps one
  64-wide half, the upper one where the row's parity word is one and the lower one otherwise.
-/
import proofs.«205759_g46823733461237_cont_8to1_c_287_19_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Br

open Idealize.ShloMosaic Idealize.ShloMosaic.ValueIdx Cert.KernelIdeal

/-- The 64-wide half of row `r` of a 128-wide block that the row's parity word names: the upper half where the
    word is one, the lower half otherwise. -/
def half (x : Vec Ideal S2048x128 .f32) (p : Vec Ideal S2048x1 .i32) (r : Fin 2048) (k : Fin 64) : EReal :=
  if p (ix2 r (0 : Fin 1)) = 1#32 then x (ix2 r (⟨64 + k.val, by omega⟩ : Fin 128)) else x (ix2 r (⟨k.val, by omega⟩ : Fin 128))

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "the two words are equal" is the `if` on that equation. -/
theorem select_cmpi_eq {α : Type} (w v : BitVec 32) (A B : α) :
    Scalar.select (IntOp.cmpi .eq w v) A B = if w = v then A else B := by
  by_cases h : w = v
  · subst h; simp [Scalar.select, IntOp.cmpi]
  · have hb : (w == v) = false := beq_eq_false_iff_ne.mpr h
    simp [Scalar.select, IntOp.cmpi, hb, h]

/-- The first kept half, read at row `r` and lane `k`. -/
theorem pay_half0 (x0 : Vec Ideal S2048x128 .f32) (x2 : Vec Ideal S2048x1 .i32) (r : Fin 2048) (k : Fin 64) :
    Gen.k2_pay2 x0 x2 (ix2 r k) = half x0 x2 r k := by
  unfold Gen.k2_pay2 half
  simp only [shapeCast_self]
  rw [select_apply, broadcastTo_a1_ab_apply, slice2_axis1_eq, slice2_axis1_eq]
  show Scalar.select (IntOp.cmpi .eq (x2 (ix2 r (0 : Fin 1))) 1#32) _ _ = _
  rw [select_cmpi_eq]
  simp only [Nat.zero_add]

/-- The second kept half, read at row `r` and lane `k`. -/
theorem pay_half1 (x1 : Vec Ideal S2048x128 .f32) (x3 : Vec Ideal S2048x1 .i32) (r : Fin 2048) (k : Fin 64) :
    Gen.k2_pay3 x1 x3 (ix2 r k) = half x1 x3 r k := by
  unfold Gen.k2_pay3 half
  simp only [shapeCast_self]
  rw [select_apply, broadcastTo_a1_ab_apply, slice2_axis1_eq, slice2_axis1_eq]
  show Scalar.select (IntOp.cmpi .eq (x3 (ix2 r (0 : Fin 1))) 1#32) _ _ = _
  rw [select_cmpi_eq]
  simp only [Nat.zero_add]

end Cert.KernelIdeal.Br

end
-- ==== Proof.Spec.lean ====
/-
  The function both programs compute, one batch row at a time, on the extended reals: each looked-up row is scaled
  to norm at most one (a row of norm above one is divided by its norm plus a small constant), the two rows are
  multiplied entry by entry, and a two-layer head (a matrix product, a bias, the positive part, a second product, a
  bias, the logistic function) is applied. The three literals stay as their bit patterns.
-/
import Idealize.ShloMosaic.PureOps.Ideal

noncomputable section

namespace Cert.Spec

open Idealize.ShloMosaic

abbrev lit1 : EReal := Ideal.ofBits .f32 0x3F800000#32
abbrev litEps : EReal := Ideal.ofBits .f32 0x33D6BF95#32
abbrev lit0 : EReal := Ideal.ofBits .f32 0x00000000#32

/-- The Euclidean norm of a row. -/
def rowNorm (x : Fin 64 → EReal) : EReal := Ideal.sqrt (∑ k, x k * x k)

/-- The factor that brings a row of norm `n` to norm at most one. -/
def rowScale (n : EReal) : EReal := if lit1 < n then Ideal.div lit1 (n + litEps) else lit1

/-- A row scaled to norm at most one. -/
def renormRow (x : Fin 64 → EReal) (k : Fin 64) : EReal := x k * rowScale (rowNorm x)

/-- The head applied to the entrywise product of the two scaled rows. -/
def headRow (d g : Fin 64 → EReal) (W1 : Fin 64 → Fin 128 → EReal) (b1 W2 : Fin 128 → EReal) (b2 : EReal) : EReal :=
  Ideal.logistic ((∑ j, max ((∑ k, (renormRow d k * renormRow g k) * W1 k j) + b1 j) lit0 * W2 j) + b2)

end Cert.Spec

end
-- ==== Proof.BrNorm.lean ====
/-
  The norms and the scale factors of the last call's body, read one row at a time: the norm of a kept half-row is
  the square root of the sum of its squares, and the factor that brings the row to norm at most one is one over the
  norm plus a small constant where the norm exceeds one, and one otherwise.
-/
import proofs.«205759_g46823733461237_cont_8to1_c_287_19_alg».proof.Proof.BrSelect
import proofs.«205759_g46823733461237_cont_8to1_c_287_19_alg».proof.Proof.Spec
import Idealize.ShloMosaic.PureOps.Ideal.Laws

noncomputable section

namespace Cert.KernelIdeal.Br

open Idealize.ShloMosaic Idealize.ShloMosaic.ValueIdx Cert.KernelIdeal

/-- A square root at an index is the square root of the element. -/
theorem sqrt_apply {s : Shape} {φ : FTy} (v : FVec Ideal s φ) (i : s.Idx) : sqrt v i = Ideal.sqrt (v i) := rfl

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum along the lanes into a zero accumulator, read at row `r`: the sum of the row's entries. -/
theorem laneSum {n m : ℕ} (src : FVec Ideal ⟨2, ![n, m]⟩ .f32) (h : Shape.Reduces ⟨2, ![n, m]⟩ [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ k : Fin m, src (ix2 r k) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- A select on "`n` is greater than `l`" is the `if` on that inequality. -/
theorem select_cmp_ogt {α : Type} (n l : EReal) (A B : α) :
    Scalar.select (Ideal.cmp .ogt n l) A B = if l < n then A else B := by
  by_cases h : l < n
  · simp [Scalar.select, Ideal.cmp, h]
  · simp [Scalar.select, Ideal.cmp, h]

/-- The norm the body takes of a 64-wide row block, read at row `r`: the norm of that row. -/
theorem norm_apply (p : FVec Ideal S2048x64 .f32) (h : Shape.Reduces S2048x64 [1] S2048) (hφ : FKind.Formats .f32)
    (hacc : (0x00000000#32 : BitVec 32) = 0x00000000#32) (hc : S2048.ShapeCasts S2048x1) (r : Fin 2048) (u : Fin 1) :
    sqrt (shapeCast S2048x1 (multiReduction .add [1] S2048 (mulf p p) 0x00000000#32 h hφ hacc) hc) (ix2 r u)
      = Cert.Spec.rowNorm (fun k => p (ix2 r k)) := by
  rw [sqrt_apply, shapeCast_a_a1_apply]
  exact congrArg Ideal.sqrt (laneSum _ _ _ _ r)

/-- The factor the body takes from a column of norms, read at an index: the scale of the norm there. -/
theorem scale_apply (nv : FVec Ideal S2048x1 .f32) (i : S2048x1.Idx) :
    select (cmpf .ogt nv (broadcast S2048x1 Cert.Spec.lit1))
        (divf (broadcast S2048x1 Cert.Spec.lit1) (addf nv (broadcast S2048x1 Cert.Spec.litEps)))
        (broadcast S2048x1 Cert.Spec.lit1) i
      = Cert.Spec.rowScale (nv i) :=
  select_cmp_ogt _ _ _ _

/-- The norm of the second kept half-row. -/
theorem pay_norm1 (x1 : Vec Ideal S2048x128 .f32) (x3 : Vec Ideal S2048x1 .i32) (r : Fin 2048) (u : Fin 1) :
    Gen.k2_pay4 x1 x3 (ix2 r u) = Cert.Spec.rowNorm (half x1 x3 r) := by
  unfold Gen.k2_pay4
  refine (norm_apply _ _ _ _ _ r u).trans ?_
  exact congrArg Cert.Spec.rowNorm (funext fun k => pay_half1 x1 x3 r k)

/-- Whether that norm exceeds one, as the bit the body keeps. -/
theorem pay_gt1 (x1 : Vec Ideal S2048x128 .f32) (x3 : Vec Ideal S2048x1 .i32) (r : Fin 2048) (u : Fin 1) :
    Gen.k2_pay6 x1 x3 (ix2 r u) = Ideal.cmp .ogt (Cert.Spec.rowNorm (half x1 x3 r)) Cert.Spec.lit1 := by
  unfold Gen.k2_pay6
  show Ideal.cmp .ogt (Gen.k2_pay4 x1 x3 (ix2 r u)) Cert.Spec.lit1 = _
  rw [pay_norm1]

/-- The small constant the body adds to a norm before dividing. -/
theorem pay_eps (r : Fin 2048) (u : Fin 1) : Gen.k2_pay7 (F := Ideal) (ix2 r u) = Cert.Spec.litEps := rfl

/-- The scale factor of the first kept half-row. -/
theorem pay_scale0 (x0 : Vec Ideal S2048x128 .f32) (x2 : Vec Ideal S2048x1 .i32) (r : Fin 2048) (u : Fin 1) :
    Gen.k2_pay5 x0 x2 (ix2 r u) = Cert.Spec.rowScale (Cert.Spec.rowNorm (half x0 x2 r)) := by
  unfold Gen.k2_pay5
  refine (scale_apply _ _).trans ?_
  refine congrArg Cert.Spec.rowScale ((norm_apply _ _ _ _ _ r u).trans ?_)
  exact congrArg Cert.Spec.rowNorm (funext fun k => pay_half0 x0 x2 r k)

end Cert.KernelIdeal.Br

end
-- ==== Proof.KVRead.lean ====
/-
  The arrays the host operations of the program write, read one entry at a time from the program's arguments: the
  transposed first table, the second table with two rows to a row, the two parity columns, and the head's
  parameters as the last call takes them.
-/
import proofs.«205759_g46823733461237_cont_8to1_c_287_19_alg».proof.Proof.KPay
import proofs.«205759_g46823733461237_cont_8to1_c_287_19_alg».proof.Proof.BrNorm
import Idealize.ShloMosaic.Lib.ValueLayout
import Idealize.ShloMosaic.Lib.Pipeline.Value

noncomputable section

namespace Cert.KernelIdeal.KV

open Cert.KernelIdeal Cert.KernelIdeal.Gen Cert.KernelIdeal.KL
open Idealize.ShloMosaic Idealize.ShloMosaic.ValueIdx Idealize.SL.Sem

variable {F : FTy → Type} [FloatOps F]

variable (m : (ℓ : Loc nD τ sig) → Buf (Elt F) ℓ)

/-- A column `[a, 1]` cast to the row `[1, a]` reads, at `(u, i)`, the operand at `(i, 0)`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu]; omega)

/-- The transposed first table. -/
theorem A0_apply (d : Dev nD) (k : Fin 64) (c : Fin 1000000) :
    A0 m d (ix2 k c) = m (tcLoc d main_arg2) (ix2 c k) := by
  show VA m d (Proc.devRef .tc main_v0) (ix2 k c) = _
  dsimp only [VA, V0, opsA]
  after_results
  exact transpose_ix2_apply _ _ k c

/-- The second table with two rows to a row: row `R`, lane `l` is row `2 R + l / 64`, entry `l mod 64`. -/
theorem A2_apply (d : Dev nD) (R : Fin 50000) (l : Fin 128) :
    A2 m d (ix2 R l) = m (tcLoc d main_arg3) (ix2 (⟨2 * R.val + l.val / 64, by omega⟩ : Fin 100000) (⟨l.val % 64, by omega⟩ : Fin 64)) := by
  show VB m d (Proc.devRef .tc main_v2) (ix2 R l) = _
  dsimp only [VB, VA, V0, opsB, opsA]
  after_results
  refine shapeCast_apply _ _ _ _ ?_
  show (S100000x64.rowMajor _).val = (S50000x128.rowMajor _).val
  rw [Shape.rowMajor_val_two, Shape.rowMajor_val_two]
  show (2 * R.val + l.val / 64) * 64 + l.val % 64 = R.val * 128 + l.val
  omega

/-- The domain indices' parity column. -/
theorem P16_apply (d : Dev nD) (j : Fin 16384) (u : Fin 1) :
    VC m d (Proc.devRef .tc main_v16) (ix2 j u) = IntOp.andi (IntOp.shrui .host (m (tcLoc d main_arg0) (ix1 j)) 13#32) 1#32 := by
  dsimp only [VC, VB, VA, V0, opsC, opsB, opsA]
  after_results
  refine (Br.shapeCast_a_a1_apply _ _ j u).trans ?_
  rfl

/-- The go indices' parity column. -/
theorem P19_apply (d : Dev nD) (j : Fin 16384) (u : Fin 1) :
    VC m d (Proc.devRef .tc main_v19) (ix2 j u) = IntOp.andi (m (tcLoc d main_arg1) (ix1 j)) 1#32 := by
  dsimp only [VC, VB, VA, V0, opsC, opsB, opsA]
  after_results
  refine (Br.shapeCast_a_a1_apply _ _ j u).trans ?_
  rfl

/-- The first layer's matrix is the argument's. -/
theorem W1_eq (d : Dev nD) : VC m d (Proc.devRef .tc main_arg4) = m (tcLoc d main_arg4) := by
  dsimp only [VC, VB, VA, V0, opsC, opsB, opsA]
  after_results
  rfl

/-- The first layer's bias as a row. -/
theorem B1_apply (d : Dev nD) (u : Fin 1) (n : Fin 128) :
    VC m d (Proc.devRef .tc main_v21) (ix2 u n) = m (tcLoc d main_arg5) (ix1 n) := by
  dsimp only [VC, VB, VA, V0, opsC, opsB, opsA]
  after_results
  exact shapeCast_a_1a_apply _ _ u n

/-- The second layer's column as a row. -/
theorem W2_apply (d : Dev nD) (u : Fin 1) (n : Fin 128) :
    VC m d (Proc.devRef .tc main_v22) (ix2 u n) = m (tcLoc d main_arg6) (ix2 n (0 : Fin 1)) := by
  dsimp only [VC, VB, VA, V0, opsC, opsB, opsA]
  after_results
  exact shapeCast_a1_1a_apply _ _ u n

/-- The second layer's bias as a 1 × 1 block. -/
theorem B2_apply (d : Dev nD) (u v : Fin 1) :
    VC m d (Proc.devRef .tc main_v23) (ix2 u v) = m (tcLoc d main_arg7) (ix1 (0 : Fin 1)) := by
  dsimp only [VC, VB, VA, V0, opsC, opsB, opsA]
  after_results
  refine (shapeCast_a_1a_apply _ _ u v).trans ?_
  exact congrArg _ (congrArg ix1 (Subsingleton.elim _ _))

end Cert.KernelIdeal.KV

end
-- ==== Proof.BrMatmul.lean ====
/-
  The matrix product of the last call's body, read one entry at a time: with a zero accumulator, entry `(r, j)`
  of the product of a 2048 × 64 block and a 64 × 128 block is the sum over the 64 shared positions of the products
  of the two factors' entries.
-/
import proofs.«205759_g46823733461237_cont_8to1_c_287_19_alg».proof.Proof.Gen.KernelIdeal.Skeleton
import Idealize.ShloMosaic.Lib.ValueIdx
import Idealize.ShloMosaic.PureOps.Ideal.Laws

noncomputable section

namespace Cert.KernelIdeal.Br

open Idealize.ShloMosaic Idealize.ShloMosaic.ValueIdx Cert.KernelIdeal

/-- The left factor's row is the result's row … -/
theorem lhs_row (i : S2048x128.Idx) (q : dot_S2048x64_S64x128_S2048x128_1_0_0_1_n_n.contr.Idx) : (dot_S2048x64_S64x128_S2048x128_1_0_0_1_n_n.lhsIdx i q 0).val = (i 0).val := by
  unfold DotDims.lhsIdx
  rw [dif_neg (show ¬(0 : Fin S2048x64.rank) ∈ dot_S2048x64_S64x128_S2048x128_1_0_0_1_n_n.lhsBatch by decide),
    dif_pos (show (0 : Fin S2048x64.rank) ∈ dot_S2048x64_S64x128_S2048x128_1_0_0_1_n_n.lhsNonContracting by decide)]
  rfl

/-- … its column the shared position … -/
theorem lhs_col (i : S2048x128.Idx) (q : dot_S2048x64_S64x128_S2048x128_1_0_0_1_n_n.contr.Idx) : (dot_S2048x64_S64x128_S2048x128_1_0_0_1_n_n.lhsIdx i q 1).val = (q ⟨0, by decide⟩).val :=
  dot_S2048x64_S64x128_S2048x128_1_0_0_1_n_n.lhsIdx_val_of_single rfl i q

/-- … which is also the right factor's row … -/
theorem rhs_row (i : S2048x128.Idx) (q : dot_S2048x64_S64x128_S2048x128_1_0_0_1_n_n.contr.Idx) : (dot_S2048x64_S64x128_S2048x128_1_0_0_1_n_n.rhsIdx i q 0).val = (q ⟨0, by decide⟩).val :=
  dot_S2048x64_S64x128_S2048x128_1_0_0_1_n_n.rhsIdx_val_of_single rfl i q

/-- … and the right factor's column is the result's column. -/
theorem rhs_col (i : S2048x128.Idx) (q : dot_S2048x64_S64x128_S2048x128_1_0_0_1_n_n.contr.Idx) : (dot_S2048x64_S64x128_S2048x128_1_0_0_1_n_n.rhsIdx i q 1).val = (i 1).val := by
  unfold DotDims.rhsIdx
  rw [dif_neg (show ¬(1 : Fin S64x128.rank) ∈ dot_S2048x64_S64x128_S2048x128_1_0_0_1_n_n.rhsBatch by decide),
    dif_pos (show (1 : Fin S64x128.rank) ∈ dot_S2048x64_S64x128_S2048x128_1_0_0_1_n_n.rhsNonContracting by decide)]
  rfl

/-- Entry `(r, j)` of the product accumulated into zero. -/
theorem matmul_entry (A : FVec Ideal S2048x64 .f32) (B : FVec Ideal S64x128 .f32) (r : Fin 2048) (j : Fin 128) :
    matmul dot_S2048x64_S64x128_S2048x128_1_0_0_1_n_n none A B (constant (F := Ideal) S2048x128 .f32 0x00000000#32) (ix2 r j)
      = ∑ k : Fin 64, A (ix2 r k) * B (ix2 k j) := by
  simp only [matmul]
  rw [Ideal.matmul_constant_zero_apply, ← Equiv.sum_comp (contrEquiv1 dot_S2048x64_S64x128_S2048x128_1_0_0_1_n_n 64 rfl rfl).symm]
  refine Finset.sum_congr rfl fun k _ => ?_
  have hk := contrEquiv1_symm_val dot_S2048x64_S64x128_S2048x128_1_0_0_1_n_n 64 rfl rfl k
  have el : dot_S2048x64_S64x128_S2048x128_1_0_0_1_n_n.lhsIdx (ix2 r j) ((contrEquiv1 dot_S2048x64_S64x128_S2048x128_1_0_0_1_n_n 64 rfl rfl).symm k) = ix2 r k := funext fun a => Fin.ext (by
    match a with
    | ⟨0, _⟩ => exact lhs_row _ _
    | ⟨1, _⟩ => exact (lhs_col _ _).trans hk)
  have er : dot_S2048x64_S64x128_S2048x128_1_0_0_1_n_n.rhsIdx (ix2 r j) ((contrEquiv1 dot_S2048x64_S64x128_S2048x128_1_0_0_1_n_n 64 rfl rfl).symm k) = ix2 k j := funext fun a => Fin.ext (by
    match a with
    | ⟨0, _⟩ => exact (rhs_row _ _).trans hk
    | ⟨1, _⟩ => exact rhs_col _ _)
  rw [el, er]

end Cert.KernelIdeal.Br

end
-- ==== Proof.BrHead.lean ====
/-
  The last call's body, read one result at a time: result `r` of the stored block is the head applied to the two
  half-rows the parity words of row `r` select, each scaled to norm at most one.
-/
import proofs.«205759_g46823733461237_cont_8to1_c_287_19_alg».proof.Proof.BrNorm
import proofs.«205759_g46823733461237_cont_8to1_c_287_19_alg».proof.Proof.BrMatmul

noncomputable section

namespace Cert.KernelIdeal.Br

open Idealize.ShloMosaic Idealize.ShloMosaic.ValueIdx Cert.KernelIdeal

/-- A logistic at an index is the logistic of the element. -/
theorem logistic_apply {s : Shape} {φ : FTy} (v : FVec Ideal s φ) (i : s.Idx) : logistic v i = Ideal.logistic (v i) := rfl

/-- The one entry of a 1 × 1 block. -/
theorem extractAt_00 {α : Type} (x : S1x1.Idx → α) (h : ∀ a, (![0, 0] : Fin S1x1.rank → ℕ) a < S1x1.size a) :
    extractAt ![0, 0] x h = x (ix2 (0 : Fin 1) (0 : Fin 1)) := by
  unfold extractAt
  refine congrArg x (funext fun a => Fin.ext ?_)
  match a with
  | ⟨0, _⟩ => rfl
  | ⟨1, _⟩ => rfl

/-- The part of the body after the norms, over whatever the half-rows, norms and factors are: result `r`. -/
theorem head_apply (v12 v21 : FVec Ideal S2048x64 .f32) (v29 v37 : FVec Ideal S2048x1 .f32) (v39 : IVec S2048x1 1)
    (v40 : FVec Ideal S2048x1 .f32) (x4 : Vec Ideal S64x128 .f32) (x5 x6 : Vec Ideal S1x128 .f32)
    (x7 : Vec Ideal S1x1 .f32) (r : Fin 2048) :
    Gen.k2_pay1 v12 v21 v29 v37 v39 v40 x4 x5 x6 x7 (ix1 r)
      = Ideal.logistic ((∑ j : Fin 128, max ((∑ k : Fin 64,
            ((v12 (ix2 r k) * v37 (ix2 r (0 : Fin 1)))
              * (v21 (ix2 r k) * Scalar.select (v39 (ix2 r (0 : Fin 1)))
                  (Ideal.div Cert.Spec.lit1 (v29 (ix2 r (0 : Fin 1)) + v40 (ix2 r (0 : Fin 1)))) Cert.Spec.lit1))
              * x4 (ix2 k j)) + x5 (ix2 (0 : Fin 1) j)) Cert.Spec.lit0 * x6 (ix2 (0 : Fin 1) j))
          + x7 (ix2 (0 : Fin 1) (0 : Fin 1))) := by
  unfold Gen.k2_pay1
  simp only [shapeCast_self, logistic_apply, addf_apply, broadcast_apply, extractAt_00]
  refine congrArg (fun t => Ideal.logistic (t + x7 (ix2 (0 : Fin 1) (0 : Fin 1))))
    ((laneSum _ _ _ _ r).trans (Finset.sum_congr rfl fun j _ => ?_))
  simp only [mulf_apply, maximumf_apply, addf_apply, broadcast_apply, broadcastTo_1b_ab_apply, matmul_entry,
    broadcastTo_a1_ab_apply, select_apply, divf_apply]
  rfl

/-- The block the last call's body stores, as a term over the eight loaded blocks. -/
abbrev pay2 (x0 x1 : Vec Ideal S2048x128 .f32) (x2 x3 : Vec Ideal S2048x1 .i32) (x4 : Vec Ideal S64x128 .f32)
    (x5 x6 : Vec Ideal S1x128 .f32) (x7 : Vec Ideal S1x1 .f32) : FVec Ideal S2048 .f32 :=
  Gen.k2_pay1 (Gen.k2_pay2 x0 x2) (Gen.k2_pay3 x1 x3) (Gen.k2_pay4 x1 x3) (Gen.k2_pay5 x0 x2) (Gen.k2_pay6 x1 x3)
    Gen.k2_pay7 x4 x5 x6 x7

/-- Result `r` of the stored block is the head of the two selected half-rows. -/
theorem pay2_apply (x0 x1 : Vec Ideal S2048x128 .f32) (x2 x3 : Vec Ideal S2048x1 .i32) (x4 : Vec Ideal S64x128 .f32)
    (x5 x6 : Vec Ideal S1x128 .f32) (x7 : Vec Ideal S1x1 .f32) (r : Fin 2048) :
    pay2 x0 x1 x2 x3 x4 x5 x6 x7 (ix1 r)
      = Cert.Spec.headRow (half x0 x2 r) (half x1 x3 r) (fun k j => x4 (ix2 k j)) (fun j => x5 (ix2 (0 : Fin 1) j))
          (fun j => x6 (ix2 (0 : Fin 1) j)) (x7 (ix2 (0 : Fin 1) (0 : Fin 1))) := by
  show Gen.k2_pay1 _ _ _ _ _ _ _ _ _ _ (ix1 r) = _
  rw [head_apply]
  simp only [pay_half0, pay_half1, pay_norm1, pay_scale0, pay_gt1, pay_eps, select_cmp_ogt]
  rfl

end Cert.KernelIdeal.Br

end
-- ==== Proof.KVVal.lean ====
/-
  The idealized kernel's result, one batch row at a time, from the program's arguments: row j of what the last call
  leaves is the head of row (domain index j) of the first table and row (go index j) of the second. The gathered
  row of the laid-out first table holds the wanted row in the lane half the index's parity bit names, and there
  the layout is right; the gathered row of the reshaped second table holds it in the half the go index's last bit
  names; the last call's body selects exactly those halves.
-/
import proofs.«205759_g46823733461237_cont_8to1_c_287_19_alg».proof.Proof.KSpecs
import proofs.«205759_g46823733461237_cont_8to1_c_287_19_alg».proof.Proof.KVRows
import proofs.«205759_g46823733461237_cont_8to1_c_287_19_alg».proof.Proof.KVRead
import proofs.«205759_g46823733461237_cont_8to1_c_287_19_alg».proof.Proof.BrHead

noncomputable section

namespace Cert.KernelIdeal.KV

open Cert.KernelIdeal Cert.KernelIdeal.Gen Cert.KernelIdeal.KL
open Idealize.ShloMosaic Idealize.ShloMosaic.ValueIdx Idealize.SL.Sem

variable {F : FTy → Type} [FloatOps F]

variable (m : (ℓ : Loc nD τ sig) → Buf (Elt Ideal) ℓ)

/-- What the last call leaves in the result array, from the launch contents and the laid-out first table `f1`. -/
abbrev ResK (d : Dev nD) (f1 : Buf (Elt Ideal) (tcLoc d main_v1)) : Buf (Elt Ideal) (tcLoc d main_v24) :=
  Res2 d (D20 m d f1) (G20 m d) (VC m d (Proc.devRef .tc main_v16)) (VC m d (Proc.devRef .tc main_v19))
    (VC m d (Proc.devRef .tc main_arg4)) (VC m d (Proc.devRef .tc main_v21)) (VC m d (Proc.devRef .tc main_v22))
    (VC m d (Proc.devRef .tc main_v23))

/-- A batch row is row `j mod 2048` of block `j / 2048`. -/
theorem row_split (j : Fin 16384) (h : 2048 * (j.val / 2048) + j.val % 2048 < 16384) :
    (⟨2048 * (j.val / 2048) + j.val % 2048, h⟩ : Fin 16384) = j := Fin.ext (Nat.div_add_mod j.val 2048)

/-- The head of equal rows and parameters is equal. -/
theorem headRow_congr {x x' g g' : Fin 64 → EReal} {W W' : Fin 64 → Fin 128 → EReal} {b b' w w' : Fin 128 → EReal} {c c' : EReal}
    (hx : x = x') (hg : g = g') (hW : W = W') (hb : b = b') (hw : w = w') (hc : c = c') :
    Cert.Spec.headRow x g W b w c = Cert.Spec.headRow x' g' W' b' w' c' := by
  subst hx hg hW hb hw hc; rfl

/-- The half of the gathered first-table row that the parity bit names is the table's row at the domain index. -/
theorem half_dom (d : Dev nD) (f1 : Buf (Elt Ideal) (tcLoc d main_v1)) (hf1 : Good1 m d f1) (j : Fin 16384)
    (hd : (m (tcLoc d main_arg0) (ix1 j)).toNat < 1000000) (h1 : j.val / 2048 < 8) (h2 : j.val % 2048 < 2048) (k : Fin 64) :
    Br.half (rowsD d (D20 m d f1) ⟨j.val / 2048, h1⟩) (rowsP d (VC m d (Proc.devRef .tc main_v16)) ⟨j.val / 2048, h1⟩) ⟨j.val % 2048, h2⟩ k
      = m (tcLoc d main_arg2) (ix2 ⟨(m (tcLoc d main_arg0) (ix1 j)).toNat, hd⟩ k) := by
  have hx0 : (m (tcLoc d main_arg0) (ix1 j)).toNat ≤ 999999 := by omega
  have hR : (A9 m d (ix1 j)).toNat < 507904 := by rw [A9_apply, row9_toNat _ hx0]; omega
  have cong2 : ∀ (c c' : Fin 1000000) (e e' : Fin 64), c = c' → e = e' →
      m (tcLoc d main_arg2) (ix2 c e) = m (tcLoc d main_arg2) (ix2 c' e') := by
    intro _ _ _ _ h h'; rw [h, h']
  have key : ∀ l : Fin 128, l.val = 64 * (IntOp.andi (IntOp.shrui .host (m (tcLoc d main_arg0) (ix1 j)) 13#32) 1#32).toNat + k.val →
      D20 m d f1 (ix2 j l) = m (tcLoc d main_arg2) (ix2 ⟨(m (tcLoc d main_arg0) (ix1 j)).toNat, hd⟩ k) := by
    intro l hl
    have hcol : colOf (A9 m d (ix1 j)).toNat l.val = (m (tcLoc d main_arg0) (ix1 j)).toNat := by
      rw [A9_apply, hl]; exact col_self _ hx0 k
    have e : (⟨(A9 m d (ix1 j)).toNat % 507904, Nat.mod_lt _ (by decide)⟩ : Fin 507904) = ⟨(A9 m d (ix1 j)).toNat, hR⟩ :=
      Fin.ext (Nat.mod_eq_of_lt hR)
    show f1 (ix2 (⟨(A9 m d (ix1 j)).toNat % 507904, _⟩ : Fin 507904) l) = _
    rw [e, hf1 ⟨_, hR⟩ l (by rw [hcol]; exact hd), A0_apply]
    exact cong2 _ _ _ _ (Fin.ext hcol) (Fin.ext (by show l.val % 64 = k.val; have := k.isLt; omega))
  have hp : rowsP d (VC m d (Proc.devRef .tc main_v16)) ⟨j.val / 2048, h1⟩ (ix2 (⟨j.val % 2048, h2⟩ : Fin 2048) (0 : Fin 1))
      = IntOp.andi (IntOp.shrui .host (m (tcLoc d main_arg0) (ix1 j)) 13#32) 1#32 := by
    show VC m d (Proc.devRef .tc main_v16) (ix2 (⟨2048 * (j.val / 2048) + j.val % 2048, _⟩ : Fin 16384) (0 : Fin 1)) = _
    rw [row_split, P16_apply]
  have hx : ∀ l : Fin 128, rowsD d (D20 m d f1) ⟨j.val / 2048, h1⟩ (ix2 (⟨j.val % 2048, h2⟩ : Fin 2048) l) = D20 m d f1 (ix2 j l) := by
    intro l
    show D20 m d f1 (ix2 (⟨2048 * (j.val / 2048) + j.val % 2048, _⟩ : Fin 16384) l) = _
    rw [row_split]
  unfold Br.half
  rw [hp, hx, hx]
  by_cases hq : IntOp.andi (IntOp.shrui .host (m (tcLoc d main_arg0) (ix1 j)) 13#32) 1#32 = 1#32
  · rw [if_pos hq]
    exact key _ (by show 64 + k.val = _; rw [hq]; rfl)
  · rw [if_neg hq]
    have h0 : (IntOp.andi (IntOp.shrui .host (m (tcLoc d main_arg0) (ix1 j)) 13#32) 1#32).toNat = 0 := by
      have h2' := par9_toNat (m (tcLoc d main_arg0) (ix1 j))
      have hne : (IntOp.andi (IntOp.shrui .host (m (tcLoc d main_arg0) (ix1 j)) 13#32) 1#32).toNat ≠ 1 :=
        fun h => hq (BitVec.eq_of_toNat_eq (by rw [h]; rfl))
      omega
    exact key _ (by show k.val = _; rw [h0]; omega)

/-- The half of the gathered second-table row that the go index's last bit names is the table's row at the go index. -/
theorem half_go (d : Dev nD) (j : Fin 16384) (hg : (m (tcLoc d main_arg1) (ix1 j)).toNat < 100000) (h1 : j.val / 2048 < 8)
    (h2 : j.val % 2048 < 2048) (k : Fin 64) :
    Br.half (rowsD d (G20 m d) ⟨j.val / 2048, h1⟩) (rowsP d (VC m d (Proc.devRef .tc main_v19)) ⟨j.val / 2048, h1⟩) ⟨j.val % 2048, h2⟩ k
      = m (tcLoc d main_arg3) (ix2 ⟨(m (tcLoc d main_arg1) (ix1 j)).toNat, hg⟩ k) := by
  have hR : (A11 m d (ix1 j)).toNat < 50000 := by rw [A11_apply, shr1]; omega
  have cong2 : ∀ (c c' : Fin 100000) (e e' : Fin 64), c = c' → e = e' →
      m (tcLoc d main_arg3) (ix2 c e) = m (tcLoc d main_arg3) (ix2 c' e') := by
    intro _ _ _ _ h h'; rw [h, h']
  have key : ∀ l : Fin 128, l.val = 64 * (IntOp.andi (m (tcLoc d main_arg1) (ix1 j)) 1#32).toNat + k.val →
      G20 m d (ix2 j l) = m (tcLoc d main_arg3) (ix2 ⟨(m (tcLoc d main_arg1) (ix1 j)).toNat, hg⟩ k) := by
    intro l hl
    have e : (⟨(A11 m d (ix1 j)).toNat % 50000, Nat.mod_lt _ (by decide)⟩ : Fin 50000) = ⟨(A11 m d (ix1 j)).toNat, hR⟩ :=
      Fin.ext (Nat.mod_eq_of_lt hR)
    show A2 m d (ix2 (⟨(A11 m d (ix1 j)).toNat % 50000, _⟩ : Fin 50000) l) = _
    rw [e, A2_apply]
    have hb := and1 (m (tcLoc d main_arg1) (ix1 j))
    have hs := go_self (m (tcLoc d main_arg1) (ix1 j))
    have hk := k.isLt
    refine cong2 _ _ _ _ (Fin.ext ?_) (Fin.ext ?_)
    · show 2 * (A11 m d (ix1 j)).toNat + l.val / 64 = (m (tcLoc d main_arg1) (ix1 j)).toNat
      rw [A11_apply]; omega
    · show l.val % 64 = k.val
      omega
  have hp : rowsP d (VC m d (Proc.devRef .tc main_v19)) ⟨j.val / 2048, h1⟩ (ix2 (⟨j.val % 2048, h2⟩ : Fin 2048) (0 : Fin 1))
      = IntOp.andi (m (tcLoc d main_arg1) (ix1 j)) 1#32 := by
    show VC m d (Proc.devRef .tc main_v19) (ix2 (⟨2048 * (j.val / 2048) + j.val % 2048, _⟩ : Fin 16384) (0 : Fin 1)) = _
    rw [row_split, P19_apply]
  have hx : ∀ l : Fin 128, rowsD d (G20 m d) ⟨j.val / 2048, h1⟩ (ix2 (⟨j.val % 2048, h2⟩ : Fin 2048) l) = G20 m d (ix2 j l) := by
    intro l
    show G20 m d (ix2 (⟨2048 * (j.val / 2048) + j.val % 2048, _⟩ : Fin 16384) l) = _
    rw [row_split]
  unfold Br.half
  rw [hp, hx, hx]
  by_cases hq : IntOp.andi (m (tcLoc d main_arg1) (ix1 j)) 1#32 = 1#32
  · rw [if_pos hq]
    exact key _ (by show 64 + k.val = _; rw [hq]; rfl)
  · rw [if_neg hq]
    have h0 : (IntOp.andi (m (tcLoc d main_arg1) (ix1 j)) 1#32).toNat = 0 := by
      have h2' := and1 (m (tcLoc d main_arg1) (ix1 j))
      have hne : (IntOp.andi (m (tcLoc d main_arg1) (ix1 j)) 1#32).toNat ≠ 1 :=
        fun h => hq (BitVec.eq_of_toNat_eq (by rw [h]; rfl))
      omega
    exact key _ (by show k.val = _; rw [h0]; omega)

/-- THE KERNEL AT A ROW: under the index ranges, and whatever right layout of the first table the first call left,
    the specification's head of the two tables' rows at the indices. -/
theorem resK_apply (d : Dev nD) (f1 : Buf (Elt Ideal) (tcLoc d main_v1)) (hf1 : Good1 m d f1) (j : Fin 16384)
    (hd : (m (tcLoc d main_arg0) (ix1 j)).toNat < 1000000) (hg : (m (tcLoc d main_arg1) (ix1 j)).toNat < 100000) :
    ResK m d f1 (ix1 j)
      = Cert.Spec.headRow (fun k => m (tcLoc d main_arg2) (ix2 ⟨(m (tcLoc d main_arg0) (ix1 j)).toNat, hd⟩ k))
          (fun k => m (tcLoc d main_arg3) (ix2 ⟨(m (tcLoc d main_arg1) (ix1 j)).toNat, hg⟩ k))
          (fun k n => m (tcLoc d main_arg4) (ix2 k n)) (fun n => m (tcLoc d main_arg5) (ix1 n))
          (fun n => m (tcLoc d main_arg6) (ix2 n (0 : Fin 1))) (m (tcLoc d main_arg7) (ix1 (0 : Fin 1))) := by
  have h1 : j.val / 2048 < 8 := by have := j.isLt; omega
  have h2 : j.val % 2048 < 2048 := Nat.mod_lt _ (by decide)
  show Br.pay2 (rowsD d (D20 m d f1) ⟨j.val / 2048, h1⟩) (rowsD d (G20 m d) ⟨j.val / 2048, h1⟩)
      (rowsP d (VC m d (Proc.devRef .tc main_v16)) ⟨j.val / 2048, h1⟩) (rowsP d (VC m d (Proc.devRef .tc main_v19)) ⟨j.val / 2048, h1⟩)
      (VC m d (Proc.devRef .tc main_arg4)) (VC m d (Proc.devRef .tc main_v21)) (VC m d (Proc.devRef .tc main_v22))
      (VC m d (Proc.devRef .tc main_v23)) (ix1 (⟨j.val % 2048, h2⟩ : Fin 2048)) = _
  rw [Br.pay2_apply]
  exact headRow_congr (funext fun k => half_dom m d f1 hf1 j hd h1 h2 k) (funext fun k => half_go m d j hg h1 h2 k)
    (funext fun k => funext fun n => congrFun (W1_eq m d) (ix2 k n)) (funext fun n => B1_apply m d 0 n)
    (funext fun n => W2_apply m d 0 n) (B2_apply m d 0 0)

end Cert.KernelIdeal.KV

end
-- ==== Proof.RefFun.lean ====
/- The reference as ONE pure function of its eight argument arrays, composed of a few named pieces: the embedding
   lookup (index wrap, in-range mask, gather, masked select), the rows' renormalisation, and the prediction head. -/
import proofs.«205759_g46823733461237_cont_8to1_c_287_19_alg».proof.Proof.Gen.ReferenceIdeal

noncomputable section

namespace Cert.ReferenceIdeal.RefRun

open Cert.ReferenceIdeal Cert.ReferenceIdeal.Gen Idealize.ShloMosaic

variable {F : FTy → Type} [FloatOps F]

/-- The lookup's start indices, as a column: an index below zero is wrapped once by the table's row count `n`. -/
def wrapIdx (n : BitVec 32) (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 n))) idx)

/-- The lookup's in-range mask: the wrapped start index lies between zero and the last row `hi`, both signed. -/
def inRange (hi : BitVec 32) (j : IVec S16384x1 32) : IVec S16384 1 :=
  Host.reduce IntOp.andi
    (andi (cmpi .sge j (broadcastInDim S16384x1 ![] bcast_S_S16384x1 (constantI S_ 32 0#32)))
      (cmpi .sle j (broadcastInDim S16384x1 ![0, 1] bcast_S1x1_S16384x1_0_1
        (broadcastInDim S1x1 ![1] bcast_S1_S1x1_1 (constantI S1 32 hi)))))
    (constantI S_ 1 1#1) reducesTo_S16384x1_S16384_d1 h_S_

/-- Rows of the first table at the indices: the gathered rows where the index is in range, the quiet NaN elsewhere. -/
def takeD (W : FVec F S1000000x64 .f32) (idx : IVec S16384 32) : FVec F S16384x64 .f32 :=
  select (broadcastInDim S16384x64 ![0] bcast_S16384_S16384x64_0 (inRange 999999#32 (wrapIdx 1000000#32 idx)))
    (Host.gather gather_S1000000x64_S16384x1_S16384x64_1_0_n_n_0_1_164 W (wrapIdx 1000000#32 idx))
    (broadcastInDim S16384x64 ![] bcast_S_S16384x64 (constant S_ .f32 0x7FC00000#32))

/-- Rows of the second table at the indices, likewise. -/
def takeG (W : FVec F S100000x64 .f32) (idx : IVec S16384 32) : FVec F S16384x64 .f32 :=
  select (broadcastInDim S16384x64 ![0] bcast_S16384_S16384x64_0 (inRange 99999#32 (wrapIdx 100000#32 idx)))
    (Host.gather gather_S100000x64_S16384x1_S16384x64_1_0_n_n_0_1_164 W (wrapIdx 100000#32 idx))
    (broadcastInDim S16384x64 ![] bcast_S_S16384x64 (constant S_ .f32 0x7FC00000#32))

/-- The rows' Euclidean norms, as a column: the square root of each row's sum of squares. -/
def rowNorm (e : FVec F S16384x64 .f32) : FVec F S16384x1 .f32 :=
  Host.sqrt (broadcastInDim S16384x1 ![0] bcast_S16384_S16384x1_0
    (Host.reduceAdd (mulf e e) (constant S_ .f32 0x00000000#32) reducesTo_S16384x64_S16384_d1 h_S_))

/-- The column of ones. -/
def oneCol : FVec F S16384x1 .f32 :=
  broadcastInDim S16384x1 ![] bcast_S_S16384x1 (constant S_ .f32 0x3F800000#32)

/-- The rescaling factor of each row from its norm: `1 / (norm + ε)` where the norm exceeds one, else one. -/
def rowScale (nrm : FVec F S16384x1 .f32) : FVec F S16384x1 .f32 :=
  select (cmpf .ogt nrm oneCol)
    (Host.divf oneCol (addf nrm (broadcastInDim S16384x1 ![] bcast_S_S16384x1 (constant S_ .f32 0x33D6BF95#32))))
    oneCol

/-- The rows, each multiplied by its rescaling factor. -/
def renorm (e : FVec F S16384x64 .f32) : FVec F S16384x64 .f32 :=
  mulf e (broadcastInDim S16384x64 ![0, 1] bcast_S16384x1_S16384x64_0_1 (rowScale (rowNorm e)))

/-- The prediction head on the feature rows: an affine layer, the rectifier, a second affine layer to one column,
    and the logistic function written `1 / (1 + exp (-x))`; the column flattened. -/
def head (feat : FVec F S16384x64 .f32) (W1 : FVec F S64x128 .f32) (b1 : FVec F S128 .f32) (W2 : FVec F S128x1 .f32)
    (b2 : FVec F S1 .f32) : FVec F S16384 .f32 :=
  shapeCast S16384
    (Host.divf oneCol (addf oneCol (Host.exp (Host.negf
      (addf
        (Host.dotGeneral dot_S16384x128_S128x1_S16384x1_1_0_0_1_n_n none
          (maximumf
            (addf (Host.dotGeneral dot_S16384x64_S64x128_S16384x128_1_0_0_1_n_n none feat W1)
              (broadcastInDim S16384x128 ![0, 1] bcast_S1x128_S16384x128_0_1
                (broadcastInDim S1x128 ![1] bcast_S128_S1x128_1 b1)))
            (broadcastInDim S16384x128 ![] bcast_S_S16384x128 (constant S_ .f32 0x00000000#32)))
          W2)
        (broadcastInDim S16384x1 ![0, 1] bcast_S1x1_S16384x1_0_1 (broadcastInDim S1x1 ![1] bcast_S1_S1x1_1 b2)))))))
    shapeCasts_S16384x1_S16384

/-- The reference's result as a function of its eight arguments, in @main's order: the two index vectors, the two
    tables, and the head's weights and biases. -/
def Rfun (a0 a1 : IVec S16384 32) (a2 : FVec F S1000000x64 .f32) (a3 : FVec F S100000x64 .f32)
    (a4 : FVec F S64x128 .f32) (a5 : FVec F S128 .f32) (a6 : FVec F S128x1 .f32) (a7 : FVec F S1 .f32) :
    FVec F S16384 .f32 :=
  head (mulf (renorm (takeD a2 a0)) (renorm (takeG a3 a1))) a4 a5 a6 a7

end Cert.ReferenceIdeal.RefRun

end
-- ==== Proof.RefReadIdx.lean ====
/- Reading the lookup at one batch row: the start-index column, the in-range mask and the row gather of the
   reference's lookup, each at an index; under the index range the lookup's row is the table's row at the index. -/
import proofs.«205759_g46823733461237_cont_8to1_c_287_19_alg».proof.Proof.RefFun
import Idealize.ShloMosaic.Lib.ValueIdx
import Idealize.ShloMosaic.Lib.Affine
import Idealize.ShloMosaic.PureOps.Reduce

noncomputable section

namespace Cert.ReferenceIdeal.RefRun

open Cert.ReferenceIdeal Cert.ReferenceIdeal.Gen Idealize.ShloMosaic Idealize.ShloMosaic.ValueIdx

variable {α : Type}

/-- A broadcast read at `j` is the operand at any index `i` whose coordinates are `j`'s along the mapped axes and
    zero on the operand's unit axes. -/
theorem bcast_at {s t : Shape} (dims : Fin s.rank → Fin t.rank) (h : s.BroadcastsInDim t dims) (x : s.Idx → α)
    (j : t.Idx) (i : s.Idx) (hi : ∀ a, (i a).val = if s.size a = 1 then 0 else (j (dims a)).val) :
    broadcastInDim t dims h x j = x i := by
  unfold broadcastInDim
  congr 1
  funext a
  apply Fin.ext
  rw [hi a]
  by_cases h1 : s.size a = 1
  · rw [dif_pos h1, if_pos h1]
  · rw [dif_neg h1, if_neg h1]

/-- A vector as a column, read at a row. -/
theorem bcast_col (x : S16384.Idx → α) (i : Fin 16384) (z : Fin 1) :
    broadcastInDim S16384x1 ![0] bcast_S16384_S16384x1_0 x (ix2 i z) = x (ix1 i) :=
  bcast_at _ _ x _ _ (fun a => match a with | ⟨0, _⟩ => rfl)

/-- A vector spread along rows, read at an entry. -/
theorem bcast_rows (x : S16384.Idx → α) (i : Fin 16384) (k : Fin 64) :
    broadcastInDim S16384x64 ![0] bcast_S16384_S16384x64_0 x (ix2 i k) = x (ix1 i) :=
  bcast_at _ _ x _ _ (fun a => match a with | ⟨0, _⟩ => rfl)

/-- A column spread along rows, read at an entry. -/
theorem bcast_col_rows (x : S16384x1.Idx → α) (i : Fin 16384) (k : Fin 64) :
    broadcastInDim S16384x64 ![0, 1] bcast_S16384x1_S16384x64_0_1 x (ix2 i k) = x (ix2 i (0 : Fin 1)) :=
  bcast_at _ _ x _ _ (fun a => match a with | ⟨0, _⟩ => rfl | ⟨1, _⟩ => rfl)

/-! ## The row gather -/

/-- The lookup's dimension numbers for a table `[N, C]`, start indices `[R, 1]` and a result `[R, C]`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather read at `(r, k)`: the table at the row the start index `idx[r, 0]` names, read signed and
    clamped into `[0, N − 1]`, and column `k`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k)
      = x (ix2 ⟨min (idx (ix2 r (0 : Fin 1))).toInt.toNat (N - 1), by omega⟩ k) := by
  unfold Host.gather
  congr 1
  funext a
  refine Fin.ext ?_
  match a with
  | ⟨0, _⟩ =>
    show (rowDims N R C wf).start (ix2 r k) idx 0 + (rowDims N R C wf).batchCoord (ix2 r k) 0
      + (rowDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r k) idx 1 + (rowDims N R C wf).batchCoord (ix2 r k) 1
      + (rowDims N R C wf).offCoord (ix2 r k) 1 = k.val
    rw [GatherDims.batchCoord_eq_zero _ _ _ List.not_mem_nil]
    unfold GatherDims.start
    have h10 : (1 : Fin 2) ∉ [(0 : Fin 2)] := by decide
    rw [dif_neg (show (1 : Fin 2) ∉ (rowDims N R C wf).startIndexMap from h10)]
    simp only [Nat.add_zero, Nat.zero_add]
    unfold GatherDims.offCoord
    rw [dif_pos ((GatherDims.mem_sKept _ _).mpr ⟨h10, List.not_mem_nil⟩)]
    rfl

/-! ## The reduction of the mask column -/

/-- A fold by `and` over an index range of one element is that element's bit and the initial bit. -/
theorem fold_and_unit (n : Nat) (hn : n = 1) (g : Fin n → BitVec 1) (b : BitVec 1) :
    (Finset.univ : Finset (Fin n)).fold IntOp.andi b g = IntOp.andi (g ⟨0, by omega⟩) b := by
  subst hn
  rw [Finset.univ_unique, Finset.fold_singleton]
  rfl

/-- A reduction by `and` of a one-column mask along its unit axis, read at a row: the column's bit there and the
    initial bit. -/
theorem reduce_and_col (x : IVec S16384x1 1) (init : IVec S_ 1) (i : Fin 16384) :
    Host.reduce IntOp.andi x init reducesTo_S16384x1_S16384_d1 h_S_ (ix1 i)
      = IntOp.andi (x (ix2 i (0 : Fin 1))) (init ix0) := by
  have h : S16384x1.Reduces [1] S16384 := by decide
  rw [Host.reduce_eq_fold_single IntOp.andi x init reducesTo_S16384x1_S16384_d1 h h_S_ (ix1 i)]
  refine (fold_and_unit (S16384x1.size 1) rfl _ _).trans ?_
  have e1 : h.lift (ix1 i) (⟨0, by decide⟩ : Fin (S16384x1.size 1)) = ix2 i (0 : Fin 1) := by
    funext b; refine Fin.ext ?_
    match b with
    | ⟨0, _⟩ => rfl
    | ⟨1, _⟩ => rfl
  have e2 : Shape.Idx.first h_S_ = ix0 := eq_ix0 _
  show IntOp.andi (x (h.lift (ix1 i) ⟨0, _⟩)) (init (Shape.Idx.first h_S_)) = _
  rw [e1, e2]

end Cert.ReferenceIdeal.RefRun

end
-- ==== Proof.RefReadTake.lean ====
/- The lookup read at one batch row under the index range: the start index is the index itself (no wrap), the
   in-range mask is set, and the gathered row is the table's row at the index. Valid for every float instance. -/
import proofs.«205759_g46823733461237_cont_8to1_c_287_19_alg».proof.Proof.RefReadIdx

noncomputable section

namespace Cert.ReferenceIdeal.RefRun

open Cert.ReferenceIdeal Cert.ReferenceIdeal.Gen Idealize.ShloMosaic Idealize.ShloMosaic.ValueIdx

variable {F : FTy → Type} [FloatOps F]

/-- A 32-bit word whose unsigned value is below `2^31` reads the same signed. -/
theorem toInt_of_small (v : BitVec 32) (h : v.toNat < 2147483648) : v.toInt = (v.toNat : Int) := by
  rw [BitVec.toInt_eq_toNat_cond]
  split <;> omega

/-- The start index of a nonnegative index is the index: no wrap. -/
theorem wrapIdx_apply (n : BitVec 32) (idx : IVec S16384 32) (i : Fin 16384) (z : Fin 1)
    (h : 0 ≤ (idx (ix1 i)).toInt) : wrapIdx n idx (ix2 i z) = idx (ix1 i) := by
  unfold wrapIdx
  rw [bcast_col]
  show Scalar.select (IntOp.cmpi .slt (idx (ix1 i)) 0#32) (IntOp.addi (idx (ix1 i)) n) (idx (ix1 i)) = _
  have hc : ¬ IntOp.cmpi .slt (idx (ix1 i)) 0#32 = 1#1 := by
    rw [IntOp.cmpi_slt]
    show ¬ (idx (ix1 i)).toInt < 0
    omega
  exact if_neg hc

/-- The in-range mask is set where the start index lies between zero and the last row. -/
theorem inRange_apply (hi : BitVec 32) (j : IVec S16384x1 32) (i : Fin 16384)
    (h0 : 0 ≤ (j (ix2 i (0 : Fin 1))).toInt) (h1 : (j (ix2 i (0 : Fin 1))).toInt ≤ hi.toInt) :
    inRange hi j (ix1 i) = 1#1 := by
  unfold inRange
  rw [reduce_and_col]
  show IntOp.andi (IntOp.andi (IntOp.cmpi .sge (j (ix2 i (0 : Fin 1))) 0#32) (IntOp.cmpi .sle (j (ix2 i (0 : Fin 1))) hi)) 1#1 = 1#1
  exact IntOp.andi_eq_one.2 ⟨IntOp.andi_eq_one.2 ⟨IntOp.cmpi_sge.2 h0, IntOp.cmpi_sle.2 h1⟩, rfl⟩

/-- Under the index range the first lookup's row is the first table's row at the index. -/
theorem takeD_apply (W : FVec F S1000000x64 .f32) (idx : IVec S16384 32) (i : Fin 16384) (k : Fin 64)
    (h : (idx (ix1 i)).toNat < 1000000) :
    takeD W idx (ix2 i k) = W (ix2 ⟨(idx (ix1 i)).toNat, h⟩ k) := by
  have hv : (idx (ix1 i)).toInt = ((idx (ix1 i)).toNat : Int) := toInt_of_small _ (by omega)
  have hw : ∀ z : Fin 1, wrapIdx 1000000#32 idx (ix2 i z) = idx (ix1 i) :=
    fun z => wrapIdx_apply _ idx i z (by omega)
  unfold takeD
  show Scalar.select (broadcastInDim S16384x64 ![0] bcast_S16384_S16384x64_0 (inRange 999999#32 (wrapIdx 1000000#32 idx)) (ix2 i k))
    (Host.gather gather_S1000000x64_S16384x1_S16384x64_1_0_n_n_0_1_164 W (wrapIdx 1000000#32 idx) (ix2 i k)) _ = _
  rw [bcast_rows, inRange_apply 999999#32 _ i (by rw [hw]; omega) (by rw [hw, hv]; show _ ≤ (999999 : Int); omega)]
  rw [select_one]
  have hd : gather_S1000000x64_S16384x1_S16384x64_1_0_n_n_0_1_164
      = rowDims 1000000 16384 64 gather_S1000000x64_S16384x1_S16384x64_1_0_n_n_0_1_164_wf := rfl
  rw [hd, gather_row_apply (by decide)]
  have e : (⟨min (wrapIdx 1000000#32 idx (ix2 i (0 : Fin 1))).toInt.toNat (1000000 - 1), by omega⟩ : Fin 1000000)
      = ⟨(idx (ix1 i)).toNat, h⟩ :=
    Fin.ext (by show min (wrapIdx 1000000#32 idx (ix2 i (0 : Fin 1))).toInt.toNat (1000000 - 1) = (idx (ix1 i)).toNat; rw [hw, hv]; omega)
  exact congrArg (fun r : Fin 1000000 => W (ix2 r k)) e

/-- Under the index range the second lookup's row is the second table's row at the index. -/
theorem takeG_apply (W : FVec F S100000x64 .f32) (idx : IVec S16384 32) (i : Fin 16384) (k : Fin 64)
    (h : (idx (ix1 i)).toNat < 100000) :
    takeG W idx (ix2 i k) = W (ix2 ⟨(idx (ix1 i)).toNat, h⟩ k) := by
  have hv : (idx (ix1 i)).toInt = ((idx (ix1 i)).toNat : Int) := toInt_of_small _ (by omega)
  have hw : ∀ z : Fin 1, wrapIdx 100000#32 idx (ix2 i z) = idx (ix1 i) :=
    fun z => wrapIdx_apply _ idx i z (by omega)
  unfold takeG
  show Scalar.select (broadcastInDim S16384x64 ![0] bcast_S16384_S16384x64_0 (inRange 99999#32 (wrapIdx 100000#32 idx)) (ix2 i k))
    (Host.gather gather_S100000x64_S16384x1_S16384x64_1_0_n_n_0_1_164 W (wrapIdx 100000#32 idx) (ix2 i k)) _ = _
  rw [bcast_rows, inRange_apply 99999#32 _ i (by rw [hw]; omega) (by rw [hw, hv]; show _ ≤ (99999 : Int); omega)]
  rw [select_one]
  have hd : gather_S100000x64_S16384x1_S16384x64_1_0_n_n_0_1_164
      = rowDims 100000 16384 64 gather_S100000x64_S16384x1_S16384x64_1_0_n_n_0_1_164_wf := rfl
  rw [hd, gather_row_apply (by decide)]
  have e : (⟨min (wrapIdx 100000#32 idx (ix2 i (0 : Fin 1))).toInt.toNat (100000 - 1), by omega⟩ : Fin 100000)
      = ⟨(idx (ix1 i)).toNat, h⟩ :=
    Fin.ext (by show min (wrapIdx 100000#32 idx (ix2 i (0 : Fin 1))).toInt.toNat (100000 - 1) = (idx (ix1 i)).toNat; rw [hw, hv]; omega)
  exact congrArg (fun r : Fin 100000 => W (ix2 r k)) e

end Cert.ReferenceIdeal.RefRun

end
-- ==== Proof.RefReadRow.lean ====
/- The reference function read at one batch row, at the ideal values: the rows' norms, rescaling factors and the
   prediction head as plain sums and products of extended reals; under the index ranges the result at a row is the
   specification's head of the two table rows the indices name. -/
import proofs.«205759_g46823733461237_cont_8to1_c_287_19_alg».proof.Proof.RefReadTake
import proofs.«205759_g46823733461237_cont_8to1_c_287_19_alg».proof.Proof.Spec
import Idealize.ShloMosaic.PureOps.Ideal.Laws
import Idealize.ShloMosaic.Lib.StackMember

noncomputable section

namespace Cert.ReferenceIdeal.RefRun

open Cert.ReferenceIdeal Cert.ReferenceIdeal.Gen Idealize.ShloMosaic Idealize.ShloMosaic.ValueIdx

/-- The pattern of `1.0` denotes the extended real one. -/
theorem ofBits_one_f32 : Ideal.ofBits .f32 0x3F800000#32 = 1 := by
  simp [Ideal.ofBits, Ideal.ieee, -EReal.coe_mul]; norm_num

set_option maxRecDepth 100000 in
/-- The rows' norms at a row: the square root of the sum of the row's squares. -/
theorem rowNorm_apply (e : FVec Ideal S16384x64 .f32) (i : Fin 16384) (z : Fin 1) :
    rowNorm e (ix2 i z) = Spec.rowNorm (fun k => e (ix2 i k)) := by
  unfold rowNorm Spec.rowNorm
  show Ideal.sqrt (broadcastInDim S16384x1 ![0] bcast_S16384_S16384x1_0
    (Host.reduceAdd (mulf e e) (constant S_ .f32 0x00000000#32) reducesTo_S16384x64_S16384_d1 h_S_) (ix2 i z)) = _
  rw [bcast_col]
  have h : S16384x64.Reduces [1] S16384 := by decide
  show Ideal.sqrt (Ideal.hostReduceAdd reducesTo_S16384x64_S16384_d1 (mulf e e) (Ideal.ofBits .f32 0x00000000#32) (ix1 i)) = _
  rw [Ideal.hostReduceAdd_single _ h, Ideal.ofBits_zero_f32, zero_add]
  congr 1
  refine Finset.sum_congr rfl fun k _ => ?_
  have hk : h.lift (ix1 i) k = ix2 i k := by
    funext b; refine Fin.ext ?_
    match b with
    | ⟨0, _⟩ => rfl
    | ⟨1, _⟩ => rfl
  show e (h.lift (ix1 i) k) * e (h.lift (ix1 i) k) = e (ix2 i k) * e (ix2 i k)
  rw [hk]
  rfl

/-- The rescaling factor at a row, from the row's norm. -/
theorem rowScale_apply (nrm : FVec Ideal S16384x1 .f32) (j : S16384x1.Idx) :
    rowScale nrm j = Spec.rowScale (nrm j) := by
  unfold rowScale Spec.rowScale
  show (if BitVec.ofBool (decide (Spec.lit1 < nrm j)) = 1#1 then Ideal.div Spec.lit1 (nrm j + Spec.litEps) else Spec.lit1) = _
  by_cases h : Spec.lit1 < nrm j
  · rw [if_pos h, decide_eq_true h]; exact if_pos rfl
  · rw [if_neg h, decide_eq_false h]; exact if_neg (by decide)

/-- The rescaled rows at an entry. -/
theorem renorm_apply (e : FVec Ideal S16384x64 .f32) (i : Fin 16384) (k : Fin 64) :
    renorm e (ix2 i k) = Spec.renormRow (fun k' => e (ix2 i k')) k := by
  unfold renorm Spec.renormRow
  show e (ix2 i k) * broadcastInDim S16384x64 ![0, 1] bcast_S16384x1_S16384x64_0_1 (rowScale (rowNorm e)) (ix2 i k) = _
  rw [bcast_col_rows, rowScale_apply, rowNorm_apply]

/-- A one-column array flattened, read at a row. -/
theorem flatten_col {α : Type} (x : S16384x1.Idx → α) (i : Fin 16384) :
    shapeCast S16384 x shapeCasts_S16384x1_S16384 (ix1 i) = x (ix2 i (0 : Fin 1)) := by
  unfold shapeCast
  refine congrArg x (Shape.reshapeEquiv_eq_of_rowMajor _ ?_)
  rw [Shape.rowMajor_val_two, Shape.rowMajor_val_one]
  show i.val * 1 + 0 = i.val
  omega

/-- The first bias spread over the rows, read at an entry. -/
theorem bias1_apply {α : Type} (b : S128.Idx → α) (i : Fin 16384) (j : Fin 128) :
    broadcastInDim S16384x128 ![0, 1] bcast_S1x128_S16384x128_0_1 (broadcastInDim S1x128 ![1] bcast_S128_S1x128_1 b) (ix2 i j)
      = b (ix1 j) := by
  rw [bcast_at _ _ _ (ix2 i j) (ix2 (0 : Fin 1) j) (fun a => match a with | ⟨0, _⟩ => rfl | ⟨1, _⟩ => rfl)]
  exact bcast_at _ _ b _ _ (fun a => match a with | ⟨0, _⟩ => rfl)

/-- The second bias spread over the rows, read at a row. -/
theorem bias2_apply {α : Type} (b : S1.Idx → α) (i : Fin 16384) (z : Fin 1) :
    broadcastInDim S16384x1 ![0, 1] bcast_S1x1_S16384x1_0_1 (broadcastInDim S1x1 ![1] bcast_S1_S1x1_1 b) (ix2 i z)
      = b (ix1 (0 : Fin 1)) := by
  rw [bcast_at _ _ _ (ix2 i z) (ix2 (0 : Fin 1) (0 : Fin 1)) (fun a => match a with | ⟨0, _⟩ => rfl | ⟨1, _⟩ => rfl)]
  exact bcast_at _ _ b _ _ (fun a => match a with | ⟨0, _⟩ => rfl)

/-- The host's elementwise operations read at an index, at the ideal values. -/
theorem host_divf_apply {s : Shape} (a b : FVec Ideal s .f32) (j : s.Idx) : Host.divf a b j = Ideal.div (a j) (b j) := rfl
theorem host_exp_apply {s : Shape} (a : FVec Ideal s .f32) (j : s.Idx) : Host.exp a j = Ideal.exp (a j) := rfl
theorem host_negf_apply {s : Shape} (a : FVec Ideal s .f32) (j : s.Idx) : Host.negf a j = -(a j) := rfl
theorem oneCol_apply (j : S16384x1.Idx) : oneCol (F := Ideal) j = Ideal.ofBits .f32 0x3F800000#32 := rfl
theorem zero128_apply (j : S16384x128.Idx) :
    broadcastInDim S16384x128 ![] bcast_S_S16384x128 (constant (F := Ideal) S_ .f32 0x00000000#32) j
      = Ideal.ofBits .f32 0x00000000#32 := rfl

theorem dot1_eq : dot_S16384x64_S64x128_S16384x128_1_0_0_1_n_n = DotDims.plain 16384 64 128 := rfl
theorem dot2_eq : dot_S16384x128_S128x1_S16384x1_1_0_0_1_n_n = DotDims.plain 16384 128 1 := rfl

/-- The head at a row: two affine layers with the positive part between them, then the logistic function. -/
theorem head_apply (feat : FVec Ideal S16384x64 .f32) (W1 : FVec Ideal S64x128 .f32) (b1 : FVec Ideal S128 .f32)
    (W2 : FVec Ideal S128x1 .f32) (b2 : FVec Ideal S1 .f32) (i : Fin 16384) :
    head feat W1 b1 W2 b2 (ix1 i)
      = Ideal.logistic ((∑ j : Fin 128, max ((∑ k : Fin 64, feat (ix2 i k) * W1 (ix2 k j)) + b1 (ix1 j)) Spec.lit0
          * W2 (ix2 j (0 : Fin 1))) + b2 (ix1 (0 : Fin 1))) := by
  refine (flatten_col _ i).trans ?_
  rw [host_divf_apply, oneCol_apply, addf_apply, oneCol_apply, host_exp_apply, host_negf_apply, addf_apply, bias2_apply,
    ofBits_one_f32, dot2_eq, StackMember.dotGeneral_plain_apply]
  refine congrArg (fun x => Ideal.logistic (x + b2 (ix1 (0 : Fin 1)))) (Finset.sum_congr rfl fun j _ => ?_)
  rw [maximumf_apply, zero128_apply, addf_apply, bias1_apply, dot1_eq, StackMember.dotGeneral_plain_apply]

/-- THE REFERENCE AT A ROW: under the index ranges, the specification's head of the two tables' rows at the
    indices. -/
theorem rfun_apply (a0 a1 : IVec S16384 32) (a2 : FVec Ideal S1000000x64 .f32) (a3 : FVec Ideal S100000x64 .f32)
    (a4 : FVec Ideal S64x128 .f32) (a5 : FVec Ideal S128 .f32) (a6 : FVec Ideal S128x1 .f32) (a7 : FVec Ideal S1 .f32)
    (i : Fin 16384) (hd : (a0 (ix1 i)).toNat < 1000000) (hg : (a1 (ix1 i)).toNat < 100000) :
    Rfun a0 a1 a2 a3 a4 a5 a6 a7 (ix1 i)
      = Spec.headRow (fun k => a2 (ix2 ⟨(a0 (ix1 i)).toNat, hd⟩ k)) (fun k => a3 (ix2 ⟨(a1 (ix1 i)).toNat, hg⟩ k))
          (fun k j => a4 (ix2 k j)) (fun j => a5 (ix1 j)) (fun j => a6 (ix2 j (0 : Fin 1))) (a7 (ix1 (0 : Fin 1))) := by
  have e1 : (fun k' => takeD a2 a0 (ix2 i k')) = fun k' => a2 (ix2 ⟨(a0 (ix1 i)).toNat, hd⟩ k') :=
    funext fun k' => takeD_apply a2 a0 i k' hd
  have e2 : (fun k' => takeG a3 a1 (ix2 i k')) = fun k' => a3 (ix2 ⟨(a1 (ix1 i)).toNat, hg⟩ k') :=
    funext fun k' => takeG_apply a3 a1 i k' hg
  have hfeat : ∀ k : Fin 64, mulf (renorm (takeD a2 a0)) (renorm (takeG a3 a1)) (ix2 i k)
      = Spec.renormRow (fun k' => a2 (ix2 ⟨(a0 (ix1 i)).toNat, hd⟩ k')) k
        * Spec.renormRow (fun k' => a3 (ix2 ⟨(a1 (ix1 i)).toNat, hg⟩ k')) k := by
    intro k
    rw [mulf_apply, renorm_apply, renorm_apply, e1, e2]
  unfold Rfun Spec.headRow
  rw [head_apply]
  simp only [hfeat]

/-- The same with each range given as the pair: the unsigned bound and the signed lower bound. -/
theorem rfun_apply' (a0 a1 : IVec S16384 32) (a2 : FVec Ideal S1000000x64 .f32) (a3 : FVec Ideal S100000x64 .f32)
    (a4 : FVec Ideal S64x128 .f32) (a5 : FVec Ideal S128 .f32) (a6 : FVec Ideal S128x1 .f32) (a7 : FVec Ideal S1 .f32)
    (i : Fin 16384) (hd : (a0 (ix1 i)).toNat < 1000000 ∧ 0 ≤ (a0 (ix1 i)).toInt)
    (hg : (a1 (ix1 i)).toNat < 100000 ∧ 0 ≤ (a1 (ix1 i)).toInt) :
    Rfun a0 a1 a2 a3 a4 a5 a6 a7 (ix1 i)
      = Spec.headRow (fun k => a2 (ix2 ⟨(a0 (ix1 i)).toNat, hd.1⟩ k)) (fun k => a3 (ix2 ⟨(a1 (ix1 i)).toNat, hg.1⟩ k))
          (fun k j => a4 (ix2 k j)) (fun j => a5 (ix1 j)) (fun j => a6 (ix2 j (0 : Fin 1))) (a7 (ix1 (0 : Fin 1))) :=
  rfun_apply a0 a1 a2 a3 a4 a5 a6 a7 i hd.1 hg.1

end Cert.ReferenceIdeal.RefRun

end
-- ==== Proof.KVAlg.lean ====
/-
  The two programs compute one function: under the precondition's index ranges, and whatever right layout of the
  first table the first call left, the whole result array of the idealized kernel is the reference's result as a
  function of the same eight arguments. Row by row both are the specification's head of the two tables' rows at the
  row's indices.
-/
import proofs.«205759_g46823733461237_cont_8to1_c_287_19_alg».proof.Proof.KVVal
import proofs.«205759_g46823733461237_cont_8to1_c_287_19_alg».proof.Proof.KVPre
import proofs.«205759_g46823733461237_cont_8to1_c_287_19_alg».proof.Proof.KHmain
import proofs.«205759_g46823733461237_cont_8to1_c_287_19_alg».proof.Proof.RefReadRow

noncomputable section

namespace Cert.KernelIdeal.KV

open Cert.KernelIdeal Cert.KernelIdeal.Gen Cert.KernelIdeal.KL
open Idealize.ShloMosaic Idealize.ShloMosaic.ValueIdx Idealize.SL.Sem

variable {F : FTy → Type} [FloatOps F]

/-- The kernel's result array is the reference function of the arguments. -/
theorem resK_eq_rfun (m : (ℓ : Loc nD τ sig) → Buf (Elt Ideal) ℓ)
    (hpre : ∀ c : Dev nD, (Cert.Pre_input_domain.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))) = (fun _ => 1#1))
    (d : Dev nD) (f1 : Buf (Elt Ideal) (tcLoc d main_v1)) (hf1 : Good1 m d f1) :
    (KL.ResK m d f1 : S16384.Idx → EReal)
      = Cert.ReferenceIdeal.RefRun.Rfun (F := Ideal) (m (tcLoc d main_arg0)) (m (tcLoc d main_arg1)) (m (tcLoc d main_arg2))
          (m (tcLoc d main_arg3)) (m (tcLoc d main_arg4)) (m (tcLoc d main_arg5)) (m (tcLoc d main_arg6)) (m (tcLoc d main_arg7)) := by
  funext i
  obtain ⟨j, rfl⟩ : ∃ j : Fin 16384, i = ix1 j := ⟨i 0, eq_ix1 i⟩
  have hb := ok_of_pre m hpre d j
  have hd : (m (tcLoc d main_arg0) (ix1 j)).toNat < 1000000 := by omega
  have hg : (m (tcLoc d main_arg1) (ix1 j)).toNat < 100000 := by omega
  show KV.ResK m d f1 (ix1 j) = _
  refine (resK_apply m d f1 hf1 j hd hg).trans ?_
  exact (Cert.ReferenceIdeal.RefRun.rfun_apply _ _ _ _ _ _ _ _ j hd hg).symm

end Cert.KernelIdeal.KV

end
-- ==== Proof.RefOps.lean ====
/- The reference's @main as a list of its host operations, the outlined functions' operations standing in their
   calls' places, cut into five consecutive parts: the first embedding lookup, its renormalisation, the second
   lookup, its renormalisation and the product, and the prediction head. -/
import proofs.«205759_g46823733461237_cont_8to1_c_287_19_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 to 22: the lookup in the first table: index wrap, in-range mask, gather, masked select. -/
abbrev part1 : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S16384, .i32⟩) main_call0_v0) (broadcastInDim S16384 ![] bcast_S_S16384),
    TRef.binary (TRef.of (T := ⟨S16384, .i32⟩) main_arg0) (TRef.of (T := ⟨S16384, .i32⟩) main_call0_v0) (TRef.of (T := ⟨S16384, .i1⟩) main_call0_v1) (cmpi .slt),
    TRef.nullary (TRef.of (T := ⟨S_, .i32⟩) main_call0_c_0) (constantI S_ 32 1000000#32),
    TRef.unary (TRef.of (T := ⟨S_, .i32⟩) main_call0_c_0) (TRef.of (T := ⟨S16384, .i32⟩) main_call0_v2) (broadcastInDim S16384 ![] bcast_S_S16384),
    TRef.binary (TRef.of (T := ⟨S16384, .i32⟩) main_arg0) (TRef.of (T := ⟨S16384, .i32⟩) main_call0_v2) (TRef.of (T := ⟨S16384, .i32⟩) main_call0_v3) addi,
    TRef.ternary (TRef.of (T := ⟨S16384, .i1⟩) main_call0_v1) (TRef.of (T := ⟨S16384, .i32⟩) main_call0_v3) (TRef.of (T := ⟨S16384, .i32⟩) main_arg0) (TRef.of (T := ⟨S16384, .i32⟩) main_call0_v4) select,
    TRef.unary (TRef.of (T := ⟨S16384, .i32⟩) main_call0_v4) (TRef.of (T := ⟨S16384x1, .i32⟩) main_call0_v5) (broadcastInDim S16384x1 ![0] bcast_S16384_S16384x1_0),
    TRef.nullary (TRef.of (T := ⟨S1, .i32⟩) main_call0_c_1) (constantI S1 32 999999#32),
    TRef.nullary (TRef.of (T := ⟨S_, .i32⟩) main_call0_c_2) (constantI S_ 32 0#32),
    TRef.unary (TRef.of (T := ⟨S_, .i32⟩) main_call0_c_2) (TRef.of (T := ⟨S16384x1, .i32⟩) main_call0_v6) (broadcastInDim S16384x1 ![] bcast_S_S16384x1),
    TRef.binary (TRef.of (T := ⟨S16384x1, .i32⟩) main_call0_v5) (TRef.of (T := ⟨S16384x1, .i32⟩) main_call0_v6) (TRef.of (T := ⟨S16384x1, .i1⟩) main_call0_v7) (cmpi .sge),
    TRef.unary (TRef.of (T := ⟨S1, .i32⟩) main_call0_c_1) (TRef.of (T := ⟨S1x1, .i32⟩) main_call0_v8) (broadcastInDim S1x1 ![1] bcast_S1_S1x1_1),
    TRef.unary (TRef.of (T := ⟨S1x1, .i32⟩) main_call0_v8) (TRef.of (T := ⟨S16384x1, .i32⟩) main_call0_v9) (broadcastInDim S16384x1 ![0, 1] bcast_S1x1_S16384x1_0_1),
    TRef.binary (TRef.of (T := ⟨S16384x1, .i32⟩) main_call0_v5) (TRef.of (T := ⟨S16384x1, .i32⟩) main_call0_v9) (TRef.of (T := ⟨S16384x1, .i1⟩) main_call0_v10) (cmpi .sle),
    TRef.binary (TRef.of (T := ⟨S16384x1, .i1⟩) main_call0_v7) (TRef.of (T := ⟨S16384x1, .i1⟩) main_call0_v10) (TRef.of (T := ⟨S16384x1, .i1⟩) main_call0_v11) andi,
    TRef.nullary (TRef.of (T := ⟨S_, .i1⟩) main_call0_c_3) (constantI S_ 1 1#1),
    TRef.binary (TRef.of (T := ⟨S16384x1, .i1⟩) main_call0_v11) (TRef.of (T := ⟨S_, .i1⟩) main_call0_c_3) (TRef.of (T := ⟨S16384, .i1⟩) main_call0_v12) (fun x v => Host.reduce IntOp.andi x v reducesTo_S16384x1_S16384_d1 h_S_),
    TRef.binary (TRef.of (T := ⟨S1000000x64, .f32⟩) main_arg2) (TRef.of (T := ⟨S16384x1, .i32⟩) main_call0_v5) (TRef.of (T := ⟨S16384x64, .f32⟩) main_call0_v13) (fun x i => Host.gather gather_S1000000x64_S16384x1_S16384x64_1_0_n_n_0_1_164 x i),
    TRef.unary (TRef.of (T := ⟨S16384, .i1⟩) main_call0_v12) (TRef.of (T := ⟨S16384x64, .i1⟩) main_call0_v14) (broadcastInDim S16384x64 ![0] bcast_S16384_S16384x64_0),
    TRef.nullary (TRef.of (T := ⟨S_, .f32⟩) main_call0_cst) (constant S_ .f32 0x7FC00000#32),
    TRef.unary (TRef.of (T := ⟨S_, .f32⟩) main_call0_cst) (TRef.of (T := ⟨S16384x64, .f32⟩) main_call0_v15) (broadcastInDim S16384x64 ![] bcast_S_S16384x64),
    TRef.ternary (TRef.of (T := ⟨S16384x64, .i1⟩) main_call0_v14) (TRef.of (T := ⟨S16384x64, .f32⟩) main_call0_v13) (TRef.of (T := ⟨S16384x64, .f32⟩) main_call0_v15) (TRef.of (T := ⟨S16384x64, .f32⟩) main_v0) select ]

/-- Operations 23 to 41: the first rows' norms, the rescaling factor and the rescaled rows. -/
abbrev part2 : List (HloOp τ sig (Elt F)) :=
  [ TRef.binary (TRef.of (T := ⟨S16384x64, .f32⟩) main_v0) (TRef.of (T := ⟨S16384x64, .f32⟩) main_v0) (TRef.of (T := ⟨S16384x64, .f32⟩) main_call1_v0) mulf,
    TRef.nullary (TRef.of (T := ⟨S_, .f32⟩) main_call1_cst) (constant S_ .f32 0x00000000#32),
    TRef.binary (TRef.of (T := ⟨S16384x64, .f32⟩) main_call1_v0) (TRef.of (T := ⟨S_, .f32⟩) main_call1_cst) (TRef.of (T := ⟨S16384, .f32⟩) main_call1_v1) (fun x v => Host.reduceAdd x v reducesTo_S16384x64_S16384_d1 h_S_),
    TRef.unary (TRef.of (T := ⟨S16384, .f32⟩) main_call1_v1) (TRef.of (T := ⟨S16384x1, .f32⟩) main_call1_v2) (broadcastInDim S16384x1 ![0] bcast_S16384_S16384x1_0),
    TRef.unary (TRef.of (T := ⟨S16384x1, .f32⟩) main_call1_v2) (TRef.of (T := ⟨S16384x1, .f32⟩) main_v1) Host.sqrt,
    nullary main_cst (constant S_ .f32 0x3F800000#32),
    unary main_cst main_v2 (broadcastInDim S16384x1 ![] bcast_S_S16384x1 : (⟨S_, .f32⟩ : BufTy).Contents (Elt F) → (⟨S16384x1, .f32⟩ : BufTy).Contents (Elt F)),
    binary main_v1 main_v2 main_v3 (cmpf .ogt : (⟨S16384x1, .f32⟩ : BufTy).Contents (Elt F) → (⟨S16384x1, .f32⟩ : BufTy).Contents (Elt F) → (⟨S16384x1, .i1⟩ : BufTy).Contents (Elt F)),
    nullary main_cst_0 (constant S_ .f32 0x33D6BF95#32),
    unary main_cst_0 main_v4 (broadcastInDim S16384x1 ![] bcast_S_S16384x1 : (⟨S_, .f32⟩ : BufTy).Contents (Elt F) → (⟨S16384x1, .f32⟩ : BufTy).Contents (Elt F)),
    binary main_v1 main_v4 main_v5 (addf : (⟨S16384x1, .f32⟩ : BufTy).Contents (Elt F) → (⟨S16384x1, .f32⟩ : BufTy).Contents (Elt F) → (⟨S16384x1, .f32⟩ : BufTy).Contents (Elt F)),
    nullary main_cst_1 (constant S_ .f32 0x3F800000#32),
    unary main_cst_1 main_v6 (broadcastInDim S16384x1 ![] bcast_S_S16384x1 : (⟨S_, .f32⟩ : BufTy).Contents (Elt F) → (⟨S16384x1, .f32⟩ : BufTy).Contents (Elt F)),
    binary main_v6 main_v5 main_v7 (Host.divf : (⟨S16384x1, .f32⟩ : BufTy).Contents (Elt F) → (⟨S16384x1, .f32⟩ : BufTy).Contents (Elt F) → (⟨S16384x1, .f32⟩ : BufTy).Contents (Elt F)),
    nullary main_cst_2 (constant S_ .f32 0x3F800000#32),
    unary main_cst_2 main_v8 (broadcastInDim S16384x1 ![] bcast_S_S16384x1 : (⟨S_, .f32⟩ : BufTy).Contents (Elt F) → (⟨S16384x1, .f32⟩ : BufTy).Contents (Elt F)),
    TRef.ternary (TRef.of (T := ⟨S16384x1, .i1⟩) main_v3) (TRef.of (T := ⟨S16384x1, .f32⟩) main_v7) (TRef.of (T := ⟨S16384x1, .f32⟩) main_v8) (TRef.of (T := ⟨S16384x1, .f32⟩) main_v9) select,
    unary main_v9 main_v10 (broadcastInDim S16384x64 ![0, 1] bcast_S16384x1_S16384x64_0_1 : (⟨S16384x1, .f32⟩ : BufTy).Contents (Elt F) → (⟨S16384x64, .f32⟩ : BufTy).Contents (Elt F)),
    binary main_v0 main_v10 main_v11 (mulf : (⟨S16384x64, .f32⟩ : BufTy).Contents (Elt F) → (⟨S16384x64, .f32⟩ : BufTy).Contents (Elt F) → (⟨S16384x64, .f32⟩ : BufTy).Contents (Elt F)) ]

/-- Operations 42 to 64: the lookup in the second table. -/
abbrev part3 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S16384, .i32⟩) main_call3_v0) (broadcastInDim S16384 ![] bcast_S_S16384),
    TRef.binary (TRef.of (T := ⟨S16384, .i32⟩) main_arg1) (TRef.of (T := ⟨S16384, .i32⟩) main_call3_v0) (TRef.of (T := ⟨S16384, .i1⟩) main_call3_v1) (cmpi .slt),
    TRef.nullary (TRef.of (T := ⟨S_, .i32⟩) main_call3_c_0) (constantI S_ 32 100000#32),
    TRef.unary (TRef.of (T := ⟨S_, .i32⟩) main_call3_c_0) (TRef.of (T := ⟨S16384, .i32⟩) main_call3_v2) (broadcastInDim S16384 ![] bcast_S_S16384),
    TRef.binary (TRef.of (T := ⟨S16384, .i32⟩) main_arg1) (TRef.of (T := ⟨S16384, .i32⟩) main_call3_v2) (TRef.of (T := ⟨S16384, .i32⟩) main_call3_v3) addi,
    TRef.ternary (TRef.of (T := ⟨S16384, .i1⟩) main_call3_v1) (TRef.of (T := ⟨S16384, .i32⟩) main_call3_v3) (TRef.of (T := ⟨S16384, .i32⟩) main_arg1) (TRef.of (T := ⟨S16384, .i32⟩) main_call3_v4) select,
    TRef.unary (TRef.of (T := ⟨S16384, .i32⟩) main_call3_v4) (TRef.of (T := ⟨S16384x1, .i32⟩) main_call3_v5) (broadcastInDim S16384x1 ![0] bcast_S16384_S16384x1_0),
    TRef.nullary (TRef.of (T := ⟨S1, .i32⟩) main_call3_c_1) (constantI S1 32 99999#32),
    TRef.nullary (TRef.of (T := ⟨S_, .i32⟩) main_call3_c_2) (constantI S_ 32 0#32),
    TRef.unary (TRef.of (T := ⟨S_, .i32⟩) main_call3_c_2) (TRef.of (T := ⟨S16384x1, .i32⟩) main_call3_v6) (broadcastInDim S16384x1 ![] bcast_S_S16384x1),
    TRef.binary (TRef.of (T := ⟨S16384x1, .i32⟩) main_call3_v5) (TRef.of (T := ⟨S16384x1, .i32⟩) main_call3_v6) (TRef.of (T := ⟨S16384x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S16384x1, .i32⟩) main_call3_v9) (broadcastInDim S16384x1 ![0, 1] bcast_S1x1_S16384x1_0_1),
    TRef.binary (TRef.of (T := ⟨S16384x1, .i32⟩) main_call3_v5) (TRef.of (T := ⟨S16384x1, .i32⟩) main_call3_v9) (TRef.of (T := ⟨S16384x1, .i1⟩) main_call3_v10) (cmpi .sle),
    TRef.binary (TRef.of (T := ⟨S16384x1, .i1⟩) main_call3_v7) (TRef.of (T := ⟨S16384x1, .i1⟩) main_call3_v10) (TRef.of (T := ⟨S16384x1, .i1⟩) main_call3_v11) andi,
    TRef.nullary (TRef.of (T := ⟨S_, .i1⟩) main_call3_c_3) (constantI S_ 1 1#1),
    TRef.binary (TRef.of (T := ⟨S16384x1, .i1⟩) main_call3_v11) (TRef.of (T := ⟨S_, .i1⟩) main_call3_c_3) (TRef.of (T := ⟨S16384, .i1⟩) main_call3_v12) (fun x v => Host.reduce IntOp.andi x v reducesTo_S16384x1_S16384_d1 h_S_),
    TRef.binary (TRef.of (T := ⟨S100000x64, .f32⟩) main_arg3) (TRef.of (T := ⟨S16384x1, .i32⟩) main_call3_v5) (TRef.of (T := ⟨S16384x64, .f32⟩) main_call3_v13) (fun x i => Host.gather gather_S100000x64_S16384x1_S16384x64_1_0_n_n_0_1_164 x i),
    TRef.unary (TRef.of (T := ⟨S16384, .i1⟩) main_call3_v12) (TRef.of (T := ⟨S16384x64, .i1⟩) main_call3_v14) (broadcastInDim S16384x64 ![0] bcast_S16384_S16384x64_0),
    TRef.nullary (TRef.of (T := ⟨S_, .f32⟩) main_call3_cst) (constant S_ .f32 0x7FC00000#32),
    TRef.unary (TRef.of (T := ⟨S_, .f32⟩) main_call3_cst) (TRef.of (T := ⟨S16384x64, .f32⟩) main_call3_v15) (broadcastInDim S16384x64 ![] bcast_S_S16384x64),
    TRef.ternary (TRef.of (T := ⟨S16384x64, .i1⟩) main_call3_v14) (TRef.of (T := ⟨S16384x64, .f32⟩) main_call3_v13) (TRef.of (T := ⟨S16384x64, .f32⟩) main_call3_v15) (TRef.of (T := ⟨S16384x64, .f32⟩) main_v12) select ]

/-- Operations 65 to 84: the second rows' norms, factor and rescaled rows, and the product of the two. -/
abbrev part4 : List (HloOp τ sig (Elt F)) :=
  [ TRef.binary (TRef.of (T := ⟨S16384x64, .f32⟩) main_v12) (TRef.of (T := ⟨S16384x64, .f32⟩) main_v12) (TRef.of (T := ⟨S16384x64, .f32⟩) main_call4_v0) mulf,
    TRef.nullary (TRef.of (T := ⟨S_, .f32⟩) main_call4_cst) (constant S_ .f32 0x00000000#32),
    TRef.binary (TRef.of (T := ⟨S16384x64, .f32⟩) main_call4_v0) (TRef.of (T := ⟨S_, .f32⟩) main_call4_cst) (TRef.of (T := ⟨S16384, .f32⟩) main_call4_v1) (fun x v => Host.reduceAdd x v reducesTo_S16384x64_S16384_d1 h_S_),
    TRef.unary (TRef.of (T := ⟨S16384, .f32⟩) main_call4_v1) (TRef.of (T := ⟨S16384x1, .f32⟩) main_call4_v2) (broadcastInDim S16384x1 ![0] bcast_S16384_S16384x1_0),
    TRef.unary (TRef.of (T := ⟨S16384x1, .f32⟩) main_call4_v2) (TRef.of (T := ⟨S16384x1, .f32⟩) main_v13) Host.sqrt,
    nullary main_cst_3 (constant S_ .f32 0x3F800000#32),
    unary main_cst_3 main_v14 (broadcastInDim S16384x1 ![] bcast_S_S16384x1 : (⟨S_, .f32⟩ : BufTy).Contents (Elt F) → (⟨S16384x1, .f32⟩ : BufTy).Contents (Elt F)),
    binary main_v13 main_v14 main_v15 (cmpf .ogt : (⟨S16384x1, .f32⟩ : BufTy).Contents (Elt F) → (⟨S16384x1, .f32⟩ : BufTy).Contents (Elt F) → (⟨S16384x1, .i1⟩ : BufTy).Contents (Elt F)),
    nullary main_cst_4 (constant S_ .f32 0x33D6BF95#32),
    unary main_cst_4 main_v16 (broadcastInDim S16384x1 ![] bcast_S_S16384x1 : (⟨S_, .f32⟩ : BufTy).Contents (Elt F) → (⟨S16384x1, .f32⟩ : BufTy).Contents (Elt F)),
    binary main_v13 main_v16 main_v17 (addf : (⟨S16384x1, .f32⟩ : BufTy).Contents (Elt F) → (⟨S16384x1, .f32⟩ : BufTy).Contents (Elt F) → (⟨S16384x1, .f32⟩ : BufTy).Contents (Elt F)),
    nullary main_cst_5 (constant S_ .f32 0x3F800000#32),
    unary main_cst_5 main_v18 (broadcastInDim S16384x1 ![] bcast_S_S16384x1 : (⟨S_, .f32⟩ : BufTy).Contents (Elt F) → (⟨S16384x1, .f32⟩ : BufTy).Contents (Elt F)),
    binary main_v18 main_v17 main_v19 (Host.divf : (⟨S16384x1, .f32⟩ : BufTy).Contents (Elt F) → (⟨S16384x1, .f32⟩ : BufTy).Contents (Elt F) → (⟨S16384x1, .f32⟩ : BufTy).Contents (Elt F)),
    nullary main_cst_6 (constant S_ .f32 0x3F800000#32),
    unary main_cst_6 main_v20 (broadcastInDim S16384x1 ![] bcast_S_S16384x1 : (⟨S_, .f32⟩ : BufTy).Contents (Elt F) → (⟨S16384x1, .f32⟩ : BufTy).Contents (Elt F)),
    TRef.ternary (TRef.of (T := ⟨S16384x1, .i1⟩) main_v15) (TRef.of (T := ⟨S16384x1, .f32⟩) main_v19) (TRef.of (T := ⟨S16384x1, .f32⟩) main_v20) (TRef.of (T := ⟨S16384x1, .f32⟩) main_v21) select,
    unary main_v21 main_v22 (broadcastInDim S16384x64 ![0, 1] bcast_S16384x1_S16384x64_0_1 : (⟨S16384x1, .f32⟩ : BufTy).Contents (Elt F) → (⟨S16384x64, .f32⟩ : BufTy).Contents (Elt F)),
    binary main_v12 main_v22 main_v23 (mulf : (⟨S16384x64, .f32⟩ : BufTy).Contents (Elt F) → (⟨S16384x64, .f32⟩ : BufTy).Contents (Elt F) → (⟨S16384x64, .f32⟩ : BufTy).Contents (Elt F)),
    binary main_v11 main_v23 main_v24 (mulf : (⟨S16384x64, .f32⟩ : BufTy).Contents (Elt F) → (⟨S16384x64, .f32⟩ : BufTy).Contents (Elt F) → (⟨S16384x64, .f32⟩ : BufTy).Contents (Elt F)) ]

/-- Operations 85 to 104: the two affine layers with the rectifier between them and the logistic at the end. -/
abbrev part5 : List (HloOp τ sig (Elt F)) :=
  [ binary main_v24 main_arg4 main_v25 ((fun l r => Host.dotGeneral dot_S16384x64_S64x128_S16384x128_1_0_0_1_n_n none l r) : (⟨S16384x64, .f32⟩ : BufTy).Contents (Elt F) → (⟨S64x128, .f32⟩ : BufTy).Contents (Elt F) → (⟨S16384x128, .f32⟩ : BufTy).Contents (Elt F)),
    unary main_arg5 main_v26 (broadcastInDim S1x128 ![1] bcast_S128_S1x128_1 : (⟨S128, .f32⟩ : BufTy).Contents (Elt F) → (⟨S1x128, .f32⟩ : BufTy).Contents (Elt F)),
    unary main_v26 main_v27 (broadcastInDim S16384x128 ![0, 1] bcast_S1x128_S16384x128_0_1 : (⟨S1x128, .f32⟩ : BufTy).Contents (Elt F) → (⟨S16384x128, .f32⟩ : BufTy).Contents (Elt F)),
    binary main_v25 main_v27 main_v28 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16384x128, .f32⟩) main_call6_v0) (broadcastInDim S16384x128 ![] bcast_S_S16384x128),
    TRef.binary (TRef.of (T := ⟨S16384x128, .f32⟩) main_v28) (TRef.of (T := ⟨S16384x128, .f32⟩) main_call6_v0) (TRef.of (T := ⟨S16384x128, .f32⟩) main_v29) maximumf,
    binary main_v29 main_arg6 main_v30 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    unary main_arg7 main_v31 (broadcastInDim S1x1 ![1] bcast_S1_S1x1_1 : (⟨S1, .f32⟩ : BufTy).Contents (Elt F) → (⟨S1x1, .f32⟩ : BufTy).Contents (Elt F)),
    unary main_v31 main_v32 (broadcastInDim S16384x1 ![0, 1] bcast_S1x1_S16384x1_0_1 : (⟨S1x1, .f32⟩ : BufTy).Contents (Elt F) → (⟨S16384x1, .f32⟩ : BufTy).Contents (Elt F)),
    binary main_v30 main_v32 main_v33 (addf : (⟨S16384x1, .f32⟩ : BufTy).Contents (Elt F) → (⟨S16384x1, .f32⟩ : BufTy).Contents (Elt F) → (⟨S16384x1, .f32⟩ : BufTy).Contents (Elt F)),
    unary main_v33 main_v34 (Host.negf : (⟨S16384x1, .f32⟩ : BufTy).Contents (Elt F) → (⟨S16384x1, .f32⟩ : BufTy).Contents (Elt F)),
    unary main_v34 main_v35 (Host.exp : (⟨S16384x1, .f32⟩ : BufTy).Contents (Elt F) → (⟨S16384x1, .f32⟩ : BufTy).Contents (Elt F)),
    nullary main_cst_7 (constant S_ .f32 0x3F800000#32),
    unary main_cst_7 main_v36 (broadcastInDim S16384x1 ![] bcast_S_S16384x1 : (⟨S_, .f32⟩ : BufTy).Contents (Elt F) → (⟨S16384x1, .f32⟩ : BufTy).Contents (Elt F)),
    binary main_v36 main_v35 main_v37 (addf : (⟨S16384x1, .f32⟩ : BufTy).Contents (Elt F) → (⟨S16384x1, .f32⟩ : BufTy).Contents (Elt F) → (⟨S16384x1, .f32⟩ : BufTy).Contents (Elt F)),
    nullary main_cst_8 (constant S_ .f32 0x3F800000#32),
    unary main_cst_8 main_v38 (broadcastInDim S16384x1 ![] bcast_S_S16384x1 : (⟨S_, .f32⟩ : BufTy).Contents (Elt F) → (⟨S16384x1, .f32⟩ : BufTy).Contents (Elt F)),
    binary main_v38 main_v37 main_v39 (Host.divf : (⟨S16384x1, .f32⟩ : BufTy).Contents (Elt F) → (⟨S16384x1, .f32⟩ : BufTy).Contents (Elt F) → (⟨S16384x1, .f32⟩ : BufTy).Contents (Elt F)),
    reshape main_v39 main_v40 rfl shapeCasts_S16384x1_S16384 ]

/-- @main's 105 operations, in order. -/
abbrev ops : List (HloOp τ sig (Elt F)) :=
  part1 ++ (part2 ++ (part3 ++ (part4 ++ part5)))

set_option maxRecDepth 8192 in
theorem part1_sub : (part1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 8192 in
theorem part2_sub : (part2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., ternary_bufs_sub .., unary_bufs_sub .., binary_bufs_sub ..⟩
set_option maxRecDepth 8192 in
theorem part3_sub : (part3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 8192 in
theorem part4_sub : (part4 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., ternary_bufs_sub .., unary_bufs_sub .., binary_bufs_sub .., binary_bufs_sub ..⟩
set_option maxRecDepth 8192 in
theorem part5_sub : (part5 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp part1_sub op h, List.forall_iff_forall_mem.mp part2_sub op h,
      List.forall_iff_forall_mem.mp part3_sub op h, List.forall_iff_forall_mem.mp part4_sub op h,
      List.forall_iff_forall_mem.mp part5_sub op h]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefMain.lean ====
/- The reference's @main is the straight line of its operations: the outlined functions unfolded at their calls,
   both sides are one chain of host steps once sequencing is reassociated. -/
import proofs.«205759_g46823733461237_cont_8to1_c_287_19_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_eq (c : Dev nD) : main (F := F) c = seq ops := by
  simp only [main, fn_take.body, fn_take_1.body, fn_where.body, fn_where_0.body, fn_norm.body, fn_relu.body,
    bind_assoc, pure_bind]
  rfl

end Cert.ReferenceIdeal.RefRun

end
-- ==== Proof.RefVal12.lean ====
/- The buffer contents after each part of the reference's operation list, from any contents V0: after the first
   part the looked-up rows of the first table, after the second those rows renormalised; the arguments kept. -/
import proofs.«205759_g46823733461237_cont_8to1_c_287_19_alg».proof.Proof.RefOps
import proofs.«205759_g46823733461237_cont_8to1_c_287_19_alg».proof.Proof.RefFun

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lists run one after the other is the fold over the second from the first's result. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The device's buffer contents before the first part. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl

/-- The device's buffer contents after the first 1 part. -/
def val1 (V0 : Valuation τ sig (Elt F)) : Valuation τ sig (Elt F) := after part1 (val0 V0)
/-- The buffers that part 1's operations write. -/
abbrev part1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
set_option maxRecDepth 8192 in
theorem part1_writes : (part1 : List (HloOp τ sig (Elt F))).Forall fun op => op.writes ⊆ (part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that part 1 does not write keeps its contents through it. -/
theorem val1_keep (V0 : Valuation τ sig (Elt F)) (r : Ref sig .tc) (h : r ∉ part1_W) :
    val1 V0 (Proc.devRef .tc r) = val0 V0 (Proc.devRef .tc r) :=
  after_of_writes_sub part1 _ part1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
set_option maxRecDepth 100000 in
set_option maxHeartbeats 2000000 in
theorem val1_main_v0 (V0 : Valuation τ sig (Elt F)) : val1 V0 (no_index (Proc.devRef .tc main_v0)) = (takeD (V0 (Proc.devRef .tc main_arg2)) (V0 (Proc.devRef .tc main_arg0))) := by
  unfold val1
  simp only [part1]
  after_results_simp
  simp only [val0_main_arg2, val0_main_arg0] <;> rfl

/-- The device's buffer contents after the first 2 parts. -/
def val2 (V0 : Valuation τ sig (Elt F)) : Valuation τ sig (Elt F) := after part2 (val1 V0)
/-- The buffers that part 2's operations write. -/
abbrev part2_W : List (Ref sig .tc) := [main_call1_v0, main_call1_cst, main_call1_v1, main_call1_v2, main_v1, main_cst, main_v2, main_v3, main_cst_0, main_v4, main_v5, main_cst_1, main_v6, main_v7, main_cst_2, main_v8, main_v9, main_v10, main_v11]
set_option maxRecDepth 8192 in
theorem part2_writes : (part2 : List (HloOp τ sig (Elt F))).Forall fun op => op.writes ⊆ (part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that part 2 does not write keeps its contents through it. -/
theorem val2_keep (V0 : Valuation τ sig (Elt F)) (r : Ref sig .tc) (h : r ∉ part2_W) :
    val2 V0 (Proc.devRef .tc r) = val1 V0 (Proc.devRef .tc r) :=
  after_of_writes_sub part2 _ part2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
set_option maxRecDepth 100000 in
set_option maxHeartbeats 2000000 in
theorem val2_main_v11 (V0 : Valuation τ sig (Elt F)) : val2 V0 (no_index (Proc.devRef .tc main_v11)) = renorm (takeD (V0 (Proc.devRef .tc main_arg2)) (V0 (Proc.devRef .tc main_arg0))) := by
  unfold val2
  simp only [part2]
  after_results_simp
  simp only [val1_main_v0] <;> rfl

end Cert.ReferenceIdeal.RefRun

end
-- ==== Proof.RefVal34.lean ====
/- The buffer contents after parts three and four: the second table's rows, then the product of the two
   renormalised row arrays. -/
import proofs.«205759_g46823733461237_cont_8to1_c_287_19_alg».proof.Proof.RefVal12

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first 3 parts. -/
def val3 (V0 : Valuation τ sig (Elt F)) : Valuation τ sig (Elt F) := after part3 (val2 V0)
/-- The buffers that part 3's operations write. -/
abbrev part3_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v12]
set_option maxRecDepth 8192 in
theorem part3_writes : (part3 : List (HloOp τ sig (Elt F))).Forall fun op => op.writes ⊆ (part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that part 3 does not write keeps its contents through it. -/
theorem val3_keep (V0 : Valuation τ sig (Elt F)) (r : Ref sig .tc) (h : r ∉ part3_W) :
    val3 V0 (Proc.devRef .tc r) = val2 V0 (Proc.devRef .tc r) :=
  after_of_writes_sub part3 _ part3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_v11 (V0 : Valuation τ sig (Elt F)) : val3 V0 (no_index (Proc.devRef .tc main_v11)) = renorm (takeD (V0 (Proc.devRef .tc main_arg2)) (V0 (Proc.devRef .tc main_arg0))) :=
  (val3_keep V0 main_v11 (by decide)).trans (val2_main_v11 V0)
set_option maxRecDepth 100000 in
set_option maxHeartbeats 2000000 in
theorem val3_main_v12 (V0 : Valuation τ sig (Elt F)) : val3 V0 (no_index (Proc.devRef .tc main_v12)) = (takeG (V0 (Proc.devRef .tc main_arg3)) (V0 (Proc.devRef .tc main_arg1))) := by
  unfold val3
  simp only [part3]
  after_results_simp
  simp only [val2_main_arg3, val2_main_arg1] <;> rfl

/-- The device's buffer contents after the first 4 parts. -/
def val4 (V0 : Valuation τ sig (Elt F)) : Valuation τ sig (Elt F) := after part4 (val3 V0)
/-- The buffers that part 4's operations write. -/
abbrev part4_W : List (Ref sig .tc) := [main_call4_v0, main_call4_cst, main_call4_v1, main_call4_v2, main_v13, main_cst_3, main_v14, main_v15, main_cst_4, main_v16, main_v17, main_cst_5, main_v18, main_v19, main_cst_6, main_v20, main_v21, main_v22, main_v23, main_v24]
set_option maxRecDepth 8192 in
theorem part4_writes : (part4 : List (HloOp τ sig (Elt F))).Forall fun op => op.writes ⊆ (part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that part 4 does not write keeps its contents through it. -/
theorem val4_keep (V0 : Valuation τ sig (Elt F)) (r : Ref sig .tc) (h : r ∉ part4_W) :
    val4 V0 (Proc.devRef .tc r) = val3 V0 (Proc.devRef .tc r) :=
  after_of_writes_sub part4 _ part4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
set_option maxRecDepth 100000 in
set_option maxHeartbeats 2000000 in
theorem val4_main_v24 (V0 : Valuation τ sig (Elt F)) : val4 V0 (no_index (Proc.devRef .tc main_v24)) = mulf (renorm (takeD (V0 (Proc.devRef .tc main_arg2)) (V0 (Proc.devRef .tc main_arg0)))) (renorm (takeG (V0 (Proc.devRef .tc main_arg3)) (V0 (Proc.devRef .tc main_arg1)))) := by
  unfold val4
  simp only [part4]
  after_results_simp
  simp only [val3_main_v11, val3_main_v12] <;> rfl

end Cert.ReferenceIdeal.RefRun

end
-- ==== Proof.RefVal5.lean ====
/- The buffer contents after the last part, the prediction head: the result buffer holds the reference function
   of the arguments; and the fold over the whole list is the fold part by part. -/
import proofs.«205759_g46823733461237_cont_8to1_c_287_19_alg».proof.Proof.RefVal34

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after the first 5 parts. -/
def val5 (V0 : Valuation τ sig (Elt F)) : Valuation τ sig (Elt F) := after part5 (val4 V0)
/-- The buffers that part 5's operations write. -/
abbrev part5_W : List (Ref sig .tc) := [main_v25, main_v26, main_v27, main_v28, main_call6_cst, main_call6_v0, main_v29, main_v30, main_v31, main_v32, main_v33, main_v34, main_v35, main_cst_7, main_v36, main_v37, main_cst_8, main_v38, main_v39, main_v40]
set_option maxRecDepth 8192 in
theorem part5_writes : (part5 : List (HloOp τ sig (Elt F))).Forall fun op => op.writes ⊆ (part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that part 5 does not write keeps its contents through it. -/
theorem val5_keep (V0 : Valuation τ sig (Elt F)) (r : Ref sig .tc) (h : r ∉ part5_W) :
    val5 V0 (Proc.devRef .tc r) = val4 V0 (Proc.devRef .tc r) :=
  after_of_writes_sub part5 _ part5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
set_option maxRecDepth 100000 in
set_option maxHeartbeats 2000000 in
theorem val5_main_v40 (V0 : Valuation τ sig (Elt F)) : val5 V0 (no_index (Proc.devRef .tc main_v40)) = Rfun (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val5
  simp only [part5]
  after_results_simp
  simp only [val4_main_v24, val4_main_arg4, val4_main_arg5, val4_main_arg6, val4_main_arg7] <;> rfl

theorem after_ops (V0 : Valuation τ sig (Elt F)) : after ops V0 = val5 V0 := by
  simp only [ops, after_app]
  rfl

end Cert.ReferenceIdeal.RefRun

end
-- ==== Proof.RefRun.lean ====
/- The reference's run: from any memory with zero counters every weakly fair execution of @main ends with the
   result buffer at the reference function of the arguments' launch contents, and the arguments unchanged. -/
import proofs.«205759_g46823733461237_cont_8to1_c_287_19_alg».proof.Proof.RefMain
import proofs.«205759_g46823733461237_cont_8to1_c_287_19_alg».proof.Proof.RefVal5

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of @main
    terminates with the result at `Rfun` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = Rfun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v40).trans (by simp only [after_ops]; exact val5_main_v40 (launchContents m c)),
      (h c main_arg0).trans (by simp only [after_ops]; exact val5_main_arg0 (launchContents m c)),
      (h c main_arg1).trans (by simp only [after_ops]; exact val5_main_arg1 (launchContents m c)),
      (h c main_arg2).trans (by simp only [after_ops]; exact val5_main_arg2 (launchContents m c)),
      (h c main_arg3).trans (by simp only [after_ops]; exact val5_main_arg3 (launchContents m c)),
      (h c main_arg4).trans (by simp only [after_ops]; exact val5_main_arg4 (launchContents m c)),
      (h c main_arg5).trans (by simp only [after_ops]; exact val5_main_arg5 (launchContents m c)),
      (h c main_arg6).trans (by simp only [after_ops]; exact val5_main_arg6 (launchContents m c)),
      (h c main_arg7).trans (by simp only [after_ops]; exact val5_main_arg7 (launchContents m c))⟩)
    (run_seq scopedRefs_eq scopedSems_eq defs main (fun _ => ops) main_eq (fun _ => ops_sub) m ρ)

end Cert.ReferenceIdeal.RefRun

end
-- ==== Proof.ClaimsI.lean ====
/-
  The claims that speak of the idealized programs: the idealized kernel's frame, the reference's frame, and the equality
  of the two results. The kernel's run ends with the result array holding, row by row, the head of the two looked-up
  rows; the reference's run ends with the same function of the same arguments.
-/
import proofs.«205759_g46823733461237_cont_8to1_c_287_19_alg».proof.Defs
import proofs.«205759_g46823733461237_cont_8to1_c_287_19_alg».proof.Proof.Gen.KernelIdeal
import proofs.«205759_g46823733461237_cont_8to1_c_287_19_alg».proof.Proof.Gen.ReferenceIdeal
import proofs.«205759_g46823733461237_cont_8to1_c_287_19_alg».proof.Proof.Gen.Pre_input_domain
import proofs.«205759_g46823733461237_cont_8to1_c_287_19_alg».proof.Proof.KRun
import proofs.«205759_g46823733461237_cont_8to1_c_287_19_alg».proof.Proof.TileObl
import proofs.«205759_g46823733461237_cont_8to1_c_287_19_alg».proof.Proof.RegGlue0
import proofs.«205759_g46823733461237_cont_8to1_c_287_19_alg».proof.Proof.RegGlue2
import proofs.«205759_g46823733461237_cont_8to1_c_287_19_alg».proof.Proof.KSplit
import proofs.«205759_g46823733461237_cont_8to1_c_287_19_alg».proof.Proof.KVPre
import proofs.«205759_g46823733461237_cont_8to1_c_287_19_alg».proof.Proof.KVRows
import proofs.«205759_g46823733461237_cont_8to1_c_287_19_alg».proof.Proof.KVAlg
import proofs.«205759_g46823733461237_cont_8to1_c_287_19_alg».proof.Proof.RefRun

noncomputable section

namespace Cert.Proof.ClaimsI

open Idealize.ShloMosaic Idealize.SL.Sem
open Cert.KernelIdeal.KL

/-- The idealized kernel's run: the result array at the kernel's value, the arguments unchanged. -/
theorem runKI (m : (ℓ : Loc Cert.KernelIdeal.nD Cert.KernelIdeal.τ Cert.KernelIdeal.sig) → Buf (Elt Ideal) ℓ) (g : Dev Cert.KernelIdeal.nD → PrngReg)
    (hpre : Cert.Pre_KernelIdeal m) :
    θ_run (Cert.KernelIdeal.defs (F := Ideal)) (Cert.KernelIdeal.threads (F := Ideal)) ⟨m, fun _ => 0, g⟩ (QK m) :=
  run_main m g region0Spec region2Spec (splitJoin m)
    (Cert.KernelIdeal.Tile.tileObl m facts
      (fun d j => by
        have h := Cert.KernelIdeal.KV.hin9 m (fun d j => (Cert.KernelIdeal.KV.ok_of_pre m hpre d j).1) d (j 0)
        have e : j = ValueIdx.ix1 (j 0) := ValueIdx.eq_ix1 j
        rw [e]; exact h)
      (fun d j => by
        have h := Cert.KernelIdeal.KV.hin11 m (fun d j => (Cert.KernelIdeal.KV.ok_of_pre m hpre d j).2) d (j 0)
        have e : j = ValueIdx.ix1 (j 0) := ValueIdx.eq_ix1 j
        rw [e]; exact h))

theorem frame_ki : Cert.frame_KernelIdeal := fun m g hpre =>
  (θ_run Cert.KernelIdeal.defs _ _).mono (fun _ h c =>
    ⟨(h c).2 _ (by decide), (h c).2 _ (by decide), (h c).2 _ (by decide), (h c).2 _ (by decide),
      (h c).2 _ (by decide), (h c).2 _ (by decide), (h c).2 _ (by decide), (h c).2 _ (by decide)⟩) (runKI m g hpre)

theorem frame_ri : Cert.frame_ReferenceIdeal := fun m g _ =>
  (θ_run Cert.ReferenceIdeal.defs _ _).mono (fun _ h c => (h c).2) (Cert.ReferenceIdeal.RefRun.run (F := Ideal) m g)

theorem algebraic : Cert.algebraic_KernelIdeal_ReferenceIdeal := by
  intro m g m' g' hpre hagree
  refine ⟨fun c => Cert.ReferenceIdeal.RefRun.Rfun (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun _ h c => ?_) (runKI m g hpre)
    obtain ⟨⟨G, hG, h24⟩, hargs⟩ := h c
    exact ⟨h24.trans (Cert.KernelIdeal.KV.resK_eq_rfun m hpre c G hG), hargs _ (by decide), hargs _ (by decide), hargs _ (by decide),
      hargs _ (by decide), hargs _ (by decide), hargs _ (by decide), hargs _ (by decide), hargs _ (by decide)⟩
  · refine (θ_run Cert.ReferenceIdeal.defs _ _).mono (fun _ h c => ⟨?_, (h c).2⟩) (Cert.ReferenceIdeal.RefRun.run (F := Ideal) m' g')
    rw [(h c).1, (hagree c).1, (hagree c).2.1, (hagree c).2.2.1, (hagree c).2.2.2.1, (hagree c).2.2.2.2.1, (hagree c).2.2.2.2.2.1,
      (hagree c).2.2.2.2.2.2.1, (hagree c).2.2.2.2.2.2.2]

end Cert.Proof.ClaimsI

end
-- ==== Proof.Bits.KDefs.lean ====
/-
  The idealized kernel's program as the SparseCore launch theorem sees it: the configuration, the body table,
  the resource algebra (the handshakes' rounds, the pipelines' staging cells, the transfers' counters), and the
  pipelines' tables, which hold no prefetched contents.
-/
import proofs.«205759_g46823733461237_cont_8to1_c_287_19_alg».proof.Kernel
import proofs.«205759_g46823733461237_cont_8to1_c_287_19_alg».proof.Proof.Gen.Kernel
import proofs.«205759_g46823733461237_cont_8to1_c_287_19_alg».proof.Proof.Gen.Kernel.Launch
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UPp : Type := UR sig nD τ
abbrev UU : Type := UH × (UPp × Counters)

local notation "𝕄" => MT nD τ sig (HIx 1) (Elt F) ℕ UU ℕ

abbrev EH : Emb UH (MT nD τ sig (HIx 1) (Elt F) ℕ UU ℕ) := embL
abbrev EP : Emb UPp (MT nD τ sig (HIx 1) (Elt F) ℕ UU ℕ) := (Emb.inl : Emb UPp (UPp × Counters)).trans embR

instance EP_landsIn : (EP (F := F)).LandsIn (upEmb : UEmb _ (MT nD τ sig (HIx 1) (Elt F) ℕ UU ℕ)) := by
  unfold EP; infer_instance

example : CountersIn UU := inferInstance

abbrev adm : (p : Fin 2) → (pcfgs (F := F) p).Adm := fun p => (cfgs p).toPCfg_adm

end Cert.Kernel.KL

end
-- ==== Proof.Bits.KMainEq.lean ====
/-
  @main of the idealized kernel's program as three straight lines of host operations around its three calls:
  the transpose of the first table before the first TensorCore call; the reshaped second table, the row numbers
  and the parities before the SparseCore call; the reshaped head parameters before the last TensorCore call.
-/
import proofs.«205759_g46823733461237_cont_8to1_c_287_19_alg».proof.Proof.Bits.KDefs

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-- The host operation before the first TensorCore call: the first table transposed. -/
abbrev opsA : List (HloOp τ sig (Elt F)) := [
    StableHlo.unary main_arg2 main_v0 ((transpose S64x1000000 [1, 0] · transposes_S1000000x64_S64x1000000_1_0) : (⟨S1000000x64, .f32⟩ : BufTy).Contents (Elt F) → (⟨S64x1000000, .f32⟩ : BufTy).Contents (Elt F))]

/-- The host operations between the first TensorCore call and the SparseCore call. -/
abbrev opsB : List (HloOp τ sig (Elt F)) := [
    StableHlo.reshape main_arg3 main_v2 rfl shapeCasts_S100000x64_S50000x128,
    StableHlo.nullary main_c (constantI S_ 32 14#32),
    StableHlo.unary main_c main_v3 (broadcastInDim S16384 ![] bcast_S_S16384 : (⟨S_, .i32⟩ : BufTy).Contents (Elt F) → (⟨S16384, .i32⟩ : BufTy).Contents (Elt F)),
    StableHlo.binary main_arg0 main_v3 main_v4 (Host.shrui : (⟨S16384, .i32⟩ : BufTy).Contents (Elt F) → (⟨S16384, .i32⟩ : BufTy).Contents (Elt F) → (⟨S16384, .i32⟩ : BufTy).Contents (Elt F)),
    StableHlo.nullary main_c_0 (constantI S_ 32 8192#32),
    StableHlo.unary main_c_0 main_v5 (broadcastInDim S16384 ![] bcast_S_S16384 : (⟨S_, .i32⟩ : BufTy).Contents (Elt F) → (⟨S16384, .i32⟩ : BufTy).Contents (Elt F)),
    StableHlo.binary main_v4 main_v5 main_v6 (muli : (⟨S16384, .i32⟩ : BufTy).Contents (Elt F) → (⟨S16384, .i32⟩ : BufTy).Contents (Elt F) → (⟨S16384, .i32⟩ : BufTy).Contents (Elt F)),
    StableHlo.nullary main_c_1 (constantI S_ 32 8191#32),
    StableHlo.unary main_c_1 main_v7 (broadcastInDim S16384 ![] bcast_S_S16384 : (⟨S_, .i32⟩ : BufTy).Contents (Elt F) → (⟨S16384, .i32⟩ : BufTy).Contents (Elt F)),
    StableHlo.binary main_arg0 main_v7 main_v8 (andi : (⟨S16384, .i32⟩ : BufTy).Contents (Elt F) → (⟨S16384, .i32⟩ : BufTy).Contents (Elt F) → (⟨S16384, .i32⟩ : BufTy).Contents (Elt F)),
    StableHlo.binary main_v6 main_v8 main_v9 (addi : (⟨S16384, .i32⟩ : BufTy).Contents (Elt F) → (⟨S16384, .i32⟩ : BufTy).Contents (Elt F) → (⟨S16384, .i32⟩ : BufTy).Contents (Elt F)),
    StableHlo.nullary main_c_2 (constantI S_ 32 1#32),
    StableHlo.unary main_c_2 main_v10 (broadcastInDim S16384 ![] bcast_S_S16384 : (⟨S_, .i32⟩ : BufTy).Contents (Elt F) → (⟨S16384, .i32⟩ : BufTy).Contents (Elt F)),
    StableHlo.binary main_arg1 main_v10 main_v11 (Host.shrui : (⟨S16384, .i32⟩ : BufTy).Contents (Elt F) → (⟨S16384, .i32⟩ : BufTy).Contents (Elt F) → (⟨S16384, .i32⟩ : BufTy).Contents (Elt F)),
    StableHlo.nullary main_c_3 (constantI S_ 32 13#32),
    StableHlo.unary main_c_3 main_v12 (broadcastInDim S16384 ![] bcast_S_S16384 : (⟨S_, .i32⟩ : BufTy).Contents (Elt F) → (⟨S16384, .i32⟩ : BufTy).Contents (Elt F)),
    StableHlo.binary main_arg0 main_v12 main_v13 (Host.shrui : (⟨S16384, .i32⟩ : BufTy).Contents (Elt F) → (⟨S16384, .i32⟩ : BufTy).Contents (Elt F) → (⟨S16384, .i32⟩ : BufTy).Contents (Elt F)),
    StableHlo.nullary main_c_4 (constantI S_ 32 1#32),
    StableHlo.unary main_c_4 main_v14 (broadcastInDim S16384 ![] bcast_S_S16384 : (⟨S_, .i32⟩ : BufTy).Contents (Elt F) → (⟨S16384, .i32⟩ : BufTy).Contents (Elt F)),
    StableHlo.binary main_v13 main_v14 main_v15 (andi : (⟨S16384, .i32⟩ : BufTy).Contents (Elt F) → (⟨S16384, .i32⟩ : BufTy).Contents (Elt F) → (⟨S16384, .i32⟩ : BufTy).Contents (Elt F)),
    StableHlo.reshape main_v15 main_v16 rfl shapeCasts_S16384_S16384x1,
    StableHlo.nullary main_c_5 (constantI S_ 32 1#32),
    StableHlo.unary main_c_5 main_v17 (broadcastInDim S16384 ![] bcast_S_S16384 : (⟨S_, .i32⟩ : BufTy).Contents (Elt F) → (⟨S16384, .i32⟩ : BufTy).Contents (Elt F)),
    StableHlo.binary main_arg1 main_v17 main_v18 (andi : (⟨S16384, .i32⟩ : BufTy).Contents (Elt F) → (⟨S16384, .i32⟩ : BufTy).Contents (Elt F) → (⟨S16384, .i32⟩ : BufTy).Contents (Elt F)),
    StableHlo.reshape main_v18 main_v19 rfl shapeCasts_S16384_S16384x1]

/-- The host operations between the SparseCore call and the last TensorCore call. -/
abbrev opsC : List (HloOp τ sig (Elt F)) := [
    StableHlo.reshape main_arg5 main_v21 rfl shapeCasts_S128_S1x128,
    StableHlo.reshape main_arg6 main_v22 rfl shapeCasts_S128x1_S1x128,
    StableHlo.reshape main_arg7 main_v23 rfl shapeCasts_S1_S1x1]

theorem main_eq (d : Dev nD) : main (F := F) d =
    (StableHlo.seq opsA >>= fun _ => Prog.lift (.customCall (SparseCore.inner (Pipeline.entry 0)) ()) >>= fun _ =>
      StableHlo.seq opsB >>= fun _ => sc.run d 0 >>= fun _ => StableHlo.seq opsC >>= fun _ =>
      Prog.lift (.customCall (SparseCore.inner (Pipeline.entry 1)) ()) >>= fun _ => pure ⟨⟩) := by
  rfl

end Cert.Kernel.KL

end
-- ==== Proof.Bits.KPay.lean ====
/-
  What the SparseCore call's handshakes carry. The arrays the tiles read — the row numbers, the two tables as the
  TensorCore laid them out — are handed out as read shares, one per tile; the rows of the two result arrays a tile
  writes are handed to it whole and come back holding the gathered rows. The first table as laid out holds, in
  row R and lane l, entry (column c, l mod 64) of the original table with c = 16384 (R / 8192) + 8192 (l / 64) + R mod 8192,
  wherever that column exists; the row numbers keep every gathered row inside that part.
-/
import proofs.«205759_g46823733461237_cont_8to1_c_287_19_alg».proof.Proof.Bits.KDefs
import proofs.«205759_g46823733461237_cont_8to1_c_287_19_alg».proof.Proof.Bits.KMainEq
import Idealize.ShloMosaic.Lib.ValueIdx

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.ValueIdx (ix1 ix2)

variable (m : (ℓ : Loc nD τ sig) → Buf (Elt F) ℓ)
variable [FloatOps F]

/-! ## The TensorCore's buffers at the three stages of @main -/

/-- At the launch; -/
def V0 (d : Dev nD) : Valuation τ sig (Elt F) := fun b => m (d, b)
/-- after the host operation before the first TensorCore call; -/
def VA (d : Dev nD) : Valuation τ sig (Elt F) := StableHlo.after opsA (V0 m d)
/-- after the host operations before the SparseCore call; -/
def VB (d : Dev nD) : Valuation τ sig (Elt F) := StableHlo.after opsB (VA m d)
/-- after the host operations before the last TensorCore call. -/
def VC (d : Dev nD) : Valuation τ sig (Elt F) := StableHlo.after opsC (VB m d)

abbrev tcLoc (d : Dev nD) (b : Ref sig .tc) : Loc nD τ sig := (SparseCore.T d).loc b

/-- The row numbers into the first and the second laid-out table, and the second table laid out. -/
abbrev A9 (d : Dev nD) : Buf (Elt F) (tcLoc d main_v9) := VB m d (Proc.devRef .tc main_v9)
abbrev A11 (d : Dev nD) : Buf (Elt F) (tcLoc d main_v11) := VB m d (Proc.devRef .tc main_v11)
abbrev A2 (d : Dev nD) : Buf (Elt F) (tcLoc d main_v2) := VB m d (Proc.devRef .tc main_v2)
/-- The first table transposed, as the first TensorCore call reads it. -/
abbrev A0 (d : Dev nD) : Buf (Elt F) (tcLoc d main_v0) := VA m d (Proc.devRef .tc main_v0)

/-- The column of the original first table that row `R`, lane `l` of the laid-out table holds. -/
def colOf (R l : ℕ) : ℕ := 16384 * (R / 8192) + 8192 * (l / 64) + R % 8192

/-- The laid-out first table is right wherever the original table has the column. -/
def Good1 (d : Dev nD) (f1 : Buf (Elt F) (tcLoc d main_v1)) : Prop :=
  ∀ (R : Fin 507904) (l : Fin 128) (h : colOf R.val l.val < 1000000),
    f1 (ix2 R l) = A0 m d (ix2 (⟨l.val % 64, by omega⟩ : Fin 64) (⟨colOf R.val l.val, h⟩ : Fin 1000000))

/-- The gathered rows of the first table, from the laid-out table `f1`: row `j` is the laid-out row the `j`-th row
    number names, all 128 lanes of it (the half the row number's parity does not choose may lie where the original
    table has no column). -/
def D20 (d : Dev nD) (f1 : Buf (Elt F) (tcLoc d main_v1)) : Buf (Elt F) (tcLoc d main_v20_0) := fun x =>
  f1 (ix2 (⟨(A9 m d (ix1 (x 0))).toNat % 507904, Nat.mod_lt _ (by decide)⟩ : Fin 507904) (x 1))

/-- The gathered rows of the second table. -/
def G20 (d : Dev nD) : Buf (Elt F) (tcLoc d main_v20_1) := fun x =>
  A2 m d (ix2 (⟨(A11 m d (ix1 (x 0))).toNat % 50000, Nat.mod_lt _ (by decide)⟩ : Fin 50000) (x 1))

/-! ## The tiles -/

/-- The grid coordinates of the tile on SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The read share of tile (`c`, `s`): the `s`-th sixteenth-token of the `c`-th half-token. -/
abbrev sh (c : Fin 2) (s : Fin 16) : PosShare TreeShare := Transfers.shareTok (Transfers.shareTok fullShare 2 c) 16 s

/-- Chunk `r`'s 128 rows of a result array for the tile at `L`, as the kernel slices them. -/
abbrev oSet (L : grid1.Coords) (r : Fin 4) : Finset S16384x128.Idx :=
  ((Memref.whole main_v20_0_scv).slice (Rect.unit (s := S16384x128) (k1_off2 L (BitVec.ofNat 32 (128 * r.val))) S128x128.size (k1_off2_inb L r)) (fun _ => rfl)).view.set

/-- What a tile is handed at its task's start: its read shares, and its rows of the two result arrays. -/
def tileGo (d : Dev nD) (c : Fin 2) (s : Fin 16) : sProp 𝕄 :=
  iprop((tcLoc d main_v9 ↦{sh c s} A9 m d) ∗ (tcLoc d main_v11 ↦{sh c s} A11 m d)
    ∗ (∃ f1, ⌜Good1 m d f1⌝ ∗ tcLoc d main_v1 ↦{sh c s} f1) ∗ (tcLoc d main_v2 ↦{sh c s} A2 m d)
    ∗ (bigSep Finset.univ fun r : Fin 4 => tcLoc d main_v20_0 ↦[oSet (coordsV c s) r]{fullShare} VB m d (Proc.devRef .tc main_v20_0))
    ∗ (bigSep Finset.univ fun r : Fin 4 => tcLoc d main_v20_1 ↦[oSet (coordsV c s) r]{fullShare} VB m d (Proc.devRef .tc main_v20_1)))

/-- What it hands back: the shares, and its rows holding the gathered rows (of whatever right layout the first table's
    array holds). -/
def tileTd (d : Dev nD) (c : Fin 2) (s : Fin 16) : sProp 𝕄 :=
  iprop((tcLoc d main_v9 ↦{sh c s} A9 m d) ∗ (tcLoc d main_v11 ↦{sh c s} A11 m d)
    ∗ (∃ f1, ⌜Good1 m d f1⌝ ∗ (tcLoc d main_v1 ↦{sh c s} f1)
        ∗ (bigSep Finset.univ fun r : Fin 4 => tcLoc d main_v20_0 ↦[oSet (coordsV c s) r]{fullShare} D20 m d f1))
    ∗ (tcLoc d main_v2 ↦{sh c s} A2 m d)
    ∗ (bigSep Finset.univ fun r : Fin 4 => tcLoc d main_v20_1 ↦[oSet (coordsV c s) r]{fullShare} G20 m d))

def P : (K (F := F)).Pay (nD := nD) (Val := Elt F) (Name := ℕ) (U := UU) where
  st := fun q d c => match q with | 0 => bigSep Finset.univ fun s : Fin 16 => tileGo m d (Fin.cast nCore_zero c) s
  dn := fun q d c => match q with | 0 => bigSep Finset.univ fun s : Fin 16 => tileTd m d (Fin.cast nCore_zero c) s
  go := fun q d c i => match q with | 0 => tileGo m d (Fin.cast nCore_zero c) (Fin.cast nSub_zero i)
  td := fun q d c i => match q with | 0 => tileTd m d (Fin.cast nCore_zero c) (Fin.cast nSub_zero i)
  x := fun _ _ => iprop(emp)

instance P_storable : (P m).IsStorable where
  st q d c := match q with | 0 => by unfold P tileGo; infer_instance
  dn q d c := match q with | 0 => by unfold P tileTd; infer_instance
  go q _ _ _ := match q with | 0 => by unfold P tileGo; infer_instance
  td q _ _ _ := match q with | 0 => by unfold P tileTd; infer_instance

/-- A SparseCore's operands are its sixteen tiles', and its results theirs. -/
theorem vecSplit : (K (F := F)).VecSplit' (P m) 0 := by
  intro d c
  show (bigSep Finset.univ fun s : Fin 16 => tileGo m d (Fin.cast nCore_zero c) s) ⊢ |={Set.univ}=> iprop(
      (bigSep Finset.univ fun i : Fin ((K (F := F)).nSub 0) => tileGo m d (Fin.cast nCore_zero c) (Fin.cast nSub_zero i))
      ∗ ((bigSep Finset.univ fun i : Fin ((K (F := F)).nSub 0) => tileTd m d (Fin.cast nCore_zero c) (Fin.cast nSub_zero i))
          -∗ bigSep Finset.univ fun s : Fin 16 => tileTd m d (Fin.cast nCore_zero c) s))
  iintro H; imodintro
  isplitl [H]; · iexact H
  iintro H; iexact H

end Cert.Kernel.KL

end
-- ==== Proof.Bits.KRegion.lean ====
/-
  A TensorCore call inside the SparseCore program: the region rule of the pipeline library, proved about the call in
  the pipelines' own signature, holds of the call lifted to the SparseCore program's signature, the continuation
  running in the latter.
-/
import proofs.«205759_g46823733461237_cont_8to1_c_287_19_alg».proof.Proof.Bits.KDefs

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F] [∀ e, Nonempty (Elt F e)]

set_option backward.isDefEq.respectTransparency.types false in
theorem wp_region {rdats : (p : Fin 2) → (c : Dev nD) → Pipeline.RDat τ (Elt F) (HIx 1) ℕ UU ℕ (Pipeline.pin (pcfgs (F := F)) adm p) c}
    {p : Fin 2} (R : Pipeline.RDat.RegionSeg (pcfgs (F := F)) adm rdats none defs₀ 𝒱₀ (K (F := F)).L (K (F := F)).lev p) (d : Dev nD)
    {α : Type} (k : PUnit → Prog (TpuEff nD τ sig (Elt F) (SparseCore.Sig (ΛP (F := F)) 1) .tc) α) (Q : α → sProp 𝕄) :
    iprop((iprop(boundary (SparseCore.T d) ∗ R.post d) -∗ wp frame (wpE ((K (F := F)).defs (D (F := F))) 𝒱 (SparseCore.T d) none) Set.univ (k ⟨⟩) Q)
        ∗ boundary (SparseCore.T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (SparseCore.T d) none) Set.univ
          (Prog.lift (.customCall (SparseCore.inner (Pipeline.entry p)) ()) >>= k) Q := by
  have hk : iprop(iprop(boundary (SparseCore.T d) ∗ R.post d) -∗ wp frame (wpE ((K (F := F)).defs (D (F := F))) 𝒱 (SparseCore.T d) none) Set.univ (k ⟨⟩) Q)
      ⊢ iprop(iprop(boundary (SparseCore.T d) ∗ R.post d) -∗ wp frame (wpE (D (F := F)) 𝒱 (SparseCore.T d) none) Set.univ (Prog.ret PUnit.unit)
          fun a => wp frame (wpE ((K (F := F)).defs (D (F := F))) 𝒱 (SparseCore.T d) none) Set.univ (k a) Q) := by
    iintro Hk H
    rw [wp_ret]; imodintro
    iapply Hk; iexact H
  rw [wp_bind]
  refine BI.Entails.trans ?_ ((K (F := F)).wp_liftProg (D (F := F)) 𝒱 (SparseCore.T d) Set.univ none
    (Prog.lift (.customCall (Pipeline.entry p) ())) _)
  exact BI.Entails.trans (BI.sep_mono hk (BI.Entails.refl _)) (Pipeline.RDat.RegionSeg.wp (pcfgs (F := F)) adm rdats none cellOf_inj (EP (F := F)) defs₀ 𝒱₀
    (K (F := F)).L (K (F := F)).lev R d none (fun u hu => nomatch hu) (fun x => .ret x) _)

end Cert.Kernel.KL

end
-- ==== Proof.Bits.KSpecs.lean ====
/-
  What the two TensorCore calls do, as the TensorCore's program meets them: the first lays the transposed first
  table out in rows of two 64-entry halves; the last computes, for each batch row, the head of the two gathered rows'
  chosen halves.
-/
import proofs.«205759_g46823733461237_cont_8to1_c_287_19_alg».proof.Proof.Bits.KPay
import proofs.«205759_g46823733461237_cont_8to1_c_287_19_alg».proof.Proof.Bits.KRegion
import proofs.«205759_g46823733461237_cont_8to1_c_287_19_alg».proof.Proof.Gen.Kernel.Skeleton

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

open Idealize.ShloMosaic.ValueIdx (ix1 ix2)

variable [FloatOps F]

/-- The laid-out table `G` is right against the transposed table `f0` wherever the original table has the column. -/
def GoodOut (d : Dev nD) (f0 : Buf (Elt F) (tcLoc d main_v0)) (G : Buf (Elt F) (tcLoc d main_v1)) : Prop :=
  ∀ (R : Fin 507904) (l : Fin 128) (h : colOf R.val l.val < 1000000),
    G (ix2 R l) = f0 (ix2 (⟨l.val % 64, by omega⟩ : Fin 64) (⟨colOf R.val l.val, h⟩ : Fin 1000000))

theorem good1_iff (m : (ℓ : Loc nD τ sig) → Buf (Elt F) ℓ) (d : Dev nD) (f1 : Buf (Elt F) (tcLoc d main_v1)) :
    Good1 m d f1 ↔ GoodOut d (A0 m d) f1 := Iff.rfl

/-- The last TensorCore call's stored block as one pure term of its loaded blocks. -/
abbrev pay2F (x0 x1 : Vec F S2048x128 .f32) (x2 x3 : Vec F S2048x1 .i32) (x4 : Vec F S64x128 .f32) (x5 x6 : Vec F S1x128 .f32)
    (x7 : Vec F S1x1 .f32) : FVec F S2048 .f32 :=
  Gen.k2_pay1 (Gen.k2_pay2 x0 x2) (Gen.k2_pay3 x1 x3) (Gen.k2_pay4 x1 x3) (Gen.k2_pay5 x0 x2) (Gen.k2_pay6 x1 x3) Gen.k2_pay7 x4 x5 x6 x7

/-- Rows `2048 t .. 2048 t + 2047` of the two gathered arrays and of the two parity columns. -/
def rowsD (d : Dev nD) (g : Buf (Elt F) (tcLoc d main_v20_0)) (t : Fin 8) : Vec F S2048x128 .f32 :=
  fun y => g (ix2 (⟨2048 * t.val + (y 0).val, by have := ValueIdx.idx2_lt0 y; have := t.isLt; omega⟩ : Fin 16384) (y 1))
def rowsP (d : Dev nD) (g : Buf (Elt F) (tcLoc d main_v16)) (t : Fin 8) : Vec F S2048x1 .i32 :=
  fun y => g (ix2 (⟨2048 * t.val + (y 0).val, by have := ValueIdx.idx2_lt0 y; have := t.isLt; omega⟩ : Fin 16384) (y 1))

/-- What the last TensorCore call leaves in the result array: row `j` is the stored block of point `j / 2048` at `j mod 2048`. -/
def Res2 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23)) :
    Buf (Elt F) (tcLoc d main_v24) :=
  fun j => pay2F (rowsD d g0 ⟨(j 0).val / 2048, by have : (j 0).val < 16384 := (j 0).isLt; omega⟩)
    (rowsD d g1 ⟨(j 0).val / 2048, by have : (j 0).val < 16384 := (j 0).isLt; omega⟩)
    (rowsP d p0 ⟨(j 0).val / 2048, by have : (j 0).val < 16384 := (j 0).isLt; omega⟩) (rowsP d p1 ⟨(j 0).val / 2048, by have : (j 0).val < 16384 := (j 0).isLt; omega⟩) w1 b1 w2 b2
    (ix1 (⟨(j 0).val % 2048, Nat.mod_lt _ (by decide)⟩ : Fin 2048))

/-- The thread of the TensorCore in the program's signature. -/
abbrev KProg (α : Type) : Type 1 := Prog (TpuEff nD τ sig (Elt F) (SparseCore.Sig (ΛP (F := F)) 1) .tc) α

/-- The first TensorCore call, as @main meets it: from the transposed table and the layout's array held whole, the
    TensorCore owing `O` (nothing at the kernels' own index) with recorded waits `W`, it runs to the transposed table
    unchanged, the layout's array holding a right layout, and the same debts, the new recorded waits the staging
    cells' own. -/
def Region0Spec : Prop :=
  ∀ (d : Dev nD) (O : CellTallies nD τ sig (HIx 1)) (W : Waits sig (HIx 1)) (_ : ∀ g, O g none = 0)
    (f0 : Buf (Elt F) (tcLoc d main_v0)) (f1 : Buf (Elt F) (tcLoc d main_v1)) {α : Type} (k : PUnit → KProg (F := F) α) (Q : α → sProp 𝕄),
    iprop((iprop(boundary (SparseCore.T d) ∗ (tcLoc d main_v0 ↦{fullShare} f0) ∗ (∃ G, ⌜GoodOut d f0 G⌝ ∗ tcLoc d main_v1 ↦{fullShare} G)
            ∗ ∃ W', ⌜∀ p ∈ W', p ∈ W ∨ p.2 = none⌝ ∗ owes (SparseCore.T d) O W')
          -∗ wp frame (wpE ((K (F := F)).defs (D (F := F))) 𝒱 (SparseCore.T d) none) Set.univ (k ⟨⟩) Q)
        ∗ boundary (SparseCore.T d) ∗ (tcLoc d main_v0 ↦{fullShare} f0) ∗ (tcLoc d main_v1 ↦{fullShare} f1) ∗ owes (SparseCore.T d) O W
        ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ wp frame (wpE ((K (F := F)).defs (D (F := F))) 𝒱 (SparseCore.T d) none) Set.univ
          (Prog.lift (.customCall (SparseCore.inner (Pipeline.entry 0)) ()) >>= k) Q

/-- The last TensorCore call, as @main meets it: from its eight operand arrays and the result array held whole, it
    runs to the operands unchanged and the result array holding, row by row, the head of the gathered rows. -/
def Region2Spec : Prop :=
  ∀ (d : Dev nD) (O : CellTallies nD τ sig (HIx 1)) (W : Waits sig (HIx 1)) (_ : ∀ g, O g none = 0)
    (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) {α : Type} (k : PUnit → KProg (F := F) α) (Q : α → sProp 𝕄),
    iprop((iprop(boundary (SparseCore.T d) ∗ (tcLoc d main_v20_0 ↦{fullShare} g0) ∗ (tcLoc d main_v20_1 ↦{fullShare} g1) ∗ (tcLoc d main_v16 ↦{fullShare} p0) ∗ (tcLoc d main_v19 ↦{fullShare} p1)
            ∗ (tcLoc d main_arg4 ↦{fullShare} w1) ∗ (tcLoc d main_v21 ↦{fullShare} b1) ∗ (tcLoc d main_v22 ↦{fullShare} w2) ∗ (tcLoc d main_v23 ↦{fullShare} b2)
            ∗ (tcLoc d main_v24 ↦{fullShare} Res2 d g0 g1 p0 p1 w1 b1 w2 b2)
            ∗ ∃ W', ⌜∀ p ∈ W', p ∈ W ∨ p.2 = none⌝ ∗ owes (SparseCore.T d) O W')
          -∗ wp frame (wpE ((K (F := F)).defs (D (F := F))) 𝒱 (SparseCore.T d) none) Set.univ (k ⟨⟩) Q)
        ∗ boundary (SparseCore.T d) ∗ (tcLoc d main_v20_0 ↦{fullShare} g0) ∗ (tcLoc d main_v20_1 ↦{fullShare} g1) ∗ (tcLoc d main_v16 ↦{fullShare} p0) ∗ (tcLoc d main_v19 ↦{fullShare} p1)
            ∗ (tcLoc d main_arg4 ↦{fullShare} w1) ∗ (tcLoc d main_v21 ↦{fullShare} b1) ∗ (tcLoc d main_v22 ↦{fullShare} w2) ∗ (tcLoc d main_v23 ↦{fullShare} b2)
        ∗ (tcLoc d main_v24 ↦{fullShare} o) ∗ owes (SparseCore.T d) O W
        ∗ levAts (K (F := F)).L (K (F := F)).lev
        ∗ Pipeline.cellsGhost (Pipeline.pin (pcfgs (F := F)) adm) (EP (F := F)) 1 d ∗ Pipeline.toksInit (Pipeline.pin (pcfgs (F := F)) adm) (EP (F := F)) 1 d)
      ⊢ wp frame (wpE ((K (F := F)).defs (D (F := F))) 𝒱 (SparseCore.T d) none) Set.univ
          (Prog.lift (.customCall (SparseCore.inner (Pipeline.entry 1)) ()) >>= k) Q

end Cert.Kernel.KL

end
-- ==== Proof.Bits.KMain.lean ====
/-
  @main on the TensorCore: the host operations run over the TensorCore's unscoped buffers held whole.
-/
import proofs.«205759_g46823733461237_cont_8to1_c_287_19_alg».proof.Proof.Bits.KPay
import proofs.«205759_g46823733461237_cont_8to1_c_287_19_alg».proof.Proof.Bits.KSpecs

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The TensorCore's unscoped buffers. -/
abbrev SU : Finset (DevRef τ sig) :=
  (Finset.univ.filter fun b : Ref sig .tc => ¬ b.isScoped).map ⟨Proc.devRef (sig := sig) (.tc : Proc τ), Proc.devRef_injective _⟩

omit [FloatOps F] in
theorem unscoped_held (d : Dev nD) :
    (unscopedBufs d (fun b => m ((SparseCore.T d).loc b)) : sProp 𝕄) = held (SparseCore.T d) SU (V0 m d) := by
  unfold unscopedBufs held SU; rw [bigSep_map]; rfl

theorem hSA : ∀ op ∈ opsA (F := F), op.bufs ⊆ SU := by
  intro op hop
  simp only [List.mem_cons, List.mem_nil_iff, or_false] at hop
  subst hop
  first | (rw [StableHlo.unary_bufs]; decide) | (rw [StableHlo.binary_bufs]; decide) | (rw [StableHlo.nullary_bufs]; decide) | (rw [StableHlo.reshape_bufs]; decide)

theorem hSB : ∀ op ∈ opsB (F := F), op.bufs ⊆ SU := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl <;>
    first | (rw [StableHlo.unary_bufs]; decide) | (rw [StableHlo.binary_bufs]; decide) | (rw [StableHlo.nullary_bufs]; decide) | (rw [StableHlo.reshape_bufs]; decide)

theorem hSC : ∀ op ∈ opsC (F := F), op.bufs ⊆ SU := by
  intro op hop
  simp only [List.mem_cons, List.mem_nil_iff, or_false] at hop
  rcases hop with rfl | rfl | rfl <;>
    first | (rw [StableHlo.unary_bufs]; decide) | (rw [StableHlo.binary_bufs]; decide) | (rw [StableHlo.nullary_bufs]; decide) | (rw [StableHlo.reshape_bufs]; decide)

/-! ## The buffers taken out of the held set, stage by stage -/

abbrev r (b : Ref sig .tc) : DevRef τ sig := Proc.devRef .tc b

/-- The first TensorCore call's two arrays; -/
abbrev T1 : Finset (DevRef τ sig) := {r main_v0, r main_v1}
abbrev S1 : Finset (DevRef τ sig) := SU \ T1
/-- the SparseCore call's operands but the laid-out first table; -/
abbrev T2 : Finset (DevRef τ sig) := {r main_v9, r main_v11, r main_v2, r main_v20_0, r main_v20_1}
abbrev S2 : Finset (DevRef τ sig) := S1 \ T2
/-- the last TensorCore call's arrays but the two gathered ones. -/
abbrev T3 : Finset (DevRef τ sig) := {r main_v16, r main_v19, r main_arg4, r main_v21, r main_v22, r main_v23, r main_v24}
abbrev S3 : Finset (DevRef τ sig) := S2 \ T3

theorem hT1 : T1 ⊆ SU := by decide
theorem hT2 : T2 ⊆ S1 := by decide
theorem hT3 : T3 ⊆ S2 := by decide

theorem hSB1 : ∀ op ∈ opsB (F := F), op.bufs ⊆ S1 := by
  intro op hop
  simp only [List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl <;>
    first | (rw [StableHlo.unary_bufs]; decide) | (rw [StableHlo.binary_bufs]; decide) | (rw [StableHlo.nullary_bufs]; decide) | (rw [StableHlo.reshape_bufs]; decide)

theorem hSC2 : ∀ op ∈ opsC (F := F), op.bufs ⊆ S2 := by
  intro op hop
  simp only [List.mem_cons, List.mem_nil_iff, or_false] at hop
  rcases hop with rfl | rfl | rfl <;>
    first | (rw [StableHlo.unary_bufs]; decide) | (rw [StableHlo.binary_bufs]; decide) | (rw [StableHlo.nullary_bufs]; decide) | (rw [StableHlo.reshape_bufs]; decide)

theorem hfA : ∀ op ∈ opsA (F := F), op.fresh = ∅ := by
  intro _ h; (repeat (cases h with | head => rfl | tail _ h => ?_)); exact nomatch h
theorem hfB : ∀ op ∈ opsB (F := F), op.fresh = ∅ := by
  intro _ h; (repeat (cases h with | head => rfl | tail _ h => ?_)); exact nomatch h
theorem hfC : ∀ op ∈ opsC (F := F), op.fresh = ∅ := by
  intro _ h; (repeat (cases h with | head => rfl | tail _ h => ?_)); exact nomatch h

omit [FloatOps F] in
theorem held_T1 (d : Dev nD) (W : Valuation τ sig (Elt F)) :
    (held (SparseCore.T d) T1 W : sProp 𝕄) = iprop((tcLoc d main_v0 ↦{fullShare} W (r main_v0)) ∗ (tcLoc d main_v1 ↦{fullShare} W (r main_v1))) := by
  unfold held T1
  rw [SparseCore.bigSep_insert' (by decide), bigSep_singleton]

omit [FloatOps F] in
theorem held_T2 (d : Dev nD) (W : Valuation τ sig (Elt F)) :
    (held (SparseCore.T d) T2 W : sProp 𝕄) = iprop((tcLoc d main_v9 ↦{fullShare} W (r main_v9)) ∗ (tcLoc d main_v11 ↦{fullShare} W (r main_v11)) ∗ (tcLoc d main_v2 ↦{fullShare} W (r main_v2))
      ∗ (tcLoc d main_v20_0 ↦{fullShare} W (r main_v20_0)) ∗ (tcLoc d main_v20_1 ↦{fullShare} W (r main_v20_1))) := by
  unfold held T2
  rw [SparseCore.bigSep_insert' (by decide), SparseCore.bigSep_insert' (by decide), SparseCore.bigSep_insert' (by decide), SparseCore.bigSep_insert' (by decide), bigSep_singleton]

omit [FloatOps F] in
theorem held_T3 (d : Dev nD) (W : Valuation τ sig (Elt F)) :
    (held (SparseCore.T d) T3 W : sProp 𝕄) = iprop((tcLoc d main_v16 ↦{fullShare} W (r main_v16)) ∗ (tcLoc d main_v19 ↦{fullShare} W (r main_v19)) ∗ (tcLoc d main_arg4 ↦{fullShare} W (r main_arg4))
      ∗ (tcLoc d main_v21 ↦{fullShare} W (r main_v21)) ∗ (tcLoc d main_v22 ↦{fullShare} W (r main_v22)) ∗ (tcLoc d main_v23 ↦{fullShare} W (r main_v23)) ∗ (tcLoc d main_v24 ↦{fullShare} W (r main_v24))) := by
  unfold held T3
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-! ## The SparseCore call's operands dealt to the tiles and gathered back -/

/-- The call's operands, held whole by the TensorCore with the laid-out first table at `G`, split into every tile's
    part and a remainder the TensorCore keeps; the tiles' results with the remainder are the operands again, the two
    result arrays holding the gathered rows. -/
def SplitJoin : Prop :=
  ∀ (d : Dev nD) (G : Buf (Elt F) (tcLoc d main_v1)), Good1 m d G → ∃ Rem : sProp 𝕄,
    (iprop((tcLoc d main_v9 ↦{fullShare} A9 m d) ∗ (tcLoc d main_v11 ↦{fullShare} A11 m d) ∗ (tcLoc d main_v1 ↦{fullShare} G) ∗ (tcLoc d main_v2 ↦{fullShare} A2 m d)
        ∗ (tcLoc d main_v20_0 ↦{fullShare} VB m d (r main_v20_0)) ∗ (tcLoc d main_v20_1 ↦{fullShare} VB m d (r main_v20_1)))
      ⊢ iprop((bigSep Finset.univ fun c : Fin ((K (F := F)).nCore 0) => (P m).st 0 d c) ∗ Rem))
    ∧ (iprop((bigSep Finset.univ fun c : Fin ((K (F := F)).nCore 0) => (P m).dn 0 d c) ∗ Rem)
      ⊢ iprop((tcLoc d main_v9 ↦{fullShare} A9 m d) ∗ (tcLoc d main_v11 ↦{fullShare} A11 m d) ∗ (tcLoc d main_v1 ↦{fullShare} G) ∗ (tcLoc d main_v2 ↦{fullShare} A2 m d)
        ∗ (tcLoc d main_v20_0 ↦{fullShare} D20 m d G) ∗ (tcLoc d main_v20_1 ↦{fullShare} G20 m d)))

/-! ## The TensorCore's handshake state, its debts apart -/

omit [FloatOps F] in
theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

/-- The rest of the TensorCore's state before call `n`. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_eq (d : Dev nD) (n : ℕ) : ((K (F := F)).tcSt EH d n : sProp 𝕄)
    = iprop((∃ W, ⌜(K (F := F)).WBelow (SparseCore.T d) W (8 * n)⌝ ∗ owes (SparseCore.T d) ((K (F := F)).Otc d n) W) ∗ tcRest (F := F) d n) := rfl

omit [FloatOps F] in
/-- A region's recorded waits, the staging cells' own at the kernels' index, keep the bound. -/
theorem wbelow_of (d : Dev nD) (n : ℕ) {W W' : Waits sig (HIx 1)} (hW : (K (F := F)).WBelow (SparseCore.T d) W (8 * n))
    (h : ∀ p ∈ W', p ∈ W ∨ p.2 = none) : (K (F := F)).WBelow (SparseCore.T d) W' (8 * n) := by
  intro p hp
  rcases h p hp with h | h
  · exact hW p h
  · rw [h, SparseCore.Cfg.lev_none]; exact Nat.zero_le _

/-- Per device, the two pipelines' rounds ghost state. -/
abbrev G (d : Dev nD) : sProp 𝕄 := Pipeline.ghostOn (pcfgs (F := F)) adm (EP (F := F)) Finset.univ d

omit [FloatOps F] in
theorem G_eq (d : Dev nD) : (G (F := F) d : sProp 𝕄)
    = iprop((Pipeline.cellsGhost (Pipeline.pin (pcfgs (F := F)) adm) (EP (F := F)) 0 d ∗ Pipeline.toksInit (Pipeline.pin (pcfgs (F := F)) adm) (EP (F := F)) 0 d)
        ∗ (Pipeline.cellsGhost (Pipeline.pin (pcfgs (F := F)) adm) (EP (F := F)) 1 d ∗ Pipeline.toksInit (Pipeline.pin (pcfgs (F := F)) adm) (EP (F := F)) 1 d)) := by
  unfold G Pipeline.ghostOn Pipeline.PerCore.ghostOn
  rw [show (Finset.univ : Finset (Fin 2)) = {0, 1} by decide, SparseCore.bigSep_insert' (by decide), bigSep_singleton]

end Cert.Kernel.KL

end
-- ==== Proof.Bits.KHmain.lean ====
/-
  @main on the TensorCore, from what the launch deals it to the result array holding the kernel's value: the three
  host stretches over the held buffers, the two TensorCore calls by their rules, the SparseCore call by the launch
  library's.
-/
import proofs.«205759_g46823733461237_cont_8to1_c_287_19_alg».proof.Proof.Bits.KMain

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The kernel's value, from the laid-out first table `G`. -/
def ResK (d : Dev nD) (G : Buf (Elt F) (tcLoc d main_v1)) : Buf (Elt F) (tcLoc d main_v24) :=
  Res2 d (D20 m d G) (G20 m d) (VC m d (r main_v16)) (VC m d (r main_v19)) (VC m d (r main_arg4)) (VC m d (r main_v21)) (VC m d (r main_v22)) (VC m d (r main_v23))

/-- What @main leaves the claim: the buffers no call took, the first head matrix, and the result array. -/
def FIN (d : Dev nD) : sProp 𝕄 :=
  iprop(∃ G, ⌜Good1 m d G⌝ ∗ held (SparseCore.T d) S3 (VC m d) ∗ (tcLoc d main_arg4 ↦{fullShare} VC m d (r main_arg4)) ∗ (tcLoc d main_v24 ↦{fullShare} ResK m d G))

/-! ## The held set, after each host stretch, with the next call's arrays taken out -/

theorem heldA (d : Dev nD) : (held (d.tc : Thread nD τ) SU (StableHlo.after opsA (V0 m d)) : sProp 𝕄)
    = iprop(((tcLoc d main_v0 ↦{fullShare} VA m d (r main_v0)) ∗ (tcLoc d main_v1 ↦{fullShare} VA m d (r main_v1))) ∗ held (SparseCore.T d) S1 (VA m d)) := by
  show (held (SparseCore.T d) SU (VA m d) : sProp 𝕄) = _
  rw [StableHlo.held_sub_split (SparseCore.T d) hT1 (VA m d), held_T1]

theorem heldB (d : Dev nD) : (held (d.tc : Thread nD τ) S1 (StableHlo.after opsB (VA m d)) : sProp 𝕄)
    = iprop(((tcLoc d main_v9 ↦{fullShare} VB m d (r main_v9)) ∗ (tcLoc d main_v11 ↦{fullShare} VB m d (r main_v11)) ∗ (tcLoc d main_v2 ↦{fullShare} VB m d (r main_v2))
      ∗ (tcLoc d main_v20_0 ↦{fullShare} VB m d (r main_v20_0)) ∗ (tcLoc d main_v20_1 ↦{fullShare} VB m d (r main_v20_1))) ∗ held (SparseCore.T d) S2 (VB m d)) := by
  show (held (SparseCore.T d) S1 (VB m d) : sProp 𝕄) = _
  rw [StableHlo.held_sub_split (SparseCore.T d) hT2 (VB m d), held_T2]

theorem heldC (d : Dev nD) : (held (d.tc : Thread nD τ) S2 (StableHlo.after opsC (VB m d)) : sProp 𝕄)
    = iprop(((tcLoc d main_v16 ↦{fullShare} VC m d (r main_v16)) ∗ (tcLoc d main_v19 ↦{fullShare} VC m d (r main_v19)) ∗ (tcLoc d main_arg4 ↦{fullShare} VC m d (r main_arg4))
      ∗ (tcLoc d main_v21 ↦{fullShare} VC m d (r main_v21)) ∗ (tcLoc d main_v22 ↦{fullShare} VC m d (r main_v22)) ∗ (tcLoc d main_v23 ↦{fullShare} VC m d (r main_v23)) ∗ (tcLoc d main_v24 ↦{fullShare} VC m d (r main_v24)))
      ∗ held (SparseCore.T d) S3 (VC m d)) := by
  show (held (SparseCore.T d) S2 (VC m d) : sProp 𝕄) = _
  rw [StableHlo.held_sub_split (SparseCore.T d) hT3 (VC m d), held_T3]

set_option maxRecDepth 16384 in
theorem hmain (h0 : Region0Spec (F := F)) (h2 : Region2Spec (F := F)) (hsj : SplitJoin m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq, G_eq, tcSt_eq]
  iintro ⟨#Hctx, ⟨⟨%W, %hW, HO⟩, Hrest⟩, ⟨Hb, Hheld, -, -⟩, ⟨Hcg0, Hti0⟩, ⟨Hcg1, Hti1⟩⟩
  ihave #Hlev := (SparseCore.Cfg.ctx_levAts κ) $$ Hctx
  -- the first table transposed
  iapply (StableHlo.wp_seq 𝒱 none Set.univ d SU _ opsA hSA hfA (V0 m d)) $$ [Hb Hheld]
  · isplitl [Hb]; · iexact Hb
    iexact Hheld
  iintro ⟨Hb, Hheld⟩
  -- the first TensorCore call: the transposed table laid out
  ihave Hh := (Entails.of_eq (heldA m d)) $$ Hheld
  icases Hh with ⟨⟨H0, H1⟩, Hheld⟩
  iapply (h0 d ((K (F := F)).Otc d 0) W (Otc_none d 0) (VA m d (r main_v0)) (VA m d (r main_v1)) _ _)
  isplitr [Hb H0 H1 HO Hcg0 Hti0]
  swap
  · isplitl [Hb]; · iexact Hb
    isplitl [H0]; · iexact H0
    isplitl [H1]; · iexact H1
    isplitl [HO]; · iexact HO
    isplitr; · iexact Hlev
    isplitl [Hcg0]; · iexact Hcg0
    iexact Hti0
  iintro ⟨Hb, H0, ⟨%Gc, %hG, H1⟩, %W1, %hW1, HO⟩
  -- the row numbers, the parities, the second table laid out
  iapply (StableHlo.wp_seq 𝒱 none Set.univ d S1 _ opsB hSB1 hfB (VA m d)) $$ [Hb Hheld]
  · isplitl [Hb]; · iexact Hb
    iexact Hheld
  iintro ⟨Hb, Hheld⟩
  ihave Hh := (Entails.of_eq (heldB m d)) $$ Hheld
  icases Hh with ⟨⟨H9, H11, Hv2, H200, H201⟩, Hheld⟩
  -- the SparseCore call
  obtain ⟨Rem, hsplit, hjoin⟩ := hsj d Gc hG
  ihave Hs := hsplit $$ [H9 H11 H1 Hv2 H200 H201]
  · isplitl [H9]; · iexact H9
    isplitl [H11]; · iexact H11
    isplitl [H1]; · iexact H1
    isplitl [Hv2]; · iexact Hv2
    isplitl [H200]; · iexact H200
    iexact H201
  icases Hs with ⟨Hst0, Hrem⟩
  ihave Hst := (Entails.of_eq (tcSt_eq (F := F) d 0).symm) $$ [HO Hrest]
  · isplitl [HO]
    · iexists W1; isplitr
      · ipureintro; exact wbelow_of d 0 hW hW1
      · iexact HO
    · iexact Hrest
  rw [wp_bind]
  iapply ((K (F := F)).wp_run (D (F := F)) 𝒱 (EH := EH) (P := P m) κ d 0)
  isplitr; · iexact Hctx
  isplitl [Hst]; · iexact Hst
  isplitl [Hst0]; · iexact Hst0
  iintro ⟨Hst, Hdn⟩
  ihave Hj := hjoin $$ [Hdn Hrem]
  · isplitl [Hdn]; · iexact Hdn
    iexact Hrem
  icases Hj with ⟨H9, H11, H1, Hv2, H200, H201⟩
  -- the head parameters reshaped
  iapply (StableHlo.wp_seq 𝒱 none Set.univ d S2 _ opsC hSC2 hfC (VB m d)) $$ [Hb Hheld]
  · isplitl [Hb]; · iexact Hb
    iexact Hheld
  iintro ⟨Hb, Hheld⟩
  ihave Hh := (Entails.of_eq (heldC m d)) $$ Hheld
  icases Hh with ⟨⟨H16, H19, H4, H21, H22, H23, H24⟩, Hheld⟩
  -- the last TensorCore call
  ihave Hst' := (Entails.of_eq (tcSt_eq (F := F) d ((0 : Fin 1).val + 1))) $$ Hst
  icases Hst' with ⟨⟨%W2, %hW2, HO⟩, Hrest⟩
  iapply (h2 d ((K (F := F)).Otc d ((0 : Fin 1).val + 1)) W2 (Otc_none d _) (D20 m d Gc) (G20 m d) (VC m d (r main_v16)) (VC m d (r main_v19)) (VC m d (r main_arg4))
    (VC m d (r main_v21)) (VC m d (r main_v22)) (VC m d (r main_v23)) (VC m d (r main_v24)) _ _)
  isplitr [Hb H200 H201 H16 H19 H4 H21 H22 H23 H24 HO Hcg1 Hti1]
  swap
  · isplitl [Hb]; · iexact Hb
    isplitl [H200]; · iexact H200
    isplitl [H201]; · iexact H201
    isplitl [H16]; · iexact H16
    isplitl [H19]; · iexact H19
    isplitl [H4]; · iexact H4
    isplitl [H21]; · iexact H21
    isplitl [H22]; · iexact H22
    isplitl [H23]; · iexact H23
    isplitl [H24]; · iexact H24
    isplitl [HO]; · iexact HO
    isplitr; · iexact Hlev
    isplitl [Hcg1]; · iexact Hcg1
    iexact Hti1
  iintro ⟨Hb, H200, H201, H16, H19, H4, H21, H22, H23, H24, %W3, %hW3, HO⟩
  rw [wp_pure]; imodintro
  isplitl [HO Hrest]
  · rw [tcSt_eq]
    isplitl [HO]
    · iexists W3; isplitr
      · ipureintro; exact wbelow_of d 1 hW2 hW3
      · iexact HO
    · iexact Hrest
  unfold FIN
  iexists Gc; isplitr
  · ipureintro; exact hG
  isplitl [Hheld]; · iexact Hheld
  isplitl [H4]; · iexact H4
  iexact H24

end Cert.Kernel.KL

end
-- ==== Proof.Bits.KRun.lean ====
/-
  The launch element of the ghost state, the claim read off the final memory, and the program's run: every weakly
  fair execution of the TensorCore, the sequencers and the tiles terminates, the arguments end unchanged, and the
  result array holds the kernel's value.
-/
import proofs.«205759_g46823733461237_cont_8to1_c_287_19_alg».proof.Proof.Bits.KHmain

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb embR _ _) $$ HR
  icases HR' with ⟨HP, -⟩
  imod (Pipeline.fund_ghost (Pipeline.pin (pcfgs (F := F)) adm) (EP (F := F)) cellOf_inj) $$ HP with ⟨Hcg, Hti⟩
  imodintro
  isplitl [HH]; · iexact HH
  isplitl [Hcg Hti]
  · unfold G Pipeline.ghostOn Pipeline.PerCore.ghostOn
    simp only [bigSep_sep']
    isplitl [Hcg]; · iexact Hcg
    iexact Hti
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arguments are written by no host operation -/

theorem writesA : (opsA (F := F)).Forall fun op => op.writes ⊆ (([main_v0] : List (Ref sig .tc)).map (Proc.devRef (τ := τ) .tc)).toFinset := by
  simp only [List.forall_cons, List.Forall, StableHlo.nullary_writes, StableHlo.unary_writes, StableHlo.binary_writes, StableHlo.reshape_writes, and_true]
  decide

theorem writesB : (opsB (F := F)).Forall fun op => op.writes ⊆ (([main_v2, main_c, main_v3, main_v4, main_c_0, main_v5, main_v6, main_c_1, main_v7, main_v8, main_v9, main_c_2, main_v10, main_v11, main_c_3, main_v12, main_v13, main_c_4, main_v14, main_v15, main_v16, main_c_5, main_v17, main_v18, main_v19] : List (Ref sig .tc)).map (Proc.devRef (τ := τ) .tc)).toFinset := by
  simp only [List.forall_cons, List.Forall, StableHlo.nullary_writes, StableHlo.unary_writes, StableHlo.binary_writes, StableHlo.reshape_writes, and_true]
  decide

theorem writesC : (opsC (F := F)).Forall fun op => op.writes ⊆ (([main_v21, main_v22, main_v23] : List (Ref sig .tc)).map (Proc.devRef (τ := τ) .tc)).toFinset := by
  simp only [List.forall_cons, List.Forall, StableHlo.nullary_writes, StableHlo.unary_writes, StableHlo.binary_writes, StableHlo.reshape_writes, and_true]
  decide

/-- The program's arguments. -/
abbrev argRefs : List (Ref sig .tc) := [main_arg0, main_arg1, main_arg2, main_arg3, main_arg4, main_arg5, main_arg6, main_arg7]

theorem VC_arg (d : Dev nD) (b : Ref sig .tc) (hb : b ∈ argRefs) : VC m d (r b) = m (tcLoc d b) := by
  unfold VC VB VA
  rw [StableHlo.after_of_writes_sub _ _ writesC (by revert b; decide), StableHlo.after_of_writes_sub _ _ writesB (by revert b; decide),
    StableHlo.after_of_writes_sub _ _ writesA (by revert b; decide)]
  rfl

/-! ## The claim, read off the final memory -/

/-- What the run leaves on device `d`: the result array holds the kernel's value from some right layout of the first
    table, and the arguments are as launched. -/
def fq (d : Dev nD) (mem : MemSt nD τ sig (Elt F)) : Prop :=
  (∃ G, Good1 m d G ∧ mem.mem (tcLoc d main_v24) = ResK m d G) ∧ ∀ b ∈ argRefs, mem.mem (tcLoc d b) = m (tcLoc d b)

set_option maxRecDepth 16384 in
theorem hfin (d : Dev nD) (s' : Phys nD τ sig (Elt F)) : iprop(FIN m d ∗ SI s') ⊢ (⌜fq m d s'.mem⌝ : sProp 𝕄) := by
  unfold FIN StableHlo.held
  iintro ⟨⟨%G, %hG, Hheld, H4, H24⟩, HSI⟩
  ihave H := (persistent_entails_right (SI_pointsTo_agree (st := s') (ℓ := tcLoc d main_v24) (I := Finset.univ) (q := fullShare) (f := ResK m d G))) $$ [HSI H24]
  · isplitl [HSI] <;> iassumption
  icases H with ⟨%h24, HSI, -⟩
  ihave H := (persistent_entails_right (SI_pointsTo_agree (st := s') (ℓ := tcLoc d main_arg4) (I := Finset.univ) (q := fullShare) (f := VC m d (r main_arg4)))) $$ [HSI H4]
  · isplitl [HSI] <;> iassumption
  icases H with ⟨%h4, HSI, -⟩
  ihave %hS := (SI_pointsTo_bufs_agree (c := d) (qs := fun _ => fullShare) (F := VC m d) S3) $$ [HSI Hheld]
  · isplitl [HSI]; · iexact HSI
    iexact Hheld
  ipureintro
  refine ⟨⟨G, hG, funext fun i => h24 i (Finset.mem_univ i)⟩, ?_⟩
  intro b hb
  simp only [argRefs, List.mem_cons, List.mem_nil_iff, _root_.or_false] at hb
  rcases hb with rfl | rfl | rfl | rfl | rfl | rfl | rfl | rfl
  · exact (hS (r main_arg0) (by decide)).trans (VC_arg m d main_arg0 (by decide))
  · exact (hS (r main_arg1) (by decide)).trans (VC_arg m d main_arg1 (by decide))
  · exact (hS (r main_arg2) (by decide)).trans (VC_arg m d main_arg2 (by decide))
  · exact (hS (r main_arg3) (by decide)).trans (VC_arg m d main_arg3 (by decide))
  · exact (funext fun i => h4 i (Finset.mem_univ i)).trans (VC_arg m d main_arg4 (by decide))
  · exact (hS (r main_arg5) (by decide)).trans (VC_arg m d main_arg5 (by decide))
  · exact (hS (r main_arg6) (by decide)).trans (VC_arg m d main_arg6 (by decide))
  · exact (hS (r main_arg7) (by decide)).trans (VC_arg m d main_arg7 (by decide))

/-! ## The run -/

/-- What every final memory satisfies. -/
def QK : PUnit × MemSt nD τ sig (Elt F) → Prop := fun rr => ∀ c : Dev nD, fq m c rr.2

theorem run_main [∀ e, Nonempty (Elt F e)] (h0 : Region0Spec (F := F)) (h2 : Region2Spec (F := F)) (hsj : SplitJoin m)
    (htile : (K (F := F)).TileObl (D (F := F)) 𝒱 (P m) v₀ 0) :
    θ_run (Cert.Kernel.defs (F := F)) (Cert.Kernel.threads (F := F)) ⟨m, fun _ => 0, ρ⟩ (QK m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => G (F := F) d) (FIN m) (u₀ (F := F)) (sep_elim_left.trans (hu₀ m)) (hmain m ρ h0 h2 hsj)
    (fun d s' => fq m d s'.mem) (hfin m) (QK m) (fun _ h => h)

end Cert.Kernel.KL

end
-- ==== Proof.Bits.TileDefs.lean ====
/-
  The SparseCore gather kernel at one tile: the thread, the slices of the index and output arrays as the body
  takes them, and the range fact about what the index fetch leaves in the tile's index scratch.
-/
import proofs.«205759_g46823733461237_cont_8to1_c_287_19_alg».proof.Proof.Bits.KDefs
import proofs.«205759_g46823733461237_cont_8to1_c_287_19_alg».proof.Proof.Gen.Kernel.Skeleton

set_option synthInstance.maxSize 4096

noncomputable section

namespace Cert.Kernel.Tile

open Cert.Kernel Cert.Kernel.Gen Cert.Kernel.KL
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "m9" => (Memref.whole Cert.Kernel.main_v9_scv : Memref Cert.Kernel.sig Kind.scVector Space.hbm Cert.Kernel.S16384 EltTy.i32)
local notation "m11" => (Memref.whole Cert.Kernel.main_v11_scv : Memref Cert.Kernel.sig Kind.scVector Space.hbm Cert.Kernel.S16384 EltTy.i32)
local notation "m1" => (Memref.whole Cert.Kernel.main_v1_scv : Memref Cert.Kernel.sig Kind.scVector Space.hbm Cert.Kernel.S507904x128 EltTy.f32)
local notation "m2" => (Memref.whole Cert.Kernel.main_v2_scv : Memref Cert.Kernel.sig Kind.scVector Space.hbm Cert.Kernel.S50000x128 EltTy.f32)
local notation "mo0" => (Memref.whole Cert.Kernel.main_v20_0_scv : Memref Cert.Kernel.sig Kind.scVector Space.hbm Cert.Kernel.S16384x128 EltTy.f32)
local notation "mo1" => (Memref.whole Cert.Kernel.main_v20_1_scv : Memref Cert.Kernel.sig Kind.scVector Space.hbm Cert.Kernel.S16384x128 EltTy.f32)
local notation "s8" => (Memref.whole Cert.Kernel.cc1_scratch0 : Memref Cert.Kernel.sig Kind.scVector Space.vmem Cert.Kernel.S512 EltTy.i32)
local notation "s9" => (Memref.whole Cert.Kernel.cc1_scratch1 : Memref Cert.Kernel.sig Kind.scVector Space.vmem Cert.Kernel.S512 EltTy.i32)
local notation "s10" => (Memref.whole Cert.Kernel.cc1_scratch2 : Memref Cert.Kernel.sig Kind.scVector Space.vmem Cert.Kernel.S2x128x128 EltTy.f32)
local notation "s11" => (Memref.whole Cert.Kernel.cc1_scratch3 : Memref Cert.Kernel.sig Kind.scVector Space.vmem Cert.Kernel.S2x128x128 EltTy.f32)

/-- The SparseCore and the vector subcore of the tile at grid coordinates `L`, and its thread. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-- The tile's 512 entries of an index array, as the body slices them. -/
abbrev i9K (L : grid1.Coords) : Memref sig .scVector .hbm S512 .i32 :=
  (m9).slice (Rect.unit (s := S16384) (k1_off1 L) S512.size (k1_off1_inb L)) (fun _ => rfl)
abbrev i11K (L : grid1.Coords) : Memref sig .scVector .hbm S512 .i32 :=
  (m11).slice (Rect.unit (s := S16384) (k1_off1 L) S512.size (k1_off1_inb L)) (fun _ => rfl)

/-- Chunk `r`'s 128 rows of each output array, as the body slices them. -/
abbrev o0K (L : grid1.Coords) (r : Fin 4) : Memref sig .scVector .hbm S128x128 .f32 :=
  (mo0).slice (Rect.unit (s := S16384x128) (k1_off2 L (BitVec.ofNat 32 (128 * r.val))) S128x128.size (k1_off2_inb L r)) (fun _ => rfl)
abbrev o1K (L : grid1.Coords) (r : Fin 4) : Memref sig .scVector .hbm S128x128 .f32 :=
  (mo1).slice (Rect.unit (s := S16384x128) (k1_off2 L (BitVec.ofNat 32 (128 * r.val))) S128x128.size (k1_off2_inb L r)) (fun _ => rfl)

/-- The cell of one of the tile's DMA semaphores. -/
abbrev semc (d : Dev nD) (L : grid1.Coords) (sm : DmaSems sig S_) : GSem nD τ sig := (thr d L, .dma sm.sem)

/-- What the index fetch leaves in an index scratch, read back through any slice of it, is in range when the
    index array's entries are: the scratch written whole with the fetched entries holds exactly them. -/
theorem idx_inb9 (d : Dev nD) (L : grid1.Coords) (z : ℕ) (f9 : Buf (Elt F) ((m9).view.loc (thr d L)))
    (h : ∀ j, (f9 j).toNat < z) (R : Rect S512) (hR : ∀ a, R.stride a = 1) (b : Buf (Elt F) ((s8).view.loc (thr d L))) :
    ∀ x, (((s8).slice R hR).view.read (Elt F)
      (View.write (Elt F) (s8).view b (ReadAs.same.apply ((i9K L).view.read (Elt F) f9)) Finset.univ) x).toNat < z := by
  intro x
  rw [ReadAs.apply_same]
  simp only [Memref.view_whole, View.write_whole_univ]
  rw [View.read_apply, cast_eq, View.read_apply, cast_eq]
  exact h _

theorem idx_inb11 (d : Dev nD) (L : grid1.Coords) (z : ℕ) (f11 : Buf (Elt F) ((m11).view.loc (thr d L)))
    (h : ∀ j, (f11 j).toNat < z) (R : Rect S512) (hR : ∀ a, R.stride a = 1) (b : Buf (Elt F) ((s9).view.loc (thr d L))) :
    ∀ x, (((s9).slice R hR).view.read (Elt F)
      (View.write (Elt F) (s9).view b (ReadAs.same.apply ((i11K L).view.read (Elt F) f11)) Finset.univ) x).toNat < z := by
  intro x
  rw [ReadAs.apply_same]
  simp only [Memref.view_whole, View.write_whole_univ]
  rw [View.read_apply, cast_eq, View.read_apply, cast_eq]
  exact h _

end Cert.Kernel.Tile

end
-- ==== Proof.Bits.TileVal.lean ====
/-
  The value the gather kernel leaves: the gathered array as one function of the whole output shape, and the fact
  that each chunk a tile writes holds that function on the chunk's rows — the chunk's list holds the chunk's
  entries of the index array, its transfer reads the rows they name, its copy-out lands them on the chunk's rows.
-/
import proofs.«205759_g46823733461237_cont_8to1_c_287_19_alg».proof.Proof.Bits.TileDefs
import Idealize.ShloMosaic.Lib.ValueIdx

set_option synthInstance.maxSize 4096

noncomputable section

namespace Cert.Kernel.Tile

open Cert.Kernel Cert.Kernel.Gen Cert.Kernel.KL
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "m9" => (Memref.whole Cert.Kernel.main_v9_scv : Memref Cert.Kernel.sig Kind.scVector Space.hbm Cert.Kernel.S16384 EltTy.i32)
local notation "m11" => (Memref.whole Cert.Kernel.main_v11_scv : Memref Cert.Kernel.sig Kind.scVector Space.hbm Cert.Kernel.S16384 EltTy.i32)
local notation "m1" => (Memref.whole Cert.Kernel.main_v1_scv : Memref Cert.Kernel.sig Kind.scVector Space.hbm Cert.Kernel.S507904x128 EltTy.f32)
local notation "m2" => (Memref.whole Cert.Kernel.main_v2_scv : Memref Cert.Kernel.sig Kind.scVector Space.hbm Cert.Kernel.S50000x128 EltTy.f32)
local notation "mo0" => (Memref.whole Cert.Kernel.main_v20_0_scv : Memref Cert.Kernel.sig Kind.scVector Space.hbm Cert.Kernel.S16384x128 EltTy.f32)
local notation "mo1" => (Memref.whole Cert.Kernel.main_v20_1_scv : Memref Cert.Kernel.sig Kind.scVector Space.hbm Cert.Kernel.S16384x128 EltTy.f32)
local notation "s8" => (Memref.whole Cert.Kernel.cc1_scratch0 : Memref Cert.Kernel.sig Kind.scVector Space.vmem Cert.Kernel.S512 EltTy.i32)
local notation "s9" => (Memref.whole Cert.Kernel.cc1_scratch1 : Memref Cert.Kernel.sig Kind.scVector Space.vmem Cert.Kernel.S512 EltTy.i32)
local notation "s10" => (Memref.whole Cert.Kernel.cc1_scratch2 : Memref Cert.Kernel.sig Kind.scVector Space.vmem Cert.Kernel.S2x128x128 EltTy.f32)
local notation "s11" => (Memref.whole Cert.Kernel.cc1_scratch3 : Memref Cert.Kernel.sig Kind.scVector Space.vmem Cert.Kernel.S2x128x128 EltTy.f32)

open Idealize.ShloMosaic.SparseCore (gatherPayload rows)

open Idealize.ShloMosaic.ValueIdx (ix1 ix2)

/-- An index of the 16384-long shape is the entry its only coordinate names. -/
theorem eq_ix1_of (Z : S16384.Idx) (k : Fin 16384) (h : (Z ⟨0, Nat.one_pos⟩).val = k.val) : Z = ix1 k := by
  rw [ValueIdx.eq_ix1 Z]
  congr 1
  exact Fin.ext h

/-- The gathered array: row `i` is the row of the table `src` that entry `i` of the index array names. One function
    of the whole `[16384, 128]` shape; the kernel's pieces are restrictions of it. -/
def gath {s₀ : Shape} (hg : s₀.Gathers 0 S16384x128) (idx : S16384.Idx → Elt F .i32) (src : s₀.Idx → Elt F .f32)
    (h : ∀ j, (idx j).toNat < s₀.size hg.axis) : S16384x128.Idx → Elt F .f32 :=
  fun x => src (hg.idx (fun k => ⟨(idx (ix1 k)).toNat, h _⟩) x)

/-- On the indexed axis the gathered array reads the named row; on the other its own column. -/
theorem gath_apply {s₀ : Shape} (hg : s₀.Gathers 0 S16384x128) (idx : S16384.Idx → Elt F .i32) (src : s₀.Idx → Elt F .f32)
    (h : ∀ j, (idx j).toNat < s₀.size hg.axis) (x : S16384x128.Idx) (X : s₀.Idx)
    (h0 : (X hg.axis).val = (idx (ix1 (x hg.axis'))).toNat)
    (h1 : ∀ b : Fin s₀.rank, b.val ≠ 0 → (X b).val = (x (b.cast hg.1.symm)).val) :
    gath hg idx src h x = src X := by
  unfold gath
  congr 1
  funext b
  apply Fin.ext
  by_cases hb : b.val = 0
  · have hba : b = hg.axis := Fin.ext hb
    subst hba
    rw [Shape.Gathers.idx_axis, h0]
  · rw [Shape.Gathers.idx_of_ne hg _ _ b hb, h1 b hb]

/-- A chunk of 128 gathered rows is the gathered array on the chunk's rows: the list the chunk's transfer reads
    holds entries `base …` of the index array, and the chunk's elements sit at rows `base …` of the output. -/
theorem gath_chunk {s₀ : Shape} (hgc : s₀.Gathers 0 S128x128) (hgb : s₀.Gathers 0 S16384x128) (src : s₀.Idx → Elt F .f32)
    (idx : S16384.Idx → Elt F .i32) (h : ∀ j, (idx j).toNat < s₀.size hgb.axis)
    (lst : S128.Idx → Elt F .i32) (hn : S128.numel = S128x128.size hgc.axis') (hl : ∀ x, (lst x).toNat < s₀.size hgc.axis)
    (base : ℕ) (hbase : base + 128 ≤ 16384)
    (hlst : ∀ x : S128.Idx, lst x = idx (ix1 ⟨base + (x ⟨0, Nat.one_pos⟩).val, by have := (x ⟨0, Nat.one_pos⟩).isLt; change _ < 128 at this; omega⟩))
    (y : S128x128.Idx) (X : S16384x128.Idx) (hX0 : (X hgb.axis').val = base + (y hgc.axis').val)
    (hX1 : (X ⟨1, by decide⟩).val = (y ⟨1, by decide⟩).val) :
    gatherPayload hgc src (rows lst hn hl) y = gath hgb idx src h X := by
  symm
  apply gath_apply
  · rw [Shape.Gathers.idx_axis]
    show (lst _).toNat = _
    rw [hlst]
    congr 3
    apply Fin.ext
    show base + ((S128.rowMajor.symm _) ⟨0, Nat.one_pos⟩).val = (X hgb.axis').val
    rw [hX0]
    congr 1
    have := Shape.rowMajor_val_one (d := ![128]) (S128.rowMajor.symm ((y hgc.axis').cast hn.symm))
    rw [Equiv.apply_symm_apply] at this
    exact this.symm
  · intro b hb
    rw [Shape.Gathers.idx_of_ne hgc _ _ b hb]
    have hb1 : b.val = 1 := by
      have h2 : s₀.rank = 2 := hgb.1.symm
      have := b.isLt
      omega
    have e1 : (b.cast hgb.1.symm : Fin S16384x128.rank) = ⟨1, by decide⟩ := Fin.ext hb1
    have e2 : (b.cast hgc.1.symm : Fin S128x128.rank) = ⟨1, by decide⟩ := Fin.ext hb1
    rw [e1]
    exact hX1.symm

/-- The first of the tile's 512 rows: `1024 s + 512 c` at subcore `s` of SparseCore `c`. -/
def base (L : grid1.Coords) : ℕ := 1024 * (L 1).val + 512 * (L 0).val

theorem base_le (L : grid1.Coords) : base L + 512 ≤ 16384 := by
  have h0 := (L 0).isLt
  have h1 := (L 1).isLt
  change (L 0).val < 2 at h0
  change (L 1).val < 16 at h1
  unfold base; omega

theorem gBig0 : S507904x128.Gathers 0 S16384x128 := by decide
theorem gBig1 : S50000x128.Gathers 0 S16384x128 := by decide

/-- What a chunk's list holds: the chunk's 128 entries of the tile's 512 of the index array. -/
theorem list9 (d : Dev nD) (L : grid1.Coords) (f9 : Buf (Elt F) ((m9).view.loc (thr d L))) (b8 : Buf (Elt F) ((s8).view.loc (thr d L)))
    (r : Fin 4) (hr : ∀ a, (![128 * r.val] : Fin 1 → ℕ) a + S128.size a ≤ S512.size a)
    (hR : ∀ a, (Rect.unit (s := S512) ![128 * r.val] S128.size hr).stride a = 1) (x : S128.Idx) :
    ((s8).slice (Rect.unit (s := S512) ![128 * r.val] S128.size hr) hR).view.read (Elt F)
        (View.write (Elt F) (s8).view b8 (ReadAs.same.apply ((i9K L).view.read (Elt F) f9)) Finset.univ) x
      = f9 (ix1 ⟨base L + 128 * r.val + (x ⟨0, Nat.one_pos⟩).val, by
          have := base_le L; have := r.isLt; have h := (x ⟨0, Nat.one_pos⟩).isLt; change _ < 128 at h; omega⟩) := by
  rw [ReadAs.apply_same]
  simp only [Memref.view_whole, View.write_whole_univ]
  rw [View.read_apply, cast_eq, View.read_apply, cast_eq]
  congr 1
  apply eq_ix1_of
  have e : k1_off1 L ⟨0, Nat.one_pos⟩ = base L := by rw [k1_off1_eq]; rfl
  show k1_off1 L ⟨0, Nat.one_pos⟩ + 1 * (128 * r.val + 1 * (x ⟨0, Nat.one_pos⟩).val) = base L + 128 * r.val + (x ⟨0, Nat.one_pos⟩).val
  rw [e]
  omega

theorem list11 (d : Dev nD) (L : grid1.Coords) (f11 : Buf (Elt F) ((m11).view.loc (thr d L))) (b9 : Buf (Elt F) ((s9).view.loc (thr d L)))
    (r : Fin 4) (hr : ∀ a, (![128 * r.val] : Fin 1 → ℕ) a + S128.size a ≤ S512.size a)
    (hR : ∀ a, (Rect.unit (s := S512) ![128 * r.val] S128.size hr).stride a = 1) (x : S128.Idx) :
    ((s9).slice (Rect.unit (s := S512) ![128 * r.val] S128.size hr) hR).view.read (Elt F)
        (View.write (Elt F) (s9).view b9 (ReadAs.same.apply ((i11K L).view.read (Elt F) f11)) Finset.univ) x
      = f11 (ix1 ⟨base L + 128 * r.val + (x ⟨0, Nat.one_pos⟩).val, by
          have := base_le L; have := r.isLt; have h := (x ⟨0, Nat.one_pos⟩).isLt; change _ < 128 at h; omega⟩) := by
  rw [ReadAs.apply_same]
  simp only [Memref.view_whole, View.write_whole_univ]
  rw [View.read_apply, cast_eq, View.read_apply, cast_eq]
  congr 1
  apply eq_ix1_of
  have e : k1_off1 L ⟨0, Nat.one_pos⟩ = base L := by rw [k1_off1_eq]; rfl
  show k1_off1 L ⟨0, Nat.one_pos⟩ + 1 * (128 * r.val + 1 * (x ⟨0, Nat.one_pos⟩).val) = base L + 128 * r.val + (x ⟨0, Nat.one_pos⟩).val
  rw [e]
  omega

/-- Where a chunk's elements sit in the output arrays: rows `base + 128 r …`, the columns their own. -/
theorem oK_off0 (L : grid1.Coords) (r : Fin 4) : k1_off2 L (BitVec.ofNat 32 (128 * r.val)) ⟨0, by decide⟩ = base L + 128 * r.val := by
  rw [k1_off2_eq L r]; rfl
theorem oK_off1 (L : grid1.Coords) (r : Fin 4) : k1_off2 L (BitVec.ofNat 32 (128 * r.val)) ⟨1, by decide⟩ = 0 := by
  rw [k1_off2_eq L r]; rfl

theorem o0K_emb0 (L : grid1.Coords) (r : Fin 4) (y : S128x128.Idx) :
    ((show S16384x128.Idx from (o0K L r).view.emb y) ⟨0, by decide⟩).val = base L + 128 * r.val + (y ⟨0, by decide⟩).val := by
  show k1_off2 L (BitVec.ofNat 32 (128 * r.val)) ⟨0, by decide⟩ + 1 * (y ⟨0, by decide⟩).val = _
  rw [oK_off0]; omega
theorem o0K_emb1 (L : grid1.Coords) (r : Fin 4) (y : S128x128.Idx) :
    ((show S16384x128.Idx from (o0K L r).view.emb y) ⟨1, by decide⟩).val = (y ⟨1, by decide⟩).val := by
  show k1_off2 L (BitVec.ofNat 32 (128 * r.val)) ⟨1, by decide⟩ + 1 * (y ⟨1, by decide⟩).val = _
  rw [oK_off1]; omega
theorem o1K_emb0 (L : grid1.Coords) (r : Fin 4) (y : S128x128.Idx) :
    ((show S16384x128.Idx from (o1K L r).view.emb y) ⟨0, by decide⟩).val = base L + 128 * r.val + (y ⟨0, by decide⟩).val := by
  show k1_off2 L (BitVec.ofNat 32 (128 * r.val)) ⟨0, by decide⟩ + 1 * (y ⟨0, by decide⟩).val = _
  rw [oK_off0]; omega
theorem o1K_emb1 (L : grid1.Coords) (r : Fin 4) (y : S128x128.Idx) :
    ((show S16384x128.Idx from (o1K L r).view.emb y) ⟨1, by decide⟩).val = (y ⟨1, by decide⟩).val := by
  show k1_off2 L (BitVec.ofNat 32 (128 * r.val)) ⟨1, by decide⟩ + 1 * (y ⟨1, by decide⟩).val = _
  rw [oK_off1]; omega

/-- A table read through the slice that is all of it is the table. -/
theorem read_m1 (d : Dev nD) (L : grid1.Coords) (f1 : Buf (Elt F) ((m1).view.loc (thr d L)))
    (hsl : ∀ a, (Rect.unit (s := S507904x128) ![0, 0] S507904x128.size inb_S507904x128_S507904x128_0_0).stride a = 1) :
    View.read (Elt F) ((m1).slice (Rect.unit (s := S507904x128) ![0, 0] S507904x128.size inb_S507904x128_S507904x128_0_0) hsl).view f1 = f1 := by
  funext x
  rw [View.read_apply, cast_eq]
  congr 1
  funext a; apply Fin.ext
  match a with
  | ⟨0, _⟩ => show 0 + 1 * (x ⟨0, _⟩).val = _; omega
  | ⟨1, _⟩ => show 0 + 1 * (x ⟨1, _⟩).val = _; omega
theorem read_m2 (d : Dev nD) (L : grid1.Coords) (f2 : Buf (Elt F) ((m2).view.loc (thr d L)))
    (hsl : ∀ a, (Rect.unit (s := S50000x128) ![0, 0] S50000x128.size inb_S50000x128_S50000x128_0_0).stride a = 1) :
    View.read (Elt F) ((m2).slice (Rect.unit (s := S50000x128) ![0, 0] S50000x128.size inb_S50000x128_S50000x128_0_0) hsl).view f2 = f2 := by
  funext x
  rw [View.read_apply, cast_eq]
  congr 1
  funext a; apply Fin.ext
  match a with
  | ⟨0, _⟩ => show 0 + 1 * (x ⟨0, _⟩).val = _; omega
  | ⟨1, _⟩ => show 0 + 1 * (x ⟨1, _⟩).val = _; omega

/-- A chunk's piece of the first output, written whole with the chunk's gathered rows, holds the gathered array. -/
theorem piece0 (d : Dev nD) (L : grid1.Coords) (r : Fin 4) (f9 : Buf (Elt F) ((m9).view.loc (thr d L))) (f1 : Buf (Elt F) ((m1).view.loc (thr d L)))
    (hin9 : ∀ j, (f9 j).toNat < 507904) (g0 : Buf (Elt F) ((mo0).view.loc (thr d L))) (b8 : Buf (Elt F) ((s8).view.loc (thr d L)))
    (hr : ∀ a, (![128 * r.val] : Fin 1 → ℕ) a + S128.size a ≤ S512.size a)
    (hR : ∀ a, (Rect.unit (s := S512) ![128 * r.val] S128.size hr).stride a = 1)
    (hsl : ∀ a, (Rect.unit (s := S507904x128) ![0, 0] S507904x128.size inb_S507904x128_S507904x128_0_0).stride a = 1)
    (hn : S128.numel = S128x128.size gathers_S507904x128_S128x128.axis')
    (hl : ∀ x, (((s8).slice (Rect.unit (s := S512) ![128 * r.val] S128.size hr) hR).view.read (Elt F)
        (View.write (Elt F) (s8).view b8 (ReadAs.same.apply ((i9K L).view.read (Elt F) f9)) Finset.univ) x).toNat < S507904x128.size gathers_S507904x128_S128x128.axis)
    (pay : S128x128.Idx → Elt F .f32)
    (hpay : pay = gatherPayload gathers_S507904x128_S128x128
      (View.read (Elt F) ((m1).slice (Rect.unit (s := S507904x128) ![0, 0] S507904x128.size inb_S507904x128_S507904x128_0_0) hsl).view f1)
      (rows (((s8).slice (Rect.unit (s := S512) ![128 * r.val] S128.size hr) hR).view.read (Elt F)
        (View.write (Elt F) (s8).view b8 (ReadAs.same.apply ((i9K L).view.read (Elt F) f9)) Finset.univ)) hn hl)) :
    ((o0K L r).view.loc (thr d L) ↦[(o0K L r).view.set]{fullShare} (o0K L r).view.writes (Elt F) g0 [⟨Rect.whole S128x128, pay⟩] : sProp 𝕄)
      = ((o0K L r).view.loc (thr d L) ↦[(o0K L r).view.set]{fullShare} gath gBig0 f9 f1 hin9) := by
  subst hpay
  apply pointsTo_congr
  intro i hi
  obtain ⟨y, -, rfl⟩ := Finset.mem_map.mp hi
  rw [View.writes_singleton]
  have e : (o0K L r).view.emb y = ((o0K L r).view.slice (Rect.whole S128x128)).emb y := by
    rw [View.emb_slice]
    show _ = (o0K L r).view.emb ((Rect.whole S128x128).emb y)
    rw [Rect.emb_whole_apply]
  rw [e, View.write_emb_of_mem _ _ (Finset.mem_univ y), cast_eq, ← e, read_m1]
  exact gath_chunk gathers_S507904x128_S128x128 gBig0 f1 f9 hin9 _ hn hl (base L + 128 * r.val)
    (by have := base_le L; have := r.isLt; omega) (fun x => list9 d L f9 b8 r hr hR x) y _ (o0K_emb0 L r y) (o0K_emb1 L r y)

/-- The same for the second output, from the second index array and table. -/
theorem piece1 (d : Dev nD) (L : grid1.Coords) (r : Fin 4) (f11 : Buf (Elt F) ((m11).view.loc (thr d L))) (f2 : Buf (Elt F) ((m2).view.loc (thr d L)))
    (hin11 : ∀ j, (f11 j).toNat < 50000) (g1 : Buf (Elt F) ((mo1).view.loc (thr d L))) (b9 : Buf (Elt F) ((s9).view.loc (thr d L)))
    (hr : ∀ a, (![128 * r.val] : Fin 1 → ℕ) a + S128.size a ≤ S512.size a)
    (hR : ∀ a, (Rect.unit (s := S512) ![128 * r.val] S128.size hr).stride a = 1)
    (hsl : ∀ a, (Rect.unit (s := S50000x128) ![0, 0] S50000x128.size inb_S50000x128_S50000x128_0_0).stride a = 1)
    (hn : S128.numel = S128x128.size gathers_S50000x128_S128x128.axis')
    (hl : ∀ x, (((s9).slice (Rect.unit (s := S512) ![128 * r.val] S128.size hr) hR).view.read (Elt F)
        (View.write (Elt F) (s9).view b9 (ReadAs.same.apply ((i11K L).view.read (Elt F) f11)) Finset.univ) x).toNat < S50000x128.size gathers_S50000x128_S128x128.axis)
    (pay : S128x128.Idx → Elt F .f32)
    (hpay : pay = gatherPayload gathers_S50000x128_S128x128
      (View.read (Elt F) ((m2).slice (Rect.unit (s := S50000x128) ![0, 0] S50000x128.size inb_S50000x128_S50000x128_0_0) hsl).view f2)
      (rows (((s9).slice (Rect.unit (s := S512) ![128 * r.val] S128.size hr) hR).view.read (Elt F)
        (View.write (Elt F) (s9).view b9 (ReadAs.same.apply ((i11K L).view.read (Elt F) f11)) Finset.univ)) hn hl)) :
    ((o1K L r).view.loc (thr d L) ↦[(o1K L r).view.set]{fullShare} (o1K L r).view.writes (Elt F) g1 [⟨Rect.whole S128x128, pay⟩] : sProp 𝕄)
      = ((o1K L r).view.loc (thr d L) ↦[(o1K L r).view.set]{fullShare} gath gBig1 f11 f2 hin11) := by
  subst hpay
  apply pointsTo_congr
  intro i hi
  obtain ⟨y, -, rfl⟩ := Finset.mem_map.mp hi
  rw [View.writes_singleton]
  have e : (o1K L r).view.emb y = ((o1K L r).view.slice (Rect.whole S128x128)).emb y := by
    rw [View.emb_slice]
    show _ = (o1K L r).view.emb ((Rect.whole S128x128).emb y)
    rw [Rect.emb_whole_apply]
  rw [e, View.write_emb_of_mem _ _ (Finset.mem_univ y), cast_eq, ← e, read_m2]
  exact gath_chunk gathers_S50000x128_S128x128 gBig1 f2 f11 hin11 _ hn hl (base L + 128 * r.val)
    (by have := base_le L; have := r.isLt; omega) (fun x => list11 d L f11 b9 r hr hR x) y _ (o1K_emb0 L r y) (o1K_emb1 L r y)

end Cert.Kernel.Tile

end
-- ==== Proof.Bits.TileBody.lean ====
/-
  The SparseCore gather kernel's body at one tile, run once at symbolic grid coordinates: whatever the arrays hold,
  it returns the read shares it was handed and leaves on each chunk of the two outputs the gathered array.
-/
import proofs.«205759_g46823733461237_cont_8to1_c_287_19_alg».proof.Proof.Bits.TileVal

set_option synthInstance.maxSize 4096

noncomputable section

namespace Cert.Kernel.Tile

open Cert.Kernel Cert.Kernel.Gen Cert.Kernel.KL
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "m9" => (Memref.whole Cert.Kernel.main_v9_scv : Memref Cert.Kernel.sig Kind.scVector Space.hbm Cert.Kernel.S16384 EltTy.i32)
local notation "m11" => (Memref.whole Cert.Kernel.main_v11_scv : Memref Cert.Kernel.sig Kind.scVector Space.hbm Cert.Kernel.S16384 EltTy.i32)
local notation "m1" => (Memref.whole Cert.Kernel.main_v1_scv : Memref Cert.Kernel.sig Kind.scVector Space.hbm Cert.Kernel.S507904x128 EltTy.f32)
local notation "m2" => (Memref.whole Cert.Kernel.main_v2_scv : Memref Cert.Kernel.sig Kind.scVector Space.hbm Cert.Kernel.S50000x128 EltTy.f32)
local notation "mo0" => (Memref.whole Cert.Kernel.main_v20_0_scv : Memref Cert.Kernel.sig Kind.scVector Space.hbm Cert.Kernel.S16384x128 EltTy.f32)
local notation "mo1" => (Memref.whole Cert.Kernel.main_v20_1_scv : Memref Cert.Kernel.sig Kind.scVector Space.hbm Cert.Kernel.S16384x128 EltTy.f32)
local notation "s8" => (Memref.whole Cert.Kernel.cc1_scratch0 : Memref Cert.Kernel.sig Kind.scVector Space.vmem Cert.Kernel.S512 EltTy.i32)
local notation "s9" => (Memref.whole Cert.Kernel.cc1_scratch1 : Memref Cert.Kernel.sig Kind.scVector Space.vmem Cert.Kernel.S512 EltTy.i32)
local notation "s10" => (Memref.whole Cert.Kernel.cc1_scratch2 : Memref Cert.Kernel.sig Kind.scVector Space.vmem Cert.Kernel.S2x128x128 EltTy.f32)
local notation "s11" => (Memref.whole Cert.Kernel.cc1_scratch3 : Memref Cert.Kernel.sig Kind.scVector Space.vmem Cert.Kernel.S2x128x128 EltTy.f32)
open Idealize.ShloMosaic.ValueIdx (ix1 ix2)

variable [FloatOps F]

set_option maxHeartbeats 4000000 in
/-- The gather kernel's body at one tile, whatever the arrays hold: from read shares of the two index arrays and the
    two tables (every index naming a row), the tile's chunks of the two outputs, its scratch and its semaphores at
    zero, the body runs to its end — the two index fetches, then per chunk the two gathers into a slot, their waits,
    the two copy-outs, each copy-out waited for before its slot is gathered into again and at the end — and leaves
    the shares as they were and each chunk holding the gathered array on its rows. -/
theorem tile_core (d : Dev nD) (L : grid1.Coords) (O : CellTallies nD τ sig (HIx 1)) (W : Waits sig (HIx 1))
    (q9 q11 q1 q2 : PosShare TreeShare)
    (f9 : Buf (Elt F) ((m9).view.loc (thr d L))) (f11 : Buf (Elt F) ((m11).view.loc (thr d L)))
    (f1 : Buf (Elt F) ((m1).view.loc (thr d L))) (f2 : Buf (Elt F) ((m2).view.loc (thr d L)))
    (g0 : Buf (Elt F) ((mo0).view.loc (thr d L))) (g1 : Buf (Elt F) ((mo1).view.loc (thr d L)))
    (b8 : Buf (Elt F) ((s8).view.loc (thr d L))) (b9 : Buf (Elt F) ((s9).view.loc (thr d L)))
    (b10 : Buf (Elt F) ((s10).view.loc (thr d L))) (b11 : Buf (Elt F) ((s11).view.loc (thr d L)))
    (hin9 : ∀ j, (f9 j).toNat < 507904) (hin11 : ∀ j, (f11 j).toNat < 50000) :
    (iprop(Transfers.MayWaits (thr d L) none O
        ∗ ((m9).view.loc (thr d L) ↦{q9} f9) ∗ ((m11).view.loc (thr d L) ↦{q11} f11)
        ∗ ((m1).view.loc (thr d L) ↦{q1} f1) ∗ ((m2).view.loc (thr d L) ↦{q2} f2)
        ∗ ((o0K L 0).view.loc (thr d L) ↦[(o0K L 0).view.set]{fullShare} g0)
        ∗ ((o0K L 1).view.loc (thr d L) ↦[(o0K L 1).view.set]{fullShare} g0)
        ∗ ((o0K L 2).view.loc (thr d L) ↦[(o0K L 2).view.set]{fullShare} g0)
        ∗ ((o0K L 3).view.loc (thr d L) ↦[(o0K L 3).view.set]{fullShare} g0)
        ∗ ((o1K L 0).view.loc (thr d L) ↦[(o1K L 0).view.set]{fullShare} g1)
        ∗ ((o1K L 1).view.loc (thr d L) ↦[(o1K L 1).view.set]{fullShare} g1)
        ∗ ((o1K L 2).view.loc (thr d L) ↦[(o1K L 2).view.set]{fullShare} g1)
        ∗ ((o1K L 3).view.loc (thr d L) ↦[(o1K L 3).view.set]{fullShare} g1)
        ∗ ((s8).view.loc (thr d L) ↦{fullShare} b8) ∗ ((s9).view.loc (thr d L) ↦{fullShare} b9)
        ∗ ((s10).view.loc (thr d L) ↦{fullShare} b10) ∗ ((s11).view.loc (thr d L) ↦{fullShare} b11)
        ∗ semVal (semc d L cc1_scratch4) 0 ∗ semVal (semc d L cc1_scratch5) 0 ∗ semVal (semc d L cc1_scratch6) 0
        ∗ semVal (semc d L cc1_scratch7) 0 ∗ semVal (semc d L cc1_scratch8) 0 ∗ semVal (semc d L cc1_scratch9) 0
        ∗ semVal (semc d L cc1_scoped0) 0 ∗ semVal (semc d L cc1_scoped1) 0
        ∗ owes (thr d L) O W) : sProp 𝕄)
      ⊢ wp frame (wpE (defs₀ (F := F)) Variants.none (thr d L) none) Set.univ
          (cc1_gather_kernel L m9 (Memref.isWhole_whole _) m11 (Memref.isWhole_whole _) m1 (Memref.isWhole_whole _) m2 (Memref.isWhole_whole _)
            mo0 (Memref.isWhole_whole _) mo1 (Memref.isWhole_whole _) s8 (Memref.isWhole_whole _) s9 (Memref.isWhole_whole _)
            s10 (Memref.isWhole_whole _) s11 (Memref.isWhole_whole _)
            cc1_scratch4 cc1_scratch5 cc1_scratch6 cc1_scratch7 cc1_scratch8 cc1_scratch9 cc1_scoped0 cc1_scoped1)
          (fun _ => iprop(
            ((m9).view.loc (thr d L) ↦{q9} f9) ∗ ((m11).view.loc (thr d L) ↦{q11} f11)
            ∗ ((m1).view.loc (thr d L) ↦{q1} f1) ∗ ((m2).view.loc (thr d L) ↦{q2} f2)
            ∗ ((o0K L 0).view.loc (thr d L) ↦[(o0K L 0).view.set]{fullShare} gath gBig0 f9 f1 hin9)
            ∗ ((o0K L 1).view.loc (thr d L) ↦[(o0K L 1).view.set]{fullShare} gath gBig0 f9 f1 hin9)
            ∗ ((o0K L 2).view.loc (thr d L) ↦[(o0K L 2).view.set]{fullShare} gath gBig0 f9 f1 hin9)
            ∗ ((o0K L 3).view.loc (thr d L) ↦[(o0K L 3).view.set]{fullShare} gath gBig0 f9 f1 hin9)
            ∗ ((o1K L 0).view.loc (thr d L) ↦[(o1K L 0).view.set]{fullShare} gath gBig1 f11 f2 hin11)
            ∗ ((o1K L 1).view.loc (thr d L) ↦[(o1K L 1).view.set]{fullShare} gath gBig1 f11 f2 hin11)
            ∗ ((o1K L 2).view.loc (thr d L) ↦[(o1K L 2).view.set]{fullShare} gath gBig1 f11 f2 hin11)
            ∗ ((o1K L 3).view.loc (thr d L) ↦[(o1K L 3).view.set]{fullShare} gath gBig1 f11 f2 hin11)
            ∗ (∃ b, (s8).view.loc (thr d L) ↦{fullShare} b) ∗ (∃ b, (s9).view.loc (thr d L) ↦{fullShare} b)
            ∗ (∃ b, (s10).view.loc (thr d L) ↦{fullShare} b) ∗ (∃ b, (s11).view.loc (thr d L) ↦{fullShare} b)
            ∗ semVal (semc d L cc1_scratch4) 0 ∗ semVal (semc d L cc1_scratch5) 0 ∗ semVal (semc d L cc1_scratch6) 0
            ∗ semVal (semc d L cc1_scratch7) 0 ∗ semVal (semc d L cc1_scratch8) 0 ∗ semVal (semc d L cc1_scratch9) 0
            ∗ semVal (semc d L cc1_scoped0) 0 ∗ semVal (semc d L cc1_scoped1) 0
            ∗ ∃ W', ⌜∀ p ∈ W', p ∈ W ∨ p.2 = none⌝ ∗ owes (thr d L) O W')) := by
  iintro ⟨#Hmw, H9, H11, H1, H2, Ho00, Ho01, Ho02, Ho03, Ho10, Ho11, Ho12, Ho13, H8, Hs9, H10, Hs11, Hc4, Hc5, Hc6, Hc7, Hc8, Hc9, Hp0, Hp1, HO⟩
  have hin8 := idx_inb9 d L 507904 f9 hin9
  have hin9' := idx_inb11 d L 50000 f11 hin11
  sl_unfold [cc1_gather_kernel]
  sl_exec_parts
  sl_step
  isplitl [H9]; · iexact H9
  isplitl [H11]; · iexact H11
  isplitl [H1]; · iexact H1
  isplitl [H2]; · iexact H2
  isplitl [Ho00]
  · rw [← piece0 d L 0 f9 f1 hin9 g0 b8 _ _ _ _ _ (tile_core.sl.dma0_2 d L f9 f1 b8 b10 hin8) (View.read_write_univ _ _)]; iexact Ho00
  isplitl [Ho01]
  · rw [← piece0 d L 1 f9 f1 hin9 g0 b8 _ _ _ _ _ (tile_core.sl.dma0_4 d L f9 f1 b8 b10 hin8) (View.read_write_univ _ _)]; iexact Ho01
  isplitl [Ho02]
  · rw [← piece0 d L 2 f9 f1 hin9 g0 b8 _ _ _ _ _ (tile_core.sl.dma0_6 d L f9 f1 b8 b10 hin8) (View.read_write_univ _ _)]; iexact Ho02
  isplitl [Ho03]
  · rw [← piece0 d L 3 f9 f1 hin9 g0 b8 _ _ _ _ _ (tile_core.sl.dma0_8 d L f9 f1 b8 b10 hin8) (View.read_write_univ _ _)]; iexact Ho03
  isplitl [Ho10]
  · rw [← piece1 d L 0 f11 f2 hin11 g1 b9 _ _ _ _ _ (tile_core.sl.dma0_3 d L f11 f2 b9 b11 hin9') (View.read_write_univ _ _)]; iexact Ho10
  isplitl [Ho11]
  · rw [← piece1 d L 1 f11 f2 hin11 g1 b9 _ _ _ _ _ (tile_core.sl.dma0_5 d L f11 f2 b9 b11 hin9') (View.read_write_univ _ _)]; iexact Ho11
  isplitl [Ho12]
  · rw [← piece1 d L 2 f11 f2 hin11 g1 b9 _ _ _ _ _ (tile_core.sl.dma0_7 d L f11 f2 b9 b11 hin9') (View.read_write_univ _ _)]; iexact Ho12
  isplitl [Ho13]
  · rw [← piece1 d L 3 f11 f2 hin11 g1 b9 _ _ _ _ _ (tile_core.sl.dma0_9 d L f11 f2 b9 b11 hin9') (View.read_write_univ _ _)]; iexact Ho13
  isplitl [H8]; · iexists _; iexact H8
  isplitl [Hs9]; · iexists _; iexact Hs9
  isplitl [H10]; · iexists _; iexact H10
  isplitl [Hs11]; · iexists _; iexact Hs11
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hp0]; · iexact Hp0
  isplitl [Hp1]; · iexact Hp1
  iexists _
  isplitr
  swap
  · iexact HO
  · ipureintro
    intro p hp
    repeat (rcases Finset.mem_insert.mp hp with rfl | hp; · exact Or.inr rfl)
    exact Or.inl hp

end Cert.Kernel.Tile

end
-- ==== Proof.Bits.TileObl.lean ====
/-
  The gather kernel's obligation to the SparseCore launch: a tile's scoped storage opened into the kernel's four scratch
  buffers and eight semaphores, the task run from what the go signal carries to what taskDone carries, and the
  gathered arrays identified with the launch's closed forms of them.
-/
import proofs.«205759_g46823733461237_cont_8to1_c_287_19_alg».proof.Proof.Bits.TileBody
import proofs.«205759_g46823733461237_cont_8to1_c_287_19_alg».proof.Proof.Bits.KPay

set_option synthInstance.maxSize 4096

noncomputable section

namespace Cert.Kernel.Tile

open Cert.Kernel Cert.Kernel.Gen Cert.Kernel.KL
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "m9" => (Memref.whole Cert.Kernel.main_v9_scv : Memref Cert.Kernel.sig Kind.scVector Space.hbm Cert.Kernel.S16384 EltTy.i32)
local notation "m11" => (Memref.whole Cert.Kernel.main_v11_scv : Memref Cert.Kernel.sig Kind.scVector Space.hbm Cert.Kernel.S16384 EltTy.i32)
local notation "m1" => (Memref.whole Cert.Kernel.main_v1_scv : Memref Cert.Kernel.sig Kind.scVector Space.hbm Cert.Kernel.S507904x128 EltTy.f32)
local notation "m2" => (Memref.whole Cert.Kernel.main_v2_scv : Memref Cert.Kernel.sig Kind.scVector Space.hbm Cert.Kernel.S50000x128 EltTy.f32)
local notation "mo0" => (Memref.whole Cert.Kernel.main_v20_0_scv : Memref Cert.Kernel.sig Kind.scVector Space.hbm Cert.Kernel.S16384x128 EltTy.f32)
local notation "mo1" => (Memref.whole Cert.Kernel.main_v20_1_scv : Memref Cert.Kernel.sig Kind.scVector Space.hbm Cert.Kernel.S16384x128 EltTy.f32)
local notation "s8" => (Memref.whole Cert.Kernel.cc1_scratch0 : Memref Cert.Kernel.sig Kind.scVector Space.vmem Cert.Kernel.S512 EltTy.i32)
local notation "s9" => (Memref.whole Cert.Kernel.cc1_scratch1 : Memref Cert.Kernel.sig Kind.scVector Space.vmem Cert.Kernel.S512 EltTy.i32)
local notation "s10" => (Memref.whole Cert.Kernel.cc1_scratch2 : Memref Cert.Kernel.sig Kind.scVector Space.vmem Cert.Kernel.S2x128x128 EltTy.f32)
local notation "s11" => (Memref.whole Cert.Kernel.cc1_scratch3 : Memref Cert.Kernel.sig Kind.scVector Space.vmem Cert.Kernel.S2x128x128 EltTy.f32)

open Idealize.ShloMosaic.ValueIdx (ix1 ix2)

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

variable (m : (ℓ : Loc nD τ sig) → Buf (Elt F) ℓ)
variable [FloatOps F]

/-- The gathered array of the first table is the launch's closed form of it; -/
theorem gath_eq_D20 (d : Dev nD) (f1 : Buf (Elt F) (tcLoc d main_v1)) (h : ∀ j, (A9 m d j).toNat < 507904) :
    gath gBig0 (A9 m d) f1 h = D20 m d f1 := by
  funext x
  unfold D20
  apply gath_apply
  · show (A9 m d (ix1 (x 0))).toNat % 507904 = (A9 m d (ix1 (x 0))).toNat
    exact Nat.mod_eq_of_lt (h _)
  · intro b hb
    have hb1 : b.val = 1 := by have := b.isLt; change _ < 2 at this; omega
    have e : b = ⟨1, by decide⟩ := Fin.ext hb1
    subst e
    rfl

/-- and of the second. -/
theorem gath_eq_G20 (d : Dev nD) (h : ∀ j, (A11 m d j).toNat < 50000) :
    gath gBig1 (A11 m d) (A2 m d) h = G20 m d := by
  funext x
  unfold G20
  apply gath_apply
  · show (A11 m d (ix1 (x 0))).toNat % 50000 = (A11 m d (ix1 (x 0))).toNat
    exact Nat.mod_eq_of_lt (h _)
  · intro b hb
    have hb1 : b.val = 1 := by have := b.isLt; change _ < 2 at this; omega
    have e : b = ⟨1, by decide⟩ := Fin.ext hb1
    subst e
    rfl

/-- Two of the tile's semaphore cells differ when their semaphores do. -/
theorem semc_ne (d : Dev nD) (L : grid1.Coords) {a b : DmaSems sig S_} (h : a.sem ≠ b.sem) : semc d L a ≠ semc d L b :=
  fun e => h (by injection e with _ e2; injection e2)

theorem mem_own (d : Dev nD) (L : grid1.Coords) (a : DmaSems sig S_) (h : (SemLoc.dma a.sem : SemLoc sig).isScoped .scVector = true) :
    semc d L a ∈ ownCells (thr d L) := (mem_ownCells (g := semc d L a)).mpr ⟨rfl, h⟩

/-- The tile's eight DMA semaphores are among its own cells: they, at zero, and the rest. -/
theorem ownSems0_V (d : Dev nD) (L : grid1.Coords) :
    (ownSems0 (thr d L) : sProp 𝕄)
      = iprop(semVal (semc d L cc1_scratch4) 0 ∗ semVal (semc d L cc1_scratch5) 0 ∗ semVal (semc d L cc1_scratch6) 0 ∗ semVal (semc d L cc1_scratch7) 0 ∗ semVal (semc d L cc1_scratch8) 0 ∗ semVal (semc d L cc1_scratch9) 0 ∗ semVal (semc d L cc1_scoped0) 0 ∗ semVal (semc d L cc1_scoped1) 0
          ∗ bigSep (((((((((ownCells (thr d L)).erase (semc d L cc1_scratch4)).erase (semc d L cc1_scratch5)).erase (semc d L cc1_scratch6)).erase (semc d L cc1_scratch7)).erase (semc d L cc1_scratch8)).erase (semc d L cc1_scratch9)).erase (semc d L cc1_scoped0)).erase (semc d L cc1_scoped1)) fun g => semVal g 0) := by
  unfold SparseCore.Cfg.ownSems0
  rw [SparseCore.bigSep_erase' (mem_own d L cc1_scratch4 (by decide)),
    SparseCore.bigSep_erase' (Finset.mem_erase.mpr ⟨semc_ne d L (by decide), mem_own d L cc1_scratch5 (by decide)⟩),
    SparseCore.bigSep_erase' (Finset.mem_erase.mpr ⟨semc_ne d L (by decide), Finset.mem_erase.mpr ⟨semc_ne d L (by decide), mem_own d L cc1_scratch6 (by decide)⟩⟩),
    SparseCore.bigSep_erase' (Finset.mem_erase.mpr ⟨semc_ne d L (by decide), Finset.mem_erase.mpr ⟨semc_ne d L (by decide), Finset.mem_erase.mpr ⟨semc_ne d L (by decide), mem_own d L cc1_scratch7 (by decide)⟩⟩⟩),
    SparseCore.bigSep_erase' (Finset.mem_erase.mpr ⟨semc_ne d L (by decide), Finset.mem_erase.mpr ⟨semc_ne d L (by decide), Finset.mem_erase.mpr ⟨semc_ne d L (by decide), Finset.mem_erase.mpr ⟨semc_ne d L (by decide), mem_own d L cc1_scratch8 (by decide)⟩⟩⟩⟩),
    SparseCore.bigSep_erase' (Finset.mem_erase.mpr ⟨semc_ne d L (by decide), Finset.mem_erase.mpr ⟨semc_ne d L (by decide), Finset.mem_erase.mpr ⟨semc_ne d L (by decide), Finset.mem_erase.mpr ⟨semc_ne d L (by decide), Finset.mem_erase.mpr ⟨semc_ne d L (by decide), mem_own d L cc1_scratch9 (by decide)⟩⟩⟩⟩⟩),
    SparseCore.bigSep_erase' (Finset.mem_erase.mpr ⟨semc_ne d L (by decide), Finset.mem_erase.mpr ⟨semc_ne d L (by decide), Finset.mem_erase.mpr ⟨semc_ne d L (by decide), Finset.mem_erase.mpr ⟨semc_ne d L (by decide), Finset.mem_erase.mpr ⟨semc_ne d L (by decide), Finset.mem_erase.mpr ⟨semc_ne d L (by decide), mem_own d L cc1_scoped0 (by decide)⟩⟩⟩⟩⟩⟩),
    SparseCore.bigSep_erase' (Finset.mem_erase.mpr ⟨semc_ne d L (by decide), Finset.mem_erase.mpr ⟨semc_ne d L (by decide), Finset.mem_erase.mpr ⟨semc_ne d L (by decide), Finset.mem_erase.mpr ⟨semc_ne d L (by decide), Finset.mem_erase.mpr ⟨semc_ne d L (by decide), Finset.mem_erase.mpr ⟨semc_ne d L (by decide), Finset.mem_erase.mpr ⟨semc_ne d L (by decide), mem_own d L cc1_scoped1 (by decide)⟩⟩⟩⟩⟩⟩⟩)]

theorem scr_ne_10 : (cc1_scratch1 : Ref sig .scVector) ≠ cc1_scratch0 := by decide
theorem scr_ne_21 : (cc1_scratch2 : Ref sig .scVector) ≠ cc1_scratch1 := by decide
theorem scr_ne_20 : (cc1_scratch2 : Ref sig .scVector) ≠ cc1_scratch0 := by decide
theorem scr_ne_32 : (cc1_scratch3 : Ref sig .scVector) ≠ cc1_scratch2 := by decide
theorem scr_ne_31 : (cc1_scratch3 : Ref sig .scVector) ≠ cc1_scratch1 := by decide
theorem scr_ne_30 : (cc1_scratch3 : Ref sig .scVector) ≠ cc1_scratch0 := by decide

/-- A scratch buffer of the tile, as a buffer of the device. -/
abbrev sref (L : grid1.Coords) (b : Ref sig .scVector) : DevRef τ sig := (Proc.scVector (cV L) (jV L)).devRef b

/-- The four scratch buffers are among the tile's own: they, at some contents, and the rest. -/
theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f)
          ∗ bigSep (((((ownRefs (τ := τ) (.scVector (cV L) (jV L))).erase (sref L cc1_scratch0)).erase (sref L cc1_scratch1)).erase (sref L cc1_scratch2)).erase (sref L cc1_scratch3)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := sref L cc1_scratch0) rfl)).trans ?_
  rw [SparseCore.bigSep_erase' (Finset.mem_erase.mpr ⟨fun e => absurd (Proc.devRef_injective _ e) scr_ne_10, SparseCore.Cfg.mem_ownRefs_of_owner (p := Proc.scVector (cV L) (jV L)) (b := sref L cc1_scratch1) rfl⟩),
    SparseCore.bigSep_erase' (Finset.mem_erase.mpr ⟨fun e => absurd (Proc.devRef_injective _ e) scr_ne_21, Finset.mem_erase.mpr ⟨fun e => absurd (Proc.devRef_injective _ e) scr_ne_20, SparseCore.Cfg.mem_ownRefs_of_owner (p := Proc.scVector (cV L) (jV L)) (b := sref L cc1_scratch2) rfl⟩⟩),
    SparseCore.bigSep_erase' (Finset.mem_erase.mpr ⟨fun e => absurd (Proc.devRef_injective _ e) scr_ne_32, Finset.mem_erase.mpr ⟨fun e => absurd (Proc.devRef_injective _ e) scr_ne_31, Finset.mem_erase.mpr ⟨fun e => absurd (Proc.devRef_injective _ e) scr_ne_30, SparseCore.Cfg.mem_ownRefs_of_owner (p := Proc.scVector (cV L) (jV L)) (b := sref L cc1_scratch3) rfl⟩⟩⟩)]

set_option maxHeartbeats 4000000 in
/-- What the task's obligation asks after the body: the tile's results packed as the handshake carries them, its
    scratch and semaphores as it got them. -/
theorem post_conv (hF : (K (F := F)).Facts) (hin9 : ∀ d j, (A9 m d j).toNat < 507904) (hin11 : ∀ d j, (A11 m d j).toNat < 50000)
    (d : Dev nD) (c : Fin (grid1.bound 0)) (s : Fin (grid1.bound 1)) (O : CellTallies nD τ sig (HIx 1)) (W : Waits sig (HIx 1))
    (f1 : Buf (Elt F) (tcLoc d main_v1)) (hG : Good1 m d f1) (Rb Rs : sProp 𝕄)
    (hRb : (ownBufs (thr d (coordsV c s)) : sProp 𝕄) = iprop((∃ f, (thr d (coordsV c s)).loc cc1_scratch0 ↦{fullShare} f) ∗ (∃ f, (thr d (coordsV c s)).loc cc1_scratch1 ↦{fullShare} f) ∗ (∃ f, (thr d (coordsV c s)).loc cc1_scratch2 ↦{fullShare} f) ∗ (∃ f, (thr d (coordsV c s)).loc cc1_scratch3 ↦{fullShare} f) ∗ Rb))
    (hRs : (ownSems0 (thr d (coordsV c s)) : sProp 𝕄) = iprop(semVal (semc d (coordsV c s) cc1_scratch4) 0 ∗ semVal (semc d (coordsV c s) cc1_scratch5) 0 ∗ semVal (semc d (coordsV c s) cc1_scratch6) 0 ∗ semVal (semc d (coordsV c s) cc1_scratch7) 0 ∗ semVal (semc d (coordsV c s) cc1_scratch8) 0 ∗ semVal (semc d (coordsV c s) cc1_scratch9) 0 ∗ semVal (semc d (coordsV c s) cc1_scoped0) 0 ∗ semVal (semc d (coordsV c s) cc1_scoped1) 0 ∗ Rs)) :
    (iprop((((m9).view.loc (thr d (coordsV c s)) ↦{sh c s} A9 m d) ∗ ((m11).view.loc (thr d (coordsV c s)) ↦{sh c s} A11 m d)
        ∗ ((m1).view.loc (thr d (coordsV c s)) ↦{sh c s} f1) ∗ ((m2).view.loc (thr d (coordsV c s)) ↦{sh c s} A2 m d)
        ∗ ((o0K (coordsV c s) 0).view.loc (thr d (coordsV c s)) ↦[(o0K (coordsV c s) 0).view.set]{fullShare} gath gBig0 (A9 m d) f1 (hin9 d))
        ∗ ((o0K (coordsV c s) 1).view.loc (thr d (coordsV c s)) ↦[(o0K (coordsV c s) 1).view.set]{fullShare} gath gBig0 (A9 m d) f1 (hin9 d))
        ∗ ((o0K (coordsV c s) 2).view.loc (thr d (coordsV c s)) ↦[(o0K (coordsV c s) 2).view.set]{fullShare} gath gBig0 (A9 m d) f1 (hin9 d))
        ∗ ((o0K (coordsV c s) 3).view.loc (thr d (coordsV c s)) ↦[(o0K (coordsV c s) 3).view.set]{fullShare} gath gBig0 (A9 m d) f1 (hin9 d))
        ∗ ((o1K (coordsV c s) 0).view.loc (thr d (coordsV c s)) ↦[(o1K (coordsV c s) 0).view.set]{fullShare} gath gBig1 (A11 m d) (A2 m d) (hin11 d))
        ∗ ((o1K (coordsV c s) 1).view.loc (thr d (coordsV c s)) ↦[(o1K (coordsV c s) 1).view.set]{fullShare} gath gBig1 (A11 m d) (A2 m d) (hin11 d))
        ∗ ((o1K (coordsV c s) 2).view.loc (thr d (coordsV c s)) ↦[(o1K (coordsV c s) 2).view.set]{fullShare} gath gBig1 (A11 m d) (A2 m d) (hin11 d))
        ∗ ((o1K (coordsV c s) 3).view.loc (thr d (coordsV c s)) ↦[(o1K (coordsV c s) 3).view.set]{fullShare} gath gBig1 (A11 m d) (A2 m d) (hin11 d))
        ∗ (∃ b, (s8).view.loc (thr d (coordsV c s)) ↦{fullShare} b) ∗ (∃ b, (s9).view.loc (thr d (coordsV c s)) ↦{fullShare} b)
        ∗ (∃ b, (s10).view.loc (thr d (coordsV c s)) ↦{fullShare} b) ∗ (∃ b, (s11).view.loc (thr d (coordsV c s)) ↦{fullShare} b)
        ∗ semVal (semc d (coordsV c s) cc1_scratch4) 0 ∗ semVal (semc d (coordsV c s) cc1_scratch5) 0 ∗ semVal (semc d (coordsV c s) cc1_scratch6) 0 ∗ semVal (semc d (coordsV c s) cc1_scratch7) 0 ∗ semVal (semc d (coordsV c s) cc1_scratch8) 0 ∗ semVal (semc d (coordsV c s) cc1_scratch9) 0 ∗ semVal (semc d (coordsV c s) cc1_scoped0) 0 ∗ semVal (semc d (coordsV c s) cc1_scoped1) 0
        ∗ ∃ W', ⌜∀ p ∈ W', p ∈ W ∨ p.2 = none⌝ ∗ owes (thr d (coordsV c s)) O W') ∗ Rb ∗ Rs) : sProp 𝕄)
      ⊢ iprop(tileTd m d c s ∗ scopedBufs (thr d (coordsV c s)) ∗ scopedSems0 (thr d (coordsV c s))
          ∗ ∃ W', ⌜∀ p ∈ W', p ∈ W ∨ p.2 = none⌝ ∗ owes (thr d (coordsV c s)) O W') := by
  iintro ⟨⟨H9, H11, H1, H2, Ho00, Ho01, Ho02, Ho03, Ho10, Ho11, Ho12, Ho13, H8, Hs9, H10, Hs11, Hc4, Hc5, Hc6, Hc7, Hc8, Hc9, Hp0, Hp1, HO⟩, HRb, HRs⟩
  isplitl [H9 H11 H1 H2 Ho00 Ho01 Ho02 Ho03 Ho10 Ho11 Ho12 Ho13]
  · unfold tileTd
    simp only [bigSep_fin4]
    rewrite [← gath_eq_G20 m d (hin11 d)]
    isplitl [H9]; · iexact H9
    isplitl [H11]; · iexact H11
    isplitl [H1 Ho00 Ho01 Ho02 Ho03]
    · iexists f1
      rewrite [← gath_eq_D20 m d f1 (hin9 d)]
      isplitr; · ipureintro; exact hG
      isplitl [H1]; · iexact H1
      isplitl [Ho00]; · iexact Ho00
      isplitl [Ho01]; · iexact Ho01
      isplitl [Ho02]; · iexact Ho02
      iexact Ho03
    isplitl [H2]; · iexact H2
    isplitl [Ho10]; · iexact Ho10
    isplitl [Ho11]; · iexact Ho11
    isplitl [Ho12]; · iexact Ho12
    iexact Ho13
  isplitl [H8 Hs9 H10 Hs11 HRb]
  · iapply (Entails.of_eq ((K (F := F)).scopedBufs_V hF d _ _).symm)
    iapply (Entails.of_eq hRb.symm)
    isplitl [H8]; · iexact H8
    isplitl [Hs9]; · iexact Hs9
    isplitl [H10]; · iexact H10
    isplitl [Hs11]; · iexact Hs11
    iexact HRb
  isplitl [Hc4 Hc5 Hc6 Hc7 Hc8 Hc9 Hp0 Hp1 HRs]
  · iapply (Entails.of_eq (SparseCore.Cfg.scopedSems0_V d _ _).symm)
    iapply (Entails.of_eq hRs.symm)
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hp0]; · iexact Hp0
    isplitl [Hp1]; · iexact Hp1
    iexact HRs
  iexact HO

set_option maxHeartbeats 4000000 in
/-- The task on the tile at SparseCore `c`, vector subcore `s`: from what the go signal carries and the tile's scoped
    storage to what taskDone carries and the storage back. -/
theorem tile_body (hF : (K (F := F)).Facts) (hin9 : ∀ d j, (A9 m d j).toNat < 507904) (hin11 : ∀ d j, (A11 m d j).toNat < 50000)
    (d : Dev nD) (c : Fin (grid1.bound 0)) (s : Fin (grid1.bound 1)) (O : CellTallies nD τ sig (HIx 1)) (W : Waits sig (HIx 1))
    (hO : ∀ g, O g none = 0) :
    (iprop(levAts (K (F := F)).L (K (F := F)).lev ∗ emp ∗ tileGo m d c s
        ∗ scopedBufs (thr d (coordsV c s)) ∗ scopedSems0 (thr d (coordsV c s)) ∗ owes (thr d (coordsV c s)) O W) : sProp 𝕄)
      ⊢ wp frame (wpE (defs₀ (F := F)) 𝒱₀ (thr d (coordsV c s)) none) Set.univ
          (cc1_gather_kernel (coordsV c s) m9 (Memref.isWhole_whole _) m11 (Memref.isWhole_whole _) m1 (Memref.isWhole_whole _) m2 (Memref.isWhole_whole _)
            mo0 (Memref.isWhole_whole _) mo1 (Memref.isWhole_whole _) s8 (Memref.isWhole_whole _) s9 (Memref.isWhole_whole _)
            s10 (Memref.isWhole_whole _) s11 (Memref.isWhole_whole _)
            cc1_scratch4 cc1_scratch5 cc1_scratch6 cc1_scratch7 cc1_scratch8 cc1_scratch9 cc1_scoped0 cc1_scoped1)
          fun _ => iprop(tileTd m d c s ∗ scopedBufs (thr d (coordsV c s)) ∗ scopedSems0 (thr d (coordsV c s))
            ∗ ∃ W', ⌜∀ p ∈ W', p ∈ W ∨ p.2 = none⌝ ∗ owes (thr d (coordsV c s)) O W') := by
  iintro ⟨#Hlv, -, Hgo, Hb, Hs, HO⟩
  ihave Hb1 := (Entails.of_eq ((K (F := F)).scopedBufs_V hF d _ _)) $$ Hb
  ihave Hb2 := (Entails.of_eq (ownBufs_V d (coordsV c s))) $$ Hb1
  ihave Hs1 := (Entails.of_eq (SparseCore.Cfg.scopedSems0_V d _ _)) $$ Hs
  ihave Hs2 := (Entails.of_eq (ownSems0_V d (coordsV c s))) $$ Hs1
  icases Hb2 with ⟨⟨%b8, H8⟩, ⟨%b9, Hs9⟩, ⟨%b10, H10⟩, ⟨%b11, Hs11⟩, HRb⟩
  icases Hs2 with ⟨Hc4, Hc5, Hc6, Hc7, Hc8, Hc9, Hp0, Hp1, HRs⟩
  unfold tileGo
  simp only [bigSep_fin4]
  icases Hgo with ⟨H9, H11, ⟨%f1, %hG, H1⟩, H2, ⟨Ho00, Ho01, Ho02, Ho03⟩, ⟨Ho10, Ho11, Ho12, Ho13⟩⟩
  ihave Hmw := ((K (F := F)).mayWaits_none (thr := (thr d (coordsV c s))) hO) $$ Hlv
  have core := tile_core d (coordsV c s) O W (sh c s) (sh c s) (sh c s) (sh c s) (A9 m d) (A11 m d) f1 (A2 m d)
    (VB m d (Proc.devRef .tc main_v20_0)) (VB m d (Proc.devRef .tc main_v20_1)) b8 b9 b10 b11 (hin9 d) (hin11 d)
  iapply ((sep_mono core .rfl).trans ((wp_frame_r frame _ _).trans (wp_mono frame _ _ fun _ =>
    post_conv m hF hin9 hin11 d c s O W f1 hG _ _ (ownBufs_V d (coordsV c s)) (ownSems0_V d (coordsV c s)))))
  isplitr [HRb HRs]
  · isplitr; · iexact Hmw
    isplitl [H9]; · iexact H9
    isplitl [H11]; · iexact H11
    isplitl [H1]; · iexact H1
    isplitl [H2]; · iexact H2
    isplitl [Ho00]; · iexact Ho00
    isplitl [Ho01]; · iexact Ho01
    isplitl [Ho02]; · iexact Ho02
    isplitl [Ho03]; · iexact Ho03
    isplitl [Ho10]; · iexact Ho10
    isplitl [Ho11]; · iexact Ho11
    isplitl [Ho12]; · iexact Ho12
    isplitl [Ho13]; · iexact Ho13
    isplitl [H8]; · iexact H8
    isplitl [Hs9]; · iexact Hs9
    isplitl [H10]; · iexact H10
    isplitl [Hs11]; · iexact Hs11
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hp0]; · iexact Hp0
    isplitl [Hp1]; · iexact Hp1
    iexact HO
  · isplitl [HRb]; · iexact HRb
    iexact HRs

/-- The body table at a vector subcore, for the gather kernel's label: the kernel at the subcore's coordinates. -/
theorem defs₀_vector (c : Fin τ.nSC) (s : Fin τ.nSub) :
    defs₀ (F := F) (.scVector c s) 1 ()
      = SparseCore.onTile hcore1 hsub1 (fun c s => (cc1_gather_kernel (coordsV c s) m9 (Memref.isWhole_whole _) m11 (Memref.isWhole_whole _) m1 (Memref.isWhole_whole _) m2 (Memref.isWhole_whole _) mo0 (Memref.isWhole_whole _) mo1 (Memref.isWhole_whole _) s8 (Memref.isWhole_whole _) s9 (Memref.isWhole_whole _) s10 (Memref.isWhole_whole _) s11 (Memref.isWhole_whole _) cc1_scratch4 cc1_scratch5 cc1_scratch6 cc1_scratch7 cc1_scratch8 cc1_scratch9 cc1_scoped0 cc1_scoped1)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
set_option maxHeartbeats 4000000 in
/-- The gather kernel's obligation to the launch: every tile's task, from the go signal's payload to taskDone's. -/
theorem tileObl (hF : (K (F := F)).Facts) (hin9 : ∀ d j, (A9 m d j).toNat < 507904) (hin11 : ∀ d j, (A11 m d j).toNat < 50000) :
    (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hin9 hin11 d ⟨_, hci.1⟩ ⟨_, hci.2⟩ O W hO).trans (wp_mono frame _ _ fun _ => obl_post)

end Cert.Kernel.Tile

end
-- ==== Proof.Bits.RegBase.lean ====
import proofs.«205759_g46823733461237_cont_8to1_c_287_19_alg».proof.Proof.Gen.Kernel.Launch

noncomputable section

namespace Cert.Kernel.Reg

open Cert.Kernel Cert.Kernel.Gen
open Idealize.ShloMosaic Idealize.ShloMosaic.TcCoe

variable {F : FTy → Type} [FloatOps F]

/-- The TensorCore's buffer contents on every device: what a region's proof data are stated at. -/
abbrev TcVal (F : FTy → Type) : Type := (c : Dev nD) → (b : Ref sig .tc) → Buf (Elt F) ((c : Thread nD τ).loc b)

/-- The prefetched tables' admissible contents: neither pipeline has a table. -/
abbrev adm : (p : Fin 2) → (pcfgs (F := F) p).Adm := fun p => (cfgs p).toPCfg_adm

end Cert.Kernel.Reg

end
-- ==== Proof.Bits.RegBody0.lean ====
import proofs.«205759_g46823733461237_cont_8to1_c_287_19_alg».proof.Proof.Gen.Kernel.Launch
import proofs.«205759_g46823733461237_cont_8to1_c_287_19_alg».proof.Proof.Gen.Kernel.Skeleton
import proofs.«205759_g46823733461237_cont_8to1_c_287_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants)

/-! # The first TensorCore call's body: what it leaves in the output block

The body reads its whole (64, 16384) input block, transposes its two 8192-column halves and stores them side by side as the
whole (8192, 128) output block: output row `r` is `[in(:, r), in(:, 8192 + r)]`. -/

abbrev r0_i : Rect S64x16384 := Rect.unit (s := S64x16384) ![0, 0] S64x16384.size inb_S64x16384_S64x16384_0_0
abbrev r0_o : Rect S8192x128 := Rect.unit (s := S8192x128) ![0, 0] S8192x128.size inb_S8192x128_S8192x128_0_0

/-- The output staging buffer after the body: its one store, as a piece. -/
def out0_1 (x0 : Vec F S64x16384 .f32) : Vec F S8192x128 .f32 :=
  View.canon [⟨r0_o, k0_pay1 (View.ld x0 r0_i)⟩]

/-- The store tiles the buffer. -/
theorem cover0_1 (p0 : Vec F S8192x128 .f32) (y : S8192x128.Idx) :
    ∃ pc ∈ ([⟨r0_o, p0⟩] : List (View.Piece (Elt F) S8192x128 .f32)), y ∈ pc.1.set :=
  View.cover_of_tiled [⟨r0_o, p0⟩] S8192x128.size (by rfl) y

set_option maxHeartbeats 1000000 in
/-- The body on whole staging memrefs, the input's at read contents `x0` and the output's at anything, runs to the
    continuation holding the input's as it was and the output's at `out0_1 x0`. -/
theorem sound_kernel0 (c : Dev nD) (E : Set Name) (i : grid0.Coords) (arg1 : Memref sig .tc .vmem S64x16384 .f32) (harg1 : arg1.IsWhole)
    (arg2 : Memref sig .tc .vmem S8192x128 .f32) (harg2 : arg2.IsWhole) (x0 : Vec F S64x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) 𝒱₀ c none) E (cc0__tp_body i arg1 harg1 arg2 harg2) K := by
  simp only [cc0__tp_body_eq_skeleton]; unfold cc0__tp_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The output block at an index -/

/-- The payload at a lane of the first half: the first half's transposed column. -/
theorem k0_pay1_left (x0 : Vec F S64x16384 .f32) (r : Fin 8192) (k : Fin 64) :
    k0_pay1 x0 (ix2 r ⟨k.val, by omega⟩) = x0 (ix2 k ⟨r.val, by omega⟩) := by
  unfold k0_pay1
  refine (concatenate_pair_apply_left (t := S8192x128) (1 : Fin 2) _ _ concatenates_S8192x64_S8192x64_S8192x128_d1 (ix2 r (⟨k.val, by omega⟩ : Fin 128)) rfl (ix2 r k) ?_).trans ?_
  · intro b; match b with | ⟨0, _⟩ => rfl | ⟨1, _⟩ => rfl
  refine (transpose_apply [1, 0] _ transposes_S64x8192_p1_0_S8192x64 (ix2 r k) (ix2 k r) ?_).trans ?_
  · intro b; match b with | ⟨0, _⟩ => rfl | ⟨1, _⟩ => rfl
  refine (extractStridedSlice_apply ![0, 0] _ slices_S64x16384_o0_0_S64x8192 (ix2 k r) (ix2 k (⟨r.val, by omega⟩ : Fin 16384)) ?_).trans ?_
  · intro b; match b with | ⟨0, _⟩ => (show k.val = 0 + k.val; omega) | ⟨1, _⟩ => (show r.val = 0 + r.val; omega)
  rw [shapeCast_self]

/-- The payload at a lane of the second half: the second half's transposed column. -/
theorem k0_pay1_right (x0 : Vec F S64x16384 .f32) (r : Fin 8192) (k : Fin 64) :
    k0_pay1 x0 (ix2 r ⟨64 + k.val, by omega⟩) = x0 (ix2 k ⟨8192 + r.val, by omega⟩) := by
  unfold k0_pay1
  refine (concatenate_pair_apply_right (t := S8192x128) (1 : Fin 2) _ _ concatenates_S8192x64_S8192x64_S8192x128_d1 (ix2 r (⟨64 + k.val, by omega⟩ : Fin 128)) rfl rfl (ix2 r k) ?_ ?_).trans ?_
  · intro b hb; match b, hb with | ⟨0, _⟩, _ => rfl | ⟨1, _⟩, hb => exact absurd rfl hb
  · show k.val + 64 = 64 + k.val; omega
  refine (transpose_apply [1, 0] _ transposes_S64x8192_p1_0_S8192x64 (ix2 r k) (ix2 k r) ?_).trans ?_
  · intro b; match b with | ⟨0, _⟩ => rfl | ⟨1, _⟩ => rfl
  refine (extractStridedSlice_apply ![0, 8192] _ slices_S64x16384_o0_8192_S64x8192 (ix2 k r) (ix2 k (⟨8192 + r.val, by omega⟩ : Fin 16384)) ?_).trans ?_
  · intro b; match b with | ⟨0, _⟩ => (show k.val = 0 + k.val; omega) | ⟨1, _⟩ => (show 8192 + r.val = 8192 + r.val; rfl)
  rw [shapeCast_self]

/-- The output block is the payload of the whole input block. -/
theorem out0_1_eq (x0 : Vec F S64x16384 .f32) : out0_1 x0 = k0_pay1 x0 := by
  have hz : (![0, 0] : Fin 2 → Nat) = fun _ => 0 := funext fun a => by fin_cases a <;> rfl
  unfold out0_1
  rw [View.canon_unit_zero hz, View.ld_unit_zero hz]

/-- Output row `r`, lane `64 h + k` is input row `k`, column `8192 h + r`. -/
theorem out0_1_apply (x0 : Vec F S64x16384 .f32) (r : Fin 8192) (h : Fin 2) (k : Fin 64) :
    out0_1 x0 (ix2 r (⟨64 * h.val + k.val, by omega⟩ : Fin 128)) = x0 (ix2 k (⟨8192 * h.val + r.val, by omega⟩ : Fin 16384)) := by
  rw [out0_1_eq]
  match h with
  | ⟨0, _⟩ =>
    have e := k0_pay1_left x0 r k
    refine Eq.trans (congrArg (k0_pay1 x0) ?_) (e.trans (congrArg x0 ?_))
    · exact congrArg (ix2 r) (Fin.ext (by show 64 * 0 + k.val = k.val; omega))
    · exact congrArg (ix2 k) (Fin.ext (by show r.val = 8192 * 0 + r.val; omega))
  | ⟨1, _⟩ =>
    have e := k0_pay1_right x0 r k
    refine Eq.trans (congrArg (k0_pay1 x0) ?_) (e.trans (congrArg x0 ?_))
    · exact congrArg (ix2 r) (Fin.ext (by show 64 * 1 + k.val = 64 + k.val; omega))
    · exact congrArg (ix2 k) (Fin.ext (by show 8192 + r.val = 8192 * 1 + r.val; omega))

end Cert.Kernel.Reg

end
-- ==== Proof.Bits.RegDat0.lean ====
import proofs.«205759_g46823733461237_cont_8to1_c_287_19_alg».proof.Proof.Bits.RegBase
import proofs.«205759_g46823733461237_cont_8to1_c_287_19_alg».proof.Proof.Bits.RegBody0

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants) (ι : Ix)
variable (V : TcVal F) (O : Dev nD → CellTallies nD τ sig Ix) (R : Dev nD → Set (SemLoc sig × Ix))

/-! # The first TensorCore call: proof data and body obligation, at the entry contents `V`

The input's last block overhangs the array: the fetch fills the staging buffer's columns inside the array and leaves the
others at words nothing names, and the body transposes those too. So what the body leaves in the output buffer is
constrained, not named: on the columns inside the array it is the transposed halves of the input block. -/

/-- A coordinate of a block is among those a cut transfer moves iff it lies inside the array. -/
theorem clip_of_extent_lt {ix k d j : Nat} (hj : j < k) : j < (Pipeline.Clip.of ix k d).extent k ↔ ix * k + j < d := by
  have e : (ix + 1) * k = ix * k + k := Nat.succ_mul ix k
  unfold Pipeline.Clip.of; split
  · next h => exact ⟨fun _ => by omega, fun _ => hj⟩
  · next h => show j < d - ix * k ↔ _; omega

/-- The input array as the region finds it, as a function of row and column. -/
abbrev in0 (c : Dev nD) : S64x1000000.Idx → Elt F .f32 := V c main_v0

/-! ## The input block, read at an index -/

/-- Every row of the input block is moved: the array has the block's 64 rows. -/
theorem xsize0_0 (t : Fin cfg0.N) (j : Fin 64) : j.val < win0_0.xsize (grid0.coords t) 0 := by
  show j.val < (Pipeline.Clip.of (cc0_transform_0 (grid0.coords t) 0) 64 64).extent 64
  rw [clip_of_extent_lt j.isLt]
  show 0 * 64 + j.val < 64
  omega

/-- A column of the input block is moved iff it lies inside the array. -/
theorem xsize0_1 (t : Fin cfg0.N) (j : Fin 16384) : j.val < win0_0.xsize (grid0.coords t) 1 ↔ 16384 * t.val + j.val < 1000000 := by
  show j.val < (Pipeline.Clip.of (cc0_transform_0 (grid0.coords t) 1) 16384 1000000).extent 16384 ↔ _
  rw [clip_of_extent_lt j.isLt]
  have e : cc0_transform_0 (grid0.coords t) 1 = t.val :=
    (by decide +kernel : ∀ t : Fin grid0.N, cc0_transform_0 (grid0.coords t) 1 = t.val) t
  rw [e]; omega

/-- The input block at point `t`, read at an index: the array at the block's offset. -/
theorem blk0_read (c : Dev nD) (t : Fin cfg0.N) (y : (win0_0.xblock (grid0.coords t)).Idx)
    (h0 : (y 0).val < 64) (h1 : 16384 * t.val + (y 1).val < 1000000) :
    (win0_0.blk t).view.read (Elt F) (V c main_v0) y = in0 V c (ix2 ⟨(y 0).val, h0⟩ ⟨16384 * t.val + (y 1).val, h1⟩) := by
  rw [View.read_apply]
  show in0 V c _ = in0 V c _
  refine congrArg (in0 V c) (funext fun a => Fin.ext ?_)
  have hi : win0_0.index t 1 = t.val := (by decide +kernel : ∀ t : Fin grid0.N, win0_0.index t 1 = t.val) t
  have hi0 : win0_0.index t 0 = 0 := (by decide +kernel : ∀ t : Fin grid0.N, win0_0.index t 0 = 0) t
  match a with
  | ⟨0, _⟩ =>
    show ((win0_0.rect t).emb y (0 : Fin 2) : Nat) = (y 0).val
    rw [win0_0.rect_emb_val t y 0, hi0]; show 0 * 64 + (y 0).val = _; omega
  | ⟨1, _⟩ =>
    show ((win0_0.rect t).emb y (1 : Fin 2) : Nat) = 16384 * t.val + (y 1).val
    rw [win0_0.rect_emb_val t y 1, hi]; show t.val * 16384 + (y 1).val = _; omega

/-- The block index built from a row and a column inside the array. -/
def yOf (t : Fin cfg0.N) (k : Fin 64) (j : Fin 16384) (hc : 16384 * t.val + j.val < 1000000) : (win0_0.xblock (grid0.coords t)).Idx :=
  fun a => match a with
    | ⟨0, _⟩ => ⟨k.val, xsize0_0 t k⟩
    | ⟨1, _⟩ => ⟨j.val, (xsize0_1 t j).mpr hc⟩

/-- A just-fetched input buffer, at a column inside the array, holds the array's word. -/
theorem fetched0_apply (c : Dev nD) (t : Fin cfg0.N) (d : S64x16384.Idx → Elt F .f32) (k : Fin 64) (j : Fin 16384) (hc : 16384 * t.val + j.val < 1000000) :
    win0_0.fill (grid0.coords t) d ((win0_0.blk t).view.read (Elt F) (V c main_v0)) (ix2 k j) = in0 V c (ix2 k (⟨16384 * t.val + j.val, hc⟩ : Fin 1000000)) := by
  have e : (ix2 k j : S64x16384.Idx) = win0_0.xinj (grid0.coords t) (yOf t k j hc) := by
    funext a; match a with | ⟨0, _⟩ => rfl | ⟨1, _⟩ => rfl
  rw [e, win0_0.fill_xinj]
  exact blk0_read V c t (yOf t k j hc) k.isLt hc

/-! ## The proof data -/

/-- What the body may leave in the output block at point `t`: row `r`, lane `64 h + k` is the input array's row `k`,
    column `16384 t + 8192 h + r`, wherever that column is inside the array. -/
def Rel0 (c : Dev nD) (t : Fin cfg0.N) (X : S8192x128.Idx → Elt F .f32) : Prop :=
  ∀ (r : Fin 8192) (h : Fin 2) (k : Fin 64) (hc : 16384 * t.val + 8192 * h.val + r.val < 1000000),
    X (ix2 r (⟨64 * h.val + k.val, by omega⟩ : Fin 128)) = in0 V c (ix2 k (⟨16384 * t.val + 8192 * h.val + r.val, hc⟩ : Fin 1000000))

/-- The proof data of the first pipeline on core `c`: the arrays as the region finds them; the input's buffer left as
    found, the output's in the relation `Rel0`; the invariant the scoped buffers no window stages, untouched; the core
    owing `O c` throughout, its recorded pairs within `R c`. -/
def rdat0 (c : Dev nD) : RDat τ (Elt F) Ix Name U Lvl cfg0 c where
  A w := V c (Pipeline.arrRef spec0 w)
  after w t Y X := match w with
    | ⟨0, _⟩ => X = Y
    | ⟨1, _⟩ => Rel0 V c t X
  Φ _ := Pipeline.scopedRest (Ix := Ix) (Name := Name) (U := U) (Lvl := Lvl) (Val := Elt F) spec0 c
  q _ := fullShare
  owed _ := O c
  recorded _ := R c

theorem after0_0 (c : Dev nD) (t : Fin cfg0.N) (Y X) : (rdat0 (Name := Name) (U := U) (Lvl := Lvl) V O R c).after 0 t Y X = (X = Y) := by dsimp only [rdat0]
theorem after0_1 (c : Dev nD) (t : Fin cfg0.N) (Y X) : (rdat0 (Name := Name) (U := U) (Lvl := Lvl) V O R c).after 1 t Y X = Rel0 V c t X := by dsimp only [rdat0]

/-! ## The body obligation -/

/-- What the body leaves from a just-fetched input block is in the relation. -/
theorem rel0_out (c : Dev nD) (t : Fin cfg0.N) (d : S64x16384.Idx → Elt F .f32) :
    Rel0 V c t (out0_1 (win0_0.fill (grid0.coords t) d ((win0_0.blk t).view.read (Elt F) (V c main_v0)))) := by
  intro r h k hc
  rw [out0_1_apply]
  refine (fetched0_apply V c t d k (⟨8192 * h.val + r.val, by omega⟩ : Fin 16384) (by show 16384 * t.val + (8192 * h.val + r.val) < 1000000; omega)).trans ?_
  exact congrArg (in0 V c) (congrArg (ix2 k) (Fin.ext (by show 16384 * t.val + (8192 * h.val + r.val) = 16384 * t.val + 8192 * h.val + r.val; omega)))

/-- The body at any point, on a just-fetched input buffer and any output buffer: the input's is left as found, the output's
    in the relation; the invariant and the core's `owes` pass through unread. -/
theorem sound_body0 (c : Dev nD) (t : Fin cfg0.N) (Y0 : S64x16384.Idx → Elt F .f32) (Y1 : S8192x128.Idx → Elt F .f32)
    (d : S64x16384.Idx → Elt F .f32) (hd : Y0 = win0_0.fill (grid0.coords t) d ((win0_0.blk t).view.read (Elt F) (V c main_v0))) :
    iprop((rdat0 (Name := Name) (U := U) (Lvl := Lvl) V O R c).Φ t.castSucc ∗ (rdat0 (Name := Name) (U := U) (Lvl := Lvl) V O R c).owesAt ι t.castSucc
        ∗ owns (c : Thread nD τ) (st0_0 t) fullShare Y0 ∗ owns (c : Thread nD τ) (st0_1 t) fullShare Y1)
      ⊢ wp frame (wpE (defs₀ (F := F)) 𝒱₀ c none) Set.univ (bodyAt0 t) (fun _ =>
          iprop((rdat0 (Name := Name) (U := U) (Lvl := Lvl) V O R c).Φ t.succ ∗ (rdat0 (Name := Name) (U := U) (Lvl := Lvl) V O R c).owesAt ι t.succ
            ∗ (∃ X, ⌜(rdat0 (Name := Name) (U := U) (Lvl := Lvl) V O R c).after 0 t Y0 X⌝ ∗ owns (c : Thread nD τ) (st0_0 t) fullShare X)
            ∗ (∃ X, ⌜(rdat0 (Name := Name) (U := U) (Lvl := Lvl) V O R c).after 1 t Y1 X⌝ ∗ owns (c : Thread nD τ) (st0_1 t) fullShare X))) := by
  unfold bodyAt0
  rw [show (rdat0 (Name := Name) (U := U) (Lvl := Lvl) V O R c).Φ t.succ = (rdat0 (Name := Name) (U := U) (Lvl := Lvl) V O R c).Φ t.castSucc from rfl,
    show (rdat0 (Name := Name) (U := U) (Lvl := Lvl) V O R c).owesAt ι t.succ = (rdat0 (Name := Name) (U := U) (Lvl := Lvl) V O R c).owesAt ι t.castSucc from rfl]
  iintro ⟨HΦ, Ho, H0, H1⟩
  iapply (sound_kernel0 𝒱₀ c Set.univ _ _ _ _ _ Y0 _)
  isplitl [H0]; · iexact H0
  isplitl [H1]; · iexists _; iexact H1
  iintro ⟨H0, H1⟩
  isplitl [HΦ]; · iexact HΦ
  isplitl [Ho]; · iexact Ho
  isplitl [H0]
  · iexists Y0; isplitr; · ipureintro; rw [after0_0]
    iexact H0
  iexists (out0_1 Y0); isplitr
  · ipureintro; rw [after0_1, hd]; exact rel0_out V c t d
  iexact H1

/-- The library's body obligation of relational proof data, at every point. -/
theorem body_obligation0 (c : Dev nD) : (rdat0 (Name := Name) (U := U) (Lvl := Lvl) V O R c).BodyObligation (defs₀ (F := F)) 𝒱₀ ι Set.univ := fun t Y hY => by
  rw [bigSep_W0, bigSep_W0]
  obtain ⟨d, hd⟩ := ((rdat0 (Name := Name) (U := U) (Lvl := Lvl) V O R c).finds_of_fetch (fetch0_0 t) (Y 0)).mp (hY 0)
  exact sound_body0 𝒱₀ ι V O R c t (Y 0) (Y 1) d hd

end Cert.Kernel.Reg

end
-- ==== Proof.Bits.RegBody2.lean ====
import proofs.«205759_g46823733461237_cont_8to1_c_287_19_alg».proof.Proof.Gen.Kernel.Launch
import proofs.«205759_g46823733461237_cont_8to1_c_287_19_alg».proof.Proof.Gen.Kernel.Skeleton
import proofs.«205759_g46823733461237_cont_8to1_c_287_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants)

/-! # The second TensorCore call's body: what it leaves in the output block

The body reads its eight input blocks whole, computes, and stores the whole output block. -/

abbrev r2_a : Rect S2048x128 := Rect.unit (s := S2048x128) ![0, 0] S2048x128.size inb_S2048x128_S2048x128_0_0
abbrev r2_b : Rect S2048x1 := Rect.unit (s := S2048x1) ![0, 0] S2048x1.size inb_S2048x1_S2048x1_0_0
abbrev r2_c : Rect S64x128 := Rect.unit (s := S64x128) ![0, 0] S64x128.size inb_S64x128_S64x128_0_0
abbrev r2_d : Rect S1x128 := Rect.unit (s := S1x128) ![0, 0] S1x128.size inb_S1x128_S1x128_0_0
abbrev r2_e : Rect S1x1 := Rect.unit (s := S1x1) ![0, 0] S1x1.size inb_S1x1_S1x1_0_0
abbrev r2_o : Rect S2048 := Rect.unit (s := S2048) ![0] S2048.size inb_S2048_S2048_0

/-- The output block as the body's arithmetic over the eight input blocks (the generated payloads). -/
def pay2 (x0 : Vec F S2048x128 .f32) (x1 : Vec F S2048x128 .f32) (x2 : Vec F S2048x1 .i32) (x3 : Vec F S2048x1 .i32) (x4 : Vec F S64x128 .f32) (x5 : Vec F S1x128 .f32) (x6 : Vec F S1x128 .f32) (x7 : Vec F S1x1 .f32) : FVec F S2048 .f32 :=
  k2_pay1 (k2_pay2 (View.ld x0 r2_a) (View.ld x2 r2_b)) (k2_pay3 (View.ld x1 r2_a) (View.ld x3 r2_b))
    (k2_pay4 (View.ld x1 r2_a) (View.ld x3 r2_b)) (k2_pay5 (View.ld x0 r2_a) (View.ld x2 r2_b))
    (k2_pay6 (View.ld x1 r2_a) (View.ld x3 r2_b)) (k2_pay7 (F := F))
    (View.ld x4 r2_c) (View.ld x5 r2_d) (View.ld x6 r2_d) (View.ld x7 r2_e)

/-- The output staging buffer after the body: its one store, as a piece. -/
def out2_8 (x0 : Vec F S2048x128 .f32) (x1 : Vec F S2048x128 .f32) (x2 : Vec F S2048x1 .i32) (x3 : Vec F S2048x1 .i32) (x4 : Vec F S64x128 .f32) (x5 : Vec F S1x128 .f32) (x6 : Vec F S1x128 .f32) (x7 : Vec F S1x1 .f32) : Vec F S2048 .f32 :=
  View.canon [⟨r2_o, pay2 x0 x1 x2 x3 x4 x5 x6 x7⟩]

/-- The store tiles the buffer. -/
theorem cover2_8 (p0 : Vec F S2048 .f32) (y : S2048.Idx) :
    ∃ pc ∈ ([⟨r2_o, p0⟩] : List (View.Piece (Elt F) S2048 .f32)), y ∈ pc.1.set :=
  View.cover_of_tiled [⟨r2_o, p0⟩] S2048.size (by rfl) y

set_option maxHeartbeats 1000000 in
/-- The body on whole staging memrefs, the inputs' at read contents `xW` and the output's at anything, runs to the
    continuation holding the inputs' as they were and the output's at `out2_8` of the inputs'. -/
theorem sound_kernel2 (c : Dev nD) (E : Set Name) (i : grid2.Coords) (arg1 : Memref sig .tc .vmem S2048x128 .f32) (harg1 : arg1.IsWhole) (arg2 : Memref sig .tc .vmem S2048x128 .f32) (harg2 : arg2.IsWhole) (arg3 : Memref sig .tc .vmem S2048x1 .i32) (harg3 : arg3.IsWhole) (arg4 : Memref sig .tc .vmem S2048x1 .i32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S2048 .f32) (harg9 : arg9.IsWhole)
    (x0 : Vec F S2048x128 .f32) (x1 : Vec F S2048x128 .f32) (x2 : Vec F S2048x1 .i32) (x3 : Vec F S2048x1 .i32) (x4 : Vec F S64x128 .f32) (x5 : Vec F S1x128 .f32) (x6 : Vec F S1x128 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) 𝒱₀ c none) E (cc2__head_body i arg1 harg1 arg2 harg2 arg3 harg3 arg4 harg4 arg5 harg5 arg6 harg6 arg7 harg7 arg8 harg8 arg9 harg9) K := by
  simp only [cc2__head_body_eq_skeleton]; unfold cc2__head_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

end Cert.Kernel.Reg

end
-- ==== Proof.Bits.RegDat2.lean ====
import proofs.«205759_g46823733461237_cont_8to1_c_287_19_alg».proof.Proof.Bits.RegBase
import proofs.«205759_g46823733461237_cont_8to1_c_287_19_alg».proof.Proof.Bits.RegBody2

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants) (ι : Ix)
variable (V : TcVal F) (O : Dev nD → CellTallies nD τ sig Ix) (R : Dev nD → Set (SemLoc sig × Ix))

/-! # The second TensorCore call: proof data and body obligation, at the entry contents `V`

## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not (the four
    whole-array windows are fetched once, at the first point), for any proof data whose array is `V`'s and whose body
    leaves the block in place. -/
theorem before2_0_of {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Ix Name U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Ix Name U Lvl cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Ix Name U Lvl cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Ix Name U Lvl cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Ix Name U Lvl cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The proof data -/

/-- The proof data of the second pipeline on core `c`: the arrays as the region finds them; after the body at point
    `t` each input's buffer at its block and the output's at `out2_8` of the input blocks; the invariant the scoped
    buffers no window stages, untouched; the core owing `O c` throughout, its recorded pairs within `R c`. -/
def dat2 (c : Dev nD) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.scopedRest (Ix := Ix) (Name := Name) (U := U) (Lvl := Lvl) (Val := Elt F) spec2 c
  q _ := fullShare
  owed _ := O c
  recorded _ := R c

theorem A_eq2 (c : Dev nD) (w : Fin cfg2.W) : (dat2 (Name := Name) (U := U) (Lvl := Lvl) V O R c).A w = V c (Pipeline.arrRef spec2 w) := by
  dsimp only [dat2]

theorem after2_0 (c : Dev nD) (t : Fin cfg2.N) : (dat2 (Name := Name) (U := U) (Lvl := Lvl) V O R c).after 0 t = iblk2 V c 0 t := by dsimp only [dat2]
theorem after2_1 (c : Dev nD) (t : Fin cfg2.N) : (dat2 (Name := Name) (U := U) (Lvl := Lvl) V O R c).after 1 t = iblk2 V c 1 t := by dsimp only [dat2]
theorem after2_2 (c : Dev nD) (t : Fin cfg2.N) : (dat2 (Name := Name) (U := U) (Lvl := Lvl) V O R c).after 2 t = iblk2 V c 2 t := by dsimp only [dat2]
theorem after2_3 (c : Dev nD) (t : Fin cfg2.N) : (dat2 (Name := Name) (U := U) (Lvl := Lvl) V O R c).after 3 t = iblk2 V c 3 t := by dsimp only [dat2]
theorem after2_4 (c : Dev nD) (t : Fin cfg2.N) : (dat2 (Name := Name) (U := U) (Lvl := Lvl) V O R c).after 4 t = iblk2 V c 4 t := by dsimp only [dat2]
theorem after2_5 (c : Dev nD) (t : Fin cfg2.N) : (dat2 (Name := Name) (U := U) (Lvl := Lvl) V O R c).after 5 t = iblk2 V c 5 t := by dsimp only [dat2]
theorem after2_6 (c : Dev nD) (t : Fin cfg2.N) : (dat2 (Name := Name) (U := U) (Lvl := Lvl) V O R c).after 6 t = iblk2 V c 6 t := by dsimp only [dat2]
theorem after2_7 (c : Dev nD) (t : Fin cfg2.N) : (dat2 (Name := Name) (U := U) (Lvl := Lvl) V O R c).after 7 t = iblk2 V c 7 t := by dsimp only [dat2]
theorem after2_8 (c : Dev nD) (t : Fin cfg2.N) : (dat2 (Name := Name) (U := U) (Lvl := Lvl) V O R c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 (Name := Name) (U := U) (Lvl := Lvl) V O R c).before 0 t d = iblk2 V c 0 t :=
  before2_0_of V (dat2 (Name := Name) (U := U) (Lvl := Lvl) V O R c) (A_eq2 V O R c 0) (after2_0 V O R c) t d
theorem before2_1 (c : Dev nD) (t : Fin cfg2.N) (d) : (dat2 (Name := Name) (U := U) (Lvl := Lvl) V O R c).before 1 t d = iblk2 V c 1 t :=
  before2_1_of V (dat2 (Name := Name) (U := U) (Lvl := Lvl) V O R c) (A_eq2 V O R c 1) (after2_1 V O R c) t d
theorem before2_2 (c : Dev nD) (t : Fin cfg2.N) (d) : (dat2 (Name := Name) (U := U) (Lvl := Lvl) V O R c).before 2 t d = iblk2 V c 2 t :=
  before2_2_of V (dat2 (Name := Name) (U := U) (Lvl := Lvl) V O R c) (A_eq2 V O R c 2) (after2_2 V O R c) t d
theorem before2_3 (c : Dev nD) (t : Fin cfg2.N) (d) : (dat2 (Name := Name) (U := U) (Lvl := Lvl) V O R c).before 3 t d = iblk2 V c 3 t :=
  before2_3_of V (dat2 (Name := Name) (U := U) (Lvl := Lvl) V O R c) (A_eq2 V O R c 3) (after2_3 V O R c) t d
theorem before2_4 (c : Dev nD) (t : Fin cfg2.N) (d) : (dat2 (Name := Name) (U := U) (Lvl := Lvl) V O R c).before 4 t d = iblk2 V c 4 t :=
  before2_4_of V (dat2 (Name := Name) (U := U) (Lvl := Lvl) V O R c) (A_eq2 V O R c 4) (after2_4 V O R c) t d
theorem before2_5 (c : Dev nD) (t : Fin cfg2.N) (d) : (dat2 (Name := Name) (U := U) (Lvl := Lvl) V O R c).before 5 t d = iblk2 V c 5 t :=
  before2_5_of V (dat2 (Name := Name) (U := U) (Lvl := Lvl) V O R c) (A_eq2 V O R c 5) (after2_5 V O R c) t d
theorem before2_6 (c : Dev nD) (t : Fin cfg2.N) (d) : (dat2 (Name := Name) (U := U) (Lvl := Lvl) V O R c).before 6 t d = iblk2 V c 6 t :=
  before2_6_of V (dat2 (Name := Name) (U := U) (Lvl := Lvl) V O R c) (A_eq2 V O R c 6) (after2_6 V O R c) t d
theorem before2_7 (c : Dev nD) (t : Fin cfg2.N) (d) : (dat2 (Name := Name) (U := U) (Lvl := Lvl) V O R c).before 7 t d = iblk2 V c 7 t :=
  before2_7_of V (dat2 (Name := Name) (U := U) (Lvl := Lvl) V O R c) (A_eq2 V O R c 7) (after2_7 V O R c) t d

/-! ## The body obligation, at a generic point -/

/-- What the body is called with at point `t`, the windows one by one, -/
def bodyPre2 (c : Dev nD) (t : Fin cfg2.N) : sProp 𝕄 :=
  iprop((dat2 (Name := Name) (U := U) (Lvl := Lvl) V O R c).Φ t.castSucc ∗ (dat2 (Name := Name) (U := U) (Lvl := Lvl) V O R c).owesAt ι t.castSucc
    ∗ (∃ d, owns (c : Thread nD τ) (st2_0 t) fullShare ((dat2 (Name := Name) (U := U) (Lvl := Lvl) V O R c).before 0 t d))
    ∗ (∃ d, owns (c : Thread nD τ) (st2_1 t) fullShare ((dat2 (Name := Name) (U := U) (Lvl := Lvl) V O R c).before 1 t d))
    ∗ (∃ d, owns (c : Thread nD τ) (st2_2 t) fullShare ((dat2 (Name := Name) (U := U) (Lvl := Lvl) V O R c).before 2 t d))
    ∗ (∃ d, owns (c : Thread nD τ) (st2_3 t) fullShare ((dat2 (Name := Name) (U := U) (Lvl := Lvl) V O R c).before 3 t d))
    ∗ (∃ d, owns (c : Thread nD τ) (st2_4 t) fullShare ((dat2 (Name := Name) (U := U) (Lvl := Lvl) V O R c).before 4 t d))
    ∗ (∃ d, owns (c : Thread nD τ) (st2_5 t) fullShare ((dat2 (Name := Name) (U := U) (Lvl := Lvl) V O R c).before 5 t d))
    ∗ (∃ d, owns (c : Thread nD τ) (st2_6 t) fullShare ((dat2 (Name := Name) (U := U) (Lvl := Lvl) V O R c).before 6 t d))
    ∗ (∃ d, owns (c : Thread nD τ) (st2_7 t) fullShare ((dat2 (Name := Name) (U := U) (Lvl := Lvl) V O R c).before 7 t d))
    ∗ (∃ d, owns (c : Thread nD τ) (st2_8 t) fullShare ((dat2 (Name := Name) (U := U) (Lvl := Lvl) V O R c).before 8 t d)))

/-- and what it returns. -/
def bodyPost2 (c : Dev nD) (t : Fin cfg2.N) : sProp 𝕄 :=
  iprop((dat2 (Name := Name) (U := U) (Lvl := Lvl) V O R c).Φ t.succ ∗ (dat2 (Name := Name) (U := U) (Lvl := Lvl) V O R c).owesAt ι t.succ
    ∗ owns (c : Thread nD τ) (st2_0 t) fullShare ((dat2 (Name := Name) (U := U) (Lvl := Lvl) V O R c).after 0 t)
    ∗ owns (c : Thread nD τ) (st2_1 t) fullShare ((dat2 (Name := Name) (U := U) (Lvl := Lvl) V O R c).after 1 t)
    ∗ owns (c : Thread nD τ) (st2_2 t) fullShare ((dat2 (Name := Name) (U := U) (Lvl := Lvl) V O R c).after 2 t)
    ∗ owns (c : Thread nD τ) (st2_3 t) fullShare ((dat2 (Name := Name) (U := U) (Lvl := Lvl) V O R c).after 3 t)
    ∗ owns (c : Thread nD τ) (st2_4 t) fullShare ((dat2 (Name := Name) (U := U) (Lvl := Lvl) V O R c).after 4 t)
    ∗ owns (c : Thread nD τ) (st2_5 t) fullShare ((dat2 (Name := Name) (U := U) (Lvl := Lvl) V O R c).after 5 t)
    ∗ owns (c : Thread nD τ) (st2_6 t) fullShare ((dat2 (Name := Name) (U := U) (Lvl := Lvl) V O R c).after 6 t)
    ∗ owns (c : Thread nD τ) (st2_7 t) fullShare ((dat2 (Name := Name) (U := U) (Lvl := Lvl) V O R c).after 7 t)
    ∗ owns (c : Thread nD τ) (st2_8 t) fullShare ((dat2 (Name := Name) (U := U) (Lvl := Lvl) V O R c).after 8 t))

/-- The body at any point: the inputs' memrefs hold their blocks, so the body's triple applies; the invariant and the
    core's `owes` pass through unread. -/
theorem sound_body2 (c : Dev nD) (t : Fin cfg2.N) :
    bodyPre2 (Name := Name) (U := U) (Lvl := Lvl) ι V O R c t ⊢ wp frame (wpE (defs₀ (F := F)) 𝒱₀ c none) Set.univ (bodyAt2 t) (fun _ => bodyPost2 ι V O R c t) := by
  unfold bodyPre2 bodyPost2 bodyAt2
  simp only [before2_0, before2_1, before2_2, before2_3, before2_4, before2_5, before2_6, before2_7]
  rw [show (dat2 (Name := Name) (U := U) (Lvl := Lvl) V O R c).Φ t.succ = (dat2 (Name := Name) (U := U) (Lvl := Lvl) V O R c).Φ t.castSucc from rfl,
    show (dat2 (Name := Name) (U := U) (Lvl := Lvl) V O R c).owesAt ι t.succ = (dat2 (Name := Name) (U := U) (Lvl := Lvl) V O R c).owesAt ι t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 𝒱₀ c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation2 (c : Dev nD) : BodyObligation (dat2 (F := F) (Name := Name) (U := U) (Lvl := Lvl) V O R c) (defs₀ (F := F)) 𝒱₀ ι Set.univ := fun t => by
  rw [bigSep_W2, bigSep_W2]
  exact sound_body2 𝒱₀ ι V O R c t

end Cert.Kernel.Reg

end
-- ==== Proof.Bits.RegSeg.lean ====
import proofs.«205759_g46823733461237_cont_8to1_c_287_19_alg».proof.Proof.Bits.RegBase
import proofs.«205759_g46823733461237_cont_8to1_c_287_19_alg».proof.Proof.Bits.RegDat0
import proofs.«205759_g46823733461237_cont_8to1_c_287_19_alg».proof.Proof.Bits.RegDat2

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants) (ι : Ix) (L : GSem nD τ sig → Finset Ix) (lv : GSem nD τ sig → Ix → Lvl)
variable (V0 : TcVal F) (O0 : Dev nD → CellTallies nD τ sig Ix) (R0 : Dev nD → Set (SemLoc sig × Ix))
variable (V2 : TcVal F) (O2 : Dev nD → CellTallies nD τ sig Ix) (R2 : Dev nD → Set (SemLoc sig × Ix))

/-! # The two TensorCore calls as regions -/

/-- Both pipelines' proof data, each at its region's entry contents, what the core owes during it and the bound on its
    recorded pairs at its entry — a literal match, so that the pinned configuration at a numeral reduces to the printed one. -/
def rdats : (p : Fin 2) → (c : Dev nD) → RDat τ (Elt F) Ix Name U Lvl (Pipeline.pin (pcfgs (F := F)) adm p) c
  | ⟨0, _⟩ => fun c => rdat0 V0 O0 R0 c
  | ⟨1, _⟩ => fun c => (dat2 V2 O2 R2 c).toR

local notation "𝔯" => rdats (Name := Name) (U := U) (Lvl := Lvl) V0 O0 R0 V2 O2 R2
local notation "𝔡₂" => dat2 (Name := Name) (U := U) (Lvl := Lvl) V2 O2 R2

set_option backward.isDefEq.respectTransparency.types false in
/-- The second TensorCore call as a region: entered from its nine arrays at `V2` and the core owing `O2 c`, left at the
    arrays as the write-backs leave them (the inputs as entered) and the core owing the same, its recorded pairs grown by
    the staging cells' waits; the scoped buffers pass through the invariant untouched; no semaphore of the kernel's own. -/
def reg2 (hw : ∀ (c : Dev nD) (sm : SemLoc sig), (levAts L lv : sProp 𝕄) ⊢ MayWait (c : Thread nD τ) sm ι (O2 c)) :
    Pipeline.RDat.RegionSeg (pcfgs (F := F)) adm 𝔯 ι defs₀ 𝒱₀ L lv 1 where
  win := launch2.win.to₀
  block_pos := launch2.block_pos
  stage_whole := launch2.stage_whole
  K := PEmpty
  osem k := k.elim
  ho := Pipeline.OwnSemFacts.none _
  hbody c := (body_obligation2 𝒱₀ ι V2 O2 R2 c).toR
  hwaits c := Pipeline.RDat.cellsWaits_intro _ _ _ 1 c fun w s t => hw c _
  pre c := iprop((𝔡₂ c).arrays (fun w => V2 c (Pipeline.arrRef spec2 w)) ∗ Pipeline.owesWithin c (O2 c) (R2 c))
  post c := iprop((𝔡₂ c).arrays (fun w => (𝔡₂ c).arrAt w cfg2.N) ∗ Pipeline.owesWithin c (O2 c) (R2 c ∪ cfg2.waitPairs ι))
  X c := iprop(emp)
  Y c := iprop(emp)
  Z c := iprop(emp)
  hentry c := by
    rw [Pipeline.ownSems0_none,
      show (𝔯 1 c).arrays (𝔯 1 c).A = (𝔡₂ c).arrays (fun w => V2 c (Pipeline.arrRef spec2 w)) from rfl,
      show (𝔯 1 c).owesAt ι 0 = Pipeline.owesWithin c (O2 c) (R2 c ∪ cfg2.waitPairs ι) from rfl]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O2 c) (Set.subset_union_left)); iexact HO
    isplitr <;> iempintro
  hin c := by
    rw [show (𝔯 1 c).Φ 0 = Pipeline.scopedRest spec2 c from rfl]
    iintro ⟨-, -, Hr⟩; iexact Hr
  hout c := by
    rw [Pipeline.ownSems0_none, show (𝔯 1 c).Φ (Fin.last _) = Pipeline.scopedRest spec2 c from rfl]
    iintro Hr
    isplitr; · iempintro
    isplitr; · iempintro
    iexact Hr
  hexit c := by
    rw [show (𝔯 1 c).arraysAt (Pipeline.pin (pcfgs (F := F)) adm 1).N = (𝔡₂ c).toR.arraysAt cfg2.N from rfl,
      show (𝔯 1 c).owesAt ι (Fin.last (Pipeline.pin (pcfgs (F := F)) adm 1).N) = Pipeline.owesWithin c (O2 c) (R2 c ∪ cfg2.waitPairs ι) from rfl]
    iintro ⟨Ha, HO, -, -⟩
    imodintro
    isplitl [Ha]
    · iapply ((𝔡₂ c).toR_arraysAt_post cfg2.N); iexact Ha
    iexact HO

local notation "𝔯₀" => rdat0 (Name := Name) (U := U) (Lvl := Lvl) V0 O0 R0

set_option backward.isDefEq.respectTransparency.types false in
/-- The first TensorCore call as a region: entered from its two arrays at `V0` and the core owing `O0 c`, left at the arrays
    at some contents they may hold after the write-backs (the input as entered; the result constrained on the columns
    inside the input array) and the core owing the same, its recorded pairs grown by the staging cells' waits. -/
def reg0 (hw : ∀ (c : Dev nD) (sm : SemLoc sig), (levAts L lv : sProp 𝕄) ⊢ MayWait (c : Thread nD τ) sm ι (O0 c)) :
    Pipeline.RDat.RegionSeg (pcfgs (F := F)) adm 𝔯 ι defs₀ 𝒱₀ L lv 0 where
  win := launch0.win.to₀
  block_pos := launch0.block_pos
  stage_whole := launch0.stage_whole
  K := PEmpty
  osem k := k.elim
  ho := Pipeline.OwnSemFacts.none _
  hbody c := body_obligation0 𝒱₀ ι V0 O0 R0 c
  hwaits c := Pipeline.RDat.cellsWaits_intro _ _ _ 0 c fun w s t => hw c _
  pre c := iprop((𝔯₀ c).arrays (fun w => V0 c (Pipeline.arrRef spec0 w)) ∗ Pipeline.owesWithin c (O0 c) (R0 c))
  post c := iprop((𝔯₀ c).arraysAt cfg0.N ∗ Pipeline.owesWithin c (O0 c) (R0 c ∪ cfg0.waitPairs ι))
  X c := iprop(emp)
  Y c := iprop(emp)
  Z c := iprop(emp)
  hentry c := by
    rw [Pipeline.ownSems0_none,
      show (𝔯 0 c).arrays (𝔯 0 c).A = (𝔯₀ c).arrays (fun w => V0 c (Pipeline.arrRef spec0 w)) from rfl,
      show (𝔯 0 c).owesAt ι 0 = Pipeline.owesWithin c (O0 c) (R0 c ∪ cfg0.waitPairs ι) from rfl]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O0 c) (Set.subset_union_left)); iexact HO
    isplitr <;> iempintro
  hin c := by
    rw [show (𝔯 0 c).Φ 0 = Pipeline.scopedRest spec0 c from rfl]
    iintro ⟨-, -, Hr⟩; iexact Hr
  hout c := by
    rw [Pipeline.ownSems0_none, show (𝔯 0 c).Φ (Fin.last _) = Pipeline.scopedRest spec0 c from rfl]
    iintro Hr
    isplitr; · iempintro
    isplitr; · iempintro
    iexact Hr
  hexit c := by
    rw [show (𝔯 0 c).arraysAt (Pipeline.pin (pcfgs (F := F)) adm 0).N = (𝔯₀ c).arraysAt cfg0.N from rfl,
      show (𝔯 0 c).owesAt ι (Fin.last (Pipeline.pin (pcfgs (F := F)) adm 0).N) = Pipeline.owesWithin c (O0 c) (R0 c ∪ cfg0.waitPairs ι) from rfl]
    iintro ⟨Ha, HO, -, -⟩
    imodintro
    isplitl [Ha]; · iexact Ha
    iexact HO

end Cert.Kernel.Reg

end
-- ==== Proof.Bits.RegVal0.lean ====
import proofs.«205759_g46823733461237_cont_8to1_c_287_19_alg».proof.Proof.Bits.RegBase
import proofs.«205759_g46823733461237_cont_8to1_c_287_19_alg».proof.Proof.Bits.RegDat0
import Idealize.ShloMosaic.Lib.Pipeline.Value
import Idealize.ShloMosaic.Lib.ValueIdx

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : TcVal F) (O : Dev nD → CellTallies nD τ sig Ix) (R : Dev nD → Set (SemLoc sig × Ix))

/-! # The first TensorCore call: the result array after the run

Each point writes its whole (8192, 128) block back to rows `8192 t ‥ 8192 t + 8191`; the blocks are disjoint, so after the
run row `8192 i + r`, lane `64 h + k` holds what point `i` left at row `r` there: the input's row `k`, column
`16384 i + 8192 h + r`, wherever that column is inside the input array. Nothing is said of the other entries. -/

/-- The output block at point `t`, read at an index: the array at the block's row offset. -/
theorem blk0_1_read (G : S507904x128.Idx → Elt F .f32) (t : Fin cfg0.N) (a : Fin 8192) (b : Fin 128) :
    (win0_1.blk t).view.read (Elt F) G (ix2 a b)
      = G (ix2 (⟨8192 * t.val + a.val, by have := t.isLt; have e : cfg0.N = 62 := N_0; omega⟩ : Fin 507904) b) := by
  rw [View.read_apply]
  show G _ = G _
  refine congrArg G (funext fun x => Fin.ext ?_)
  have hi0 : win0_1.index t 0 = t.val := (by decide +kernel : ∀ t : Fin grid0.N, win0_1.index t 0 = t.val) t
  have hi1 : win0_1.index t 1 = 0 := (by decide +kernel : ∀ t : Fin grid0.N, win0_1.index t 1 = 0) t
  match x with
  | ⟨0, _⟩ =>
    show ((win0_1.rect t).emb (ix2 a b) (0 : Fin 2) : Nat) = 8192 * t.val + a.val
    rw [win0_1.rect_emb_val t _ 0, hi0]; show t.val * 8192 + a.val = _; omega
  | ⟨1, _⟩ =>
    show ((win0_1.rect t).emb (ix2 a b) (1 : Fin 2) : Nat) = b.val
    rw [win0_1.rect_emb_val t _ 1, hi1]; show 0 * 128 + b.val = _; omega

/-- A row of another point's block is not in point `n`'s. -/
theorem not_mem_blk0_1 (n : Fin cfg0.N) (i : Nat) (hi : i < n.val) (r : Fin 8192) (b : Fin 128) (hlt : 8192 * i + r.val < 507904) :
    (ix2 (⟨8192 * i + r.val, hlt⟩ : Fin 507904) b : S507904x128.Idx) ∉ (win0_1.blk n).view.setOn Finset.univ := by
  rw [View.setOn_univ]
  show _ ∉ ((View.whole main_v1).slice (win0_1.rect n)).set
  rw [View.set_slice_whole, Rect.mem_set_unit]
  have hi0 : win0_1.index n 0 = n.val := (by decide +kernel : ∀ t : Fin grid0.N, win0_1.index t 0 = t.val) n
  intro hmem
  have h0 := (hmem (0 : Fin 2)).1
  change win0_1.index n 0 * 8192 ≤ 8192 * i + r.val at h0
  rw [hi0] at h0
  have := r.isLt
  omega

/-- What the result array may hold after the write-backs below `n`, under the blocks of the points below `n`. -/
theorem arrAt0_1_aux (c : Dev nD) : ∀ (n : Nat) (hn : n ≤ 62) (G : S507904x128.Idx → Elt F .f32), (rdat0 (Name := Name) (U := U) (Lvl := Lvl) V O R c).ArrAt 1 n G →
    ∀ (i : Nat) (r : Fin 8192) (h : Fin 2) (k : Fin 64), i < n → ∀ (hc : 16384 * i + 8192 * h.val + r.val < 1000000) (hlt : 8192 * i + r.val < 507904),
      G (ix2 (⟨8192 * i + r.val, hlt⟩ : Fin 507904) (⟨64 * h.val + k.val, by omega⟩ : Fin 128))
        = in0 V c (ix2 k (⟨16384 * i + 8192 * h.val + r.val, hc⟩ : Fin 1000000))
  | 0, _, _, _, i, _, _, _, hi, _, _ => absurd hi (Nat.not_lt_zero _)
  | n + 1, hn, G, hG, i, r, h, k, hi, hc, hlt => by
    have hn' : n < cfg0.N := by have e : cfg0.N = 62 := N_0; omega
    rw [show n + 1 = (⟨n, hn'⟩ : Fin cfg0.N).val + 1 from rfl, RDat.ArrAt_succ, if_pos (flush0_1 _)] at hG
    obtain ⟨G₀, X, hG₀, ⟨Y, -, hXY⟩, rfl⟩ := hG
    rw [after0_1] at hXY
    by_cases hin : i = n
    · subst hin
      have e := blk0_1_read ((win0_1.blk ⟨i, hn'⟩).view.write (Elt F) G₀ (win0_1.cut (grid0.coords ⟨i, hn'⟩) X) Finset.univ) ⟨i, hn'⟩ r (⟨64 * h.val + k.val, by omega⟩ : Fin 128)
      rw [View.read_write_univ] at e
      exact e.symm.trans (hXY r h k hc)
    · rw [View.write_of_not_mem _ _ _ (not_mem_blk0_1 ⟨n, hn'⟩ i (by show i < n; omega) r _ hlt)]
      exact arrAt0_1_aux c n (by omega) G₀ hG₀ i r h k (by omega) hc hlt

/-- THE RESULT ARRAY AFTER THE RUN: whatever it may hold, row `8192 i + r`, lane `64 h + k` is the input array's row `k`,
    column `16384 i + 8192 h + r`, wherever that column is inside the input array. -/
theorem arrAt0_1_apply (c : Dev nD) (G : S507904x128.Idx → Elt F .f32) (hG : (rdat0 (Name := Name) (U := U) (Lvl := Lvl) V O R c).ArrAt 1 cfg0.N G)
    (i : Fin 62) (r : Fin 8192) (h : Fin 2) (k : Fin 64) (hc : 16384 * i.val + 8192 * h.val + r.val < 1000000) :
    G (ix2 (⟨8192 * i.val + r.val, by omega⟩ : Fin 507904) (⟨64 * h.val + k.val, by omega⟩ : Fin 128))
      = in0 V c (ix2 k (⟨16384 * i.val + 8192 * h.val + r.val, hc⟩ : Fin 1000000)) :=
  arrAt0_1_aux V O R c 62 le_rfl G (by rw [show (62 : Nat) = cfg0.N from N_0.symm]; exact hG) i.val r h k i.isLt hc (by omega)

/-- The input array ends as the region found it. -/
theorem arrAt0_0 (c : Dev nD) (n : Nat) : (rdat0 (Name := Name) (U := U) (Lvl := Lvl) V O R c).ArrAt 0 n = fun G => G = V c main_v0 :=
  (rdat0 (Name := Name) (U := U) (Lvl := Lvl) V O R c).ArrAt_in 0 rfl n

end Cert.Kernel.Reg

end
-- ==== Proof.Bits.RegVal2.lean ====
import proofs.«205759_g46823733461237_cont_8to1_c_287_19_alg».proof.Proof.Bits.RegBase
import proofs.«205759_g46823733461237_cont_8to1_c_287_19_alg».proof.Proof.Bits.RegDat2
import Idealize.ShloMosaic.Lib.Pipeline.Value
import Idealize.ShloMosaic.Lib.ValueIdx

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : TcVal F) (O : Dev nD → CellTallies nD τ sig Ix) (R : Dev nD → Set (SemLoc sig × Ix))

/-! # The second TensorCore call: the arrays after the run

## The input blocks, read at an index -/

/-- Window 0's array as the region finds it. -/
abbrev arr2_0 (c : Dev nD) : S16384x128.Idx → Elt F .f32 := V c main_v20_0
/-- Window 1's array as the region finds it. -/
abbrev arr2_1 (c : Dev nD) : S16384x128.Idx → Elt F .f32 := V c main_v20_1
/-- Window 2's array as the region finds it. -/
abbrev arr2_2 (c : Dev nD) : S16384x1.Idx → Elt F .i32 := V c main_v16
/-- Window 3's array as the region finds it. -/
abbrev arr2_3 (c : Dev nD) : S16384x1.Idx → Elt F .i32 := V c main_v19
/-- Window 4's array as the region finds it. -/
abbrev arr2_4 (c : Dev nD) : S64x128.Idx → Elt F .f32 := V c main_arg4
/-- Window 5's array as the region finds it. -/
abbrev arr2_5 (c : Dev nD) : S1x128.Idx → Elt F .f32 := V c main_v21
/-- Window 6's array as the region finds it. -/
abbrev arr2_6 (c : Dev nD) : S1x128.Idx → Elt F .f32 := V c main_v22
/-- Window 7's array as the region finds it. -/
abbrev arr2_7 (c : Dev nD) : S1x1.Idx → Elt F .f32 := V c main_v23

/-- Window 0's block at point `t`: rows `2048 t ‥ 2048 t + 2047` of its array. -/
theorem iblk2_0_apply (c : Dev nD) (t : Fin cfg2.N) (a : Fin 2048) (b : Fin 128) :
    iblk2 V c 0 t (ix2 a b) = arr2_0 V c (ix2 (⟨2048 * t.val + a.val, by have := t.isLt; have e : cfg2.N = 8 := N_2; omega⟩ : Fin 16384) b) := by
  unfold iblk2
  rw [View.read_apply]
  show arr2_0 V c _ = arr2_0 V c _
  refine congrArg (arr2_0 V c) (funext fun x => Fin.ext ?_)
  have hi0 : win2_0.index t 0 = t.val := (by decide +kernel : ∀ t : Fin grid2.N, win2_0.index t 0 = t.val) t
  have hi1 : win2_0.index t 1 = 0 := (by decide +kernel : ∀ t : Fin grid2.N, win2_0.index t 1 = 0) t
  match x with
  | ⟨0, _⟩ =>
    show ((win2_0.rect t).emb (ix2 a b) (0 : Fin 2) : Nat) = 2048 * t.val + a.val
    rw [win2_0.rect_emb_val t _ 0, hi0]; show t.val * 2048 + a.val = _; omega
  | ⟨1, _⟩ =>
    show ((win2_0.rect t).emb (ix2 a b) (1 : Fin 2) : Nat) = b.val
    rw [win2_0.rect_emb_val t _ 1, hi1]; show 0 * 128 + b.val = _; omega

/-- Window 1's block at point `t`: rows `2048 t ‥ 2048 t + 2047` of its array. -/
theorem iblk2_1_apply (c : Dev nD) (t : Fin cfg2.N) (a : Fin 2048) (b : Fin 128) :
    iblk2 V c 1 t (ix2 a b) = arr2_1 V c (ix2 (⟨2048 * t.val + a.val, by have := t.isLt; have e : cfg2.N = 8 := N_2; omega⟩ : Fin 16384) b) := by
  unfold iblk2
  rw [View.read_apply]
  show arr2_1 V c _ = arr2_1 V c _
  refine congrArg (arr2_1 V c) (funext fun x => Fin.ext ?_)
  have hi0 : win2_1.index t 0 = t.val := (by decide +kernel : ∀ t : Fin grid2.N, win2_1.index t 0 = t.val) t
  have hi1 : win2_1.index t 1 = 0 := (by decide +kernel : ∀ t : Fin grid2.N, win2_1.index t 1 = 0) t
  match x with
  | ⟨0, _⟩ =>
    show ((win2_1.rect t).emb (ix2 a b) (0 : Fin 2) : Nat) = 2048 * t.val + a.val
    rw [win2_1.rect_emb_val t _ 0, hi0]; show t.val * 2048 + a.val = _; omega
  | ⟨1, _⟩ =>
    show ((win2_1.rect t).emb (ix2 a b) (1 : Fin 2) : Nat) = b.val
    rw [win2_1.rect_emb_val t _ 1, hi1]; show 0 * 128 + b.val = _; omega

/-- Window 2's block at point `t`: rows `2048 t ‥ 2048 t + 2047` of its array. -/
theorem iblk2_2_apply (c : Dev nD) (t : Fin cfg2.N) (a : Fin 2048) (b : Fin 1) :
    iblk2 V c 2 t (ix2 a b) = arr2_2 V c (ix2 (⟨2048 * t.val + a.val, by have := t.isLt; have e : cfg2.N = 8 := N_2; omega⟩ : Fin 16384) b) := by
  unfold iblk2
  rw [View.read_apply]
  show arr2_2 V c _ = arr2_2 V c _
  refine congrArg (arr2_2 V c) (funext fun x => Fin.ext ?_)
  have hi0 : win2_2.index t 0 = t.val := (by decide +kernel : ∀ t : Fin grid2.N, win2_2.index t 0 = t.val) t
  have hi1 : win2_2.index t 1 = 0 := (by decide +kernel : ∀ t : Fin grid2.N, win2_2.index t 1 = 0) t
  match x with
  | ⟨0, _⟩ =>
    show ((win2_2.rect t).emb (ix2 a b) (0 : Fin 2) : Nat) = 2048 * t.val + a.val
    rw [win2_2.rect_emb_val t _ 0, hi0]; show t.val * 2048 + a.val = _; omega
  | ⟨1, _⟩ =>
    show ((win2_2.rect t).emb (ix2 a b) (1 : Fin 2) : Nat) = b.val
    rw [win2_2.rect_emb_val t _ 1, hi1]; show 0 * 1 + b.val = _; omega

/-- Window 3's block at point `t`: rows `2048 t ‥ 2048 t + 2047` of its array. -/
theorem iblk2_3_apply (c : Dev nD) (t : Fin cfg2.N) (a : Fin 2048) (b : Fin 1) :
    iblk2 V c 3 t (ix2 a b) = arr2_3 V c (ix2 (⟨2048 * t.val + a.val, by have := t.isLt; have e : cfg2.N = 8 := N_2; omega⟩ : Fin 16384) b) := by
  unfold iblk2
  rw [View.read_apply]
  show arr2_3 V c _ = arr2_3 V c _
  refine congrArg (arr2_3 V c) (funext fun x => Fin.ext ?_)
  have hi0 : win2_3.index t 0 = t.val := (by decide +kernel : ∀ t : Fin grid2.N, win2_3.index t 0 = t.val) t
  have hi1 : win2_3.index t 1 = 0 := (by decide +kernel : ∀ t : Fin grid2.N, win2_3.index t 1 = 0) t
  match x with
  | ⟨0, _⟩ =>
    show ((win2_3.rect t).emb (ix2 a b) (0 : Fin 2) : Nat) = 2048 * t.val + a.val
    rw [win2_3.rect_emb_val t _ 0, hi0]; show t.val * 2048 + a.val = _; omega
  | ⟨1, _⟩ =>
    show ((win2_3.rect t).emb (ix2 a b) (1 : Fin 2) : Nat) = b.val
    rw [win2_3.rect_emb_val t _ 1, hi1]; show 0 * 1 + b.val = _; omega

/-- Window 4's block at every point is its whole array. -/
theorem iblk2_4_eq (c : Dev nD) (t : Fin cfg2.N) : iblk2 V c 4 t = arr2_4 V c := by
  funext y
  unfold iblk2
  rw [View.read_apply]
  show arr2_4 V c _ = arr2_4 V c _
  refine congrArg (arr2_4 V c) (funext fun x => Fin.ext ?_)
  have hi0 : win2_4.index t 0 = 0 := (by decide +kernel : ∀ t : Fin grid2.N, win2_4.index t 0 = 0) t
  have hi1 : win2_4.index t 1 = 0 := (by decide +kernel : ∀ t : Fin grid2.N, win2_4.index t 1 = 0) t
  match x with
  | ⟨0, _⟩ =>
    show ((win2_4.rect t).emb y (0 : Fin 2) : Nat) = (y (0 : Fin 2)).val
    rw [win2_4.rect_emb_val t _ 0, hi0]; show 0 * 64 + (y (0 : Fin 2)).val = _; omega
  | ⟨1, _⟩ =>
    show ((win2_4.rect t).emb y (1 : Fin 2) : Nat) = (y (1 : Fin 2)).val
    rw [win2_4.rect_emb_val t _ 1, hi1]; show 0 * 128 + (y (1 : Fin 2)).val = _; omega

/-- Window 5's block at every point is its whole array. -/
theorem iblk2_5_eq (c : Dev nD) (t : Fin cfg2.N) : iblk2 V c 5 t = arr2_5 V c := by
  funext y
  unfold iblk2
  rw [View.read_apply]
  show arr2_5 V c _ = arr2_5 V c _
  refine congrArg (arr2_5 V c) (funext fun x => Fin.ext ?_)
  have hi0 : win2_5.index t 0 = 0 := (by decide +kernel : ∀ t : Fin grid2.N, win2_5.index t 0 = 0) t
  have hi1 : win2_5.index t 1 = 0 := (by decide +kernel : ∀ t : Fin grid2.N, win2_5.index t 1 = 0) t
  match x with
  | ⟨0, _⟩ =>
    show ((win2_5.rect t).emb y (0 : Fin 2) : Nat) = (y (0 : Fin 2)).val
    rw [win2_5.rect_emb_val t _ 0, hi0]; show 0 * 1 + (y (0 : Fin 2)).val = _; omega
  | ⟨1, _⟩ =>
    show ((win2_5.rect t).emb y (1 : Fin 2) : Nat) = (y (1 : Fin 2)).val
    rw [win2_5.rect_emb_val t _ 1, hi1]; show 0 * 128 + (y (1 : Fin 2)).val = _; omega

/-- Window 6's block at every point is its whole array. -/
theorem iblk2_6_eq (c : Dev nD) (t : Fin cfg2.N) : iblk2 V c 6 t = arr2_6 V c := by
  funext y
  unfold iblk2
  rw [View.read_apply]
  show arr2_6 V c _ = arr2_6 V c _
  refine congrArg (arr2_6 V c) (funext fun x => Fin.ext ?_)
  have hi0 : win2_6.index t 0 = 0 := (by decide +kernel : ∀ t : Fin grid2.N, win2_6.index t 0 = 0) t
  have hi1 : win2_6.index t 1 = 0 := (by decide +kernel : ∀ t : Fin grid2.N, win2_6.index t 1 = 0) t
  match x with
  | ⟨0, _⟩ =>
    show ((win2_6.rect t).emb y (0 : Fin 2) : Nat) = (y (0 : Fin 2)).val
    rw [win2_6.rect_emb_val t _ 0, hi0]; show 0 * 1 + (y (0 : Fin 2)).val = _; omega
  | ⟨1, _⟩ =>
    show ((win2_6.rect t).emb y (1 : Fin 2) : Nat) = (y (1 : Fin 2)).val
    rw [win2_6.rect_emb_val t _ 1, hi1]; show 0 * 128 + (y (1 : Fin 2)).val = _; omega

/-- Window 7's block at every point is its whole array. -/
theorem iblk2_7_eq (c : Dev nD) (t : Fin cfg2.N) : iblk2 V c 7 t = arr2_7 V c := by
  funext y
  unfold iblk2
  rw [View.read_apply]
  show arr2_7 V c _ = arr2_7 V c _
  refine congrArg (arr2_7 V c) (funext fun x => Fin.ext ?_)
  have hi0 : win2_7.index t 0 = 0 := (by decide +kernel : ∀ t : Fin grid2.N, win2_7.index t 0 = 0) t
  have hi1 : win2_7.index t 1 = 0 := (by decide +kernel : ∀ t : Fin grid2.N, win2_7.index t 1 = 0) t
  match x with
  | ⟨0, _⟩ =>
    show ((win2_7.rect t).emb y (0 : Fin 2) : Nat) = (y (0 : Fin 2)).val
    rw [win2_7.rect_emb_val t _ 0, hi0]; show 0 * 1 + (y (0 : Fin 2)).val = _; omega
  | ⟨1, _⟩ =>
    show ((win2_7.rect t).emb y (1 : Fin 2) : Nat) = (y (1 : Fin 2)).val
    rw [win2_7.rect_emb_val t _ 1, hi1]; show 0 * 1 + (y (1 : Fin 2)).val = _; omega

/-! ## The output block is the payload of the input blocks -/

theorem out2_8_eq (x0 : Vec F S2048x128 .f32) (x1 : Vec F S2048x128 .f32) (x2 : Vec F S2048x1 .i32) (x3 : Vec F S2048x1 .i32) (x4 : Vec F S64x128 .f32) (x5 : Vec F S1x128 .f32) (x6 : Vec F S1x128 .f32) (x7 : Vec F S1x1 .f32) :
    out2_8 x0 x1 x2 x3 x4 x5 x6 x7
      = k2_pay1 (k2_pay2 x0 x2) (k2_pay3 x1 x3) (k2_pay4 x1 x3) (k2_pay5 x0 x2) (k2_pay6 x1 x3) (k2_pay7 (F := F)) x4 x5 x6 x7 := by
  have hz2 : (![0, 0] : Fin 2 → Nat) = fun _ => 0 := funext fun a => by fin_cases a <;> rfl
  have hz1 : (![0] : Fin 1 → Nat) = fun _ => 0 := funext fun a => by fin_cases a; rfl
  unfold out2_8 pay2
  rw [View.canon_unit_zero hz1]
  simp only [View.ld_unit_zero (S := S2048x128) hz2, View.ld_unit_zero (S := S2048x1) hz2, View.ld_unit_zero (S := S64x128) hz2,
    View.ld_unit_zero (S := S1x128) hz2, View.ld_unit_zero (S := S1x1) hz2]

/-! ## The arrays after the run -/

/-- An input's array ends as the region found it. -/
theorem arrAt2_in (c : Dev nD) (w : Fin cfg2.W) (hw : (cfg2.win w).isOut = false) (n : Nat) :
    (dat2 (Name := Name) (U := U) (Lvl := Lvl) V O R c).arrAt w n = V c (Pipeline.arrRef spec2 w) :=
  ((dat2 (Name := Name) (U := U) (Lvl := Lvl) V O R c).arrAt_in w hw n).trans (A_eq2 V O R c w)

/-- The point whose block holds element `j` of the result. -/
def pt2 (j : Fin 16384) : Fin cfg2.N := ⟨j.val / 2048, by have e : cfg2.N = 8 := N_2; rw [e]; have := j.isLt; omega⟩

/-- The result array after the run, as one function of the region-entry contents: element `j` is element `j % 2048` of the
    payload of the eight inputs' blocks at point `j / 2048`. -/
def res2 (c : Dev nD) : S16384.Idx → Elt F .f32 := fun j =>
  out2_8 (iblk2 V c 0 (pt2 (j 0))) (iblk2 V c 1 (pt2 (j 0))) (iblk2 V c 2 (pt2 (j 0))) (iblk2 V c 3 (pt2 (j 0)))
    (iblk2 V c 4 (pt2 (j 0))) (iblk2 V c 5 (pt2 (j 0))) (iblk2 V c 6 (pt2 (j 0))) (iblk2 V c 7 (pt2 (j 0)))
    (ix1 (⟨(j 0).val % 2048, Nat.mod_lt _ (by decide)⟩ : Fin 2048))

/-- The result block at point `t`, read at an index: the array at the block's offset. -/
theorem blk2_8_read (G : S16384.Idx → Elt F .f32) (t : Fin cfg2.N) (a : Fin 2048) :
    (win2_8.blk t).view.read (Elt F) G (ix1 a)
      = G (ix1 (⟨2048 * t.val + a.val, by have := t.isLt; have e : cfg2.N = 8 := N_2; omega⟩ : Fin 16384)) := by
  rw [View.read_apply]
  show G _ = G _
  refine congrArg G (funext fun x => Fin.ext ?_)
  have hi0 : win2_8.index t 0 = t.val := (by decide +kernel : ∀ t : Fin grid2.N, win2_8.index t 0 = t.val) t
  match x with
  | ⟨0, _⟩ =>
    show ((win2_8.rect t).emb (ix1 a) (0 : Fin 1) : Nat) = 2048 * t.val + a.val
    rw [win2_8.rect_emb_val t _ 0, hi0]; show t.val * 2048 + a.val = _; omega

/-- THE RESULT ARRAY AFTER THE RUN is `res2`: every point writes back its block of it, and the blocks cover the array. -/
theorem arrAt2_8 (c : Dev nD) : (dat2 (Name := Name) (U := U) (Lvl := Lvl) V O R c).arrAt 8 cfg2.N = res2 V c := by
  refine (dat2 (Name := Name) (U := U) (Lvl := Lvl) V O R c).arrAt_eq_of_cover 8 (res2 V c) (fun t _ => ?_) (fun i => ?_)
  · funext y
    obtain ⟨a, rfl⟩ : ∃ a : Fin 2048, y = ix1 a := ⟨y 0, eq_ix1 y⟩
    have hlt : 2048 * t.val + a.val < 16384 := by have ht : t.val < 8 := lt_of_lt_of_eq t.isLt N_2; have := a.isLt; omega
    have hp : pt2 (⟨2048 * t.val + a.val, hlt⟩ : Fin 16384) = t := Fin.ext (by show (2048 * t.val + a.val) / 2048 = t.val; omega)
    have hm : (⟨(2048 * t.val + a.val) % 2048, Nat.mod_lt _ (by decide)⟩ : Fin 2048) = a := Fin.ext (by show (2048 * t.val + a.val) % 2048 = a.val; omega)
    refine Eq.trans ?_ (blk2_8_read (res2 V c) t a).symm
    show (dat2 (Name := Name) (U := U) (Lvl := Lvl) V O R c).after 8 t (win2_8.xinj (grid2.coords t) (ix1 a)) = _
    rw [show win2_8.xinj (grid2.coords t) (ix1 a) = ix1 a from funext fun d => match d with | ⟨0, _⟩ => rfl, after2_8]
    show _ = out2_8 (iblk2 V c 0 (pt2 ⟨2048 * t.val + a.val, hlt⟩)) (iblk2 V c 1 (pt2 ⟨2048 * t.val + a.val, hlt⟩)) (iblk2 V c 2 (pt2 ⟨2048 * t.val + a.val, hlt⟩)) (iblk2 V c 3 (pt2 ⟨2048 * t.val + a.val, hlt⟩))
      (iblk2 V c 4 (pt2 ⟨2048 * t.val + a.val, hlt⟩)) (iblk2 V c 5 (pt2 ⟨2048 * t.val + a.val, hlt⟩)) (iblk2 V c 6 (pt2 ⟨2048 * t.val + a.val, hlt⟩)) (iblk2 V c 7 (pt2 ⟨2048 * t.val + a.val, hlt⟩))
      (ix1 (⟨(2048 * t.val + a.val) % 2048, Nat.mod_lt _ (by decide)⟩ : Fin 2048))
    rw [hp, hm]
  · refine ⟨pt2 (i 0), flush2_8 _, ?_⟩
    show i ∈ ((View.whole main_v24).slice (win2_8.rect (pt2 (i 0)))).set
    rw [View.set_slice_whole, Rect.mem_set_unit]
    have hi0 : win2_8.index (pt2 (i 0)) 0 = (pt2 (i 0)).val := (by decide +kernel : ∀ t : Fin grid2.N, win2_8.index t 0 = t.val) _
    intro a
    match a with
    | ⟨0, _⟩ =>
      show win2_8.index (pt2 (i 0)) 0 * 2048 ≤ (i 0).val ∧ (i 0).val < win2_8.index (pt2 (i 0)) 0 * 2048 + 2048
      rw [hi0]
      show (i 0).val / 2048 * 2048 ≤ (i 0).val ∧ (i 0).val < (i 0).val / 2048 * 2048 + 2048
      omega

end Cert.Kernel.Reg

end
-- ==== Proof.Bits.RegGlueA.lean ====
import proofs.«205759_g46823733461237_cont_8to1_c_287_19_alg».proof.Proof.Bits.KSpecs
import proofs.«205759_g46823733461237_cont_8to1_c_287_19_alg».proof.Proof.Bits.RegSeg
import proofs.«205759_g46823733461237_cont_8to1_c_287_19_alg».proof.Proof.Bits.RegVal0
import proofs.«205759_g46823733461237_cont_8to1_c_287_19_alg».proof.Proof.Bits.RegVal2

set_option maxRecDepth 16384

noncomputable section

namespace Cert.Kernel.KL

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)
open Idealize.ShloMosaic.ValueIdx (ix1 ix2)

variable {F : FTy → Type} [FloatOps F] [∀ e, Nonempty (Elt F e)]

local notation "𝕄" => MT nD τ sig (HIx 1) (Elt F) ℕ UU ℕ

/-! # The two TensorCore calls as the TensorCore's program meets them, from the regions' records -/

/-- A valuation of every TensorCore's buffers that holds `Vd` on device `d`. -/
def valAt (d : Dev nD) (Vd : (b : Ref sig .tc) → Buf (Elt F) (tcLoc d b)) : Reg.TcVal F :=
  fun c b => if h : c = d then (by subst h; exact Vd b) else fun _ => Classical.arbitrary _

theorem valAt_self (d : Dev nD) (Vd : (b : Ref sig .tc) → Buf (Elt F) (tcLoc d b)) (b : Ref sig .tc) : valAt d Vd d b = Vd b := by
  unfold valAt; rw [dif_pos rfl]

/-- The buffers' contents on device `d` with nine of them named (the last call's arrays). -/
def vd2 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : (b : Ref sig .tc) → Buf (Elt F) (tcLoc d b) := fun b =>
  if h : b = main_v20_0 then (by subst h; exact g0) else
  if h : b = main_v20_1 then (by subst h; exact g1) else
  if h : b = main_v16 then (by subst h; exact p0) else
  if h : b = main_v19 then (by subst h; exact p1) else
  if h : b = main_arg4 then (by subst h; exact w1) else
  if h : b = main_v21 then (by subst h; exact b1) else
  if h : b = main_v22 then (by subst h; exact w2) else
  if h : b = main_v23 then (by subst h; exact b2) else
  if h : b = main_v24 then (by subst h; exact o) else fun _ => Classical.arbitrary _

theorem vd2_0 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v20_0 = g0 := by
  unfold vd2; rw [dif_pos rfl]
theorem vd2_1 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v20_1 = g1 := by
  unfold vd2; rw [dif_neg (by decide), dif_pos rfl]
theorem vd2_2 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v16 = p0 := by
  unfold vd2; rw [dif_neg (by decide), dif_neg (by decide), dif_pos rfl]
theorem vd2_3 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v19 = p1 := by
  unfold vd2; rw [dif_neg (by decide), dif_neg (by decide), dif_neg (by decide), dif_pos rfl]
theorem vd2_4 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_arg4 = w1 := by
  unfold vd2; rw [dif_neg (by decide), dif_neg (by decide), dif_neg (by decide), dif_neg (by decide), dif_pos rfl]
theorem vd2_5 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v21 = b1 := by
  unfold vd2; rw [dif_neg (by decide), dif_neg (by decide), dif_neg (by decide), dif_neg (by decide), dif_neg (by decide), dif_pos rfl]
theorem vd2_6 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v22 = w2 := by
  unfold vd2; rw [dif_neg (by decide), dif_neg (by decide), dif_neg (by decide), dif_neg (by decide), dif_neg (by decide), dif_neg (by decide), dif_pos rfl]
theorem vd2_7 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v23 = b2 := by
  unfold vd2; rw [dif_neg (by decide), dif_neg (by decide), dif_neg (by decide), dif_neg (by decide), dif_neg (by decide), dif_neg (by decide), dif_neg (by decide), dif_pos rfl]
theorem vd2_8 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) : vd2 d g0 g1 p0 p1 w1 b1 w2 b2 o main_v24 = o := by
  unfold vd2; rw [dif_neg (by decide), dif_neg (by decide), dif_neg (by decide), dif_neg (by decide), dif_neg (by decide), dif_neg (by decide), dif_neg (by decide), dif_neg (by decide), dif_pos rfl]

/-! ## The last call -/

set_option backward.isDefEq.respectTransparency.types false in
/-- The last call's nine arrays, one by one. -/
theorem arrays2_eq (V : Reg.TcVal F) (O : CellTallies nD τ sig (HIx 1)) (W : Waits sig (HIx 1)) (d : Dev nD)
    (Fn : (w : Fin cfg2.W) → Buf (Elt F) ((cfg2.win w).arr.view.loc (d.tc : Thread nD τ))) :
    ((Reg.dat2 (Ix := HIx 1) (Name := ℕ) (U := UU) (Lvl := ℕ) V (fun _ => O) (fun _ => (↑W : Set (SemLoc sig × HIx 1))) d).arrays Fn : sProp 𝕄)
      = iprop((tcLoc d main_v20_0 ↦{fullShare} Fn 0) ∗ (tcLoc d main_v20_1 ↦{fullShare} Fn 1) ∗ (tcLoc d main_v16 ↦{fullShare} Fn 2) ∗ (tcLoc d main_v19 ↦{fullShare} Fn 3) ∗ (tcLoc d main_arg4 ↦{fullShare} Fn 4) ∗ (tcLoc d main_v21 ↦{fullShare} Fn 5) ∗ (tcLoc d main_v22 ↦{fullShare} Fn 6) ∗ (tcLoc d main_v23 ↦{fullShare} Fn 7) ∗ (tcLoc d main_v24 ↦{fullShare} Fn 8)) := by
  have e := Pipeline.RDat.arrays_eq (pcfgs (F := F)) adm (Reg.rdats (F := F) (Ix := HIx 1) (Name := ℕ) (U := UU) (Lvl := ℕ) V (fun _ => O) (fun _ => (↑W : Set (SemLoc sig × HIx 1))) V (fun _ => O) (fun _ => (↑W : Set (SemLoc sig × HIx 1)))) 1 d launch2.arr_whole
    (fun w => by unfold RDat.share; split <;> rfl) Fn
  rw [bigSep_W2] at e
  exact e
/-- The regions' whole-array result is the specification's, once the arrays are the named ones. -/
theorem res2_eq (V : Reg.TcVal F) (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))

    (h0 : V d main_v20_0 = g0) (h1 : V d main_v20_1 = g1) (h2 : V d main_v16 = p0) (h3 : V d main_v19 = p1)
    (h4 : V d main_arg4 = w1) (h5 : V d main_v21 = b1) (h6 : V d main_v22 = w2) (h7 : V d main_v23 = b2) :
    Reg.res2 V d = Res2 d g0 g1 p0 p1 w1 b1 w2 b2 := by
  funext j
  unfold Reg.res2 Res2 pay2F
  rw [Reg.out2_8_eq]
  have e0 : Reg.iblk2 V d 0 (Reg.pt2 (j 0)) = rowsD d g0 ⟨(j 0).val / 2048, by have : (j 0).val < 16384 := (j 0).isLt; omega⟩ := by
    funext y
    obtain ⟨a, b, rfl⟩ : ∃ (a : Fin 2048) (b : Fin 128), y = ix2 a b := ⟨y 0, y 1, ValueIdx.eq_ix2 y⟩
    rw [Reg.iblk2_0_apply]; unfold rowsD Reg.arr2_0; rw [h0]; rfl
  have e1 : Reg.iblk2 V d 1 (Reg.pt2 (j 0)) = rowsD d g1 ⟨(j 0).val / 2048, by have : (j 0).val < 16384 := (j 0).isLt; omega⟩ := by
    funext y
    obtain ⟨a, b, rfl⟩ : ∃ (a : Fin 2048) (b : Fin 128), y = ix2 a b := ⟨y 0, y 1, ValueIdx.eq_ix2 y⟩
    rw [Reg.iblk2_1_apply]; unfold rowsD Reg.arr2_1; rw [h1]; rfl
  have e2 : Reg.iblk2 V d 2 (Reg.pt2 (j 0)) = rowsP d p0 ⟨(j 0).val / 2048, by have : (j 0).val < 16384 := (j 0).isLt; omega⟩ := by
    funext y
    obtain ⟨a, b, rfl⟩ : ∃ (a : Fin 2048) (b : Fin 1), y = ix2 a b := ⟨y 0, y 1, ValueIdx.eq_ix2 y⟩
    rw [Reg.iblk2_2_apply]; unfold rowsP Reg.arr2_2; rw [h2]; rfl
  have e3 : Reg.iblk2 V d 3 (Reg.pt2 (j 0)) = rowsP d p1 ⟨(j 0).val / 2048, by have : (j 0).val < 16384 := (j 0).isLt; omega⟩ := by
    funext y
    obtain ⟨a, b, rfl⟩ : ∃ (a : Fin 2048) (b : Fin 1), y = ix2 a b := ⟨y 0, y 1, ValueIdx.eq_ix2 y⟩
    rw [Reg.iblk2_3_apply]; unfold rowsP Reg.arr2_3; rw [h3]; rfl
  rw [e0, e1, e2, e3, Reg.iblk2_4_eq, Reg.iblk2_5_eq, Reg.iblk2_6_eq, Reg.iblk2_7_eq]
  unfold Reg.arr2_4 Reg.arr2_5 Reg.arr2_6 Reg.arr2_7
  rw [h4, h5, h6, h7]

/-- A recorded pair within the entry's pairs and the staging cells' own is one of the entry's or sits at the kernels' index. -/
theorem mem_or_none_of_subset {cfg : Pipeline.Cfg sig Λ₀} {W W' : Waits sig (HIx 1)}
    (h : (↑W' : Set (SemLoc sig × HIx 1)) ⊆ ↑W ∪ cfg.waitPairs none) : ∀ p ∈ W', p ∈ W ∨ p.2 = none := by
  intro p hp
  rcases h (Finset.mem_coe.mpr hp) with h | ⟨w, s, rfl⟩
  · exact .inl (Finset.mem_coe.mp h)
  · exact .inr rfl

/-- From what @main holds at the last call to what its region is entered with, and back. -/
theorem glue2 (d : Dev nD) (g0 : Buf (Elt F) (tcLoc d main_v20_0)) (g1 : Buf (Elt F) (tcLoc d main_v20_1))
    (p0 : Buf (Elt F) (tcLoc d main_v16)) (p1 : Buf (Elt F) (tcLoc d main_v19)) (w1 : Buf (Elt F) (tcLoc d main_arg4))
    (b1 : Buf (Elt F) (tcLoc d main_v21)) (w2 : Buf (Elt F) (tcLoc d main_v22)) (b2 : Buf (Elt F) (tcLoc d main_v23))
    (o : Buf (Elt F) (tcLoc d main_v24)) (O : CellTallies nD τ sig (HIx 1)) (W : Waits sig (HIx 1))
    {α : Type} (k : PUnit → KProg (F := F) α) (Q : α → sProp 𝕄) :
    iprop((iprop(boundary (SparseCore.T d) ∗ (tcLoc d main_v20_0 ↦{fullShare} g0) ∗ (tcLoc d main_v20_1 ↦{fullShare} g1) ∗ (tcLoc d main_v16 ↦{fullShare} p0) ∗ (tcLoc d main_v19 ↦{fullShare} p1) ∗ (tcLoc d main_arg4 ↦{fullShare} w1) ∗ (tcLoc d main_v21 ↦{fullShare} b1) ∗ (tcLoc d main_v22 ↦{fullShare} w2) ∗ (tcLoc d main_v23 ↦{fullShare} b2) ∗ (tcLoc d main_v24 ↦{fullShare} Res2 d g0 g1 p0 p1 w1 b1 w2 b2)
            ∗ ∃ W', ⌜∀ p ∈ W', p ∈ W ∨ p.2 = none⌝ ∗ owes (SparseCore.T d) O W')
          -∗ wp frame (wpE ((K (F := F)).defs (D (F := F))) 𝒱 (SparseCore.T d) none) Set.univ (k ⟨⟩) Q)
        ∗ boundary (SparseCore.T d) ∗ (tcLoc d main_v20_0 ↦{fullShare} g0) ∗ (tcLoc d main_v20_1 ↦{fullShare} g1) ∗ (tcLoc d main_v16 ↦{fullShare} p0) ∗ (tcLoc d main_v19 ↦{fullShare} p1) ∗ (tcLoc d main_arg4 ↦{fullShare} w1) ∗ (tcLoc d main_v21 ↦{fullShare} b1) ∗ (tcLoc d main_v22 ↦{fullShare} w2) ∗ (tcLoc d main_v23 ↦{fullShare} b2)
        ∗ (tcLoc d main_v24 ↦{fullShare} o) ∗ owes (SparseCore.T d) O W
        ∗ levAts (K (F := F)).L (K (F := F)).lev
        ∗ Pipeline.cellsGhost (Pipeline.pin (pcfgs (F := F)) adm) (EP (F := F)) 1 d ∗ Pipeline.toksInit (Pipeline.pin (pcfgs (F := F)) adm) (EP (F := F)) 1 d)
      ⊢ iprop((iprop(boundary (SparseCore.T d) ∗ iprop(((tcLoc d main_v20_0 ↦{fullShare} g0) ∗ (tcLoc d main_v20_1 ↦{fullShare} g1) ∗ (tcLoc d main_v16 ↦{fullShare} p0) ∗ (tcLoc d main_v19 ↦{fullShare} p1) ∗ (tcLoc d main_arg4 ↦{fullShare} w1) ∗ (tcLoc d main_v21 ↦{fullShare} b1) ∗ (tcLoc d main_v22 ↦{fullShare} w2) ∗ (tcLoc d main_v23 ↦{fullShare} b2) ∗ (tcLoc d main_v24 ↦{fullShare} Res2 d g0 g1 p0 p1 w1 b1 w2 b2))
          ∗ Pipeline.owesWithin d O ((↑W : Set (SemLoc sig × HIx 1)) ∪ cfg2.waitPairs none))) -∗ wp frame (wpE ((K (F := F)).defs (D (F := F))) 𝒱 (SparseCore.T d) none) Set.univ (k ⟨⟩) Q)
        ∗ boundary (SparseCore.T d) ∗ iprop(((tcLoc d main_v20_0 ↦{fullShare} g0) ∗ (tcLoc d main_v20_1 ↦{fullShare} g1) ∗ (tcLoc d main_v16 ↦{fullShare} p0) ∗ (tcLoc d main_v19 ↦{fullShare} p1) ∗ (tcLoc d main_arg4 ↦{fullShare} w1) ∗ (tcLoc d main_v21 ↦{fullShare} b1) ∗ (tcLoc d main_v22 ↦{fullShare} w2) ∗ (tcLoc d main_v23 ↦{fullShare} b2) ∗ (tcLoc d main_v24 ↦{fullShare} o)) ∗ Pipeline.owesWithin d O (↑W : Set (SemLoc sig × HIx 1)))
        ∗ levAts (K (F := F)).L (K (F := F)).lev
        ∗ Pipeline.cellsGhost (Pipeline.pin (pcfgs (F := F)) adm) (EP (F := F)) 1 d ∗ Pipeline.toksInit (Pipeline.pin (pcfgs (F := F)) adm) (EP (F := F)) 1 d) := by
  iintro ⟨Hk, Hb, H0, H1, H2, H3, H4, H5, H6, H7, H8, HO, Hlev, Hg, Ht⟩
  isplitl [Hk]
  · iintro ⟨Hb, ⟨H0, H1, H2, H3, H4, H5, H6, H7, H8⟩, HO⟩
    iapply Hk
    isplitl [Hb]; · iexact Hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    icases HO with ⟨%W', %hW', HO⟩
    iexists W'; isplitr
    · ipureintro; exact mem_or_none_of_subset hW'
    iexact HO
  isplitl [Hb]; · iexact Hb
  isplitl [H0 H1 H2 H3 H4 H5 H6 H7 H8 HO]
  · isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexists W; isplitr
    · ipureintro; exact subset_rfl
    iexact HO
  isplitl [Hlev]; · iexact Hlev
  isplitl [Hg]; · iexact Hg
  iexact Ht

/-! ## The first call -/

/-- The buffers' contents on device `d` with the first call's two arrays named. -/
def vd0 (d : Dev nD) (f0 : Buf (Elt F) (tcLoc d main_v0)) (f1 : Buf (Elt F) (tcLoc d main_v1)) : (b : Ref sig .tc) → Buf (Elt F) (tcLoc d b) := fun b =>
  if h : b = main_v0 then (by subst h; exact f0) else
  if h : b = main_v1 then (by subst h; exact f1) else fun _ => Classical.arbitrary _

theorem vd0_0 (d : Dev nD) (f0 : Buf (Elt F) (tcLoc d main_v0)) (f1 : Buf (Elt F) (tcLoc d main_v1)) : vd0 d f0 f1 main_v0 = f0 := by
  unfold vd0; rw [dif_pos rfl]
theorem vd0_1 (d : Dev nD) (f0 : Buf (Elt F) (tcLoc d main_v0)) (f1 : Buf (Elt F) (tcLoc d main_v1)) : vd0 d f0 f1 main_v1 = f1 := by
  unfold vd0; rw [dif_neg (by decide), dif_pos rfl]

set_option backward.isDefEq.respectTransparency.types false in
/-- The first call's two arrays, one by one. -/
theorem arrays0_eq (V : Reg.TcVal F) (O : CellTallies nD τ sig (HIx 1)) (W : Waits sig (HIx 1)) (d : Dev nD)
    (Fn : (w : Fin cfg0.W) → Buf (Elt F) ((cfg0.win w).arr.view.loc (d.tc : Thread nD τ))) :
    ((Reg.rdat0 (Ix := HIx 1) (Name := ℕ) (U := UU) (Lvl := ℕ) V (fun _ => O) (fun _ => (↑W : Set (SemLoc sig × HIx 1))) d).arrays Fn : sProp 𝕄)
      = iprop((tcLoc d main_v0 ↦{fullShare} Fn 0) ∗ (tcLoc d main_v1 ↦{fullShare} Fn 1)) := by
  have e := Pipeline.RDat.arrays_eq (pcfgs (F := F)) adm (Reg.rdats (F := F) (Ix := HIx 1) (Name := ℕ) (U := UU) (Lvl := ℕ) V (fun _ => O) (fun _ => (↑W : Set (SemLoc sig × HIx 1))) V (fun _ => O) (fun _ => (↑W : Set (SemLoc sig × HIx 1)))) 0 d launch0.arr_whole
    (fun w => by unfold RDat.share; split <;> rfl) Fn
  rw [bigSep_W0] at e
  exact e

set_option backward.isDefEq.respectTransparency.types false in
/-- The first call's two arrays after the run, one by one: each at some contents it may then hold. -/
theorem arraysAt0_eq (V : Reg.TcVal F) (O : CellTallies nD τ sig (HIx 1)) (W : Waits sig (HIx 1)) (d : Dev nD) (n : Nat) :
    ((Reg.rdat0 (Ix := HIx 1) (Name := ℕ) (U := UU) (Lvl := ℕ) V (fun _ => O) (fun _ => (↑W : Set (SemLoc sig × HIx 1))) d).arraysAt n : sProp 𝕄)
      = iprop((∃ G, ⌜(Reg.rdat0 (Ix := HIx 1) (Name := ℕ) (U := UU) (Lvl := ℕ) V (fun _ => O) (fun _ => (↑W : Set (SemLoc sig × HIx 1))) d).ArrAt 0 n G⌝ ∗ tcLoc d main_v0 ↦{fullShare} G)
          ∗ (∃ G, ⌜(Reg.rdat0 (Ix := HIx 1) (Name := ℕ) (U := UU) (Lvl := ℕ) V (fun _ => O) (fun _ => (↑W : Set (SemLoc sig × HIx 1))) d).ArrAt 1 n G⌝ ∗ tcLoc d main_v1 ↦{fullShare} G)) := by
  have e : ((Reg.rdat0 (Ix := HIx 1) (Name := ℕ) (U := UU) (Lvl := ℕ) V (fun _ => O) (fun _ => (↑W : Set (SemLoc sig × HIx 1))) d).arraysAt n : sProp 𝕄)
      = bigSep Finset.univ fun w : Fin cfg0.W => iprop(∃ G, ⌜(Reg.rdat0 (Ix := HIx 1) (Name := ℕ) (U := UU) (Lvl := ℕ) V (fun _ => O) (fun _ => (↑W : Set (SemLoc sig × HIx 1))) d).ArrAt w n G⌝
          ∗ ((d.tc : Thread nD τ).loc (Pipeline.arrRef spec0 w)) ↦{fullShare} G) := by
    unfold RDat.arraysAt
    exact bigSep_congr fun w _ => by
      have hs : (cfg0.win w).arr.view.set = Finset.univ := (launch0.arr_whole w).set_eq_univ
      rw [hs, show (Reg.rdat0 (Ix := HIx 1) (Name := ℕ) (U := UU) (Lvl := ℕ) V (fun _ => O) (fun _ => (↑W : Set (SemLoc sig × HIx 1))) d).share w = fullShare from by unfold RDat.share; split <;> rfl]
  rw [e, bigSep_W0]

/-- Whatever the layout's array may hold after the run is a right layout of the transposed table. -/
theorem goodOut_of_arrAt (V : Reg.TcVal F) (O : Dev nD → CellTallies nD τ sig (HIx 1)) (R : Dev nD → Set (SemLoc sig × HIx 1)) (d : Dev nD)
    (f0 : Buf (Elt F) (tcLoc d main_v0)) (h0 : V d main_v0 = f0) (G : Buf (Elt F) (tcLoc d main_v1))
    (hG : (Reg.rdat0 (Ix := HIx 1) (Name := ℕ) (U := UU) (Lvl := ℕ) V O R d).ArrAt 1 cfg0.N G) : GoodOut d f0 G := by
  intro Rr l h
  have hR := Rr.isLt
  have hl := l.isLt
  have hc : 16384 * (Rr.val / 8192) + 8192 * (l.val / 64) + Rr.val % 8192 < 1000000 := h
  have e := Reg.arrAt0_1_apply V O R d G hG (⟨Rr.val / 8192, by omega⟩ : Fin 62) (⟨Rr.val % 8192, Nat.mod_lt _ (by decide)⟩ : Fin 8192)
    (⟨l.val / 64, by omega⟩ : Fin 2) (⟨l.val % 64, Nat.mod_lt _ (by decide)⟩ : Fin 64) hc
  refine Eq.trans (congrArg G ?_) (e.trans ?_)
  · exact congr (congrArg ix2 (Fin.ext (by show Rr.val = 8192 * (Rr.val / 8192) + Rr.val % 8192; omega)))
      (Fin.ext (by show l.val = 64 * (l.val / 64) + l.val % 64; omega))
  · show V d main_v0 _ = f0 _
    rw [h0]
    rfl

/-- From what @main holds at the first call to what its region is entered with, and back. -/
theorem glue0 (V : Reg.TcVal F) (d : Dev nD) (f0 : Buf (Elt F) (tcLoc d main_v0)) (f1 : Buf (Elt F) (tcLoc d main_v1)) (h0 : V d main_v0 = f0) (O : CellTallies nD τ sig (HIx 1)) (W : Waits sig (HIx 1))
    {α : Type} (k : PUnit → KProg (F := F) α) (Q : α → sProp 𝕄) :
    iprop((iprop(boundary (SparseCore.T d) ∗ (tcLoc d main_v0 ↦{fullShare} f0) ∗ (∃ G, ⌜GoodOut d f0 G⌝ ∗ tcLoc d main_v1 ↦{fullShare} G)
            ∗ ∃ W', ⌜∀ p ∈ W', p ∈ W ∨ p.2 = none⌝ ∗ owes (SparseCore.T d) O W')
          -∗ wp frame (wpE ((K (F := F)).defs (D (F := F))) 𝒱 (SparseCore.T d) none) Set.univ (k ⟨⟩) Q)
        ∗ boundary (SparseCore.T d) ∗ (tcLoc d main_v0 ↦{fullShare} f0) ∗ (tcLoc d main_v1 ↦{fullShare} f1) ∗ owes (SparseCore.T d) O W
        ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d)
      ⊢ iprop((iprop(boundary (SparseCore.T d) ∗ iprop(((∃ G, ⌜(Reg.rdat0 (Ix := HIx 1) (Name := ℕ) (U := UU) (Lvl := ℕ) V (fun _ => O) (fun _ => (↑W : Set (SemLoc sig × HIx 1))) d).ArrAt 0 cfg0.N G⌝ ∗ tcLoc d main_v0 ↦{fullShare} G)
          ∗ (∃ G, ⌜(Reg.rdat0 (Ix := HIx 1) (Name := ℕ) (U := UU) (Lvl := ℕ) V (fun _ => O) (fun _ => (↑W : Set (SemLoc sig × HIx 1))) d).ArrAt 1 cfg0.N G⌝ ∗ tcLoc d main_v1 ↦{fullShare} G))
          ∗ Pipeline.owesWithin d O ((↑W : Set (SemLoc sig × HIx 1)) ∪ cfg0.waitPairs none))) -∗ wp frame (wpE ((K (F := F)).defs (D (F := F))) 𝒱 (SparseCore.T d) none) Set.univ (k ⟨⟩) Q)
        ∗ boundary (SparseCore.T d) ∗ iprop(((tcLoc d main_v0 ↦{fullShare} f0) ∗ (tcLoc d main_v1 ↦{fullShare} f1)) ∗ Pipeline.owesWithin d O (↑W : Set (SemLoc sig × HIx 1)))
        ∗ levAts (K (F := F)).L (K (F := F)).lev
        ∗ Pipeline.cellsGhost (Pipeline.pin (pcfgs (F := F)) adm) (EP (F := F)) 0 d ∗ Pipeline.toksInit (Pipeline.pin (pcfgs (F := F)) adm) (EP (F := F)) 0 d) := by
  iintro ⟨Hk, Hb, H0, H1, HO, Hlev, Hg, Ht⟩
  isplitl [Hk]
  · iintro ⟨Hb, ⟨⟨%G0, %hG0, H0⟩, ⟨%G1, %hG1, H1⟩⟩, HO⟩
    iapply Hk
    isplitl [Hb]; · iexact Hb
    isplitl [H0]
    · have e : G0 = f0 := by rw [Reg.arrAt0_0] at hG0; exact hG0.trans h0
      subst e
      iexact H0
    isplitl [H1]
    · iexists G1; isplitr
      · ipureintro; exact goodOut_of_arrAt V _ _ d _ h0 G1 hG1
      iexact H1
    icases HO with ⟨%W', %hW', HO⟩
    iexists W'; isplitr
    · ipureintro; exact mem_or_none_of_subset hW'
    iexact HO
  isplitl [Hb]; · iexact Hb
  isplitl [H0 H1 HO]
  · isplitl [H0 H1]
    · isplitl [H0]; · iexact H0
      iexact H1
    iexists W; isplitr
    · ipureintro; exact subset_rfl
    iexact HO
  isplitl [Hlev]; · iexact Hlev
  isplitl [Hg]; · iexact Hg
  iexact Ht

end Cert.Kernel.KL

end
-- ==== Proof.Bits.RegSegEq.lean ====
import proofs.«205759_g46823733461237_cont_8to1_c_287_19_alg».proof.Proof.Bits.RegSeg

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (𝒱₀ : Variants) (ι : Ix) (L : GSem nD τ sig → Finset Ix) (lv : GSem nD τ sig → Ix → Lvl)
variable (V0 : TcVal F) (O0 : Dev nD → CellTallies nD τ sig Ix) (R0 : Dev nD → Set (SemLoc sig × Ix))
variable (V2 : TcVal F) (O2 : Dev nD → CellTallies nD τ sig Ix) (R2 : Dev nD → Set (SemLoc sig × Ix))

/-! # The regions' thread states, spelt out -/

set_option backward.isDefEq.respectTransparency.types false in
theorem reg2_pre (hw : ∀ (c : Dev nD) (sm : SemLoc sig), (levAts L lv : sProp 𝕄) ⊢ MayWait (c : Thread nD τ) sm ι (O2 c)) (c : Dev nD) :
    (reg2 (Name := Name) (U := U) 𝒱₀ ι L lv V0 O0 R0 V2 O2 R2 hw).pre c
      = iprop((dat2 (Name := Name) (U := U) (Lvl := Lvl) V2 O2 R2 c).arrays (fun w => V2 c (Pipeline.arrRef spec2 w)) ∗ Pipeline.owesWithin c (O2 c) (R2 c)) := rfl

set_option backward.isDefEq.respectTransparency.types false in
theorem reg2_post (hw : ∀ (c : Dev nD) (sm : SemLoc sig), (levAts L lv : sProp 𝕄) ⊢ MayWait (c : Thread nD τ) sm ι (O2 c)) (c : Dev nD) :
    (reg2 (Name := Name) (U := U) 𝒱₀ ι L lv V0 O0 R0 V2 O2 R2 hw).post c
      = iprop((dat2 (Name := Name) (U := U) (Lvl := Lvl) V2 O2 R2 c).arrays (fun w => (dat2 (Name := Name) (U := U) (Lvl := Lvl) V2 O2 R2 c).arrAt w cfg2.N)
          ∗ Pipeline.owesWithin c (O2 c) (R2 c ∪ cfg2.waitPairs ι)) := rfl

set_option backward.isDefEq.respectTransparency.types false in
theorem reg0_pre (hw : ∀ (c : Dev nD) (sm : SemLoc sig), (levAts L lv : sProp 𝕄) ⊢ MayWait (c : Thread nD τ) sm ι (O0 c)) (c : Dev nD) :
    (reg0 (Name := Name) (U := U) 𝒱₀ ι L lv V0 O0 R0 V2 O2 R2 hw).pre c
      = iprop((rdat0 (Name := Name) (U := U) (Lvl := Lvl) V0 O0 R0 c).arrays (fun w => V0 c (Pipeline.arrRef spec0 w)) ∗ Pipeline.owesWithin c (O0 c) (R0 c)) := rfl

set_option backward.isDefEq.respectTransparency.types false in
theorem reg0_post (hw : ∀ (c : Dev nD) (sm : SemLoc sig), (levAts L lv : sProp 𝕄) ⊢ MayWait (c : Thread nD τ) sm ι (O0 c)) (c : Dev nD) :
    (reg0 (Name := Name) (U := U) 𝒱₀ ι L lv V0 O0 R0 V2 O2 R2 hw).post c
      = iprop((rdat0 (Name := Name) (U := U) (Lvl := Lvl) V0 O0 R0 c).arraysAt cfg0.N ∗ Pipeline.owesWithin c (O0 c) (R0 c ∪ cfg0.waitPairs ι)) := rfl

end Cert.Kernel.Reg

end
-- ==== Proof.Bits.RegGlue0.lean ====
import proofs.«205759_g46823733461237_cont_8to1_c_287_19_alg».proof.Proof.Bits.RegGlueA
import proofs.«205759_g46823733461237_cont_8to1_c_287_19_alg».proof.Proof.Bits.RegSegEq

set_option maxRecDepth 16384

noncomputable section

namespace Cert.Kernel.KL

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)
open Idealize.ShloMosaic.ValueIdx (ix1 ix2)

variable {F : FTy → Type} [FloatOps F] [∀ e, Nonempty (Elt F e)]

local notation "𝕄" => MT nD τ sig (HIx 1) (Elt F) ℕ UU ℕ

/-! # The two TensorCore calls as the TensorCore's program meets them -/

set_option backward.isDefEq.respectTransparency.types false in
/-- The first TensorCore call as @main meets it: the region rule at the first call's record, the arrays named. -/
theorem region0Spec : Region0Spec (F := F) := by
  intro d O W hO f0 f1 α k Q
  generalize hV : valAt d (vd0 d f0 f1) = V
  have h0 : V d main_v0 = f0 := by rw [← hV, valAt_self, vd0_0]
  have h1 : V d main_v1 = f1 := by rw [← hV, valAt_self, vd0_1]
  have h0' : V d (Pipeline.arrRef spec0 0) = f0 := h0
  have h1' : V d (Pipeline.arrRef spec0 1) = f1 := h1
  have key := wp_region (Reg.reg0 (F := F) (Ix := HIx 1) (Name := ℕ) (U := UU) (Lvl := ℕ) 𝒱₀ none (K (F := F)).L (K (F := F)).lev
      V (fun _ => O) (fun _ => (↑W : Set (SemLoc sig × HIx 1))) V (fun _ => O) (fun _ => (↑W : Set (SemLoc sig × HIx 1)))
      (fun c sm => (K (F := F)).mayWait_none sm hO)) d k Q
  rw [Reg.reg0_pre, Reg.reg0_post, arrays0_eq, arraysAt0_eq, h0', h1'] at key
  exact (glue0 V d f0 f1 h0 O W k Q).trans key

end Cert.Kernel.KL

end
-- ==== Proof.Bits.RegGlue2.lean ====
import proofs.«205759_g46823733461237_cont_8to1_c_287_19_alg».proof.Proof.Bits.RegGlueA
import proofs.«205759_g46823733461237_cont_8to1_c_287_19_alg».proof.Proof.Bits.RegSegEq

set_option maxRecDepth 16384

noncomputable section

namespace Cert.Kernel.KL

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat RDat)
open Idealize.ShloMosaic.ValueIdx (ix1 ix2)

variable {F : FTy → Type} [FloatOps F] [∀ e, Nonempty (Elt F e)]

local notation "𝕄" => MT nD τ sig (HIx 1) (Elt F) ℕ UU ℕ

/-! # The two TensorCore calls as the TensorCore's program meets them -/

set_option maxHeartbeats 4000000 in
set_option backward.isDefEq.respectTransparency.types false in
/-- The last TensorCore call as @main meets it: the region rule at the last call's record, the arrays named. -/
theorem region2Spec : Region2Spec (F := F) := by
  intro d O W hO g0 g1 p0 p1 w1 b1 w2 b2 o α k Q
  generalize hV : valAt d (vd2 d g0 g1 p0 p1 w1 b1 w2 b2 o) = V
  have h0 : V d main_v20_0 = g0 := by rw [← hV, valAt_self, vd2_0]
  have h1 : V d main_v20_1 = g1 := by rw [← hV, valAt_self, vd2_1]
  have h2 : V d main_v16 = p0 := by rw [← hV, valAt_self, vd2_2]
  have h3 : V d main_v19 = p1 := by rw [← hV, valAt_self, vd2_3]
  have h4 : V d main_arg4 = w1 := by rw [← hV, valAt_self, vd2_4]
  have h5 : V d main_v21 = b1 := by rw [← hV, valAt_self, vd2_5]
  have h6 : V d main_v22 = w2 := by rw [← hV, valAt_self, vd2_6]
  have h7 : V d main_v23 = b2 := by rw [← hV, valAt_self, vd2_7]
  have h8 : V d main_v24 = o := by rw [← hV, valAt_self, vd2_8]
  have h0' : V d (Pipeline.arrRef spec2 0) = g0 := h0
  have h1' : V d (Pipeline.arrRef spec2 1) = g1 := h1
  have h2' : V d (Pipeline.arrRef spec2 2) = p0 := h2
  have h3' : V d (Pipeline.arrRef spec2 3) = p1 := h3
  have h4' : V d (Pipeline.arrRef spec2 4) = w1 := h4
  have h5' : V d (Pipeline.arrRef spec2 5) = b1 := h5
  have h6' : V d (Pipeline.arrRef spec2 6) = w2 := h6
  have h7' : V d (Pipeline.arrRef spec2 7) = b2 := h7
  have h8' : V d (Pipeline.arrRef spec2 8) = o := h8
  have a0 : (Reg.dat2 (Ix := HIx 1) (Name := ℕ) (U := UU) (Lvl := ℕ) V (fun _ => O) (fun _ => (↑W : Set (SemLoc sig × HIx 1))) d).arrAt 0 cfg2.N = g0 :=
    (Reg.arrAt2_in (Ix := HIx 1) (Name := ℕ) (U := UU) (Lvl := ℕ) V (fun _ => O) (fun _ => (↑W : Set (SemLoc sig × HIx 1))) d 0 rfl cfg2.N).trans h0'
  have a1 : (Reg.dat2 (Ix := HIx 1) (Name := ℕ) (U := UU) (Lvl := ℕ) V (fun _ => O) (fun _ => (↑W : Set (SemLoc sig × HIx 1))) d).arrAt 1 cfg2.N = g1 :=
    (Reg.arrAt2_in (Ix := HIx 1) (Name := ℕ) (U := UU) (Lvl := ℕ) V (fun _ => O) (fun _ => (↑W : Set (SemLoc sig × HIx 1))) d 1 rfl cfg2.N).trans h1'
  have a2 : (Reg.dat2 (Ix := HIx 1) (Name := ℕ) (U := UU) (Lvl := ℕ) V (fun _ => O) (fun _ => (↑W : Set (SemLoc sig × HIx 1))) d).arrAt 2 cfg2.N = p0 :=
    (Reg.arrAt2_in (Ix := HIx 1) (Name := ℕ) (U := UU) (Lvl := ℕ) V (fun _ => O) (fun _ => (↑W : Set (SemLoc sig × HIx 1))) d 2 rfl cfg2.N).trans h2'
  have a3 : (Reg.dat2 (Ix := HIx 1) (Name := ℕ) (U := UU) (Lvl := ℕ) V (fun _ => O) (fun _ => (↑W : Set (SemLoc sig × HIx 1))) d).arrAt 3 cfg2.N = p1 :=
    (Reg.arrAt2_in (Ix := HIx 1) (Name := ℕ) (U := UU) (Lvl := ℕ) V (fun _ => O) (fun _ => (↑W : Set (SemLoc sig × HIx 1))) d 3 rfl cfg2.N).trans h3'
  have a4 : (Reg.dat2 (Ix := HIx 1) (Name := ℕ) (U := UU) (Lvl := ℕ) V (fun _ => O) (fun _ => (↑W : Set (SemLoc sig × HIx 1))) d).arrAt 4 cfg2.N = w1 :=
    (Reg.arrAt2_in (Ix := HIx 1) (Name := ℕ) (U := UU) (Lvl := ℕ) V (fun _ => O) (fun _ => (↑W : Set (SemLoc sig × HIx 1))) d 4 rfl cfg2.N).trans h4'
  have a5 : (Reg.dat2 (Ix := HIx 1) (Name := ℕ) (U := UU) (Lvl := ℕ) V (fun _ => O) (fun _ => (↑W : Set (SemLoc sig × HIx 1))) d).arrAt 5 cfg2.N = b1 :=
    (Reg.arrAt2_in (Ix := HIx 1) (Name := ℕ) (U := UU) (Lvl := ℕ) V (fun _ => O) (fun _ => (↑W : Set (SemLoc sig × HIx 1))) d 5 rfl cfg2.N).trans h5'
  have a6 : (Reg.dat2 (Ix := HIx 1) (Name := ℕ) (U := UU) (Lvl := ℕ) V (fun _ => O) (fun _ => (↑W : Set (SemLoc sig × HIx 1))) d).arrAt 6 cfg2.N = w2 :=
    (Reg.arrAt2_in (Ix := HIx 1) (Name := ℕ) (U := UU) (Lvl := ℕ) V (fun _ => O) (fun _ => (↑W : Set (SemLoc sig × HIx 1))) d 6 rfl cfg2.N).trans h6'
  have a7 : (Reg.dat2 (Ix := HIx 1) (Name := ℕ) (U := UU) (Lvl := ℕ) V (fun _ => O) (fun _ => (↑W : Set (SemLoc sig × HIx 1))) d).arrAt 7 cfg2.N = b2 :=
    (Reg.arrAt2_in (Ix := HIx 1) (Name := ℕ) (U := UU) (Lvl := ℕ) V (fun _ => O) (fun _ => (↑W : Set (SemLoc sig × HIx 1))) d 7 rfl cfg2.N).trans h7'
  have a8 : (Reg.dat2 (Ix := HIx 1) (Name := ℕ) (U := UU) (Lvl := ℕ) V (fun _ => O) (fun _ => (↑W : Set (SemLoc sig × HIx 1))) d).arrAt 8 cfg2.N = Res2 d g0 g1 p0 p1 w1 b1 w2 b2 :=
    (Reg.arrAt2_8 (Ix := HIx 1) (Name := ℕ) (U := UU) (Lvl := ℕ) V (fun _ => O) (fun _ => (↑W : Set (SemLoc sig × HIx 1))) d).trans (res2_eq V d g0 g1 p0 p1 w1 b1 w2 b2 h0 h1 h2 h3 h4 h5 h6 h7)
  have key := wp_region (Reg.reg2 (F := F) (Ix := HIx 1) (Name := ℕ) (U := UU) (Lvl := ℕ) 𝒱₀ none (K (F := F)).L (K (F := F)).lev
      V (fun _ => O) (fun _ => (↑W : Set (SemLoc sig × HIx 1))) V (fun _ => O) (fun _ => (↑W : Set (SemLoc sig × HIx 1)))
      (fun c sm => (K (F := F)).mayWait_none sm hO)) d k Q
  rw [Reg.reg2_pre, Reg.reg2_post, arrays2_eq, arrays2_eq, a0, a1, a2, a3, a4, a5, a6, a7, a8, h0', h1', h2', h3', h4', h5', h6', h7', h8'] at key
  exact (glue2 d g0 g1 p0 p1 w1 b1 w2 b2 o O W k Q).trans key

end Cert.Kernel.KL

end
-- ==== Proof.Bits.KSplitSets.lean ====
/- The rows of a result array that the tiles write: chunk r of the tile on SparseCore c, subcore s is the 128 rows
   from 128 (8 s + 4 c + r); the 128 chunks are pairwise disjoint and cover the array, so a result array held
   whole is its 128 chunks held apart. -/
import proofs.«205759_g46823733461237_cont_8to1_c_287_19_alg».proof.Proof.Bits.KPay

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A chunk's element set is its rectangle's. -/
theorem oSet_eq (L : grid1.Coords) (r : Fin 4) :
    oSet L r = (Rect.unit (s := S16384x128) (k1_off2 L (BitVec.ofNat 32 (128 * r.val))) S128x128.size (k1_off2_inb L r)).set := by
  show ((View.whole (main_v20_0_scv : Ref sig .scVector)).slice _).set = _
  rw [View.set_slice]; exact Finset.map_refl

/-- An index lies in chunk `r` of tile (`c`, `s`) when its row does. -/
theorem mem_oSet (c : Fin 2) (s : Fin 16) (r : Fin 4) (x : S16384x128.Idx) :
    x ∈ oSet (coordsV c s) r ↔ 128 * (8 * s.val + 4 * c.val + r.val) ≤ (x 0).val
      ∧ (x 0).val < 128 * (8 * s.val + 4 * c.val + r.val) + 128 := by
  rw [oSet_eq, Rect.mem_set_unit, k1_off2_eq, Fin.forall_fin_two]
  show (1024 * s.val + 512 * c.val + 128 * r.val ≤ (x 0).val ∧ (x 0).val < 1024 * s.val + 512 * c.val + 128 * r.val + 128)
    ∧ (0 ≤ (x 1).val ∧ (x 1).val < 0 + 128) ↔ _
  have h1 : (x 1).val < 128 := (x 1).isLt
  constructor
  · intro h; omega
  · intro h; omega

/-- The chunk of a triple (SparseCore, subcore, chunk number). -/
abbrev oSetT (t : Fin 2 × Fin 16 × Fin 4) : Finset S16384x128.Idx := oSet (coordsV t.1 t.2.1) t.2.2

theorem oSets_disjoint : ∀ t ∈ (Finset.univ : Finset (Fin 2 × Fin 16 × Fin 4)), ∀ t' ∈ (Finset.univ : Finset (Fin 2 × Fin 16 × Fin 4)),
    t ≠ t' → Disjoint (oSetT t) (oSetT t') := by
  rintro ⟨c, s, r⟩ - ⟨c', s', r'⟩ - hne
  refine Finset.disjoint_left.mpr fun x hx hx' => hne ?_
  have h := (mem_oSet c s r x).mp hx
  have h' := (mem_oSet c' s' r' x).mp hx'
  have hc := c.isLt; have hc' := c'.isLt; have hr := r.isLt; have hr' := r'.isLt
  have e1 : c.val = c'.val := by omega
  have e2 : s.val = s'.val := by omega
  have e3 : r.val = r'.val := by omega
  rw [Fin.ext e1, Fin.ext e2, Fin.ext e3]

theorem oSets_cover : (Finset.univ : Finset (Fin 2 × Fin 16 × Fin 4)).biUnion oSetT = Finset.univ := by
  refine Finset.eq_univ_iff_forall.mpr fun x => Finset.mem_biUnion.mpr ?_
  have hx : (x 0).val < 16384 := (x 0).isLt
  refine ⟨(⟨(x 0).val / 128 / 4 % 2, by omega⟩, ⟨(x 0).val / 128 / 8, by omega⟩, ⟨(x 0).val / 128 % 4, by omega⟩), Finset.mem_univ _, ?_⟩
  refine (mem_oSet _ _ _ x).mpr ?_
  show 128 * (8 * ((x 0).val / 128 / 8) + 4 * ((x 0).val / 128 / 4 % 2) + (x 0).val / 128 % 4) ≤ (x 0).val
    ∧ (x 0).val < 128 * (8 * ((x 0).val / 128 / 8) + 4 * ((x 0).val / 128 / 4 % 2) + (x 0).val / 128 % 4) + 128
  omega

/-- The first result array held whole is its chunks held apart, tile by tile. -/
theorem out0_chunks (d : Dev nD) (f : Buf (Elt F) (tcLoc d main_v20_0)) :
    (tcLoc d main_v20_0 ↦{fullShare} f : sProp 𝕄)
      = bigSep Finset.univ fun c : Fin 2 => bigSep Finset.univ fun s : Fin 16 => bigSep Finset.univ fun r : Fin 4 =>
          tcLoc d main_v20_0 ↦[oSet (coordsV c s) r]{fullShare} f := by
  have h := pointsTo_biUnion (ℓ := tcLoc d main_v20_0) (q := fullShare) (f := f) (Ix := HIx 1) (Name := ℕ) (U := UU) (Lvl := ℕ)
    (Finset.univ : Finset (Fin 2 × Fin 16 × Fin 4)) oSetT oSets_disjoint
  rw [oSets_cover] at h
  refine Eq.trans (by rfl) (h.trans ?_)
  rw [bigSep_univ_prod]
  refine bigSep_congr fun c _ => ?_
  rw [bigSep_univ_prod]

/-- The second result array likewise. -/
theorem out1_chunks (d : Dev nD) (f : Buf (Elt F) (tcLoc d main_v20_1)) :
    (tcLoc d main_v20_1 ↦{fullShare} f : sProp 𝕄)
      = bigSep Finset.univ fun c : Fin 2 => bigSep Finset.univ fun s : Fin 16 => bigSep Finset.univ fun r : Fin 4 =>
          tcLoc d main_v20_1 ↦[oSet (coordsV c s) r]{fullShare} f := by
  have h := pointsTo_biUnion (ℓ := tcLoc d main_v20_1) (q := fullShare) (f := f) (Ix := HIx 1) (Name := ℕ) (U := UU) (Lvl := ℕ)
    (Finset.univ : Finset (Fin 2 × Fin 16 × Fin 4)) oSetT oSets_disjoint
  rw [oSets_cover] at h
  refine Eq.trans (by rfl) (h.trans ?_)
  rw [bigSep_univ_prod]
  refine bigSep_congr fun c _ => ?_
  rw [bigSep_univ_prod]

end Cert.Kernel.KL

end
-- ==== Proof.Bits.KSplitRead.lean ====
/- An array every tile reads, held whole, is one read share per tile and a remainder: the full share gives one token
   to each SparseCore and each token one to each of its tiles; the remainder is what is left of the full share and of
   each SparseCore's token. -/
import proofs.«205759_g46823733461237_cont_8to1_c_287_19_alg».proof.Proof.Bits.KPay

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The separating conjunction, as the proof mode writes it, is commutative and associative: for reassociating
    long conjunctions in one step. -/
instance sepComm : Std.Commutative (α := sProp 𝕄) BIBase.sep :=
  ⟨fun P Q => show BI.sep P Q = BI.sep Q P from Std.Commutative.comm P Q⟩
instance sepAssoc : Std.Associative (α := sProp 𝕄) BIBase.sep :=
  ⟨fun P Q R => show BI.sep (BI.sep P Q) R = BI.sep P (BI.sep Q R) from Std.Associative.assoc P Q R⟩

/-- What is left of an array's full share once every tile has its token. -/
def readRem (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTok fullShare 2 c) 16} f)

/-- The array held whole is the remainder and every tile's token. -/
theorem read_tokens (ℓ : Loc nD τ sig) (f : Buf (Elt F) ℓ) :
    (ℓ ↦{fullShare} f : sProp 𝕄)
      = iprop(readRem ℓ f ∗ bigSep Finset.univ fun c : Fin 2 => bigSep Finset.univ fun s : Fin 16 => ℓ ↦{sh c s} f) := by
  have h1 := Transfers.pointsTo_toks (ℓ := ℓ) (S := Finset.univ) (f := f) (Ix := HIx 1) (Name := ℕ) (U := UU) (Lvl := ℕ) fullShare 2
  have e1 : (ℓ ↦{fullShare} f : sProp 𝕄) = iprop((ℓ ↦{Transfers.shareDrop fullShare 2} f)
      ∗ bigSep Finset.univ fun c : Fin 2 => ℓ ↦{Transfers.shareTok fullShare 2 c} f) := BI.equiv_iff.mp ⟨h1.1, h1.2⟩
  have e2 : ∀ c : Fin 2, (ℓ ↦{Transfers.shareTok fullShare 2 c} f : sProp 𝕄)
      = iprop((ℓ ↦{Transfers.shareDrop (Transfers.shareTok fullShare 2 c) 16} f) ∗ bigSep Finset.univ fun s : Fin 16 => ℓ ↦{sh c s} f) := fun c => by
    have h2 := Transfers.pointsTo_toks (ℓ := ℓ) (S := Finset.univ) (f := f) (Ix := HIx 1) (Name := ℕ) (U := UU) (Lvl := ℕ) (Transfers.shareTok fullShare 2 c) 16
    exact BI.equiv_iff.mp ⟨h2.1, h2.2⟩
  rw [e1, bigSep_congr (fun c _ => e2 c), bigSep_sep']
  unfold readRem
  ac_rfl

end Cert.Kernel.KL

end
-- ==== Proof.Bits.KSplit.lean ====
/- The SparseCore call's operands dealt to the tiles and gathered back: the four arrays every tile reads go out as
   one read share per tile, the two result arrays as the tiles' chunks; on the way back every tile's copy of the
   laid-out table agrees with the TensorCore's remaining share of it, so the gathered rows are those of the known
   table, and the shares and chunks join to the whole arrays. -/
import proofs.«205759_g46823733461237_cont_8to1_c_287_19_alg».proof.Proof.Bits.KMain
import proofs.«205759_g46823733461237_cont_8to1_c_287_19_alg».proof.Proof.Bits.KSplitSets
import proofs.«205759_g46823733461237_cont_8to1_c_287_19_alg».proof.Proof.Bits.KSplitRead

noncomputable section

namespace Cert.Kernel.KL

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

omit [FloatOps F] in
/-- A step that keeps an anchor, taken at every member of a family in turn. -/
theorem bigSep_anchor {T : Type} (s : Finset T) (A : sProp 𝕄) (Φ Ψ : T → sProp 𝕄)
    (h : ∀ t ∈ s, iprop(A ∗ Φ t) ⊢ iprop(A ∗ Ψ t)) : iprop(A ∗ bigSep s Φ) ⊢ iprop(A ∗ bigSep s Ψ) := by
  classical
  induction s using Finset.induction_on with
  | empty => exact .rfl
  | insert t s ht ih =>
    rw [bigSep_insert ht, bigSep_insert ht]
    have h1 := h t (Finset.mem_insert_self t s)
    have h2 := ih fun t' ht' => h t' (Finset.mem_insert_of_mem ht')
    refine (show iprop(A ∗ (Φ t ∗ bigSep s Φ)) ⊢ iprop(A ∗ (Ψ t ∗ bigSep s Ψ)) from ?_)
    iintro ⟨HA, Ht, Hs⟩
    ihave H1 := h1 $$ [HA Ht]
    · isplitl [HA]; · iexact HA
      iexact Ht
    icases H1 with ⟨HA, Ht⟩
    ihave H2 := h2 $$ [HA Hs]
    · isplitl [HA]; · iexact HA
      iexact Hs
    icases H2 with ⟨HA, Hs⟩
    isplitl [HA]; · iexact HA
    isplitl [Ht]; · iexact Ht
    iexact Hs

/-- A tile's copy of the laid-out table agrees with any other share of it at a known table. -/
theorem agree_tile (d : Dev nD) (G : Buf (Elt F) (tcLoc d main_v1)) (q q' : PosShare TreeShare)
    (X : Buf (Elt F) (tcLoc d main_v1) → sProp 𝕄) :
    iprop((tcLoc d main_v1 ↦{q} G) ∗ (∃ f1, ⌜Good1 m d f1⌝ ∗ (tcLoc d main_v1 ↦{q'} f1) ∗ X f1))
      ⊢ iprop((tcLoc d main_v1 ↦{q} G) ∗ ((tcLoc d main_v1 ↦{q'} G) ∗ X G)) := by
  iintro ⟨Ha, %f1, %hg, H1, HX⟩
  ihave Hag := (persistent_entails_right pointsTo_agree) $$ [Ha H1]
  · isplitl [Ha]; · iexact Ha
    iexact H1
  icases Hag with ⟨%hag, Ha, H1⟩
  have e : f1 = G := funext fun i =>
    ((hag i (Finset.mem_inter.mpr ⟨Finset.mem_univ _, Finset.mem_univ _⟩)).1).symm
  subst e
  isplitl [Ha]; · iexact Ha
  isplitl [H1]; · iexact H1
  iexact HX

omit [FloatOps F] in
/-- A family over the call's SparseCores is a family over two. -/
theorem cores_eq (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

set_option maxHeartbeats 1000000 in
theorem splitJoin : SplitJoin m := by
  intro d G hG
  refine ⟨iprop(readRem (tcLoc d main_v9) (A9 m d) ∗ readRem (tcLoc d main_v11) (A11 m d) ∗ readRem (tcLoc d main_v1) G ∗ readRem (tcLoc d main_v2) (A2 m d)), ?_, ?_⟩
  · have hst : (bigSep Finset.univ fun c : Fin ((K (F := F)).nCore 0) => (P m).st 0 d c)
        = (bigSep Finset.univ fun c : Fin 2 => bigSep Finset.univ fun s : Fin 16 => tileGo m d c s) :=
      cores_eq (fun c => bigSep Finset.univ fun s : Fin 16 => tileGo m d c s)
    have hgo : ∀ (c : Fin 2) (s : Fin 16),
        iprop((tcLoc d main_v9 ↦{sh c s} A9 m d) ∗ (tcLoc d main_v11 ↦{sh c s} A11 m d) ∗ (tcLoc d main_v1 ↦{sh c s} G) ∗ (tcLoc d main_v2 ↦{sh c s} A2 m d)
          ∗ (bigSep Finset.univ fun j : Fin 4 => tcLoc d main_v20_0 ↦[oSet (coordsV c s) j]{fullShare} VB m d (Proc.devRef .tc main_v20_0))
          ∗ (bigSep Finset.univ fun j : Fin 4 => tcLoc d main_v20_1 ↦[oSet (coordsV c s) j]{fullShare} VB m d (Proc.devRef .tc main_v20_1)))
        ⊢ tileGo m d c s := by
      intro c s
      unfold tileGo
      refine sep_mono .rfl (sep_mono .rfl (sep_mono ?_ .rfl))
      iintro H
      iexists G
      isplitr
      · ipureintro; exact hG
      · iexact H
    rw [read_tokens (tcLoc d main_v9), read_tokens (tcLoc d main_v11), read_tokens (tcLoc d main_v1), read_tokens (tcLoc d main_v2), out0_chunks, out1_chunks, hst]
    refine Entails.trans (Entails.of_eq ?_)
      (sep_mono (bigSep_mono fun c _ => bigSep_mono fun s _ => hgo c s) .rfl)
    simp only [bigSep_sep']
    ac_rfl
  · have hdn : (bigSep Finset.univ fun c : Fin ((K (F := F)).nCore 0) => (P m).dn 0 d c)
        = (bigSep Finset.univ fun c : Fin 2 => bigSep Finset.univ fun s : Fin 16 => tileTd m d c s) :=
      cores_eq (fun c => bigSep Finset.univ fun s : Fin 16 => tileTd m d c s)
    have stepB : iprop((tcLoc d main_v1 ↦{Transfers.shareDrop fullShare 2} G) ∗ (bigSep Finset.univ fun c : Fin 2 => bigSep Finset.univ fun s : Fin 16 => iprop(∃ f1, ⌜Good1 m d f1⌝ ∗ (tcLoc d main_v1 ↦{sh c s} f1) ∗ (bigSep Finset.univ fun j : Fin 4 => tcLoc d main_v20_0 ↦[oSet (coordsV c s) j]{fullShare} D20 m d f1))))
        ⊢ iprop((tcLoc d main_v1 ↦{Transfers.shareDrop fullShare 2} G) ∗ (bigSep Finset.univ fun c : Fin 2 => bigSep Finset.univ fun s : Fin 16 => iprop((tcLoc d main_v1 ↦{sh c s} G) ∗ (bigSep Finset.univ fun j : Fin 4 => tcLoc d main_v20_0 ↦[oSet (coordsV c s) j]{fullShare} D20 m d G)))) :=
      bigSep_anchor Finset.univ _ _ _ fun c _ => bigSep_anchor Finset.univ _ _ _ fun s _ =>
        agree_tile m d G _ _ (fun f1 => (bigSep Finset.univ fun j : Fin 4 => tcLoc d main_v20_0 ↦[oSet (coordsV c s) j]{fullShare} D20 m d f1))
    rw [read_tokens (tcLoc d main_v9), read_tokens (tcLoc d main_v11), read_tokens (tcLoc d main_v1), read_tokens (tcLoc d main_v2), out0_chunks, out1_chunks, hdn]
    have eA : iprop((bigSep Finset.univ fun c : Fin 2 => bigSep Finset.univ fun s : Fin 16 => tileTd m d c s) ∗ iprop(readRem (tcLoc d main_v9) (A9 m d) ∗ readRem (tcLoc d main_v11) (A11 m d) ∗ readRem (tcLoc d main_v1) G ∗ readRem (tcLoc d main_v2) (A2 m d)))
        = iprop(((tcLoc d main_v1 ↦{Transfers.shareDrop fullShare 2} G) ∗ (bigSep Finset.univ fun c : Fin 2 => bigSep Finset.univ fun s : Fin 16 => iprop(∃ f1, ⌜Good1 m d f1⌝ ∗ (tcLoc d main_v1 ↦{sh c s} f1) ∗ (bigSep Finset.univ fun j : Fin 4 => tcLoc d main_v20_0 ↦[oSet (coordsV c s) j]{fullShare} D20 m d f1)))) ∗ iprop((bigSep Finset.univ fun c : Fin 2 => bigSep Finset.univ fun s : Fin 16 => (tcLoc d main_v9 ↦{sh c s} A9 m d)) ∗ (bigSep Finset.univ fun c : Fin 2 => bigSep Finset.univ fun s : Fin 16 => (tcLoc d main_v11 ↦{sh c s} A11 m d)) ∗ (bigSep Finset.univ fun c : Fin 2 => bigSep Finset.univ fun s : Fin 16 => (tcLoc d main_v2 ↦{sh c s} A2 m d)) ∗ (bigSep Finset.univ fun c : Fin 2 => bigSep Finset.univ fun s : Fin 16 => (bigSep Finset.univ fun j : Fin 4 => tcLoc d main_v20_1 ↦[oSet (coordsV c s) j]{fullShare} G20 m d))
        ∗ readRem (tcLoc d main_v9) (A9 m d) ∗ readRem (tcLoc d main_v11) (A11 m d) ∗ (bigSep Finset.univ fun c : Fin 2 => tcLoc d main_v1 ↦{Transfers.shareDrop (Transfers.shareTok fullShare 2 c) 16} G) ∗ readRem (tcLoc d main_v2) (A2 m d))) := by
      simp only [tileTd, readRem, bigSep_sep']
      ac_rfl
    rw [eA]
    refine Entails.trans (sep_mono stepB .rfl) (Entails.of_eq ?_)
    simp only [readRem, bigSep_sep']
    ac_rfl

end Cert.Kernel.KL

end
-- ==== Proof.Bits.KVPre.lean ====
/-
  What the precondition says of the two index arguments: every domain index is at most 999999 and every go index
  at most 99999, read unsigned. The precondition's last two conjuncts say so of the signed readings, which are not
  negative; the conjuncts about the float arguments are not used.
-/
import proofs.«205759_g46823733461237_cont_8to1_c_287_19_alg».proof.Proof.Bits.KPay
import proofs.«205759_g46823733461237_cont_8to1_c_287_19_alg».proof.Proof.Gen.Pre_input_domain
import proofs.«205759_g46823733461237_cont_8to1_c_287_19_alg».proof.Pre_input_domain
import Idealize.ShloMosaic.Lib.ReduceAll

noncomputable section

namespace Cert.Kernel.KV

open Cert.Kernel Cert.Kernel.Gen Cert.Kernel.KL
open Idealize.ShloMosaic Idealize.ShloMosaic.ValueIdx Idealize.SL.Sem

variable {F : FTy → Type} [FloatOps F]

instance : Subsingleton Cert.Pre_input_domain.S_.Idx := ⟨fun a b => funext fun d => d.elim0⟩

/-- A word between zero and `n` as a signed number is at most `n` as an unsigned one. -/
theorem toNat_le_of_signed (x : BitVec 32) (n : ℕ) (hn : n < 2 ^ 31)
    (h : IntOp.andi (IntOp.cmpi .sge x 0#32) (IntOp.cmpi .sle x (BitVec.ofNat 32 n)) = 1#1) : x.toNat ≤ n := by
  obtain ⟨h0, h1⟩ := IntOp.andi_eq_one.1 h
  have h0 := IntOp.cmpi_sge.1 h0
  have h1 := IntOp.cmpi_sle.1 h1
  have hx := x.isLt
  simp only [BitVec.toInt_eq_toNat_cond, BitVec.toNat_ofNat, Nat.reducePow, Nat.reduceMod, Nat.reduceMul] at h0 h1
  omega

/-- The two index arguments are in range of their tables. -/
theorem ok_of_pre (m : (ℓ : Loc nD τ sig) → Buf (Elt F) ℓ)
    (h : ∀ c : Dev nD, (Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))) = (fun _ => 1#1)) :
    ∀ (d : Dev nD) (j : Fin 16384),
      (m (tcLoc d main_arg0) (ix1 j)).toNat ≤ 999999 ∧ (m (tcLoc d main_arg1) (ix1 j)).toNat ≤ 99999 := by
  intro d j
  have e := congrFun (h d) ix0
  dsimp only [Cert.Pre_input_domain.fn, Cert.Pre_input_domain.fn_part1, Cert.Pre_input_domain.fn_part2] at e
  obtain ⟨e1, e41⟩ := IntOp.andi_eq_one.1 e
  obtain ⟨-, e34⟩ := IntOp.andi_eq_one.1 e1
  have a0 := Host.reduce_andi_all _ _ _ _ _ e34 (ix1 j)
  have a1 := Host.reduce_andi_all _ _ _ _ _ e41 (ix1 j)
  exact ⟨toNat_le_of_signed _ 999999 (by decide) a0, toNat_le_of_signed _ 99999 (by decide) a1⟩

end Cert.Kernel.KV

end
-- ==== Proof.Bits.KVRows.lean ====
/-
  The row numbers the SparseCore call gathers by, as words: row number 8192 (x / 16384) + x mod 8192 of the laid-out
  first table for domain index x, and y / 2 of the reshaped second table for go index y. Both name rows that exist;
  the lane half the parity bit (x / 8192) mod 2 names holds, at lane k of that half, column x of the original first
  table; and row y / 2 holds row y of the original second table in the half y mod 2 names.
-/
import proofs.«205759_g46823733461237_cont_8to1_c_287_19_alg».proof.Proof.Bits.KPay

noncomputable section

namespace Cert.Kernel.KV

open Cert.Kernel Cert.Kernel.Gen Cert.Kernel.KL
open Idealize.ShloMosaic Idealize.ShloMosaic.ValueIdx Idealize.SL.Sem

variable {F : FTy → Type} [FloatOps F]

variable (m : (ℓ : Loc nD τ sig) → Buf (Elt F) ℓ)

/-! ## Words -/

theorem shr14 (x : BitVec 32) : (IntOp.shrui .host x 14#32).toNat = x.toNat / 16384 := by
  simp [IntOp.shrui, Nat.shiftRight_eq_div_pow]
theorem shr13 (x : BitVec 32) : (IntOp.shrui .host x 13#32).toNat = x.toNat / 8192 := by
  simp [IntOp.shrui, Nat.shiftRight_eq_div_pow]
theorem shr1 (x : BitVec 32) : (IntOp.shrui .host x 1#32).toNat = x.toNat / 2 := by
  simp [IntOp.shrui, Nat.shiftRight_eq_div_pow]
theorem and8191 (x : BitVec 32) : (IntOp.andi x 8191#32).toNat = x.toNat % 8192 := by
  show (x &&& 8191#32).toNat = _
  rw [BitVec.toNat_and]; exact Nat.and_two_pow_sub_one_eq_mod x.toNat 13
theorem and1 (x : BitVec 32) : (IntOp.andi x 1#32).toNat = x.toNat % 2 := by
  show (x &&& 1#32).toNat = _
  rw [BitVec.toNat_and]; exact Nat.and_two_pow_sub_one_eq_mod x.toNat 1

/-- The row number of domain index `x`, as a natural number. -/
theorem row9_toNat (x : BitVec 32) (hx : x.toNat ≤ 999999) :
    (IntOp.addi (IntOp.muli (IntOp.shrui .host x 14#32) 8192#32) (IntOp.andi x 8191#32)).toNat
      = 8192 * (x.toNat / 16384) + x.toNat % 8192 := by
  show ((IntOp.shrui .host x 14#32) * 8192#32 + (IntOp.andi x 8191#32)).toNat = _
  rw [BitVec.toNat_add, BitVec.toNat_mul, shr14, and8191]
  simp only [BitVec.toNat_ofNat, Nat.reducePow, Nat.reduceMod]
  omega

/-- The parity bit of domain index `x`, as a natural number. -/
theorem par9_toNat (x : BitVec 32) : (IntOp.andi (IntOp.shrui .host x 13#32) 1#32).toNat = x.toNat / 8192 % 2 := by
  rw [and1, shr13]

/-- In the lane half its parity bit names, the row of domain index `x` holds column `x`. -/
theorem col_self (x : BitVec 32) (hx : x.toNat ≤ 999999) (k : Fin 64) :
    colOf (IntOp.addi (IntOp.muli (IntOp.shrui .host x 14#32) 8192#32) (IntOp.andi x 8191#32)).toNat
        (64 * (IntOp.andi (IntOp.shrui .host x 13#32) 1#32).toNat + k.val) = x.toNat := by
  rw [row9_toNat x hx, par9_toNat]
  unfold colOf
  have := k.isLt
  omega

/-- Row `y / 2`, half `y mod 2` of the reshaped second table is row `y` of the original. -/
theorem go_self (y : BitVec 32) : 2 * (IntOp.shrui .host y 1#32).toNat + (IntOp.andi y 1#32).toNat = y.toNat := by
  rw [shr1, and1]; omega

/-! ## The row-number arrays read at an index -/

theorem A9_apply (d : Dev nD) (j : Fin 16384) :
    A9 m d (ix1 j) = IntOp.addi (IntOp.muli (IntOp.shrui .host (m (tcLoc d main_arg0) (ix1 j)) 14#32) 8192#32)
      (IntOp.andi (m (tcLoc d main_arg0) (ix1 j)) 8191#32) := by
  show VB m d (Proc.devRef .tc main_v9) (ix1 j) = _
  dsimp only [VB, VA, V0, opsB, opsA]
  after_results
  rfl

theorem A11_apply (d : Dev nD) (j : Fin 16384) :
    A11 m d (ix1 j) = IntOp.shrui .host (m (tcLoc d main_arg1) (ix1 j)) 1#32 := by
  show VB m d (Proc.devRef .tc main_v11) (ix1 j) = _
  dsimp only [VB, VA, V0, opsB, opsA]
  after_results
  rfl

/-! ## The rows they name exist -/

theorem hin9 (h0 : ∀ (d : Dev nD) (j : Fin 16384), (m (tcLoc d main_arg0) (ix1 j)).toNat ≤ 999999) (d : Dev nD) (j : Fin 16384) :
    (A9 m d (ix1 j)).toNat < 507904 := by
  rw [A9_apply, row9_toNat _ (h0 d j)]
  have := h0 d j
  omega

theorem hin11 (h1 : ∀ (d : Dev nD) (j : Fin 16384), (m (tcLoc d main_arg1) (ix1 j)).toNat ≤ 99999) (d : Dev nD) (j : Fin 16384) :
    (A11 m d (ix1 j)).toNat < 50000 := by
  rw [A11_apply, shr1]
  have := h1 d j
  omega

/-- The same two facts at any index of the row-number arrays. -/
theorem hin9_idx (h0 : ∀ (d : Dev nD) (j : Fin 16384), (m (tcLoc d main_arg0) (ix1 j)).toNat ≤ 999999) (d : Dev nD) (j : S16384.Idx) :
    (A9 m d j).toNat < 507904 := by
  rw [eq_ix1 j]; exact hin9 m h0 d (j 0)

theorem hin11_idx (h1 : ∀ (d : Dev nD) (j : Fin 16384), (m (tcLoc d main_arg1) (ix1 j)).toNat ≤ 99999) (d : Dev nD) (j : S16384.Idx) :
    (A11 m d j).toNat < 50000 := by
  rw [eq_ix1 j]; exact hin11 m h1 d (j 0)

end Cert.Kernel.KV

end
-- ==== Proof.ClaimsB.lean ====
/-
  The word-level kernel's frame: its run, which is the idealized kernel's run read at the word level (the same
  program text, the same proof), with the result's value dropped.
-/
import proofs.«205759_g46823733461237_cont_8to1_c_287_19_alg».proof.Defs
import proofs.«205759_g46823733461237_cont_8to1_c_287_19_alg».proof.Proof.Gen.Kernel
import proofs.«205759_g46823733461237_cont_8to1_c_287_19_alg».proof.Proof.Gen.Pre_input_domain
import proofs.«205759_g46823733461237_cont_8to1_c_287_19_alg».proof.Proof.Bits.KRun
import proofs.«205759_g46823733461237_cont_8to1_c_287_19_alg».proof.Proof.Bits.TileObl
import proofs.«205759_g46823733461237_cont_8to1_c_287_19_alg».proof.Proof.Bits.RegGlue0
import proofs.«205759_g46823733461237_cont_8to1_c_287_19_alg».proof.Proof.Bits.RegGlue2
import proofs.«205759_g46823733461237_cont_8to1_c_287_19_alg».proof.Proof.Bits.KSplit
import proofs.«205759_g46823733461237_cont_8to1_c_287_19_alg».proof.Proof.Bits.KVPre
import proofs.«205759_g46823733461237_cont_8to1_c_287_19_alg».proof.Proof.Bits.KVRows

noncomputable section

namespace Cert.Proof.ClaimsB

open Idealize.ShloMosaic Idealize.SL.Sem
open Cert.Kernel.KL

/-- The word-level kernel's run: the arguments unchanged (and the result array at the kernel's value). -/
theorem runK (m : (ℓ : Loc Cert.Kernel.nD Cert.Kernel.τ Cert.Kernel.sig) → Buf (Elt Bits) ℓ) (g : Dev Cert.Kernel.nD → PrngReg)
    (hpre : Cert.Pre_Kernel m) :
    θ_run (Cert.Kernel.defs (F := Bits)) (Cert.Kernel.threads (F := Bits)) ⟨m, fun _ => 0, g⟩ (QK m) :=
  run_main m g region0Spec region2Spec (splitJoin m)
    (Cert.Kernel.Tile.tileObl m facts
      (fun d j => by
        have h := Cert.Kernel.KV.hin9 m (fun d j => (Cert.Kernel.KV.ok_of_pre m hpre d j).1) d (j 0)
        have e : j = ValueIdx.ix1 (j 0) := ValueIdx.eq_ix1 j
        rw [e]; exact h)
      (fun d j => by
        have h := Cert.Kernel.KV.hin11 m (fun d j => (Cert.Kernel.KV.ok_of_pre m hpre d j).2) d (j 0)
        have e : j = ValueIdx.ix1 (j 0) := ValueIdx.eq_ix1 j
        rw [e]; exact h))

theorem frame_k : Cert.frame_Kernel := fun m g hpre =>
  (θ_run Cert.Kernel.defs _ _).mono (fun _ h c =>
    ⟨(h c).2 _ (by decide), (h c).2 _ (by decide), (h c).2 _ (by decide), (h c).2 _ (by decide),
      (h c).2 _ (by decide), (h c).2 _ (by decide), (h c).2 _ (by decide), (h c).2 _ (by decide)⟩) (runK m g hpre)

end Cert.Proof.ClaimsB

end
-- ==== Proof.lean ====
/-
  The five claims. Both programs compute, for each batch row, the head of the two looked-up table rows scaled to norm
  at most one. The kernel lays the first table out in rows of two 64-entry halves on the TensorCore (the transposed
  table cut into blocks of 16384 columns, each block's two halves transposed and set side by side), reshapes the
  second table into rows of two halves, gathers those 128-entry rows on the SparseCore tiles by the halved row numbers,
  and on the TensorCore again picks each row's half by the row number's parity and applies the head; the reference
  looks the rows up directly. Row number x of the first table sits in laid-out row 8192 (x / 16384) + x mod 8192,
  half (x / 8192) mod 2; row number y of the second in row y / 2, half y mod 2. The frames are the runs with the
  values dropped; the idealization rewrote no operation.
-/
import proofs.«205759_g46823733461237_cont_8to1_c_287_19_alg».proof.Defs
import proofs.«205759_g46823733461237_cont_8to1_c_287_19_alg».proof.Proof.Gen.Kernel
import proofs.«205759_g46823733461237_cont_8to1_c_287_19_alg».proof.Proof.Gen.Kernel.Skeleton
import proofs.«205759_g46823733461237_cont_8to1_c_287_19_alg».proof.Proof.Gen.Kernel.Launch
import proofs.«205759_g46823733461237_cont_8to1_c_287_19_alg».proof.Proof.Gen.Kernel.Regions
import proofs.«205759_g46823733461237_cont_8to1_c_287_19_alg».proof.Proof.Gen.Kernel.Points
import proofs.«205759_g46823733461237_cont_8to1_c_287_19_alg».proof.Proof.Gen.KernelIdeal
import proofs.«205759_g46823733461237_cont_8to1_c_287_19_alg».proof.Proof.Gen.KernelIdeal.Skeleton
import proofs.«205759_g46823733461237_cont_8to1_c_287_19_alg».proof.Proof.Gen.KernelIdeal.Launch
import proofs.«205759_g46823733461237_cont_8to1_c_287_19_alg».proof.Proof.Gen.KernelIdeal.Regions
import proofs.«205759_g46823733461237_cont_8to1_c_287_19_alg».proof.Proof.Gen.KernelIdeal.Points
import proofs.«205759_g46823733461237_cont_8to1_c_287_19_alg».proof.Proof.Gen.ReferenceIdeal
import proofs.«205759_g46823733461237_cont_8to1_c_287_19_alg».proof.Proof.Gen.Pre_input_domain
import proofs.«205759_g46823733461237_cont_8to1_c_287_19_alg».proof.Proof.ClaimsI
import proofs.«205759_g46823733461237_cont_8to1_c_287_19_alg».proof.Proof.ClaimsB
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  ClaimsB.frame_k, ClaimsI.frame_ki, ClaimsI.frame_ri, trivial, ClaimsI.algebraic⟩

end Cert.Proof

end
